-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v91)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S40000x64 : Shape := ⟨2, ![40000, 64]⟩
abbrev S1500000 : Shape := ⟨1, ![1500000]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S40000x64 : S_.BroadcastsInDim S40000x64 (![] : Fin 0 → Fin S40000x64.rank)
  reducesTo_S40000x64_S_d0_1 : S40000x64.ReducesTo [0, 1] S_
  bcast_S_S1500000 : S_.BroadcastsInDim S1500000 (![] : Fin 0 → Fin S1500000.rank)
  reducesTo_S1500000_S_d0 : S1500000.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg4 : FVec F S1500000 .f32) (main_arg5 : FVec F S1000000 .f32) (main_arg6 : FVec F S1500000 .f32) (main_v13 : IVec S_ 1) (main_v16 : IVec S40000x64 1) : IVec S_ 1 :=
  let main_c_5 : IVec S_ 1 := constantI S_ 1 1#1
  let main_v17 : IVec S_ 1 := (fun x v => Host.reduce IntOp.andi x v reducesTo_S40000x64_S_d0_1 h_S_) main_v16 main_c_5
  let main_v18 : IVec S_ 1 := andi main_v13 main_v17
  let main_v19 : FVec F S1500000 .f32 := Host.absf main_arg4
  let main_cst_6 : FVec F S_ .f32 := constant S_ .f32 0x7F800000#32
  let main_v20 : FVec F S1500000 .f32 := broadcastInDim S1500000 ![] bcast_S_S1500000 main_cst_6
  let main_v21 : IVec S1500000 1 := cmpf .olt main_v19 main_v20
  let main_c_7 : IVec S_ 1 := constantI S_ 1 1#1
  let main_v22 : IVec S_ 1 := (fun x v => Host.reduce IntOp.andi x v reducesTo_S1500000_S_d0 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S1500000 .f32 := Host.absf main_arg6
  let main_cst_10 : FVec F S_ .f32 := constant S_ .f32 0x7F800000#32
  let main_v30 : FVec F S1500000 .f32 := broadcastInDim S1500000 ![] bcast_S_S1500000 main_cst_10
  let main_v31 : IVec S1500000 1 := cmpf .olt main_v29 main_v30
  let main_c_11 : IVec S_ 1 := constantI S_ 1 1#1
  let main_v32 : IVec S_ 1 := (fun x v => Host.reduce IntOp.andi x v reducesTo_S1500000_S_d0 h_S_) main_v31 main_c_11
  let main_v33 : IVec S_ 1 := andi main_v28 main_v32
  main_v33

def fn {F : FTy → Type} [FloatOps F] (main_arg0 : FVec F S100000x64 .f32) (main_arg1 : FVec F S40000x64 .f32) (main_arg2 : FVec F S100000x64 .f32) (main_arg3 : FVec F S40000x64 .f32) (main_arg4 : FVec F S1500000 .f32) (main_arg5 : FVec F S1000000 .f32) (main_arg6 : FVec F S1500000 .f32) (main_arg7 : IVec S1500000 32) (main_arg8 : IVec S1500000 32) (main_arg9 : IVec S1000000 32) (main_arg10 : IVec S1000000 32) (main_arg11 : IVec S1500000 32) (main_arg12 : IVec S1500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S40000x64 .f32 := Host.absf main_arg1
  let main_cst_0 : FVec F S_ .f32 := constant S_ .f32 0x7F800000#32
  let main_v5 : FVec F S40000x64 .f32 := broadcastInDim S40000x64 ![] bcast_S_S40000x64 main_cst_0
  let main_v6 : IVec S40000x64 1 := cmpf .olt main_v4 main_v5
  let main_c_1 : IVec S_ 1 := constantI S_ 1 1#1
  let main_v7 : IVec S_ 1 := (fun x v => Host.reduce IntOp.andi x v reducesTo_S40000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S40000x64 .f32 := Host.absf main_arg3
  let main_cst_4 : FVec F S_ .f32 := constant S_ .f32 0x7F800000#32
  let main_v15 : FVec F S40000x64 .f32 := broadcastInDim S40000x64 ![] bcast_S_S40000x64 main_cst_4
  let main_v16 : IVec S40000x64 1 := cmpf .olt main_v14 main_v15
  fn_part1 (F := F) main_arg4 main_arg5 main_arg6 main_v13 main_v16
-- ==== Kernel.lean ====
abbrev S100000x64 : Shape := ⟨2, ![100000, 64]⟩
abbrev S40000x64 : Shape := ⟨2, ![40000, 64]⟩
abbrev S1500000 : Shape := ⟨1, ![1500000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S8192x64 : Shape := ⟨2, ![8192, 64]⟩
abbrev S8192x1 : Shape := ⟨2, ![8192, 1]⟩
abbrev S1500000x1 : Shape := ⟨2, ![1500000, 1]⟩
abbrev S1500000x64 : Shape := ⟨2, ![1500000, 64]⟩
abbrev S140000x64 : Shape := ⟨2, ![140000, 64]⟩
abbrev S8192 : Shape := ⟨1, ![8192]⟩

abbrev nBuf : Space → Nat
  | .hbm => 126
  | .vmem => 72
  | .smem => 0
  | _ => 0

abbrev bufTy : (tb : Table) → Fin (tcTables nBuf tb) → BufTy
  | .hbm, ⟨0, _⟩ => ⟨S100000x64, .f32⟩
  | .hbm, ⟨1, _⟩ => ⟨S40000x64, .f32⟩
  | .hbm, ⟨2, _⟩ => ⟨S100000x64, .f32⟩
  | .hbm, ⟨3, _⟩ => ⟨S40000x64, .f32⟩
  | .hbm, ⟨4, _⟩ => ⟨S1500000, .f32⟩
  | .hbm, ⟨5, _⟩ => ⟨S1000000, .f32⟩
  | .hbm, ⟨6, _⟩ => ⟨S1500000, .f32⟩
  | .hbm, ⟨7, _⟩ => ⟨S1500000, .i32⟩
  | .hbm, ⟨8, _⟩ => ⟨S1500000, .i32⟩
  | .hbm, ⟨9, _⟩ => ⟨S1000000, .i32⟩
  | .hbm, ⟨10, _⟩ => ⟨S1000000, .i32⟩
  | .hbm, ⟨11, _⟩ => ⟨S1500000, .i32⟩
  | .hbm, ⟨12, _⟩ => ⟨S1500000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x64, .f32⟩
  | .hbm, ⟨22, _⟩ => ⟨S1000000x1, .f32⟩
  | .hbm, ⟨23, _⟩ => ⟨S1000000x64, .f32⟩
  | .hbm, ⟨24, _⟩ => ⟨S_, .f32⟩
  | .hbm, ⟨25, _⟩ => ⟨S40000x64, .f32⟩
  | .hbm, ⟨26, _⟩ => ⟨S1000000x1, .i32⟩
  | .hbm, ⟨27, _⟩ => ⟨S40000x64, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S1000000x1, .f32⟩
  | .hbm, ⟨38, _⟩ => ⟨S1000000x64, .f32⟩
  | .hbm, ⟨39, _⟩ => ⟨S_, .f32⟩
  | .hbm, ⟨40, _⟩ => ⟨S40000x64, .f32⟩
  | .hbm, ⟨41, _⟩ => ⟨S1000000x1, .i32⟩
  | .hbm, ⟨42, _⟩ => ⟨S40000x64, .f32⟩
  | .hbm, ⟨43, _⟩ => ⟨S_, .i32⟩
  | .hbm, ⟨44, _⟩ => ⟨S1500000, .i32⟩
  | .hbm, ⟨45, _⟩ => ⟨S1500000, .i1⟩
  | .hbm, ⟨46, _⟩ => ⟨S_, .i32⟩
  | .hbm, ⟨47, _⟩ => ⟨S1500000, .i32⟩
  | .hbm, ⟨48, _⟩ => ⟨S1500000, .i32⟩
  | .hbm, ⟨49, _⟩ => ⟨S1500000, .i32⟩
  | .hbm, ⟨50, _⟩ => ⟨S1500000x1, .i32⟩
  | .hbm, ⟨51, _⟩ => ⟨S1500000x64, .f32⟩
  | .hbm, ⟨52, _⟩ => ⟨S1500000x1, .f32⟩
  | .hbm, ⟨53, _⟩ => ⟨S1500000x64, .f32⟩
  | .hbm, ⟨54, _⟩ => ⟨S_, .f32⟩
  | .hbm, ⟨55, _⟩ => ⟨S100000x64, .f32⟩
  | .hbm, ⟨56, _⟩ => ⟨S1500000x1, .i32⟩
  | .hbm, ⟨57, _⟩ => ⟨S100000x64, .f32⟩
  | .hbm, ⟨58, _⟩ => ⟨S_, .i32⟩
  | .hbm, ⟨59, _⟩ => ⟨S1500000, .i32⟩
  | .hbm, ⟨60, _⟩ => ⟨S1500000, .i1⟩
  | .hbm, ⟨61, _⟩ => ⟨S_, .i32⟩
  | .hbm, ⟨62, _⟩ => ⟨S1500000, .i32⟩
  | .hbm, ⟨63, _⟩ => ⟨S1500000, .i32⟩
  | .hbm, ⟨64, _⟩ => ⟨S1500000, .i32⟩
  | .hbm, ⟨65, _⟩ => ⟨S1500000x1, .i32⟩
  | .hbm, ⟨66, _⟩ => ⟨S1500000x64, .f32⟩
  | .hbm, ⟨67, _⟩ => ⟨S1500000x1, .f32⟩
  | .hbm, ⟨68, _⟩ => ⟨S1500000x64, .f32⟩
  | .hbm, ⟨69, _⟩ => ⟨S_, .f32⟩
  | .hbm, ⟨70, _⟩ => ⟨S100000x64, .f32⟩
  | .hbm, ⟨71, _⟩ => ⟨S1500000x1, .i32⟩
  | .hbm, ⟨72, _⟩ => ⟨S100000x64, .f32⟩
  | .hbm, ⟨73, _⟩ => ⟨S140000x64, .f32⟩
  | .hbm, ⟨74, _⟩ => ⟨S_, .i32⟩
  | .hbm, ⟨75, _⟩ => ⟨S1500000, .i32⟩
  | .hbm, ⟨76, _⟩ => ⟨S1500000, .i1⟩
  | .hbm, ⟨77, _⟩ => ⟨S_, .i32⟩
  | .hbm, ⟨78, _⟩ => ⟨S1500000, .i32⟩
  | .hbm, ⟨79, _⟩ => ⟨S1500000, .i32⟩
  | .hbm, ⟨80, _⟩ => ⟨S1500000, .i32⟩
  | .hbm, ⟨81, _⟩ => ⟨S1500000x1, .i32⟩
  | .hbm, ⟨82, _⟩ => ⟨S1500000x64, .f32⟩
  | .hbm, ⟨83, _⟩ => ⟨S1500000x1, .f32⟩
  | .hbm, ⟨84, _⟩ => ⟨S1500000x64, .f32⟩
  | .hbm, ⟨85, _⟩ => ⟨S_, .f32⟩
  | .hbm, ⟨86, _⟩ => ⟨S140000x64, .f32⟩
  | .hbm, ⟨87, _⟩ => ⟨S1500000x1, .i32⟩
  | .hbm, ⟨88, _⟩ => ⟨S140000x64, .f32⟩
  | .hbm, ⟨89, _⟩ => ⟨S140000x64, .f32⟩
  | .hbm, ⟨90, _⟩ => ⟨S_, .i32⟩
  | .hbm, ⟨91, _⟩ => ⟨S1500000, .i32⟩
  | .hbm, ⟨92, _⟩ => ⟨S1500000, .i1⟩
  | .hbm, ⟨93, _⟩ => ⟨S_, .i32⟩
  | .hbm, ⟨94, _⟩ => ⟨S1500000, .i32⟩
  | .hbm, ⟨95, _⟩ => ⟨S1500000, .i32⟩
  | .hbm, ⟨96, _⟩ => ⟨S1500000, .i32⟩
  | .hbm, ⟨97, _⟩ => ⟨S1500000x1, .i32⟩
  | .hbm, ⟨98, _⟩ => ⟨S1500000x64, .f32⟩
  | .hbm, ⟨99, _⟩ => ⟨S1500000x1, .f32⟩
  | .hbm, ⟨100, _⟩ => ⟨S1500000x64, .f32⟩
  | .hbm, ⟨101, _⟩ => ⟨S_, .f32⟩
  | .hbm, ⟨102, _⟩ => ⟨S140000x64, .f32⟩
  | .hbm, ⟨103, _⟩ => ⟨S1500000x1, .i32⟩
  | .hbm, ⟨104, _⟩ => ⟨S140000x64, .f32⟩
  | .hbm, ⟨105, _⟩ => ⟨S140000x64, .f32⟩
  | .hbm, ⟨106, _⟩ => ⟨S_, .i32⟩
  | .hbm, ⟨107, _⟩ => ⟨S1500000, .i32⟩
  | .hbm, ⟨108, _⟩ => ⟨S1500000, .i1⟩
  | .hbm, ⟨109, _⟩ => ⟨S_, .i32⟩
  | .hbm, ⟨110, _⟩ => ⟨S1500000, .i32⟩
  | .hbm, ⟨111, _⟩ => ⟨S1500000, .i32⟩
  | .hbm, ⟨112, _⟩ => ⟨S1500000, .i32⟩
  | .hbm, ⟨113, _⟩ => ⟨S1500000x1, .i32⟩
  | .hbm, ⟨114, _⟩ => ⟨S1500000x64, .f32⟩
  | .hbm, ⟨115, _⟩ => ⟨S1500000x1, .f32⟩
  | .hbm, ⟨116, _⟩ => ⟨S1500000x64, .f32⟩
  | .hbm, ⟨117, _⟩ => ⟨S_, .f32⟩
  | .hbm, ⟨118, _⟩ => ⟨S140000x64, .f32⟩
  | .hbm, ⟨119, _⟩ => ⟨S1500000x1, .i32⟩
  | .hbm, ⟨120, _⟩ => ⟨S140000x64, .f32⟩
  | .hbm, ⟨121, _⟩ => ⟨S140000x64, .f32⟩
  | .hbm, ⟨122, _⟩ => ⟨S100000x64, .f32⟩
  | .hbm, ⟨123, _⟩ => ⟨S100000x64, .f32⟩
  | .hbm, ⟨124, _⟩ => ⟨S40000x64, .f32⟩
  | .hbm, ⟨125, _⟩ => ⟨S40000x64, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S8192x64, .f32⟩
  | .local _ .vmem, ⟨8, _⟩ => ⟨S8192x1, .f32⟩
  | .local _ .vmem, ⟨9, _⟩ => ⟨S8192x1, .f32⟩
  | .local _ .vmem, ⟨10, _⟩ => ⟨S8192x64, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | .local _ .vmem, ⟨14, _⟩ => ⟨S8192x1, .f32⟩
  | .local _ .vmem, ⟨15, _⟩ => ⟨S8192x1, .f32⟩
  | .local _ .vmem, ⟨16, _⟩ => ⟨S8192x64, .f32⟩
  | .local _ .vmem, ⟨17, _⟩ => ⟨S8192x64, .f32⟩
  | .local _ .vmem, ⟨18, _⟩ => ⟨S8192x64, .f32⟩
  | .local _ .vmem, ⟨19, _⟩ => ⟨S8192x64, .f32⟩
  | .local _ .vmem, ⟨20, _⟩ => ⟨S8192x1, .f32⟩
  | .local _ .vmem, ⟨21, _⟩ => ⟨S8192x1, .f32⟩
  | .local _ .vmem, ⟨22, _⟩ => ⟨S8192x64, .f32⟩
  | .local _ .vmem, ⟨23, _⟩ => ⟨S8192x64, .f32⟩
  | .local _ .vmem, ⟨24, _⟩ => ⟨S8192x64, .f32⟩
  | .local _ .vmem, ⟨25, _⟩ => ⟨S8192x64, .f32⟩
  | .local _ .vmem, ⟨26, _⟩ => ⟨S8192x1, .f32⟩
  | .local _ .vmem, ⟨27, _⟩ => ⟨S8192x1, .f32⟩
  | .local _ .vmem, ⟨28, _⟩ => ⟨S8192x64, .f32⟩
  | .local _ .vmem, ⟨29, _⟩ => ⟨S8192x64, .f32⟩
  | .local _ .vmem, ⟨30, _⟩ => ⟨S8192x64, .f32⟩
  | .local _ .vmem, ⟨31, _⟩ => ⟨S8192x64, .f32⟩
  | .local _ .vmem, ⟨32, _⟩ => ⟨S8192x64, .f32⟩
  | .local _ .vmem, ⟨33, _⟩ => ⟨S8192x64, .f32⟩
  | .local _ .vmem, ⟨34, _⟩ => ⟨S8192x64, .f32⟩
  | .local _ .vmem, ⟨35, _⟩ => ⟨S8192x64, .f32⟩
  | .local _ .vmem, ⟨36, _⟩ => ⟨S8192x64, .f32⟩
  | .local _ .vmem, ⟨37, _⟩ => ⟨S8192x64, .f32⟩
  | .local _ .vmem, ⟨38, _⟩ => ⟨S8192x1, .f32⟩
  | .local _ .vmem, ⟨39, _⟩ => ⟨S8192x1, .f32⟩
  | .local _ .vmem, ⟨40, _⟩ => ⟨S8192x64, .f32⟩
  | .local _ .vmem, ⟨41, _⟩ => ⟨S8192x64, .f32⟩
  | .local _ .vmem, ⟨42, _⟩ => ⟨S8192x64, .f32⟩
  | .local _ .vmem, ⟨43, _⟩ => ⟨S8192x64, .f32⟩
  | .local _ .vmem, ⟨44, _⟩ => ⟨S8192x64, .f32⟩
  | .local _ .vmem, ⟨45, _⟩ => ⟨S8192x64, .f32⟩
  | .local _ .vmem, ⟨46, _⟩ => ⟨S8192x64, .f32⟩
  | .local _ .vmem, ⟨47, _⟩ => ⟨S8192x64, .f32⟩
  | .local _ .vmem, ⟨48, _⟩ => ⟨S8192x64, .f32⟩
  | .local _ .vmem, ⟨49, _⟩ => ⟨S8192x64, .f32⟩
  | .local _ .vmem, ⟨50, _⟩ => ⟨S8192x1, .f32⟩
  | .local _ .vmem, ⟨51, _⟩ => ⟨S8192x1, .f32⟩
  | .local _ .vmem, ⟨52, _⟩ => ⟨S8192x64, .f32⟩
  | .local _ .vmem, ⟨53, _⟩ => ⟨S8192x64, .f32⟩
  | .local _ .vmem, ⟨54, _⟩ => ⟨S8192x64, .f32⟩
  | .local _ .vmem, ⟨55, _⟩ => ⟨S8192x64, .f32⟩
  | .local _ .vmem, ⟨56, _⟩ => ⟨S8192x64, .f32⟩
  | .local _ .vmem, ⟨57, _⟩ => ⟨S8192x64, .f32⟩
  | .local _ .vmem, ⟨58, _⟩ => ⟨S8192x64, .f32⟩
  | .local _ .vmem, ⟨59, _⟩ => ⟨S8192x64, .f32⟩
  | .local _ .vmem, ⟨60, _⟩ => ⟨S8192x64, .f32⟩
  | .local _ .vmem, ⟨61, _⟩ => ⟨S8192x64, .f32⟩
  | .local _ .vmem, ⟨62, _⟩ => ⟨S8192x64, .f32⟩
  | .local _ .vmem, ⟨63, _⟩ => ⟨S8192x64, .f32⟩
  | .local _ .vmem, ⟨64, _⟩ => ⟨S8192x64, .f32⟩
  | .local _ .vmem, ⟨65, _⟩ => ⟨S8192x64, .f32⟩
  | .local _ .vmem, ⟨66, _⟩ => ⟨S8192x64, .f32⟩
  | .local _ .vmem, ⟨67, _⟩ => ⟨S8192x64, .f32⟩
  | .local _ .vmem, ⟨68, _⟩ => ⟨S8192x64, .f32⟩
  | .local _ .vmem, ⟨69, _⟩ => ⟨S8192x64, .f32⟩
  | .local _ .vmem, ⟨70, _⟩ => ⟨S8192x64, .f32⟩
  | .local _ .vmem, ⟨71, _⟩ => ⟨S8192x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg1_1 : Ref sig .tc := ⟨.vmem, 69, rfl⟩
abbrev cc11_stg2_0 : Ref sig .tc := ⟨.vmem, 70, rfl⟩
abbrev cc11_stg2_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc11_sem0_0 : DmaSem sig := 66
abbrev cc11_sem0_1 : DmaSem sig := 67
abbrev cc11_sem1_0 : DmaSem sig := 68
abbrev cc11_sem1_1 : DmaSem sig := 69
abbrev cc11_sem2_0 : DmaSem sig := 70
abbrev cc11_sem2_1 : DmaSem sig := 71

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![184], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![184], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![184], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![18], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8192x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![184], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8192x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8192x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![18], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8192x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8192x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![184], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8192x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S8192x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![18], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8192x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S8192x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![13], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8192x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8192x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S8192x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8192x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8192x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S8192x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000_S1000000x1 : S1000000.ShapeCasts S1000000x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S40000x64 : S_.BroadcastsInDim S40000x64 (![] : Fin 0 → Fin S40000x64.rank)
  bcast_S_S1500000 : S_.BroadcastsInDim S1500000 (![] : Fin 0 → Fin S1500000.rank)
  bcast_S1500000_S1500000x1_0 : S1500000.BroadcastsInDim S1500000x1 (![0] : Fin 1 → Fin S1500000x1.rank)
  shapeCasts_S1500000_S1500000x1 : S1500000.ShapeCasts S1500000x1
  bcast_S_S100000x64 : S_.BroadcastsInDim S100000x64 (![] : Fin 0 → Fin S100000x64.rank)
  concatenates_S100000x64_S40000x64_S140000x64_d0 : Shape.Concatenates [S100000x64, S40000x64] S140000x64 0
  bcast_S_S140000x64 : S_.BroadcastsInDim S140000x64 (![] : Fin 0 → Fin S140000x64.rank)
  slices_S140000x64_S100000x64_0_0 : S140000x64.Slices ![0, 0] S100000x64
  reduces_S8192x64_S8192 : S8192x64.Reduces [1] S8192
  shapeCasts_S8192_S8192x1 : S8192.ShapeCasts S8192x1
  slices_S140000x64_S40000x64_100000_0 : S140000x64.Slices ![100000, 0] S40000x64
  gather_S40000x64_S1000000x1_S1000000x64_1_0_n_n_0_1_164_wf : GatherDims.WF S40000x64 S1000000x1 S1000000x64 [1] [0] [] [0] [] 1 ![1, 64]
  scatter_S40000x64_S1000000x1_S1000000x64_1_0_0_1_wf : ScatterDims.WF S40000x64 S1000000x1 S1000000x64 [1] [0] [0] 1
  gather_S100000x64_S1500000x1_S1500000x64_1_0_n_n_0_1_164_wf : GatherDims.WF S100000x64 S1500000x1 S1500000x64 [1] [0] [] [0] [] 1 ![1, 64]
  scatter_S100000x64_S1500000x1_S1500000x64_1_0_0_1_wf : ScatterDims.WF S100000x64 S1500000x1 S1500000x64 [1] [0] [0] 1
  gather_S140000x64_S1500000x1_S1500000x64_1_0_n_n_0_1_164_wf : GatherDims.WF S140000x64 S1500000x1 S1500000x64 [1] [0] [] [0] [] 1 ![1, 64]
  scatter_S140000x64_S1500000x1_S1500000x64_1_0_0_1_wf : ScatterDims.WF S140000x64 S1500000x1 S1500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x64.size a < S1000000x64.size a
  hwx0_0 : ∀ i : grid0.Coords, EltTy.bits .f32 = 32 ∨ (Rect.unit (s := S1000000x64) (fun a => cc0_transform_0 i a * S8192x64.size a) (fun a => (Pipeline.Clip.of (cc0_transform_0 i a) (S8192x64.size a) (S1000000x64.size a)).extent (S8192x64.size a)) fun a => Pipeline.Clip.inb (Pipeline.Clip.ok_of (hstart0_0 i a))).WholeWords (EltTy.packing .f32)
  hwxs0_0 : ∀ i : grid0.Coords, EltTy.bits .f32 = 32 ∨ (Rect.unit (s := S8192x64) (fun _ => 0) (fun a => (Pipeline.Clip.of (cc0_transform_0 i a) (S8192x64.size a) (S1000000x64.size a)).extent (S8192x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x1.size a < S1000000x1.size a
  hwx0_1 : ∀ i : grid0.Coords, EltTy.bits .f32 = 32 ∨ (Rect.unit (s := S1000000x1) (fun a => cc0_transform_1 i a * S8192x1.size a) (fun a => (Pipeline.Clip.of (cc0_transform_1 i a) (S8192x1.size a) (S1000000x1.size a)).extent (S8192x1.size a)) fun a => Pipeline.Clip.inb (Pipeline.Clip.ok_of (hstart0_1 i a))).WholeWords (EltTy.packing .f32)
  hwxs0_1 : ∀ i : grid0.Coords, EltTy.bits .f32 = 32 ∨ (Rect.unit (s := S8192x1) (fun _ => 0) (fun a => (Pipeline.Clip.of (cc0_transform_1 i a) (S8192x1.size a) (S1000000x1.size a)).extent (S8192x1.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x64.size a < S1000000x64.size a
  hwx0_2 : ∀ i : grid0.Coords, EltTy.bits .f32 = 32 ∨ (Rect.unit (s := S1000000x64) (fun a => cc0_transform_2 i a * S8192x64.size a) (fun a => (Pipeline.Clip.of (cc0_transform_2 i a) (S8192x64.size a) (S1000000x64.size a)).extent (S8192x64.size a)) fun a => Pipeline.Clip.inb (Pipeline.Clip.ok_of (hstart0_2 i a))).WholeWords (EltTy.packing .f32)
  hwxs0_2 : ∀ i : grid0.Coords, EltTy.bits .f32 = 32 ∨ (Rect.unit (s := S8192x64) (fun _ => 0) (fun a => (Pipeline.Clip.of (cc0_transform_2 i a) (S8192x64.size a) (S1000000x64.size a)).extent (S8192x64.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8192x64.size a < S1000000x64.size a
  hwx1_0 : ∀ i : grid1.Coords, EltTy.bits .f32 = 32 ∨ (Rect.unit (s := S1000000x64) (fun a => cc1_transform_0 i a * S8192x64.size a) (fun a => (Pipeline.Clip.of (cc1_transform_0 i a) (S8192x64.size a) (S1000000x64.size a)).extent (S8192x64.size a)) fun a => Pipeline.Clip.inb (Pipeline.Clip.ok_of (hstart1_0 i a))).WholeWords (EltTy.packing .f32)
  hwxs1_0 : ∀ i : grid1.Coords, EltTy.bits .f32 = 32 ∨ (Rect.unit (s := S8192x64) (fun _ => 0) (fun a => (Pipeline.Clip.of (cc1_transform_0 i a) (S8192x64.size a) (S1000000x64.size a)).extent (S8192x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8192x1.size a < S1000000x1.size a
  hwx1_1 : ∀ i : grid1.Coords, EltTy.bits .f32 = 32 ∨ (Rect.unit (s := S1000000x1) (fun a => cc1_transform_1 i a * S8192x1.size a) (fun a => (Pipeline.Clip.of (cc1_transform_1 i a) (S8192x1.size a) (S1000000x1.size a)).extent (S8192x1.size a)) fun a => Pipeline.Clip.inb (Pipeline.Clip.ok_of (hstart1_1 i a))).WholeWords (EltTy.packing .f32)
  hwxs1_1 : ∀ i : grid1.Coords, EltTy.bits .f32 = 32 ∨ (Rect.unit (s := S8192x1) (fun _ => 0) (fun a => (Pipeline.Clip.of (cc1_transform_1 i a) (S8192x1.size a) (S1000000x1.size a)).extent (S8192x1.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8192x64.size a < S1000000x64.size a
  hwx1_2 : ∀ i : grid1.Coords, EltTy.bits .f32 = 32 ∨ (Rect.unit (s := S1000000x64) (fun a => cc1_transform_2 i a * S8192x64.size a) (fun a => (Pipeline.Clip.of (cc1_transform_2 i a) (S8192x64.size a) (S1000000x64.size a)).extent (S8192x64.size a)) fun a => Pipeline.Clip.inb (Pipeline.Clip.ok_of (hstart1_2 i a))).WholeWords (EltTy.packing .f32)
  hwxs1_2 : ∀ i : grid1.Coords, EltTy.bits .f32 = 32 ∨ (Rect.unit (s := S8192x64) (fun _ => 0) (fun a => (Pipeline.Clip.of (cc1_transform_2 i a) (S8192x64.size a) (S1000000x64.size a)).extent (S8192x64.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S8192x64.size a < S1500000x64.size a
  hwx2_0 : ∀ i : grid2.Coords, EltTy.bits .f32 = 32 ∨ (Rect.unit (s := S1500000x64) (fun a => cc2_transform_0 i a * S8192x64.size a) (fun a => (Pipeline.Clip.of (cc2_transform_0 i a) (S8192x64.size a) (S1500000x64.size a)).extent (S8192x64.size a)) fun a => Pipeline.Clip.inb (Pipeline.Clip.ok_of (hstart2_0 i a))).WholeWords (EltTy.packing .f32)
  hwxs2_0 : ∀ i : grid2.Coords, EltTy.bits .f32 = 32 ∨ (Rect.unit (s := S8192x64) (fun _ => 0) (fun a => (Pipeline.Clip.of (cc2_transform_0 i a) (S8192x64.size a) (S1500000x64.size a)).extent (S8192x64.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S8192x1.size a < S1500000x1.size a
  hwx2_1 : ∀ i : grid2.Coords, EltTy.bits .f32 = 32 ∨ (Rect.unit (s := S1500000x1) (fun a => cc2_transform_1 i a * S8192x1.size a) (fun a => (Pipeline.Clip.of (cc2_transform_1 i a) (S8192x1.size a) (S1500000x1.size a)).extent (S8192x1.size a)) fun a => Pipeline.Clip.inb (Pipeline.Clip.ok_of (hstart2_1 i a))).WholeWords (EltTy.packing .f32)
  hwxs2_1 : ∀ i : grid2.Coords, EltTy.bits .f32 = 32 ∨ (Rect.unit (s := S8192x1) (fun _ => 0) (fun a => (Pipeline.Clip.of (cc2_transform_1 i a) (S8192x1.size a) (S1500000x1.size a)).extent (S8192x1.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S8192x64.size a < S1500000x64.size a
  hwx2_2 : ∀ i : grid2.Coords, EltTy.bits .f32 = 32 ∨ (Rect.unit (s := S1500000x64) (fun a => cc2_transform_2 i a * S8192x64.size a) (fun a => (Pipeline.Clip.of (cc2_transform_2 i a) (S8192x64.size a) (S1500000x64.size a)).extent (S8192x64.size a)) fun a => Pipeline.Clip.inb (Pipeline.Clip.ok_of (hstart2_2 i a))).WholeWords (EltTy.packing .f32)
  hwxs2_2 : ∀ i : grid2.Coords, EltTy.bits .f32 = 32 ∨ (Rect.unit (s := S8192x64) (fun _ => 0) (fun a => (Pipeline.Clip.of (cc2_transform_2 i a) (S8192x64.size a) (S1500000x64.size a)).extent (S8192x64.size a)) fun a => (Nat.zero_add _).trans_le (Pipeline.Clip.extent_le (Pipeline.Clip.ok_of (hstart2_2 i a)))).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S8192x64.size a < S1500000x64.size a
  hwx3_0 : ∀ i : grid3.Coords, EltTy.bits .f32 = 32 ∨ (Rect.unit (s := S1500000x64) (fun a => cc3_transform_0 i a * S8192x64.size a) (fun a => (Pipeline.Clip.of (cc3_transform_0 i a) (S8192x64.size a) (S1500000x64.size a)).extent (S8192x64.size a)) fun a => Pipeline.Clip.inb (Pipeline.Clip.ok_of (hstart3_0 i a))).WholeWords (EltTy.packing .f32)
  hwxs3_0 : ∀ i : grid3.Coords, EltTy.bits .f32 = 32 ∨ (Rect.unit (s := S8192x64) (fun _ => 0) (fun a => (Pipeline.Clip.of (cc3_transform_0 i a) (S8192x64.size a) (S1500000x64.size a)).extent (S8192x64.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S8192x1.size a < S1500000x1.size a
  hwx3_1 : ∀ i : grid3.Coords, EltTy.bits .f32 = 32 ∨ (Rect.unit (s := S1500000x1) (fun a => cc3_transform_1 i a * S8192x1.size a) (fun a => (Pipeline.Clip.of (cc3_transform_1 i a) (S8192x1.size a) (S1500000x1.size a)).extent (S8192x1.size a)) fun a => Pipeline.Clip.inb (Pipeline.Clip.ok_of (hstart3_1 i a))).WholeWords (EltTy.packing .f32)
  hwxs3_1 : ∀ i : grid3.Coords, EltTy.bits .f32 = 32 ∨ (Rect.unit (s := S8192x1) (fun _ => 0) (fun a => (Pipeline.Clip.of (cc3_transform_1 i a) (S8192x1.size a) (S1500000x1.size a)).extent (S8192x1.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S8192x64.size a < S1500000x64.size a
  hwx3_2 : ∀ i : grid3.Coords, EltTy.bits .f32 = 32 ∨ (Rect.unit (s := S1500000x64) (fun a => cc3_transform_2 i a * S8192x64.size a) (fun a => (Pipeline.Clip.of (cc3_transform_2 i a) (S8192x64.size a) (S1500000x64.size a)).extent (S8192x64.size a)) fun a => Pipeline.Clip.inb (Pipeline.Clip.ok_of (hstart3_2 i a))).WholeWords (EltTy.packing .f32)
  hwxs3_2 : ∀ i : grid3.Coords, EltTy.bits .f32 = 32 ∨ (Rect.unit (s := S8192x64) (fun _ => 0) (fun a => (Pipeline.Clip.of (cc3_transform_2 i a) (S8192x64.size a) (S1500000x64.size a)).extent (S8192x64.size a)) fun a => (Nat.zero_add _).trans_le (Pipeline.Clip.extent_le (Pipeline.Clip.ok_of (hstart3_2 i a)))).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S8192x64.size a < S1500000x64.size a
  hwx4_0 : ∀ i : grid4.Coords, EltTy.bits .f32 = 32 ∨ (Rect.unit (s := S1500000x64) (fun a => cc4_transform_0 i a * S8192x64.size a) (fun a => (Pipeline.Clip.of (cc4_transform_0 i a) (S8192x64.size a) (S1500000x64.size a)).extent (S8192x64.size a)) fun a => Pipeline.Clip.inb (Pipeline.Clip.ok_of (hstart4_0 i a))).WholeWords (EltTy.packing .f32)
  hwxs4_0 : ∀ i : grid4.Coords, EltTy.bits .f32 = 32 ∨ (Rect.unit (s := S8192x64) (fun _ => 0) (fun a => (Pipeline.Clip.of (cc4_transform_0 i a) (S8192x64.size a) (S1500000x64.size a)).extent (S8192x64.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S8192x1.size a < S1500000x1.size a
  hwx4_1 : ∀ i : grid4.Coords, EltTy.bits .f32 = 32 ∨ (Rect.unit (s := S1500000x1) (fun a => cc4_transform_1 i a * S8192x1.size a) (fun a => (Pipeline.Clip.of (cc4_transform_1 i a) (S8192x1.size a) (S1500000x1.size a)).extent (S8192x1.size a)) fun a => Pipeline.Clip.inb (Pipeline.Clip.ok_of (hstart4_1 i a))).WholeWords (EltTy.packing .f32)
  hwxs4_1 : ∀ i : grid4.Coords, EltTy.bits .f32 = 32 ∨ (Rect.unit (s := S8192x1) (fun _ => 0) (fun a => (Pipeline.Clip.of (cc4_transform_1 i a) (S8192x1.size a) (S1500000x1.size a)).extent (S8192x1.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S8192x64.size a < S1500000x64.size a
  hwx4_2 : ∀ i : grid4.Coords, EltTy.bits .f32 = 32 ∨ (Rect.unit (s := S1500000x64) (fun a => cc4_transform_2 i a * S8192x64.size a) (fun a => (Pipeline.Clip.of (cc4_transform_2 i a) (S8192x64.size a) (S1500000x64.size a)).extent (S8192x64.size a)) fun a => Pipeline.Clip.inb (Pipeline.Clip.ok_of (hstart4_2 i a))).WholeWords (EltTy.packing .f32)
  hwxs4_2 : ∀ i : grid4.Coords, EltTy.bits .f32 = 32 ∨ (Rect.unit (s := S8192x64) (fun _ => 0) (fun a => (Pipeline.Clip.of (cc4_transform_2 i a) (S8192x64.size a) (S1500000x64.size a)).extent (S8192x64.size a)) fun a => (Nat.zero_add _).trans_le (Pipeline.Clip.extent_le (Pipeline.Clip.ok_of (hstart4_2 i a)))).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hstart5_0 : ∀ (i : grid5.Coords) a, cc5_transform_0 i a * S8192x64.size a < S140000x64.size a
  hwx5_0 : ∀ i : grid5.Coords, EltTy.bits .f32 = 32 ∨ (Rect.unit (s := S140000x64) (fun a => cc5_transform_0 i a * S8192x64.size a) (fun a => (Pipeline.Clip.of (cc5_transform_0 i a) (S8192x64.size a) (S140000x64.size a)).extent (S8192x64.size a)) fun a => Pipeline.Clip.inb (Pipeline.Clip.ok_of (hstart5_0 i a))).WholeWords (EltTy.packing .f32)
  hwxs5_0 : ∀ i : grid5.Coords, EltTy.bits .f32 = 32 ∨ (Rect.unit (s := S8192x64) (fun _ => 0) (fun a => (Pipeline.Clip.of (cc5_transform_0 i a) (S8192x64.size a) (S140000x64.size a)).extent (S8192x64.size a)) fun a => (Nat.zero_add _).trans_le (Pipeline.Clip.extent_le (Pipeline.Clip.ok_of (hstart5_0 i a)))).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hstart5_1 : ∀ (i : grid5.Coords) a, cc5_transform_1 i a * S8192x64.size a < S140000x64.size a
  hwx5_1 : ∀ i : grid5.Coords, EltTy.bits .f32 = 32 ∨ (Rect.unit (s := S140000x64) (fun a => cc5_transform_1 i a * S8192x64.size a) (fun a => (Pipeline.Clip.of (cc5_transform_1 i a) (S8192x64.size a) (S140000x64.size a)).extent (S8192x64.size a)) fun a => Pipeline.Clip.inb (Pipeline.Clip.ok_of (hstart5_1 i a))).WholeWords (EltTy.packing .f32)
  hwxs5_1 : ∀ i : grid5.Coords, EltTy.bits .f32 = 32 ∨ (Rect.unit (s := S8192x64) (fun _ => 0) (fun a => (Pipeline.Clip.of (cc5_transform_1 i a) (S8192x64.size a) (S140000x64.size a)).extent (S8192x64.size a)) fun a => (Nat.zero_add _).trans_le (Pipeline.Clip.extent_le (Pipeline.Clip.ok_of (hstart5_1 i a)))).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hstart5_2 : ∀ (i : grid5.Coords) a, cc5_transform_2 i a * S8192x64.size a < S140000x64.size a
  hwx5_2 : ∀ i : grid5.Coords, EltTy.bits .f32 = 32 ∨ (Rect.unit (s := S140000x64) (fun a => cc5_transform_2 i a * S8192x64.size a) (fun a => (Pipeline.Clip.of (cc5_transform_2 i a) (S8192x64.size a) (S140000x64.size a)).extent (S8192x64.size a)) fun a => Pipeline.Clip.inb (Pipeline.Clip.ok_of (hstart5_2 i a))).WholeWords (EltTy.packing .f32)
  hwxs5_2 : ∀ i : grid5.Coords, EltTy.bits .f32 = 32 ∨ (Rect.unit (s := S8192x64) (fun _ => 0) (fun a => (Pipeline.Clip.of (cc5_transform_2 i a) (S8192x64.size a) (S140000x64.size a)).extent (S8192x64.size a)) fun a => (Nat.zero_add _).trans_le (Pipeline.Clip.extent_le (Pipeline.Clip.ok_of (hstart5_2 i a)))).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hstart6_0 : ∀ (i : grid6.Coords) a, cc6_transform_0 i a * S8192x64.size a < S1500000x64.size a
  hwx6_0 : ∀ i : grid6.Coords, EltTy.bits .f32 = 32 ∨ (Rect.unit (s := S1500000x64) (fun a => cc6_transform_0 i a * S8192x64.size a) (fun a => (Pipeline.Clip.of (cc6_transform_0 i a) (S8192x64.size a) (S1500000x64.size a)).extent (S8192x64.size a)) fun a => Pipeline.Clip.inb (Pipeline.Clip.ok_of (hstart6_0 i a))).WholeWords (EltTy.packing .f32)
  hwxs6_0 : ∀ i : grid6.Coords, EltTy.bits .f32 = 32 ∨ (Rect.unit (s := S8192x64) (fun _ => 0) (fun a => (Pipeline.Clip.of (cc6_transform_0 i a) (S8192x64.size a) (S1500000x64.size a)).extent (S8192x64.size a)) fun a => (Nat.zero_add _).trans_le (Pipeline.Clip.extent_le (Pipeline.Clip.ok_of (hstart6_0 i a)))).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hstart6_1 : ∀ (i : grid6.Coords) a, cc6_transform_1 i a * S8192x1.size a < S1500000x1.size a
  hwx6_1 : ∀ i : grid6.Coords, EltTy.bits .f32 = 32 ∨ (Rect.unit (s := S1500000x1) (fun a => cc6_transform_1 i a * S8192x1.size a) (fun a => (Pipeline.Clip.of (cc6_transform_1 i a) (S8192x1.size a) (S1500000x1.size a)).extent (S8192x1.size a)) fun a => Pipeline.Clip.inb (Pipeline.Clip.ok_of (hstart6_1 i a))).WholeWords (EltTy.packing .f32)
  hwxs6_1 : ∀ i : grid6.Coords, EltTy.bits .f32 = 32 ∨ (Rect.unit (s := S8192x1) (fun _ => 0) (fun a => (Pipeline.Clip.of (cc6_transform_1 i a) (S8192x1.size a) (S1500000x1.size a)).extent (S8192x1.size a)) fun a => (Nat.zero_add _).trans_le (Pipeline.Clip.extent_le (Pipeline.Clip.ok_of (hstart6_1 i a)))).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hstart6_2 : ∀ (i : grid6.Coords) a, cc6_transform_2 i a * S8192x64.size a < S1500000x64.size a
  hwx6_2 : ∀ i : grid6.Coords, EltTy.bits .f32 = 32 ∨ (Rect.unit (s := S1500000x64) (fun a => cc6_transform_2 i a * S8192x64.size a) (fun a => (Pipeline.Clip.of (cc6_transform_2 i a) (S8192x64.size a) (S1500000x64.size a)).extent (S8192x64.size a)) fun a => Pipeline.Clip.inb (Pipeline.Clip.ok_of (hstart6_2 i a))).WholeWords (EltTy.packing .f32)
  hwxs6_2 : ∀ i : grid6.Coords, EltTy.bits .f32 = 32 ∨ (Rect.unit (s := S8192x64) (fun _ => 0) (fun a => (Pipeline.Clip.of (cc6_transform_2 i a) (S8192x64.size a) (S1500000x64.size a)).extent (S8192x64.size a)) fun a => (Nat.zero_add _).trans_le (Pipeline.Clip.extent_le (Pipeline.Clip.ok_of (hstart6_2 i a)))).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hstart7_0 : ∀ (i : grid7.Coords) a, cc7_transform_0 i a * S8192x64.size a < S140000x64.size a
  hwx7_0 : ∀ i : grid7.Coords, EltTy.bits .f32 = 32 ∨ (Rect.unit (s := S140000x64) (fun a => cc7_transform_0 i a * S8192x64.size a) (fun a => (Pipeline.Clip.of (cc7_transform_0 i a) (S8192x64.size a) (S140000x64.size a)).extent (S8192x64.size a)) fun a => Pipeline.Clip.inb (Pipeline.Clip.ok_of (hstart7_0 i a))).WholeWords (EltTy.packing .f32)
  hwxs7_0 : ∀ i : grid7.Coords, EltTy.bits .f32 = 32 ∨ (Rect.unit (s := S8192x64) (fun _ => 0) (fun a => (Pipeline.Clip.of (cc7_transform_0 i a) (S8192x64.size a) (S140000x64.size a)).extent (S8192x64.size a)) fun a => (Nat.zero_add _).trans_le (Pipeline.Clip.extent_le (Pipeline.Clip.ok_of (hstart7_0 i a)))).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hstart7_1 : ∀ (i : grid7.Coords) a, cc7_transform_1 i a * S8192x64.size a < S140000x64.size a
  hwx7_1 : ∀ i : grid7.Coords, EltTy.bits .f32 = 32 ∨ (Rect.unit (s := S140000x64) (fun a => cc7_transform_1 i a * S8192x64.size a) (fun a => (Pipeline.Clip.of (cc7_transform_1 i a) (S8192x64.size a) (S140000x64.size a)).extent (S8192x64.size a)) fun a => Pipeline.Clip.inb (Pipeline.Clip.ok_of (hstart7_1 i a))).WholeWords (EltTy.packing .f32)
  hwxs7_1 : ∀ i : grid7.Coords, EltTy.bits .f32 = 32 ∨ (Rect.unit (s := S8192x64) (fun _ => 0) (fun a => (Pipeline.Clip.of (cc7_transform_1 i a) (S8192x64.size a) (S140000x64.size a)).extent (S8192x64.size a)) fun a => (Nat.zero_add _).trans_le (Pipeline.Clip.extent_le (Pipeline.Clip.ok_of (hstart7_1 i a)))).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hstart7_2 : ∀ (i : grid7.Coords) a, cc7_transform_2 i a * S8192x64.size a < S140000x64.size a
  hwx7_2 : ∀ i : grid7.Coords, EltTy.bits .f32 = 32 ∨ (Rect.unit (s := S140000x64) (fun a => cc7_transform_2 i a * S8192x64.size a) (fun a => (Pipeline.Clip.of (cc7_transform_2 i a) (S8192x64.size a) (S140000x64.size a)).extent (S8192x64.size a)) fun a => Pipeline.Clip.inb (Pipeline.Clip.ok_of (hstart7_2 i a))).WholeWords (EltTy.packing .f32)
  hwxs7_2 : ∀ i : grid7.Coords, EltTy.bits .f32 = 32 ∨ (Rect.unit (s := S8192x64) (fun _ => 0) (fun a => (Pipeline.Clip.of (cc7_transform_2 i a) (S8192x64.size a) (S140000x64.size a)).extent (S8192x64.size a)) fun a => (Nat.zero_add _).trans_le (Pipeline.Clip.extent_le (Pipeline.Clip.ok_of (hstart7_2 i a)))).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hstart8_0 : ∀ (i : grid8.Coords) a, cc8_transform_0 i a * S8192x64.size a < S1500000x64.size a
  hwx8_0 : ∀ i : grid8.Coords, EltTy.bits .f32 = 32 ∨ (Rect.unit (s := S1500000x64) (fun a => cc8_transform_0 i a * S8192x64.size a) (fun a => (Pipeline.Clip.of (cc8_transform_0 i a) (S8192x64.size a) (S1500000x64.size a)).extent (S8192x64.size a)) fun a => Pipeline.Clip.inb (Pipeline.Clip.ok_of (hstart8_0 i a))).WholeWords (EltTy.packing .f32)
  hwxs8_0 : ∀ i : grid8.Coords, EltTy.bits .f32 = 32 ∨ (Rect.unit (s := S8192x64) (fun _ => 0) (fun a => (Pipeline.Clip.of (cc8_transform_0 i a) (S8192x64.size a) (S1500000x64.size a)).extent (S8192x64.size a)) fun a => (Nat.zero_add _).trans_le (Pipeline.Clip.extent_le (Pipeline.Clip.ok_of (hstart8_0 i a)))).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hstart8_1 : ∀ (i : grid8.Coords) a, cc8_transform_1 i a * S8192x1.size a < S1500000x1.size a
  hwx8_1 : ∀ i : grid8.Coords, EltTy.bits .f32 = 32 ∨ (Rect.unit (s := S1500000x1) (fun a => cc8_transform_1 i a * S8192x1.size a) (fun a => (Pipeline.Clip.of (cc8_transform_1 i a) (S8192x1.size a) (S1500000x1.size a)).extent (S8192x1.size a)) fun a => Pipeline.Clip.inb (Pipeline.Clip.ok_of (hstart8_1 i a))).WholeWords (EltTy.packing .f32)
  hwxs8_1 : ∀ i : grid8.Coords, EltTy.bits .f32 = 32 ∨ (Rect.unit (s := S8192x1) (fun _ => 0) (fun a => (Pipeline.Clip.of (cc8_transform_1 i a) (S8192x1.size a) (S1500000x1.size a)).extent (S8192x1.size a)) fun a => (Nat.zero_add _).trans_le (Pipeline.Clip.extent_le (Pipeline.Clip.ok_of (hstart8_1 i a)))).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hstart8_2 : ∀ (i : grid8.Coords) a, cc8_transform_2 i a * S8192x64.size a < S1500000x64.size a
  hwx8_2 : ∀ i : grid8.Coords, EltTy.bits .f32 = 32 ∨ (Rect.unit (s := S1500000x64) (fun a => cc8_transform_2 i a * S8192x64.size a) (fun a => (Pipeline.Clip.of (cc8_transform_2 i a) (S8192x64.size a) (S1500000x64.size a)).extent (S8192x64.size a)) fun a => Pipeline.Clip.inb (Pipeline.Clip.ok_of (hstart8_2 i a))).WholeWords (EltTy.packing .f32)
  hwxs8_2 : ∀ i : grid8.Coords, EltTy.bits .f32 = 32 ∨ (Rect.unit (s := S8192x64) (fun _ => 0) (fun a => (Pipeline.Clip.of (cc8_transform_2 i a) (S8192x64.size a) (S1500000x64.size a)).extent (S8192x64.size a)) fun a => (Nat.zero_add _).trans_le (Pipeline.Clip.extent_le (Pipeline.Clip.ok_of (hstart8_2 i a)))).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hstart9_0 : ∀ (i : grid9.Coords) a, cc9_transform_0 i a * S8192x64.size a < S140000x64.size a
  hwx9_0 : ∀ i : grid9.Coords, EltTy.bits .f32 = 32 ∨ (Rect.unit (s := S140000x64) (fun a => cc9_transform_0 i a * S8192x64.size a) (fun a => (Pipeline.Clip.of (cc9_transform_0 i a) (S8192x64.size a) (S140000x64.size a)).extent (S8192x64.size a)) fun a => Pipeline.Clip.inb (Pipeline.Clip.ok_of (hstart9_0 i a))).WholeWords (EltTy.packing .f32)
  hwxs9_0 : ∀ i : grid9.Coords, EltTy.bits .f32 = 32 ∨ (Rect.unit (s := S8192x64) (fun _ => 0) (fun a => (Pipeline.Clip.of (cc9_transform_0 i a) (S8192x64.size a) (S140000x64.size a)).extent (S8192x64.size a)) fun a => (Nat.zero_add _).trans_le (Pipeline.Clip.extent_le (Pipeline.Clip.ok_of (hstart9_0 i a)))).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hstart9_1 : ∀ (i : grid9.Coords) a, cc9_transform_1 i a * S8192x64.size a < S140000x64.size a
  hwx9_1 : ∀ i : grid9.Coords, EltTy.bits .f32 = 32 ∨ (Rect.unit (s := S140000x64) (fun a => cc9_transform_1 i a * S8192x64.size a) (fun a => (Pipeline.Clip.of (cc9_transform_1 i a) (S8192x64.size a) (S140000x64.size a)).extent (S8192x64.size a)) fun a => Pipeline.Clip.inb (Pipeline.Clip.ok_of (hstart9_1 i a))).WholeWords (EltTy.packing .f32)
  hwxs9_1 : ∀ i : grid9.Coords, EltTy.bits .f32 = 32 ∨ (Rect.unit (s := S8192x64) (fun _ => 0) (fun a => (Pipeline.Clip.of (cc9_transform_1 i a) (S8192x64.size a) (S140000x64.size a)).extent (S8192x64.size a)) fun a => (Nat.zero_add _).trans_le (Pipeline.Clip.extent_le (Pipeline.Clip.ok_of (hstart9_1 i a)))).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hstart9_2 : ∀ (i : grid9.Coords) a, cc9_transform_2 i a * S8192x64.size a < S140000x64.size a
  hwx9_2 : ∀ i : grid9.Coords, EltTy.bits .f32 = 32 ∨ (Rect.unit (s := S140000x64) (fun a => cc9_transform_2 i a * S8192x64.size a) (fun a => (Pipeline.Clip.of (cc9_transform_2 i a) (S8192x64.size a) (S140000x64.size a)).extent (S8192x64.size a)) fun a => Pipeline.Clip.inb (Pipeline.Clip.ok_of (hstart9_2 i a))).WholeWords (EltTy.packing .f32)
  hwxs9_2 : ∀ i : grid9.Coords, EltTy.bits .f32 = 32 ∨ (Rect.unit (s := S8192x64) (fun _ => 0) (fun a => (Pipeline.Clip.of (cc9_transform_2 i a) (S8192x64.size a) (S140000x64.size a)).extent (S8192x64.size a)) fun a => (Nat.zero_add _).trans_le (Pipeline.Clip.extent_le (Pipeline.Clip.ok_of (hstart9_2 i a)))).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hstart10_0 : ∀ (i : grid10.Coords) a, cc10_transform_0 i a * S8192x64.size a < S100000x64.size a
  hwx10_0 : ∀ i : grid10.Coords, EltTy.bits .f32 = 32 ∨ (Rect.unit (s := S100000x64) (fun a => cc10_transform_0 i a * S8192x64.size a) (fun a => (Pipeline.Clip.of (cc10_transform_0 i a) (S8192x64.size a) (S100000x64.size a)).extent (S8192x64.size a)) fun a => Pipeline.Clip.inb (Pipeline.Clip.ok_of (hstart10_0 i a))).WholeWords (EltTy.packing .f32)
  hwxs10_0 : ∀ i : grid10.Coords, EltTy.bits .f32 = 32 ∨ (Rect.unit (s := S8192x64) (fun _ => 0) (fun a => (Pipeline.Clip.of (cc10_transform_0 i a) (S8192x64.size a) (S100000x64.size a)).extent (S8192x64.size a)) fun a => (Nat.zero_add _).trans_le (Pipeline.Clip.extent_le (Pipeline.Clip.ok_of (hstart10_0 i a)))).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hstart10_1 : ∀ (i : grid10.Coords) a, cc10_transform_1 i a * S8192x64.size a < S100000x64.size a
  hwx10_1 : ∀ i : grid10.Coords, EltTy.bits .f32 = 32 ∨ (Rect.unit (s := S100000x64) (fun a => cc10_transform_1 i a * S8192x64.size a) (fun a => (Pipeline.Clip.of (cc10_transform_1 i a) (S8192x64.size a) (S100000x64.size a)).extent (S8192x64.size a)) fun a => Pipeline.Clip.inb (Pipeline.Clip.ok_of (hstart10_1 i a))).WholeWords (EltTy.packing .f32)
  hwxs10_1 : ∀ i : grid10.Coords, EltTy.bits .f32 = 32 ∨ (Rect.unit (s := S8192x64) (fun _ => 0) (fun a => (Pipeline.Clip.of (cc10_transform_1 i a) (S8192x64.size a) (S100000x64.size a)).extent (S8192x64.size a)) fun a => (Nat.zero_add _).trans_le (Pipeline.Clip.extent_le (Pipeline.Clip.ok_of (hstart10_1 i a)))).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hstart10_2 : ∀ (i : grid10.Coords) a, cc10_transform_2 i a * S8192x64.size a < S100000x64.size a
  hwx10_2 : ∀ i : grid10.Coords, EltTy.bits .f32 = 32 ∨ (Rect.unit (s := S100000x64) (fun a => cc10_transform_2 i a * S8192x64.size a) (fun a => (Pipeline.Clip.of (cc10_transform_2 i a) (S8192x64.size a) (S100000x64.size a)).extent (S8192x64.size a)) fun a => Pipeline.Clip.inb (Pipeline.Clip.ok_of (hstart10_2 i a))).WholeWords (EltTy.packing .f32)
  hwxs10_2 : ∀ i : grid10.Coords, EltTy.bits .f32 = 32 ∨ (Rect.unit (s := S8192x64) (fun _ => 0) (fun a => (Pipeline.Clip.of (cc10_transform_2 i a) (S8192x64.size a) (S100000x64.size a)).extent (S8192x64.size a)) fun a => (Nat.zero_add _).trans_le (Pipeline.Clip.extent_le (Pipeline.Clip.ok_of (hstart10_2 i a)))).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hstart11_0 : ∀ (i : grid11.Coords) a, cc11_transform_0 i a * S8192x64.size a < S40000x64.size a
  hwx11_0 : ∀ i : grid11.Coords, EltTy.bits .f32 = 32 ∨ (Rect.unit (s := S40000x64) (fun a => cc11_transform_0 i a * S8192x64.size a) (fun a => (Pipeline.Clip.of (cc11_transform_0 i a) (S8192x64.size a) (S40000x64.size a)).extent (S8192x64.size a)) fun a => Pipeline.Clip.inb (Pipeline.Clip.ok_of (hstart11_0 i a))).WholeWords (EltTy.packing .f32)
  hwxs11_0 : ∀ i : grid11.Coords, EltTy.bits .f32 = 32 ∨ (Rect.unit (s := S8192x64) (fun _ => 0) (fun a => (Pipeline.Clip.of (cc11_transform_0 i a) (S8192x64.size a) (S40000x64.size a)).extent (S8192x64.size a)) fun a => (Nat.zero_add _).trans_le (Pipeline.Clip.extent_le (Pipeline.Clip.ok_of (hstart11_0 i a)))).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hstart11_1 : ∀ (i : grid11.Coords) a, cc11_transform_1 i a * S8192x64.size a < S40000x64.size a
  hwx11_1 : ∀ i : grid11.Coords, EltTy.bits .f32 = 32 ∨ (Rect.unit (s := S40000x64) (fun a => cc11_transform_1 i a * S8192x64.size a) (fun a => (Pipeline.Clip.of (cc11_transform_1 i a) (S8192x64.size a) (S40000x64.size a)).extent (S8192x64.size a)) fun a => Pipeline.Clip.inb (Pipeline.Clip.ok_of (hstart11_1 i a))).WholeWords (EltTy.packing .f32)
  hwxs11_1 : ∀ i : grid11.Coords, EltTy.bits .f32 = 32 ∨ (Rect.unit (s := S8192x64) (fun _ => 0) (fun a => (Pipeline.Clip.of (cc11_transform_1 i a) (S8192x64.size a) (S40000x64.size a)).extent (S8192x64.size a)) fun a => (Nat.zero_add _).trans_le (Pipeline.Clip.extent_le (Pipeline.Clip.ok_of (hstart11_1 i a)))).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hstart11_2 : ∀ (i : grid11.Coords) a, cc11_transform_2 i a * S8192x64.size a < S40000x64.size a
  hwx11_2 : ∀ i : grid11.Coords, EltTy.bits .f32 = 32 ∨ (Rect.unit (s := S40000x64) (fun a => cc11_transform_2 i a * S8192x64.size a) (fun a => (Pipeline.Clip.of (cc11_transform_2 i a) (S8192x64.size a) (S40000x64.size a)).extent (S8192x64.size a)) fun a => Pipeline.Clip.inb (Pipeline.Clip.ok_of (hstart11_2 i a))).WholeWords (EltTy.packing .f32)
  hwxs11_2 : ∀ i : grid11.Coords, EltTy.bits .f32 = 32 ∨ (Rect.unit (s := S8192x64) (fun _ => 0) (fun a => (Pipeline.Clip.of (cc11_transform_2 i a) (S8192x64.size a) (S40000x64.size a)).extent (S8192x64.size a)) fun a => (Nat.zero_add _).trans_le (Pipeline.Clip.extent_le (Pipeline.Clip.ok_of (hstart11_2 i a)))).WholeWords (EltTy.packing .f32)

variable [Facts₀]

def gather_S40000x64_S1000000x1_S1000000x64_1_0_n_n_0_1_164 : GatherDims S40000x64 S1000000x1 S1000000x64 where
  offsetDims := [1]
  collapsedSliceDims := [0]
  operandBatchingDims := []
  startIndicesBatchingDims := []
  startIndexMap := [0]
  indexVectorDim := 1
  sliceSizes := ![1, 64]
  wf := gather_S40000x64_S1000000x1_S1000000x64_1_0_n_n_0_1_164_wf
def scatter_S40000x64_S1000000x1_S1000000x64_1_0_0_1 : ScatterDims S40000x64 S1000000x1 S1000000x64 where
  updateWindowDims := [1]
  insertedWindowDims := [0]
  scatterDimsToOperandDims := [0]
  indexVectorDim := 1
  wf := scatter_S40000x64_S1000000x1_S1000000x64_1_0_0_1_wf
def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf
def gather_S140000x64_S1500000x1_S1500000x64_1_0_n_n_0_1_164 : GatherDims S140000x64 S1500000x1 S1500000x64 where
  offsetDims := [1]
  collapsedSliceDims := [0]
  operandBatchingDims := []
  startIndicesBatchingDims := []
  startIndexMap := [0]
  indexVectorDim := 1
  sliceSizes := ![1, 64]
  wf := gather_S140000x64_S1500000x1_S1500000x64_1_0_n_n_0_1_164_wf
def scatter_S140000x64_S1500000x1_S1500000x64_1_0_0_1 : ScatterDims S140000x64 S1500000x1 S1500000x64 where
  updateWindowDims := [1]
  insertedWindowDims := [0]
  scatterDimsToOperandDims := [0]
  indexVectorDim := 1
  wf := scatter_S140000x64_S1500000x1_S1500000x64_1_0_0_1_wf

abbrev win0_0 : Pipeline.Window sig grid0 :=
  Pipeline.Window.ofSpecClip (Memref.whole main_v6) S8192x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v7) S8192x1.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v8) S8192x64.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v18) S8192x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v19) S8192x1.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v20) S8192x64.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_v30) S8192x64.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v31) S8192x1.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v32) S8192x64.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpecClip (Memref.whole main_v42) S8192x64.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v43) S8192x1.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v44) S8192x64.size cc3_transform_2 reads3_2 true false 2 stage3_2 sem3_2
    hrank3 hreads3_2 hstart3_2 nbuf3_2 (Memref.isWhole_whole _) hwx3_2 hwxs3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpecClip (Memref.whole main_v55) S8192x64.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpecClip (Memref.whole main_v56) S8192x1.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_v57) S8192x64.size cc4_transform_2 reads4_2 true false 2 stage4_2 sem4_2
    hrank4 hreads4_2 hstart4_2 nbuf4_2 (Memref.isWhole_whole _) hwx4_2 hwxs4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpecClip (Memref.whole main_v48) S8192x64.size cc5_transform_0 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpecClip (Memref.whole main_v60) S8192x64.size cc5_transform_1 reads5_1 false false 2 stage5_1 sem5_1
    hrank5 hreads5_1 hstart5_1 nbuf5_1 (Memref.isWhole_whole _) hwx5_1 hwxs5_1 hstage5_1

abbrev win5_2 : Pipeline.Window sig grid5 :=
  Pipeline.Window.ofSpecClip (Memref.whole main_v61) S8192x64.size cc5_transform_2 reads5_2 true false 2 stage5_2 sem5_2
    hrank5 hreads5_2 hstart5_2 nbuf5_2 (Memref.isWhole_whole _) hwx5_2 hwxs5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpecClip (Memref.whole main_v68) S8192x64.size cc6_transform_0 reads6_0 false false 2 stage6_0 sem6_0
    hrank6 hreads6_0 hstart6_0 nbuf6_0 (Memref.isWhole_whole _) hwx6_0 hwxs6_0 hstage6_0

abbrev win6_1 : Pipeline.Window sig grid6 :=
  Pipeline.Window.ofSpecClip (Memref.whole main_v69) S8192x1.size cc6_transform_1 reads6_1 false false 2 stage6_1 sem6_1
    hrank6 hreads6_1 hstart6_1 nbuf6_1 (Memref.isWhole_whole _) hwx6_1 hwxs6_1 hstage6_1

abbrev win6_2 : Pipeline.Window sig grid6 :=
  Pipeline.Window.ofSpecClip (Memref.whole main_v70) S8192x64.size cc6_transform_2 reads6_2 true false 2 stage6_2 sem6_2
    hrank6 hreads6_2 hstart6_2 nbuf6_2 (Memref.isWhole_whole _) hwx6_2 hwxs6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpecClip (Memref.whole main_v61) S8192x64.size cc7_transform_0 reads7_0 false false 2 stage7_0 sem7_0
    hrank7 hreads7_0 hstart7_0 nbuf7_0 (Memref.isWhole_whole _) hwx7_0 hwxs7_0 hstage7_0

abbrev win7_1 : Pipeline.Window sig grid7 :=
  Pipeline.Window.ofSpecClip (Memref.whole main_v73) S8192x64.size cc7_transform_1 reads7_1 false false 2 stage7_1 sem7_1
    hrank7 hreads7_1 hstart7_1 nbuf7_1 (Memref.isWhole_whole _) hwx7_1 hwxs7_1 hstage7_1

abbrev win7_2 : Pipeline.Window sig grid7 :=
  Pipeline.Window.ofSpecClip (Memref.whole main_v74) S8192x64.size cc7_transform_2 reads7_2 true false 2 stage7_2 sem7_2
    hrank7 hreads7_2 hstart7_2 nbuf7_2 (Memref.isWhole_whole _) hwx7_2 hwxs7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpecClip (Memref.whole main_v81) S8192x64.size cc8_transform_0 reads8_0 false false 2 stage8_0 sem8_0
    hrank8 hreads8_0 hstart8_0 nbuf8_0 (Memref.isWhole_whole _) hwx8_0 hwxs8_0 hstage8_0

abbrev win8_1 : Pipeline.Window sig grid8 :=
  Pipeline.Window.ofSpecClip (Memref.whole main_v82) S8192x1.size cc8_transform_1 reads8_1 false false 2 stage8_1 sem8_1
    hrank8 hreads8_1 hstart8_1 nbuf8_1 (Memref.isWhole_whole _) hwx8_1 hwxs8_1 hstage8_1

abbrev win8_2 : Pipeline.Window sig grid8 :=
  Pipeline.Window.ofSpecClip (Memref.whole main_v83) S8192x64.size cc8_transform_2 reads8_2 true false 2 stage8_2 sem8_2
    hrank8 hreads8_2 hstart8_2 nbuf8_2 (Memref.isWhole_whole _) hwx8_2 hwxs8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpecClip (Memref.whole main_v74) S8192x64.size cc9_transform_0 reads9_0 false false 2 stage9_0 sem9_0
    hrank9 hreads9_0 hstart9_0 nbuf9_0 (Memref.isWhole_whole _) hwx9_0 hwxs9_0 hstage9_0

abbrev win9_1 : Pipeline.Window sig grid9 :=
  Pipeline.Window.ofSpecClip (Memref.whole main_v86) S8192x64.size cc9_transform_1 reads9_1 false false 2 stage9_1 sem9_1
    hrank9 hreads9_1 hstart9_1 nbuf9_1 (Memref.isWhole_whole _) hwx9_1 hwxs9_1 hstage9_1

abbrev win9_2 : Pipeline.Window sig grid9 :=
  Pipeline.Window.ofSpecClip (Memref.whole main_v87) S8192x64.size cc9_transform_2 reads9_2 true false 2 stage9_2 sem9_2
    hrank9 hreads9_2 hstart9_2 nbuf9_2 (Memref.isWhole_whole _) hwx9_2 hwxs9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpecClip (Memref.whole main_v88) S8192x64.size cc10_transform_0 reads10_0 false false 2 stage10_0 sem10_0
    hrank10 hreads10_0 hstart10_0 nbuf10_0 (Memref.isWhole_whole _) hwx10_0 hwxs10_0 hstage10_0

abbrev win10_1 : Pipeline.Window sig grid10 :=
  Pipeline.Window.ofSpecClip (Memref.whole main_v47) S8192x64.size cc10_transform_1 reads10_1 false false 2 stage10_1 sem10_1
    hrank10 hreads10_1 hstart10_1 nbuf10_1 (Memref.isWhole_whole _) hwx10_1 hwxs10_1 hstage10_1

abbrev win10_2 : Pipeline.Window sig grid10 :=
  Pipeline.Window.ofSpecClip (Memref.whole main_v89) S8192x64.size cc10_transform_2 reads10_2 true false 2 stage10_2 sem10_2
    hrank10 hreads10_2 hstart10_2 nbuf10_2 (Memref.isWhole_whole _) hwx10_2 hwxs10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpecClip (Memref.whole main_v90) S8192x64.size cc11_transform_0 reads11_0 false false 2 stage11_0 sem11_0
    hrank11 hreads11_0 hstart11_0 nbuf11_0 (Memref.isWhole_whole _) hwx11_0 hwxs11_0 hstage11_0

abbrev win11_1 : Pipeline.Window sig grid11 :=
  Pipeline.Window.ofSpecClip (Memref.whole main_v23) S8192x64.size cc11_transform_1 reads11_1 false false 2 stage11_1 sem11_1
    hrank11 hreads11_1 hstart11_1 nbuf11_1 (Memref.isWhole_whole _) hwx11_1 hwxs11_1 hstage11_1

abbrev win11_2 : Pipeline.Window sig grid11 :=
  Pipeline.Window.ofSpecClip (Memref.whole main_v91) S8192x64.size cc11_transform_2 reads11_2 true false 2 stage11_2 sem11_2
    hrank11 hreads11_2 hstart11_2 nbuf11_2 (Memref.isWhole_whole _) hwx11_2 hwxs11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S100000x64 : Shape := ⟨2, ![100000, 64]⟩
abbrev S40000x64 : Shape := ⟨2, ![40000, 64]⟩
abbrev S1500000 : Shape := ⟨1, ![1500000]⟩
abbrev S1000000 : Shape := ⟨1, ![1000000]⟩
abbrev S1000000x1 : Shape := ⟨2, ![1000000, 1]⟩
abbrev S_ : Shape := ⟨0, ![]⟩
abbrev S1000000x64 : Shape := ⟨2, ![1000000, 64]⟩
abbrev S1500000x1 : Shape := ⟨2, ![1500000, 1]⟩
abbrev S1500000x64 : Shape := ⟨2, ![1500000, 64]⟩
abbrev S140000x64 : Shape := ⟨2, ![140000, 64]⟩
abbrev S40000 : Shape := ⟨1, ![40000]⟩
abbrev S40000x1 : Shape := ⟨2, ![40000, 1]⟩
abbrev S100000 : Shape := ⟨1, ![100000]⟩
abbrev S100000x1 : Shape := ⟨2, ![100000, 1]⟩

abbrev nBuf : Space → Nat
  | .hbm => 156
  | .vmem => 0
  | .smem => 0
  | _ => 0

abbrev hbmTy0_0 (i : Nat) : BufTy := match i % 128 with
  | 0 => ⟨S100000x64, .f32⟩
  | 1 => ⟨S40000x64, .f32⟩
  | 2 => ⟨S100000x64, .f32⟩
  | 3 => ⟨S40000x64, .f32⟩
  | 4 => ⟨S1500000, .f32⟩
  | 5 => ⟨S1000000, .f32⟩
  | 6 => ⟨S1500000, .f32⟩
  | 7 => ⟨S1500000, .i32⟩
  | 8 => ⟨S1500000, .i32⟩
  | 9 => ⟨S1000000, .i32⟩
  | 10 => ⟨S1000000, .i32⟩
  | 11 => ⟨S1500000, .i32⟩
  | 12 => ⟨S1500000, .i32⟩
  | 13 => ⟨S1000000x1, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1000000x64, .f32⟩
  | 24 => ⟨S1000000x64, .f32⟩
  | 25 => ⟨S_, .f32⟩
  | 26 => ⟨S40000x64, .f32⟩
  | 27 => ⟨S1000000x1, .i32⟩
  | 28 => ⟨S40000x64, .f32⟩
  | 29 => ⟨S1000000x1, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x64, .f32⟩
  | 39 => ⟨S1000000x64, .f32⟩
  | 40 => ⟨S1000000x64, .f32⟩
  | 41 => ⟨S_, .f32⟩
  | 42 => ⟨S40000x64, .f32⟩
  | 43 => ⟨S1000000x1, .i32⟩
  | 44 => ⟨S40000x64, .f32⟩
  | 45 => ⟨S1500000x1, .f32⟩
  | 46 => ⟨S_, .i32⟩
  | 47 => ⟨S1500000, .i32⟩
  | 48 => ⟨S1500000, .i1⟩
  | 49 => ⟨S_, .i32⟩
  | 50 => ⟨S1500000, .i32⟩
  | 51 => ⟨S1500000, .i32⟩
  | 52 => ⟨S1500000, .i32⟩
  | 53 => ⟨S1500000x1, .i32⟩
  | 54 => ⟨S1500000x64, .f32⟩
  | 55 => ⟨S1500000x64, .f32⟩
  | 56 => ⟨S1500000x64, .f32⟩
  | 57 => ⟨S_, .f32⟩
  | 58 => ⟨S100000x64, .f32⟩
  | 59 => ⟨S1500000x1, .i32⟩
  | 60 => ⟨S100000x64, .f32⟩
  | 61 => ⟨S1500000x1, .f32⟩
  | 62 => ⟨S_, .i32⟩
  | 63 => ⟨S1500000, .i32⟩
  | 64 => ⟨S1500000, .i1⟩
  | 65 => ⟨S_, .i32⟩
  | 66 => ⟨S1500000, .i32⟩
  | 67 => ⟨S1500000, .i32⟩
  | 68 => ⟨S1500000, .i32⟩
  | 69 => ⟨S1500000x1, .i32⟩
  | 70 => ⟨S1500000x64, .f32⟩
  | 71 => ⟨S1500000x64, .f32⟩
  | 72 => ⟨S1500000x64, .f32⟩
  | 73 => ⟨S_, .f32⟩
  | 74 => ⟨S100000x64, .f32⟩
  | 75 => ⟨S1500000x1, .i32⟩
  | 76 => ⟨S100000x64, .f32⟩
  | 77 => ⟨S140000x64, .f32⟩
  | 78 => ⟨S1500000x1, .f32⟩
  | 79 => ⟨S_, .i32⟩
  | 80 => ⟨S1500000, .i32⟩
  | 81 => ⟨S1500000, .i1⟩
  | 82 => ⟨S_, .i32⟩
  | 83 => ⟨S1500000, .i32⟩
  | 84 => ⟨S1500000, .i32⟩
  | 85 => ⟨S1500000, .i32⟩
  | 86 => ⟨S1500000x1, .i32⟩
  | 87 => ⟨S1500000x64, .f32⟩
  | 88 => ⟨S1500000x64, .f32⟩
  | 89 => ⟨S1500000x64, .f32⟩
  | 90 => ⟨S_, .f32⟩
  | 91 => ⟨S140000x64, .f32⟩
  | 92 => ⟨S1500000x1, .i32⟩
  | 93 => ⟨S140000x64, .f32⟩
  | 94 => ⟨S140000x64, .f32⟩
  | 95 => ⟨S1500000x1, .f32⟩
  | 96 => ⟨S_, .i32⟩
  | 97 => ⟨S1500000, .i32⟩
  | 98 => ⟨S1500000, .i1⟩
  | 99 => ⟨S_, .i32⟩
  | 100 => ⟨S1500000, .i32⟩
  | 101 => ⟨S1500000, .i32⟩
  | 102 => ⟨S1500000, .i32⟩
  | 103 => ⟨S1500000x1, .i32⟩
  | 104 => ⟨S1500000x64, .f32⟩
  | 105 => ⟨S1500000x64, .f32⟩
  | 106 => ⟨S1500000x64, .f32⟩
  | 107 => ⟨S_, .f32⟩
  | 108 => ⟨S140000x64, .f32⟩
  | 109 => ⟨S1500000x1, .i32⟩
  | 110 => ⟨S140000x64, .f32⟩
  | 111 => ⟨S140000x64, .f32⟩
  | 112 => ⟨S1500000x1, .f32⟩
  | 113 => ⟨S_, .i32⟩
  | 114 => ⟨S1500000, .i32⟩
  | 115 => ⟨S1500000, .i1⟩
  | 116 => ⟨S_, .i32⟩
  | 117 => ⟨S1500000, .i32⟩
  | 118 => ⟨S1500000, .i32⟩
  | 119 => ⟨S1500000, .i32⟩
  | 120 => ⟨S1500000x1, .i32⟩
  | 121 => ⟨S1500000x64, .f32⟩
  | 122 => ⟨S1500000x64, .f32⟩
  | 123 => ⟨S1500000x64, .f32⟩
  | 124 => ⟨S_, .f32⟩
  | 125 => ⟨S140000x64, .f32⟩
  | 126 => ⟨S1500000x1, .i32⟩
  | 127 => ⟨S140000x64, .f32⟩
  | _ => ⟨S100000x64, .f32⟩

abbrev hbmTy0_1 (i : Nat) : BufTy := match i % 128 with
  | 0 => ⟨S140000x64, .f32⟩
  | 1 => ⟨S_, .f32⟩
  | 2 => ⟨S140000x64, .f32⟩
  | 3 => ⟨S140000x64, .f32⟩
  | 4 => ⟨S100000x64, .f32⟩
  | 5 => ⟨S40000x64, .f32⟩
  | 6 => ⟨S40000x64, .f32⟩
  | 7 => ⟨S_, .f32⟩
  | 8 => ⟨S40000, .f32⟩
  | 9 => ⟨S40000x1, .f32⟩
  | 10 => ⟨S40000x1, .f32⟩
  | 11 => ⟨S_, .f32⟩
  | 12 => ⟨S40000x1, .f32⟩
  | 13 => ⟨S40000x1, .f32⟩
  | 14 => ⟨S40000x64, .f32⟩
  | 15 => ⟨S40000x64, .f32⟩
  | 16 => ⟨S40000x64, .f32⟩
  | 17 => ⟨S100000x64, .f32⟩
  | 18 => ⟨S_, .f32⟩
  | 19 => ⟨S100000, .f32⟩
  | 20 => ⟨S100000x1, .f32⟩
  | 21 => ⟨S100000x1, .f32⟩
  | 22 => ⟨S_, .f32⟩
  | 23 => ⟨S100000x1, .f32⟩
  | 24 => ⟨S100000x1, .f32⟩
  | 25 => ⟨S100000x64, .f32⟩
  | 26 => ⟨S100000x64, .f32⟩
  | 27 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call0_v0 : Ref sig .tc := ⟨.hbm, 134, rfl⟩
abbrev main_call0_cst : Ref sig .tc := ⟨.hbm, 135, rfl⟩
abbrev main_call0_v1 : Ref sig .tc := ⟨.hbm, 136, rfl⟩
abbrev main_call0_v2 : Ref sig .tc := ⟨.hbm, 137, rfl⟩
abbrev main_v99 : Ref sig .tc := ⟨.hbm, 138, rfl⟩
abbrev main_cst_20 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call1_v0 : Ref sig .tc := ⟨.hbm, 145, rfl⟩
abbrev main_call1_cst : Ref sig .tc := ⟨.hbm, 146, rfl⟩
abbrev main_call1_v1 : Ref sig .tc := ⟨.hbm, 147, rfl⟩
abbrev main_call1_v2 : Ref sig .tc := ⟨.hbm, 148, rfl⟩
abbrev main_v105 : Ref sig .tc := ⟨.hbm, 149, rfl⟩
abbrev main_cst_21 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S40000x64 : S_.BroadcastsInDim S40000x64 (![] : Fin 0 → Fin S40000x64.rank)
  bcast_S1500000_S1500000x1_0 : S1500000.BroadcastsInDim S1500000x1 (![0] : Fin 1 → Fin S1500000x1.rank)
  bcast_S_S1500000 : S_.BroadcastsInDim S1500000 (![] : Fin 0 → Fin S1500000.rank)
  bcast_S1500000x1_S1500000x64_0_1 : S1500000x1.BroadcastsInDim S1500000x64 (![0, 1] : Fin 2 → Fin S1500000x64.rank)
  bcast_S_S100000x64 : S_.BroadcastsInDim S100000x64 (![] : Fin 0 → Fin S100000x64.rank)
  concatenates_S100000x64_S40000x64_S140000x64_d0 : Shape.Concatenates [S100000x64, S40000x64] S140000x64 0
  bcast_S_S140000x64 : S_.BroadcastsInDim S140000x64 (![] : Fin 0 → Fin S140000x64.rank)
  slices_S140000x64_S100000x64_0_0 : S140000x64.Slices ![0, 0] S100000x64
  slices_S140000x64_S40000x64_100000_0 : S140000x64.Slices ![100000, 0] S40000x64
  reducesTo_S40000x64_S40000_d1 : S40000x64.ReducesTo [1] S40000
  h_S_ : 0 < S_.numel
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x64_0_1 : S40000x1.BroadcastsInDim S40000x64 (![0, 1] : Fin 2 → Fin S40000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S40000x64_S1000000x1_S1000000x64_1_0_n_n_0_1_164_wf : GatherDims.WF S40000x64 S1000000x1 S1000000x64 [1] [0] [] [0] [] 1 ![1, 64]
  scatter_S40000x64_S1000000x1_S1000000x64_1_0_0_1_wf : ScatterDims.WF S40000x64 S1000000x1 S1000000x64 [1] [0] [0] 1
  gather_S100000x64_S1500000x1_S1500000x64_1_0_n_n_0_1_164_wf : GatherDims.WF S100000x64 S1500000x1 S1500000x64 [1] [0] [] [0] [] 1 ![1, 64]
  scatter_S100000x64_S1500000x1_S1500000x64_1_0_0_1_wf : ScatterDims.WF S100000x64 S1500000x1 S1500000x64 [1] [0] [0] 1
  gather_S140000x64_S1500000x1_S1500000x64_1_0_n_n_0_1_164_wf : GatherDims.WF S140000x64 S1500000x1 S1500000x64 [1] [0] [] [0] [] 1 ![1, 64]
  scatter_S140000x64_S1500000x1_S1500000x64_1_0_0_1_wf : ScatterDims.WF S140000x64 S1500000x1 S1500000x64 [1] [0] [0] 1

variable [Facts₀]

def gather_S40000x64_S1000000x1_S1000000x64_1_0_n_n_0_1_164 : GatherDims S40000x64 S1000000x1 S1000000x64 where
  offsetDims := [1]
  collapsedSliceDims := [0]
  operandBatchingDims := []
  startIndicesBatchingDims := []
  startIndexMap := [0]
  indexVectorDim := 1
  sliceSizes := ![1, 64]
  wf := gather_S40000x64_S1000000x1_S1000000x64_1_0_n_n_0_1_164_wf
def scatter_S40000x64_S1000000x1_S1000000x64_1_0_0_1 : ScatterDims S40000x64 S1000000x1 S1000000x64 where
  updateWindowDims := [1]
  insertedWindowDims := [0]
  scatterDimsToOperandDims := [0]
  indexVectorDim := 1
  wf := scatter_S40000x64_S1000000x1_S1000000x64_1_0_0_1_wf
def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf
def gather_S140000x64_S1500000x1_S1500000x64_1_0_n_n_0_1_164 : GatherDims S140000x64 S1500000x1 S1500000x64 where
  offsetDims := [1]
  collapsedSliceDims := [0]
  operandBatchingDims := []
  startIndicesBatchingDims := []
  startIndexMap := [0]
  indexVectorDim := 1
  sliceSizes := ![1, 64]
  wf := gather_S140000x64_S1500000x1_S1500000x64_1_0_n_n_0_1_164_wf
def scatter_S140000x64_S1500000x1_S1500000x64_1_0_0_1 : ScatterDims S140000x64 S1500000x1 S1500000x64 where
  updateWindowDims := [1]
  insertedWindowDims := [0]
  scatterDimsToOperandDims := [0]
  indexVectorDim := 1
  wf := scatter_S140000x64_S1500000x1_S1500000x64_1_0_0_1_wf

class Facts : Prop extends Facts₀ where

variable [Facts]
-- ==== Proof.BClippedFill.lean ====
import proofs.«177237_j55430847922201_2_alg».proof.Proof.Gen.Kernel.Launch
import Idealize.ShloMosaic.Lib.Pipeline.Kit

noncomputable section

namespace Cert.Kernel.Hand

open Idealize.ShloMosaic Idealize.ShloMosaic.Pipeline

/-- A block filled out past the array's end, read at an index inside the part the transfer moves, is the block's own
    entry there: the filler is never seen. -/
theorem fill_of_lt {sig : RefSig} {G : Pipeline.Grid} (w : Pipeline.Window sig G) {α : Type} (i : G.Coords)
    (d : w.block.Idx → α) (g : (w.xblock i).Idx → α) (y : w.block.Idx) (h : ∀ a, (y a).val < w.xsize i a) :
    w.fill i d g y = g (fun a => ⟨(y a).val, h a⟩) := by
  unfold Pipeline.Window.fill; rw [dif_pos ((w.moved_iff i y).mpr h)]

/-- So two fillings of one block agree there. -/
theorem fill_irrel {sig : RefSig} {G : Pipeline.Grid} (w : Pipeline.Window sig G) {α : Type} (i : G.Coords)
    (d d' : w.block.Idx → α) (g : (w.xblock i).Idx → α) (y : w.block.Idx) (h : ∀ a, (y a).val < w.xsize i a) :
    w.fill i d g y = w.fill i d' g y := by
  rw [fill_of_lt w i d g y h, fill_of_lt w i d' g y h]

end Cert.Kernel.Hand

end
-- ==== Proof.BRegion0.lean ====
/-
  Region 0 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 0: every edge row of the gathered block times its edge weight -/

section Region0
variable (V : (c : Dev nD) → (b : Ref sig .tc) → Buf (Elt F) ((c : Thread nD τ).loc b))

/-- Window `w`'s block at point `t` — the rows of the block that lie inside the array — read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S8192x64 := Rect.unit (s := S8192x64) ![0, 0] S8192x64.size inb_S8192x64_S8192x64_0_0
abbrev rB0 : Rect S8192x1 := Rect.unit (s := S8192x1) ![0, 0] S8192x1.size inb_S8192x1_S8192x1_0_0

/-- What the body leaves in the result's buffer: its one whole-buffer store of the product of the two loaded blocks. -/
def out0 (x0 : Vec F S8192x64 .f32) (x1 : Vec F S8192x1 .f32) : Vec F S8192x64 .f32 :=
  View.canon [⟨rA0, k0_pay1 (View.ld x0 rA0) (View.ld x1 rB0)⟩]

theorem cover0 (p0 : Vec F S8192x64 .f32) (y : S8192x64.Idx) :
    ∃ pc ∈ ([⟨rA0, p0⟩] : List (View.Piece (Elt F) S8192x64 .f32)), y ∈ pc.1.set :=
  View.cover_of_tiled [⟨rA0, p0⟩] S8192x64.size (by rfl) y

set_option maxHeartbeats 1000000 in
/-- The body on whole staging buffers: the two inputs' are read and left as they were, the result's ends at `out0`. -/
theorem sound_kernel0 (c : Dev nD) (E : Set ℕ) (i : grid0.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0 x0 x1)) -∗ K ⟨⟩))
      ⊢ wp frame (wpE (defs₀ (F := F)) Variants.none c none) E (cc0__weighted_mul_kernel i arg1 harg1 arg2 harg2 arg3 harg3) K := by
  simp only [cc0__weighted_mul_kernel_eq_skeleton]; unfold cc0__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The filler past the array's end: the zero word (nothing reads it). -/
abbrev zA0 : S8192x64.Idx → Elt F .f32 := fun _ => Scalar.ofBits .f32 0#32
abbrev zB0 : S8192x1.Idx → Elt F .f32 := fun _ => Scalar.ofBits .f32 0#32

/-- The proof data: the arrays as the region finds them; after the body each input's buffer at its block (filled out past
    the array's end) and the result's at the product of the two. -/
def dat0 (c : Dev nD) : Dat τ (Elt F) Unit ℕ (UR sig nD τ) ℕ cfg0 c where
  A w := V c (Pipeline.arrRef spec0 w)
  after w t := match w with
    | ⟨0, _⟩ => win0_0.fill (grid0.coords t) zA0 (iblk0 V c 0 t)
    | ⟨1, _⟩ => win0_1.fill (grid0.coords t) zB0 (iblk0 V c 1 t)
    | ⟨2, _⟩ => out0 (win0_0.fill (grid0.coords t) zA0 (iblk0 V c 0 t)) (win0_1.fill (grid0.coords t) zB0 (iblk0 V c 1 t))
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = win0_0.fill (grid0.coords t) zA0 (iblk0 V c 0 t) := by dsimp only [dat0]
theorem after0_1 (c : Dev nD) (t : Fin cfg0.N) : (dat0 V c).after 1 t = win0_1.fill (grid0.coords t) zB0 (iblk0 V c 1 t) := by dsimp only [dat0]
theorem after0_2 (c : Dev nD) (t : Fin cfg0.N) : (dat0 V c).after 2 t
    = out0 (win0_0.fill (grid0.coords t) zA0 (iblk0 V c 0 t)) (win0_1.fill (grid0.coords t) zB0 (iblk0 V c 1 t)) := by dsimp only [dat0]

/-- Each input's buffer is fetched at every point: it holds the block on the rows inside the array, `d` elsewhere. -/
theorem before0_0 (c : Dev nD) (t : Fin cfg0.N) (d) :
    (dat0 V c).before 0 t d = win0_0.fill (grid0.coords t) d (iblk0 V c 0 t) := by
  unfold Dat.before; rw [if_pos (fetch0_0 t)]; rfl
theorem before0_1 (c : Dev nD) (t : Fin cfg0.N) (d) :
    (dat0 V c).before 1 t d = win0_1.fill (grid0.coords t) d (iblk0 V c 1 t) := by
  unfold Dat.before; rw [if_pos (fetch0_1 t)]; rfl

end Region0

section Region0b
variable (V : (c : Dev nD) → (b : Ref sig .tc) → Buf (Elt F) ((c : Thread nD τ).loc b))

/-- The product at an index depends on the first block at that index and on the weight column at that row only. -/
theorem out0_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out0 X0 X1 y = out0 X0' X1' y := by
  have hz : (![0, 0] : Fin 2 → Nat) = fun _ => 0 := funext fun a => by fin_cases a <;> rfl
  unfold out0
  rw [View.canon_unit_zero hz, View.canon_unit_zero hz]
  simp only [View.ld_unit_zero (S := S8192x64) hz, View.ld_unit_zero (S := S8192x1) hz]
  unfold k0_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out0 (c : Dev nD) (t : Fin cfg0.N) (d0 : S8192x64.Idx → Elt F .f32) (d1 : S8192x1.Idx → Elt F .f32) :
    win0_2.cut (grid0.coords t) (out0 (win0_0.fill (grid0.coords t) d0 (iblk0 V c 0 t)) (win0_1.fill (grid0.coords t) d1 (iblk0 V c 1 t)))
      = win0_2.cut (grid0.coords t) (out0 (win0_0.fill (grid0.coords t) zA0 (iblk0 V c 0 t)) (win0_1.fill (grid0.coords t) zB0 (iblk0 V c 1 t))) := by
  funext j
  refine out0_congr _ _ _ _ _ ?_ ?_
  · exact fill_irrel win0_0 (grid0.coords t) d0 zA0 _ _ (fun a => (j a).isLt)
  · intro k hk
    refine fill_irrel win0_1 (grid0.coords t) d1 zB0 _ k (fun a => ?_)
    match a with
    | ⟨0, _⟩ => exact hk ▸ (j 0).isLt
    | ⟨1, _⟩ => exact (k 1).isLt

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ (∃ d, owns (c : Thread nD τ) (st0_2 t) fullShare (win0_2.fill (grid0.coords t) d (win0_2.cut (grid0.coords t) ((dat0 V c).after 2 t)))))

/-- The body at any point: the inputs' buffers hold their blocks filled out with words nothing names; the result's buffer
    ends holding the product, which on the rows inside the array is the proof data's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  rw [before0_0 V c t d0, before0_1 V c t d1]
  iapply (sound_kernel0 c Set.univ _ _ _ _ _ _ _ (win0_0.fill (grid0.coords t) d0 (iblk0 V c 0 t)) (win0_1.fill (grid0.coords t) d1 (iblk0 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win0_0.cut_fill]; iexact H0
  isplitl [H1]
  · iexists d1; rw [win0_1.cut_fill]; iexact H1
  · iexists _
    rw [← cut_out0 V c t d0 d1, win0_2.fill_cut]
    iexact H2

theorem body_obligation0 (c : Dev nD) : BodyObligationLoose (dat0 (F := F) V c) (defs₀ (F := F)) Variants.none () Set.univ := fun t => by
  rw [bigSep_W0, bigSep_W0]
  exact sound_body0 V c t

end Region0b

section Region0c
variable (V : (c : Dev nD) → (b : Ref sig .tc) → Buf (Elt F) ((c : Thread nD τ).loc b))

/-- The body's product at an index: the first block there times the weight column's entry of that row. -/
theorem out0_apply (X0 : Vec F S8192x64 .f32) (X1 : Vec F S8192x1 .f32) (y : S8192x64.Idx) :
    out0 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out0
  rw [View.canon_unit_zero hz]
  simp only [View.ld_unit_zero (S := S8192x64) hz, View.ld_unit_zero (S := S8192x1) hz]
  unfold k0_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G0 (a0 : S1000000x64.Idx → Elt F .f32) (a1 : S1000000x1.Idx → Elt F .f32) : S1000000x64.Idx → Elt F .f32 :=
  fun i => FloatOps.mulf (a0 i) (a1 (ValueIdx.ix2 (n0 := 1000000) (n1 := 1) (i 0) 0))

/-- The printed index maps over the grid: the three windows move together, one block of rows per point, and the last
    block is cut at the array's end. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_2.xsize (grid0.coords t) (0 : Fin 2) = min 8192 (1000000 - 8192 * t.val)
    ∧ win0_2.xsize (grid0.coords t) (1 : Fin 2) = 64 :=
  (by decide +kernel : ∀ t : Fin grid0.N, _)

set_option maxHeartbeats 1000000 in
/-- What point `t` writes back is block `t` of `G0` of the two arrays as the region finds them. -/
theorem flushed0_eq (c : Dev nD) (t : Fin cfg0.N) :
    (dat0 V c).flushed 2 t = ((cfg0.win 2).blk t).view.read (Elt F) (G0 (V c (Pipeline.arrRef spec0 0)) (V c (Pipeline.arrRef spec0 1))) := by
  show (cfg0.win 2).cut (grid0.coords t) ((dat0 V c).after 2 t) = _
  rw [after0_2]
  obtain ⟨e0, e1, e2, e3, e4, e5, e6, e7⟩ := idx_facts0 t
  funext j
  show out0 _ _ (win0_2.xinj (grid0.coords t) j) = G0 (V c (Pipeline.arrRef spec0 0)) (V c (Pipeline.arrRef spec0 1)) (((cfg0.win 2).blk t).view.emb j)
  have hj0 : ∀ a, ((win0_2.xinj (grid0.coords t) j) a).val < win0_0.xsize (grid0.coords t) a := fun a => (j a).isLt
  have hk : ∀ a, ((ValueIdx.ix2 (n0 := 8192) (n1 := 1) ((win0_2.xinj (grid0.coords t) j) 0) 0 : S8192x1.Idx) a).val < win0_1.xsize (grid0.coords t) a := fun a => by
    match a with
    | ⟨0, _⟩ => exact (j 0).isLt
    | ⟨1, _⟩ => exact Nat.zero_lt_one
  have h0 : iblk0 V c 0 t (fun a => ⟨((win0_2.xinj (grid0.coords t) j) a).val, hj0 a⟩) = V c (Pipeline.arrRef spec0 0) (((cfg0.win 2).blk t).view.emb j) := by
    show V c (Pipeline.arrRef spec0 0) (((cfg0.win 0).blk t).view.emb j) = _
    refine congrArg (V c (Pipeline.arrRef spec0 0)) ?_
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 64 + 1 * (j 1).val = win0_2.index t (1 : Fin 2) * 64 + 1 * (j 1).val; omega
  have h1 : iblk0 V c 1 t (fun a => ⟨((ValueIdx.ix2 (n0 := 8192) (n1 := 1) ((win0_2.xinj (grid0.coords t) j) 0) 0 : S8192x1.Idx) a).val, hk a⟩)
      = V c (Pipeline.arrRef spec0 1) (ValueIdx.ix2 (n0 := 1000000) (n1 := 1) ((((cfg0.win 2).blk t).view.emb j) 0) 0) := by
    show V c (Pipeline.arrRef spec0 1) (((cfg0.win 1).blk t).view.emb (fun a => ⟨((ValueIdx.ix2 (n0 := 8192) (n1 := 1) ((win0_2.xinj (grid0.coords t) j) 0) 0 : S8192x1.Idx) a).val, hk a⟩)) = _
    refine congrArg (V c (Pipeline.arrRef spec0 1)) ?_
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 1 + 1 * 0 = 0; omega
  rw [out0_apply, fill_of_lt win0_0 _ _ _ _ hj0, fill_of_lt win0_1 _ _ _ _ hk, h0, h1]
  rfl

theorem mem_blk0 (t : Fin cfg0.N) (i : S1000000x64.Idx) :
    i ∈ ((cfg0.win 2).blk t).view.set ↔ ∀ a : Fin 2, win0_2.index t a * S8192x64.size a ≤ (i a).val ∧ (i a).val < win0_2.index t a * S8192x64.size a + win0_2.xsize (grid0.coords t) a := by
  show i ∈ ((View.whole (Pipeline.arrRef spec0 2)).slice (win0_2.rect t)).set ↔ _
  rw [View.set_slice_whole, Rect.mem_set_unit]
  exact Iff.rfl

theorem cover0_arr (i : S1000000x64.Idx) : ∃ t : Fin cfg0.N, (cfg0.win 2).flush t = true ∧ i ∈ ((cfg0.win 2).blk t).view.set := by
  have hi0 : (i 0).val < 1000000 := (i 0).isLt
  have hi1 : (i 1).val < 64 := (i 1).isLt
  have hN : cfg0.N = 123 := N_0
  let t : Fin cfg0.N := ⟨(i 0).val / 8192, by rw [hN]; omega⟩
  refine ⟨t, flush0_2 t, ?_⟩
  rw [mem_blk0]
  obtain ⟨e0, e1, e2, e3, e4, e5, e6, e7⟩ := idx_facts0 t
  have ht : t.val = (i 0).val / 8192 := rfl
  intro a
  match a with
  | ⟨0, _⟩ => show win0_2.index t (0 : Fin 2) * 8192 ≤ (i 0).val ∧ (i 0).val < win0_2.index t (0 : Fin 2) * 8192 + win0_2.xsize (grid0.coords t) (0 : Fin 2); rw [e4, e6, ht]; omega
  | ⟨1, _⟩ => show win0_2.index t (1 : Fin 2) * 64 ≤ (i 1).val ∧ (i 1).val < win0_2.index t (1 : Fin 2) * 64 + win0_2.xsize (grid0.coords t) (1 : Fin 2); rw [e5, e7]; omega

/-- The result array after the region: `G0` of the two arrays as the region found them. -/
theorem final0 (c : Dev nD) : (dat0 V c).arrAt 2 cfg0.N = G0 (V c (Pipeline.arrRef spec0 0)) (V c (Pipeline.arrRef spec0 1)) :=
  (dat0 V c).arrAt_eq_of_cover 2 _ (fun t _ => flushed0_eq V c t) (cover0_arr)

end Region0c

end Cert.Kernel.Hand

end
-- ==== Proof.BRegion1.lean ====
/-
  Region 1 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 1: every edge row of the gathered block times its edge weight -/

section Region1
variable (V : (c : Dev nD) → (b : Ref sig .tc) → Buf (Elt F) ((c : Thread nD τ).loc b))

/-- Window `w`'s block at point `t` — the rows of the block that lie inside the array — read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S8192x64 := Rect.unit (s := S8192x64) ![0, 0] S8192x64.size inb_S8192x64_S8192x64_0_0
abbrev rB1 : Rect S8192x1 := Rect.unit (s := S8192x1) ![0, 0] S8192x1.size inb_S8192x1_S8192x1_0_0

/-- What the body leaves in the result's buffer: its one whole-buffer store of the product of the two loaded blocks. -/
def out1 (x0 : Vec F S8192x64 .f32) (x1 : Vec F S8192x1 .f32) : Vec F S8192x64 .f32 :=
  View.canon [⟨rA1, k1_pay1 (View.ld x0 rA1) (View.ld x1 rB1)⟩]

theorem cover1 (p0 : Vec F S8192x64 .f32) (y : S8192x64.Idx) :
    ∃ pc ∈ ([⟨rA1, p0⟩] : List (View.Piece (Elt F) S8192x64 .f32)), y ∈ pc.1.set :=
  View.cover_of_tiled [⟨rA1, p0⟩] S8192x64.size (by rfl) y

set_option maxHeartbeats 1000000 in
/-- The body on whole staging buffers: the two inputs' are read and left as they were, the result's ends at `out1`. -/
theorem sound_kernel1 (c : Dev nD) (E : Set ℕ) (i : grid1.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E (cc1__weighted_mul_kernel i arg1 harg1 arg2 harg2 arg3 harg3) K := by
  simp only [cc1__weighted_mul_kernel_eq_skeleton]; unfold cc1__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The filler past the array's end: the zero word (nothing reads it). -/
abbrev zA1 : S8192x64.Idx → Elt F .f32 := fun _ => Scalar.ofBits .f32 0#32
abbrev zB1 : S8192x1.Idx → Elt F .f32 := fun _ => Scalar.ofBits .f32 0#32

/-- The proof data: the arrays as the region finds them; after the body each input's buffer at its block (filled out past
    the array's end) and the result's at the product of the two. -/
def dat1 (c : Dev nD) : Dat τ (Elt F) Unit ℕ (UR sig nD τ) ℕ cfg1 c where
  A w := V c (Pipeline.arrRef spec1 w)
  after w t := match w with
    | ⟨0, _⟩ => win1_0.fill (grid1.coords t) zA1 (iblk1 V c 0 t)
    | ⟨1, _⟩ => win1_1.fill (grid1.coords t) zB1 (iblk1 V c 1 t)
    | ⟨2, _⟩ => out1 (win1_0.fill (grid1.coords t) zA1 (iblk1 V c 0 t)) (win1_1.fill (grid1.coords t) zB1 (iblk1 V c 1 t))
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = win1_0.fill (grid1.coords t) zA1 (iblk1 V c 0 t) := by dsimp only [dat1]
theorem after1_1 (c : Dev nD) (t : Fin cfg1.N) : (dat1 V c).after 1 t = win1_1.fill (grid1.coords t) zB1 (iblk1 V c 1 t) := by dsimp only [dat1]
theorem after1_2 (c : Dev nD) (t : Fin cfg1.N) : (dat1 V c).after 2 t
    = out1 (win1_0.fill (grid1.coords t) zA1 (iblk1 V c 0 t)) (win1_1.fill (grid1.coords t) zB1 (iblk1 V c 1 t)) := by dsimp only [dat1]

/-- Each input's buffer is fetched at every point: it holds the block on the rows inside the array, `d` elsewhere. -/
theorem before1_0 (c : Dev nD) (t : Fin cfg1.N) (d) :
    (dat1 V c).before 0 t d = win1_0.fill (grid1.coords t) d (iblk1 V c 0 t) := by
  unfold Dat.before; rw [if_pos (fetch1_0 t)]; rfl
theorem before1_1 (c : Dev nD) (t : Fin cfg1.N) (d) :
    (dat1 V c).before 1 t d = win1_1.fill (grid1.coords t) d (iblk1 V c 1 t) := by
  unfold Dat.before; rw [if_pos (fetch1_1 t)]; rfl

end Region1

section Region1b
variable (V : (c : Dev nD) → (b : Ref sig .tc) → Buf (Elt F) ((c : Thread nD τ).loc b))

/-- The product at an index depends on the first block at that index and on the weight column at that row only. -/
theorem out1_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out1 X0 X1 y = out1 X0' X1' y := by
  have hz : (![0, 0] : Fin 2 → Nat) = fun _ => 0 := funext fun a => by fin_cases a <;> rfl
  unfold out1
  rw [View.canon_unit_zero hz, View.canon_unit_zero hz]
  simp only [View.ld_unit_zero (S := S8192x64) hz, View.ld_unit_zero (S := S8192x1) hz]
  unfold k1_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out1 (c : Dev nD) (t : Fin cfg1.N) (d0 : S8192x64.Idx → Elt F .f32) (d1 : S8192x1.Idx → Elt F .f32) :
    win1_2.cut (grid1.coords t) (out1 (win1_0.fill (grid1.coords t) d0 (iblk1 V c 0 t)) (win1_1.fill (grid1.coords t) d1 (iblk1 V c 1 t)))
      = win1_2.cut (grid1.coords t) (out1 (win1_0.fill (grid1.coords t) zA1 (iblk1 V c 0 t)) (win1_1.fill (grid1.coords t) zB1 (iblk1 V c 1 t))) := by
  funext j
  refine out1_congr _ _ _ _ _ ?_ ?_
  · exact fill_irrel win1_0 (grid1.coords t) d0 zA1 _ _ (fun a => (j a).isLt)
  · intro k hk
    refine fill_irrel win1_1 (grid1.coords t) d1 zB1 _ k (fun a => ?_)
    match a with
    | ⟨0, _⟩ => exact hk ▸ (j 0).isLt
    | ⟨1, _⟩ => exact (k 1).isLt

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t)))))

/-- The body at any point: the inputs' buffers hold their blocks filled out with words nothing names; the result's buffer
    ends holding the product, which on the rows inside the array is the proof data's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  rw [before1_0 V c t d0, before1_1 V c t d1]
  iapply (sound_kernel1 c Set.univ _ _ _ _ _ _ _ (win1_0.fill (grid1.coords t) d0 (iblk1 V c 0 t)) (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win1_0.cut_fill]; iexact H0
  isplitl [H1]
  · iexists d1; rw [win1_1.cut_fill]; iexact H1
  · iexists _
    rw [← cut_out1 V c t d0 d1, win1_2.fill_cut]
    iexact H2

theorem body_obligation1 (c : Dev nD) : BodyObligationLoose (dat1 (F := F) V c) (defs₀ (F := F)) Variants.none () Set.univ := fun t => by
  rw [bigSep_W1, bigSep_W1]
  exact sound_body1 V c t

end Region1b

section Region1c
variable (V : (c : Dev nD) → (b : Ref sig .tc) → Buf (Elt F) ((c : Thread nD τ).loc b))

/-- The body's product at an index: the first block there times the weight column's entry of that row. -/
theorem out1_apply (X0 : Vec F S8192x64 .f32) (X1 : Vec F S8192x1 .f32) (y : S8192x64.Idx) :
    out1 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out1
  rw [View.canon_unit_zero hz]
  simp only [View.ld_unit_zero (S := S8192x64) hz, View.ld_unit_zero (S := S8192x1) hz]
  unfold k1_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G1 (a0 : S1000000x64.Idx → Elt F .f32) (a1 : S1000000x1.Idx → Elt F .f32) : S1000000x64.Idx → Elt F .f32 :=
  fun i => FloatOps.mulf (a0 i) (a1 (ValueIdx.ix2 (n0 := 1000000) (n1 := 1) (i 0) 0))

/-- The printed index maps over the grid: the three windows move together, one block of rows per point, and the last
    block is cut at the array's end. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_2.xsize (grid1.coords t) (0 : Fin 2) = min 8192 (1000000 - 8192 * t.val)
    ∧ win1_2.xsize (grid1.coords t) (1 : Fin 2) = 64 :=
  (by decide +kernel : ∀ t : Fin grid1.N, _)

set_option maxHeartbeats 1000000 in
/-- What point `t` writes back is block `t` of `G1` of the two arrays as the region finds them. -/
theorem flushed1_eq (c : Dev nD) (t : Fin cfg1.N) :
    (dat1 V c).flushed 2 t = ((cfg1.win 2).blk t).view.read (Elt F) (G1 (V c (Pipeline.arrRef spec1 0)) (V c (Pipeline.arrRef spec1 1))) := by
  show (cfg1.win 2).cut (grid1.coords t) ((dat1 V c).after 2 t) = _
  rw [after1_2]
  obtain ⟨e0, e1, e2, e3, e4, e5, e6, e7⟩ := idx_facts1 t
  funext j
  show out1 _ _ (win1_2.xinj (grid1.coords t) j) = G1 (V c (Pipeline.arrRef spec1 0)) (V c (Pipeline.arrRef spec1 1)) (((cfg1.win 2).blk t).view.emb j)
  have hj0 : ∀ a, ((win1_2.xinj (grid1.coords t) j) a).val < win1_0.xsize (grid1.coords t) a := fun a => (j a).isLt
  have hk : ∀ a, ((ValueIdx.ix2 (n0 := 8192) (n1 := 1) ((win1_2.xinj (grid1.coords t) j) 0) 0 : S8192x1.Idx) a).val < win1_1.xsize (grid1.coords t) a := fun a => by
    match a with
    | ⟨0, _⟩ => exact (j 0).isLt
    | ⟨1, _⟩ => exact Nat.zero_lt_one
  have h0 : iblk1 V c 0 t (fun a => ⟨((win1_2.xinj (grid1.coords t) j) a).val, hj0 a⟩) = V c (Pipeline.arrRef spec1 0) (((cfg1.win 2).blk t).view.emb j) := by
    show V c (Pipeline.arrRef spec1 0) (((cfg1.win 0).blk t).view.emb j) = _
    refine congrArg (V c (Pipeline.arrRef spec1 0)) ?_
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 64 + 1 * (j 1).val = win1_2.index t (1 : Fin 2) * 64 + 1 * (j 1).val; omega
  have h1 : iblk1 V c 1 t (fun a => ⟨((ValueIdx.ix2 (n0 := 8192) (n1 := 1) ((win1_2.xinj (grid1.coords t) j) 0) 0 : S8192x1.Idx) a).val, hk a⟩)
      = V c (Pipeline.arrRef spec1 1) (ValueIdx.ix2 (n0 := 1000000) (n1 := 1) ((((cfg1.win 2).blk t).view.emb j) 0) 0) := by
    show V c (Pipeline.arrRef spec1 1) (((cfg1.win 1).blk t).view.emb (fun a => ⟨((ValueIdx.ix2 (n0 := 8192) (n1 := 1) ((win1_2.xinj (grid1.coords t) j) 0) 0 : S8192x1.Idx) a).val, hk a⟩)) = _
    refine congrArg (V c (Pipeline.arrRef spec1 1)) ?_
    funext a; apply Fin.ext
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 1 + 1 * 0 = 0; omega
  rw [out1_apply, fill_of_lt win1_0 _ _ _ _ hj0, fill_of_lt win1_1 _ _ _ _ hk, h0, h1]
  rfl

theorem mem_blk1 (t : Fin cfg1.N) (i : S1000000x64.Idx) :
    i ∈ ((cfg1.win 2).blk t).view.set ↔ ∀ a : Fin 2, win1_2.index t a * S8192x64.size a ≤ (i a).val ∧ (i a).val < win1_2.index t a * S8192x64.size a + win1_2.xsize (grid1.coords t) a := by
  show i ∈ ((View.whole (Pipeline.arrRef spec1 2)).slice (win1_2.rect t)).set ↔ _
  rw [View.set_slice_whole, Rect.mem_set_unit]
  exact Iff.rfl

theorem cover1_arr (i : S1000000x64.Idx) : ∃ t : Fin cfg1.N, (cfg1.win 2).flush t = true ∧ i ∈ ((cfg1.win 2).blk t).view.set := by
  have hi0 : (i 0).val < 1000000 := (i 0).isLt
  have hi1 : (i 1).val < 64 := (i 1).isLt
  have hN : cfg1.N = 123 := N_1
  let t : Fin cfg1.N := ⟨(i 0).val / 8192, by rw [hN]; omega⟩
  refine ⟨t, flush1_2 t, ?_⟩
  rw [mem_blk1]
  obtain ⟨e0, e1, e2, e3, e4, e5, e6, e7⟩ := idx_facts1 t
  have ht : t.val = (i 0).val / 8192 := rfl
  intro a
  match a with
  | ⟨0, _⟩ => show win1_2.index t (0 : Fin 2) * 8192 ≤ (i 0).val ∧ (i 0).val < win1_2.index t (0 : Fin 2) * 8192 + win1_2.xsize (grid1.coords t) (0 : Fin 2); rw [e4, e6, ht]; omega
  | ⟨1, _⟩ => show win1_2.index t (1 : Fin 2) * 64 ≤ (i 1).val ∧ (i 1).val < win1_2.index t (1 : Fin 2) * 64 + win1_2.xsize (grid1.coords t) (1 : Fin 2); rw [e5, e7]; omega

/-- The result array after the region: `G1` of the two arrays as the region found them. -/
theorem final1 (c : Dev nD) : (dat1 V c).arrAt 2 cfg1.N = G1 (V c (Pipeline.arrRef spec1 0)) (V c (Pipeline.arrRef spec1 1)) :=
  (dat1 V c).arrAt_eq_of_cover 2 _ (fun t _ => flushed1_eq V c t) (cover1_arr)

end Region1c

end Cert.Kernel.Hand

end
-- ==== Proof.BRegion2.lean ====
/-
  Region 2 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 2: every edge row of the gathered block times its edge weight -/

section Region2
variable (V : (c : Dev nD) → (b : Ref sig .tc) → Buf (Elt F) ((c : Thread nD τ).loc b))

/-- Window `w`'s block at point `t` — the rows of the block that lie inside the array — read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S8192x64 := Rect.unit (s := S8192x64) ![0, 0] S8192x64.size inb_S8192x64_S8192x64_0_0
abbrev rB2 : Rect S8192x1 := Rect.unit (s := S8192x1) ![0, 0] S8192x1.size inb_S8192x1_S8192x1_0_0

/-- What the body leaves in the result's buffer: its one whole-buffer store of the product of the two loaded blocks. -/
def out2 (x0 : Vec F S8192x64 .f32) (x1 : Vec F S8192x1 .f32) : Vec F S8192x64 .f32 :=
  View.canon [⟨rA2, k2_pay1 (View.ld x0 rA2) (View.ld x1 rB2)⟩]

theorem cover2 (p0 : Vec F S8192x64 .f32) (y : S8192x64.Idx) :
    ∃ pc ∈ ([⟨rA2, p0⟩] : List (View.Piece (Elt F) S8192x64 .f32)), y ∈ pc.1.set :=
  View.cover_of_tiled [⟨rA2, p0⟩] S8192x64.size (by rfl) y

set_option maxHeartbeats 1000000 in
/-- The body on whole staging buffers: the two inputs' are read and left as they were, the result's ends at `out2`. -/
theorem sound_kernel2 (c : Dev nD) (E : Set ℕ) (i : grid2.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc2__weighted_mul_kernel i arg1 harg1 arg2 harg2 arg3 harg3) K := by
  simp only [cc2__weighted_mul_kernel_eq_skeleton]; unfold cc2__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The filler past the array's end: the zero word (nothing reads it). -/
abbrev zA2 : S8192x64.Idx → Elt F .f32 := fun _ => Scalar.ofBits .f32 0#32
abbrev zB2 : S8192x1.Idx → Elt F .f32 := fun _ => Scalar.ofBits .f32 0#32

/-- The proof data: the arrays as the region finds them; after the body each input's buffer at its block (filled out past
    the array's end) and the result's at the product of the two. -/
def dat2 (c : Dev nD) : Dat τ (Elt F) Unit ℕ (UR sig nD τ) ℕ cfg2 c where
  A w := V c (Pipeline.arrRef spec2 w)
  after w t := match w with
    | ⟨0, _⟩ => win2_0.fill (grid2.coords t) zA2 (iblk2 V c 0 t)
    | ⟨1, _⟩ => win2_1.fill (grid2.coords t) zB2 (iblk2 V c 1 t)
    | ⟨2, _⟩ => out2 (win2_0.fill (grid2.coords t) zA2 (iblk2 V c 0 t)) (win2_1.fill (grid2.coords t) zB2 (iblk2 V c 1 t))
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = win2_0.fill (grid2.coords t) zA2 (iblk2 V c 0 t) := by dsimp only [dat2]
theorem after2_1 (c : Dev nD) (t : Fin cfg2.N) : (dat2 V c).after 1 t = win2_1.fill (grid2.coords t) zB2 (iblk2 V c 1 t) := by dsimp only [dat2]
theorem after2_2 (c : Dev nD) (t : Fin cfg2.N) : (dat2 V c).after 2 t
    = out2 (win2_0.fill (grid2.coords t) zA2 (iblk2 V c 0 t)) (win2_1.fill (grid2.coords t) zB2 (iblk2 V c 1 t)) := by dsimp only [dat2]

/-- Each input's buffer is fetched at every point: it holds the block on the rows inside the array, `d` elsewhere. -/
theorem before2_0 (c : Dev nD) (t : Fin cfg2.N) (d) :
    (dat2 V c).before 0 t d = win2_0.fill (grid2.coords t) d (iblk2 V c 0 t) := by
  unfold Dat.before; rw [if_pos (fetch2_0 t)]; rfl
theorem before2_1 (c : Dev nD) (t : Fin cfg2.N) (d) :
    (dat2 V c).before 1 t d = win2_1.fill (grid2.coords t) d (iblk2 V c 1 t) := by
  unfold Dat.before; rw [if_pos (fetch2_1 t)]; rfl

end Region2

section Region2b
variable (V : (c : Dev nD) → (b : Ref sig .tc) → Buf (Elt F) ((c : Thread nD τ).loc b))

/-- The product at an index depends on the first block at that index and on the weight column at that row only. -/
theorem out2_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out2 X0 X1 y = out2 X0' X1' y := by
  have hz : (![0, 0] : Fin 2 → Nat) = fun _ => 0 := funext fun a => by fin_cases a <;> rfl
  unfold out2
  rw [View.canon_unit_zero hz, View.canon_unit_zero hz]
  simp only [View.ld_unit_zero (S := S8192x64) hz, View.ld_unit_zero (S := S8192x1) hz]
  unfold k2_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out2 (c : Dev nD) (t : Fin cfg2.N) (d0 : S8192x64.Idx → Elt F .f32) (d1 : S8192x1.Idx → Elt F .f32) :
    win2_2.cut (grid2.coords t) (out2 (win2_0.fill (grid2.coords t) d0 (iblk2 V c 0 t)) (win2_1.fill (grid2.coords t) d1 (iblk2 V c 1 t)))
      = win2_2.cut (grid2.coords t) (out2 (win2_0.fill (grid2.coords t) zA2 (iblk2 V c 0 t)) (win2_1.fill (grid2.coords t) zB2 (iblk2 V c 1 t))) := by
  funext j
  refine out2_congr _ _ _ _ _ ?_ ?_
  · exact fill_irrel win2_0 (grid2.coords t) d0 zA2 _ _ (fun a => (j a).isLt)
  · intro k hk
    refine fill_irrel win2_1 (grid2.coords t) d1 zB2 _ k (fun a => ?_)
    match a with
    | ⟨0, _⟩ => exact hk ▸ (j 0).isLt
    | ⟨1, _⟩ => exact (k 1).isLt

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t)))))

/-- The body at any point: the inputs' buffers hold their blocks filled out with words nothing names; the result's buffer
    ends holding the product, which on the rows inside the array is the proof data's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  rw [before2_0 V c t d0, before2_1 V c t d1]
  iapply (sound_kernel2 c Set.univ _ _ _ _ _ _ _ (win2_0.fill (grid2.coords t) d0 (iblk2 V c 0 t)) (win2_1.fill (grid2.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win2_0.cut_fill]; iexact H0
  isplitl [H1]
  · iexists d1; rw [win2_1.cut_fill]; iexact H1
  · iexists _
    rw [← cut_out2 V c t d0 d1, win2_2.fill_cut]
    iexact H2

theorem body_obligation2 (c : Dev nD) : BodyObligationLoose (dat2 (F := F) V c) (defs₀ (F := F)) Variants.none () Set.univ := fun t => by
  rw [bigSep_W2, bigSep_W2]
  exact sound_body2 V c t

end Region2b

section Region2c
variable (V : (c : Dev nD) → (b : Ref sig .tc) → Buf (Elt F) ((c : Thread nD τ).loc b))

/-- The body's product at an index: the first block there times the weight column's entry of that row. -/
theorem out2_apply (X0 : Vec F S8192x64 .f32) (X1 : Vec F S8192x1 .f32) (y : S8192x64.Idx) :
    out2 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out2
  rw [View.canon_unit_zero hz]
  simp only [View.ld_unit_zero (S := S8192x64) hz, View.ld_unit_zero (S := S8192x1) hz]
  unfold k2_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G2 (a0 : S1500000x64.Idx → Elt F .f32) (a1 : S1500000x1.Idx → Elt F .f32) : S1500000x64.Idx → Elt F .f32 :=
  fun i => FloatOps.mulf (a0 i) (a1 (ValueIdx.ix2 (n0 := 1500000) (n1 := 1) (i 0) 0))

/-- The printed index maps over the grid: the three windows move together, one block of rows per point, and the last
    block is cut at the array's end. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_2.xsize (grid2.coords t) (0 : Fin 2) = min 8192 (1500000 - 8192 * t.val)
    ∧ win2_2.xsize (grid2.coords t) (1 : Fin 2) = 64 :=
  (by decide +kernel : ∀ t : Fin grid2.N, _)

set_option maxHeartbeats 1000000 in
/-- What point `t` writes back is block `t` of `G2` of the two arrays as the region finds them. -/
theorem flushed2_eq (c : Dev nD) (t : Fin cfg2.N) :
    (dat2 V c).flushed 2 t = ((cfg2.win 2).blk t).view.read (Elt F) (G2 (V c (Pipeline.arrRef spec2 0)) (V c (Pipeline.arrRef spec2 1))) := by
  show (cfg2.win 2).cut (grid2.coords t) ((dat2 V c).after 2 t) = _
  rw [after2_2]
  obtain ⟨e0, e1, e2, e3, e4, e5, e6, e7⟩ := idx_facts2 t
  funext j
  show out2 _ _ (win2_2.xinj (grid2.coords t) j) = G2 (V c (Pipeline.arrRef spec2 0)) (V c (Pipeline.arrRef spec2 1)) (((cfg2.win 2).blk t).view.emb j)
  have hj0 : ∀ a, ((win2_2.xinj (grid2.coords t) j) a).val < win2_0.xsize (grid2.coords t) a := fun a => (j a).isLt
  have hk : ∀ a, ((ValueIdx.ix2 (n0 := 8192) (n1 := 1) ((win2_2.xinj (grid2.coords t) j) 0) 0 : S8192x1.Idx) a).val < win2_1.xsize (grid2.coords t) a := fun a => by
    match a with
    | ⟨0, _⟩ => exact (j 0).isLt
    | ⟨1, _⟩ => exact Nat.zero_lt_one
  have h0 : iblk2 V c 0 t (fun a => ⟨((win2_2.xinj (grid2.coords t) j) a).val, hj0 a⟩) = V c (Pipeline.arrRef spec2 0) (((cfg2.win 2).blk t).view.emb j) := by
    show V c (Pipeline.arrRef spec2 0) (((cfg2.win 0).blk t).view.emb j) = _
    refine congrArg (V c (Pipeline.arrRef spec2 0)) ?_
    funext a; apply Fin.ext
    match a with
    | ⟨0, _⟩ => show win2_0.index t (0 : Fin 2) * 8192 + 1 * (j 0).val = win2_2.index t (0 : Fin 2) * 8192 + 1 * (j 0).val; omega
    | ⟨1, _⟩ => show win2_0.index t (1 : Fin 2) * 64 + 1 * (j 1).val = win2_2.index t (1 : Fin 2) * 64 + 1 * (j 1).val; omega
  have h1 : iblk2 V c 1 t (fun a => ⟨((ValueIdx.ix2 (n0 := 8192) (n1 := 1) ((win2_2.xinj (grid2.coords t) j) 0) 0 : S8192x1.Idx) a).val, hk a⟩)
      = V c (Pipeline.arrRef spec2 1) (ValueIdx.ix2 (n0 := 1500000) (n1 := 1) ((((cfg2.win 2).blk t).view.emb j) 0) 0) := by
    show V c (Pipeline.arrRef spec2 1) (((cfg2.win 1).blk t).view.emb (fun a => ⟨((ValueIdx.ix2 (n0 := 8192) (n1 := 1) ((win2_2.xinj (grid2.coords t) j) 0) 0 : S8192x1.Idx) a).val, hk a⟩)) = _
    refine congrArg (V c (Pipeline.arrRef spec2 1)) ?_
    funext a; apply Fin.ext
    match a with
    | ⟨0, _⟩ => show win2_1.index t (0 : Fin 2) * 8192 + 1 * (j 0).val = win2_2.index t (0 : Fin 2) * 8192 + 1 * (j 0).val; omega
    | ⟨1, _⟩ => show win2_1.index t (1 : Fin 2) * 1 + 1 * 0 = 0; omega
  rw [out2_apply, fill_of_lt win2_0 _ _ _ _ hj0, fill_of_lt win2_1 _ _ _ _ hk, h0, h1]
  rfl

theorem mem_blk2 (t : Fin cfg2.N) (i : S1500000x64.Idx) :
    i ∈ ((cfg2.win 2).blk t).view.set ↔ ∀ a : Fin 2, win2_2.index t a * S8192x64.size a ≤ (i a).val ∧ (i a).val < win2_2.index t a * S8192x64.size a + win2_2.xsize (grid2.coords t) a := by
  show i ∈ ((View.whole (Pipeline.arrRef spec2 2)).slice (win2_2.rect t)).set ↔ _
  rw [View.set_slice_whole, Rect.mem_set_unit]
  exact Iff.rfl

theorem cover2_arr (i : S1500000x64.Idx) : ∃ t : Fin cfg2.N, (cfg2.win 2).flush t = true ∧ i ∈ ((cfg2.win 2).blk t).view.set := by
  have hi0 : (i 0).val < 1500000 := (i 0).isLt
  have hi1 : (i 1).val < 64 := (i 1).isLt
  have hN : cfg2.N = 184 := N_2
  let t : Fin cfg2.N := ⟨(i 0).val / 8192, by rw [hN]; omega⟩
  refine ⟨t, flush2_2 t, ?_⟩
  rw [mem_blk2]
  obtain ⟨e0, e1, e2, e3, e4, e5, e6, e7⟩ := idx_facts2 t
  have ht : t.val = (i 0).val / 8192 := rfl
  intro a
  match a with
  | ⟨0, _⟩ => show win2_2.index t (0 : Fin 2) * 8192 ≤ (i 0).val ∧ (i 0).val < win2_2.index t (0 : Fin 2) * 8192 + win2_2.xsize (grid2.coords t) (0 : Fin 2); rw [e4, e6, ht]; omega
  | ⟨1, _⟩ => show win2_2.index t (1 : Fin 2) * 64 ≤ (i 1).val ∧ (i 1).val < win2_2.index t (1 : Fin 2) * 64 + win2_2.xsize (grid2.coords t) (1 : Fin 2); rw [e5, e7]; omega

/-- The result array after the region: `G2` of the two arrays as the region found them. -/
theorem final2 (c : Dev nD) : (dat2 V c).arrAt 2 cfg2.N = G2 (V c (Pipeline.arrRef spec2 0)) (V c (Pipeline.arrRef spec2 1)) :=
  (dat2 V c).arrAt_eq_of_cover 2 _ (fun t _ => flushed2_eq V c t) (cover2_arr)

end Region2c

end Cert.Kernel.Hand

end
-- ==== Proof.BRegion3.lean ====
/-
  Region 3 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 3: every edge row of the gathered block times its edge weight -/

section Region3
variable (V : (c : Dev nD) → (b : Ref sig .tc) → Buf (Elt F) ((c : Thread nD τ).loc b))

/-- Window `w`'s block at point `t` — the rows of the block that lie inside the array — read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S8192x64 := Rect.unit (s := S8192x64) ![0, 0] S8192x64.size inb_S8192x64_S8192x64_0_0
abbrev rB3 : Rect S8192x1 := Rect.unit (s := S8192x1) ![0, 0] S8192x1.size inb_S8192x1_S8192x1_0_0

/-- What the body leaves in the result's buffer: its one whole-buffer store of the product of the two loaded blocks. -/
def out3 (x0 : Vec F S8192x64 .f32) (x1 : Vec F S8192x1 .f32) : Vec F S8192x64 .f32 :=
  View.canon [⟨rA3, k3_pay1 (View.ld x0 rA3) (View.ld x1 rB3)⟩]

theorem cover3 (p0 : Vec F S8192x64 .f32) (y : S8192x64.Idx) :
    ∃ pc ∈ ([⟨rA3, p0⟩] : List (View.Piece (Elt F) S8192x64 .f32)), y ∈ pc.1.set :=
  View.cover_of_tiled [⟨rA3, p0⟩] S8192x64.size (by rfl) y

set_option maxHeartbeats 1000000 in
/-- The body on whole staging buffers: the two inputs' are read and left as they were, the result's ends at `out3`. -/
theorem sound_kernel3 (c : Dev nD) (E : Set ℕ) (i : grid3.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3 x0 x1)) -∗ K ⟨⟩))
      ⊢ wp frame (wpE (defs₀ (F := F)) Variants.none c none) E (cc3__weighted_mul_kernel i arg1 harg1 arg2 harg2 arg3 harg3) K := by
  simp only [cc3__weighted_mul_kernel_eq_skeleton]; unfold cc3__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The filler past the array's end: the zero word (nothing reads it). -/
abbrev zA3 : S8192x64.Idx → Elt F .f32 := fun _ => Scalar.ofBits .f32 0#32
abbrev zB3 : S8192x1.Idx → Elt F .f32 := fun _ => Scalar.ofBits .f32 0#32

/-- The proof data: the arrays as the region finds them; after the body each input's buffer at its block (filled out past
    the array's end) and the result's at the product of the two. -/
def dat3 (c : Dev nD) : Dat τ (Elt F) Unit ℕ (UR sig nD τ) ℕ cfg3 c where
  A w := V c (Pipeline.arrRef spec3 w)
  after w t := match w with
    | ⟨0, _⟩ => win3_0.fill (grid3.coords t) zA3 (iblk3 V c 0 t)
    | ⟨1, _⟩ => win3_1.fill (grid3.coords t) zB3 (iblk3 V c 1 t)
    | ⟨2, _⟩ => out3 (win3_0.fill (grid3.coords t) zA3 (iblk3 V c 0 t)) (win3_1.fill (grid3.coords t) zB3 (iblk3 V c 1 t))
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = win3_0.fill (grid3.coords t) zA3 (iblk3 V c 0 t) := by dsimp only [dat3]
theorem after3_1 (c : Dev nD) (t : Fin cfg3.N) : (dat3 V c).after 1 t = win3_1.fill (grid3.coords t) zB3 (iblk3 V c 1 t) := by dsimp only [dat3]
theorem after3_2 (c : Dev nD) (t : Fin cfg3.N) : (dat3 V c).after 2 t
    = out3 (win3_0.fill (grid3.coords t) zA3 (iblk3 V c 0 t)) (win3_1.fill (grid3.coords t) zB3 (iblk3 V c 1 t)) := by dsimp only [dat3]

/-- Each input's buffer is fetched at every point: it holds the block on the rows inside the array, `d` elsewhere. -/
theorem before3_0 (c : Dev nD) (t : Fin cfg3.N) (d) :
    (dat3 V c).before 0 t d = win3_0.fill (grid3.coords t) d (iblk3 V c 0 t) := by
  unfold Dat.before; rw [if_pos (fetch3_0 t)]; rfl
theorem before3_1 (c : Dev nD) (t : Fin cfg3.N) (d) :
    (dat3 V c).before 1 t d = win3_1.fill (grid3.coords t) d (iblk3 V c 1 t) := by
  unfold Dat.before; rw [if_pos (fetch3_1 t)]; rfl

end Region3

section Region3b
variable (V : (c : Dev nD) → (b : Ref sig .tc) → Buf (Elt F) ((c : Thread nD τ).loc b))

/-- The product at an index depends on the first block at that index and on the weight column at that row only. -/
theorem out3_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out3 X0 X1 y = out3 X0' X1' y := by
  have hz : (![0, 0] : Fin 2 → Nat) = fun _ => 0 := funext fun a => by fin_cases a <;> rfl
  unfold out3
  rw [View.canon_unit_zero hz, View.canon_unit_zero hz]
  simp only [View.ld_unit_zero (S := S8192x64) hz, View.ld_unit_zero (S := S8192x1) hz]
  unfold k3_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out3 (c : Dev nD) (t : Fin cfg3.N) (d0 : S8192x64.Idx → Elt F .f32) (d1 : S8192x1.Idx → Elt F .f32) :
    win3_2.cut (grid3.coords t) (out3 (win3_0.fill (grid3.coords t) d0 (iblk3 V c 0 t)) (win3_1.fill (grid3.coords t) d1 (iblk3 V c 1 t)))
      = win3_2.cut (grid3.coords t) (out3 (win3_0.fill (grid3.coords t) zA3 (iblk3 V c 0 t)) (win3_1.fill (grid3.coords t) zB3 (iblk3 V c 1 t))) := by
  funext j
  refine out3_congr _ _ _ _ _ ?_ ?_
  · exact fill_irrel win3_0 (grid3.coords t) d0 zA3 _ _ (fun a => (j a).isLt)
  · intro k hk
    refine fill_irrel win3_1 (grid3.coords t) d1 zB3 _ k (fun a => ?_)
    match a with
    | ⟨0, _⟩ => exact hk ▸ (j 0).isLt
    | ⟨1, _⟩ => exact (k 1).isLt

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (∃ d, owns (c : Thread nD τ) (st3_0 t) fullShare (win3_0.fill (grid3.coords t) d (win3_0.cut (grid3.coords t) ((dat3 V c).after 0 t))))
    ∗ (∃ d, owns (c : Thread nD τ) (st3_1 t) fullShare (win3_1.fill (grid3.coords t) d (win3_1.cut (grid3.coords t) ((dat3 V c).after 1 t))))
    ∗ (∃ d, owns (c : Thread nD τ) (st3_2 t) fullShare (win3_2.fill (grid3.coords t) d (win3_2.cut (grid3.coords t) ((dat3 V c).after 2 t)))))

/-- The body at any point: the inputs' buffers hold their blocks filled out with words nothing names; the result's buffer
    ends holding the product, which on the rows inside the array is the proof data's. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  rw [before3_0 V c t d0, before3_1 V c t d1]
  iapply (sound_kernel3 c Set.univ _ _ _ _ _ _ _ (win3_0.fill (grid3.coords t) d0 (iblk3 V c 0 t)) (win3_1.fill (grid3.coords t) d1 (iblk3 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win3_0.cut_fill]; iexact H0
  isplitl [H1]
  · iexists d1; rw [win3_1.cut_fill]; iexact H1
  · iexists _
    rw [← cut_out3 V c t d0 d1, win3_2.fill_cut]
    iexact H2

theorem body_obligation3 (c : Dev nD) : BodyObligationLoose (dat3 (F := F) V c) (defs₀ (F := F)) Variants.none () Set.univ := fun t => by
  rw [bigSep_W3, bigSep_W3]
  exact sound_body3 V c t

end Region3b

section Region3c
variable (V : (c : Dev nD) → (b : Ref sig .tc) → Buf (Elt F) ((c : Thread nD τ).loc b))

/-- The body's product at an index: the first block there times the weight column's entry of that row. -/
theorem out3_apply (X0 : Vec F S8192x64 .f32) (X1 : Vec F S8192x1 .f32) (y : S8192x64.Idx) :
    out3 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out3
  rw [View.canon_unit_zero hz]
  simp only [View.ld_unit_zero (S := S8192x64) hz, View.ld_unit_zero (S := S8192x1) hz]
  unfold k3_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G3 (a0 : S1500000x64.Idx → Elt F .f32) (a1 : S1500000x1.Idx → Elt F .f32) : S1500000x64.Idx → Elt F .f32 :=
  fun i => FloatOps.mulf (a0 i) (a1 (ValueIdx.ix2 (n0 := 1500000) (n1 := 1) (i 0) 0))

/-- The printed index maps over the grid: the three windows move together, one block of rows per point, and the last
    block is cut at the array's end. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_2.xsize (grid3.coords t) (0 : Fin 2) = min 8192 (1500000 - 8192 * t.val)
    ∧ win3_2.xsize (grid3.coords t) (1 : Fin 2) = 64 :=
  (by decide +kernel : ∀ t : Fin grid3.N, _)

set_option maxHeartbeats 1000000 in
/-- What point `t` writes back is block `t` of `G3` of the two arrays as the region finds them. -/
theorem flushed3_eq (c : Dev nD) (t : Fin cfg3.N) :
    (dat3 V c).flushed 2 t = ((cfg3.win 2).blk t).view.read (Elt F) (G3 (V c (Pipeline.arrRef spec3 0)) (V c (Pipeline.arrRef spec3 1))) := by
  show (cfg3.win 2).cut (grid3.coords t) ((dat3 V c).after 2 t) = _
  rw [after3_2]
  obtain ⟨e0, e1, e2, e3, e4, e5, e6, e7⟩ := idx_facts3 t
  funext j
  show out3 _ _ (win3_2.xinj (grid3.coords t) j) = G3 (V c (Pipeline.arrRef spec3 0)) (V c (Pipeline.arrRef spec3 1)) (((cfg3.win 2).blk t).view.emb j)
  have hj0 : ∀ a, ((win3_2.xinj (grid3.coords t) j) a).val < win3_0.xsize (grid3.coords t) a := fun a => (j a).isLt
  have hk : ∀ a, ((ValueIdx.ix2 (n0 := 8192) (n1 := 1) ((win3_2.xinj (grid3.coords t) j) 0) 0 : S8192x1.Idx) a).val < win3_1.xsize (grid3.coords t) a := fun a => by
    match a with
    | ⟨0, _⟩ => exact (j 0).isLt
    | ⟨1, _⟩ => exact Nat.zero_lt_one
  have h0 : iblk3 V c 0 t (fun a => ⟨((win3_2.xinj (grid3.coords t) j) a).val, hj0 a⟩) = V c (Pipeline.arrRef spec3 0) (((cfg3.win 2).blk t).view.emb j) := by
    show V c (Pipeline.arrRef spec3 0) (((cfg3.win 0).blk t).view.emb j) = _
    refine congrArg (V c (Pipeline.arrRef spec3 0)) ?_
    funext a; apply Fin.ext
    match a with
    | ⟨0, _⟩ => show win3_0.index t (0 : Fin 2) * 8192 + 1 * (j 0).val = win3_2.index t (0 : Fin 2) * 8192 + 1 * (j 0).val; omega
    | ⟨1, _⟩ => show win3_0.index t (1 : Fin 2) * 64 + 1 * (j 1).val = win3_2.index t (1 : Fin 2) * 64 + 1 * (j 1).val; omega
  have h1 : iblk3 V c 1 t (fun a => ⟨((ValueIdx.ix2 (n0 := 8192) (n1 := 1) ((win3_2.xinj (grid3.coords t) j) 0) 0 : S8192x1.Idx) a).val, hk a⟩)
      = V c (Pipeline.arrRef spec3 1) (ValueIdx.ix2 (n0 := 1500000) (n1 := 1) ((((cfg3.win 2).blk t).view.emb j) 0) 0) := by
    show V c (Pipeline.arrRef spec3 1) (((cfg3.win 1).blk t).view.emb (fun a => ⟨((ValueIdx.ix2 (n0 := 8192) (n1 := 1) ((win3_2.xinj (grid3.coords t) j) 0) 0 : S8192x1.Idx) a).val, hk a⟩)) = _
    refine congrArg (V c (Pipeline.arrRef spec3 1)) ?_
    funext a; apply Fin.ext
    match a with
    | ⟨0, _⟩ => show win3_1.index t (0 : Fin 2) * 8192 + 1 * (j 0).val = win3_2.index t (0 : Fin 2) * 8192 + 1 * (j 0).val; omega
    | ⟨1, _⟩ => show win3_1.index t (1 : Fin 2) * 1 + 1 * 0 = 0; omega
  rw [out3_apply, fill_of_lt win3_0 _ _ _ _ hj0, fill_of_lt win3_1 _ _ _ _ hk, h0, h1]
  rfl

theorem mem_blk3 (t : Fin cfg3.N) (i : S1500000x64.Idx) :
    i ∈ ((cfg3.win 2).blk t).view.set ↔ ∀ a : Fin 2, win3_2.index t a * S8192x64.size a ≤ (i a).val ∧ (i a).val < win3_2.index t a * S8192x64.size a + win3_2.xsize (grid3.coords t) a := by
  show i ∈ ((View.whole (Pipeline.arrRef spec3 2)).slice (win3_2.rect t)).set ↔ _
  rw [View.set_slice_whole, Rect.mem_set_unit]
  exact Iff.rfl

theorem cover3_arr (i : S1500000x64.Idx) : ∃ t : Fin cfg3.N, (cfg3.win 2).flush t = true ∧ i ∈ ((cfg3.win 2).blk t).view.set := by
  have hi0 : (i 0).val < 1500000 := (i 0).isLt
  have hi1 : (i 1).val < 64 := (i 1).isLt
  have hN : cfg3.N = 184 := N_3
  let t : Fin cfg3.N := ⟨(i 0).val / 8192, by rw [hN]; omega⟩
  refine ⟨t, flush3_2 t, ?_⟩
  rw [mem_blk3]
  obtain ⟨e0, e1, e2, e3, e4, e5, e6, e7⟩ := idx_facts3 t
  have ht : t.val = (i 0).val / 8192 := rfl
  intro a
  match a with
  | ⟨0, _⟩ => show win3_2.index t (0 : Fin 2) * 8192 ≤ (i 0).val ∧ (i 0).val < win3_2.index t (0 : Fin 2) * 8192 + win3_2.xsize (grid3.coords t) (0 : Fin 2); rw [e4, e6, ht]; omega
  | ⟨1, _⟩ => show win3_2.index t (1 : Fin 2) * 64 ≤ (i 1).val ∧ (i 1).val < win3_2.index t (1 : Fin 2) * 64 + win3_2.xsize (grid3.coords t) (1 : Fin 2); rw [e5, e7]; omega

/-- The result array after the region: `G3` of the two arrays as the region found them. -/
theorem final3 (c : Dev nD) : (dat3 V c).arrAt 2 cfg3.N = G3 (V c (Pipeline.arrRef spec3 0)) (V c (Pipeline.arrRef spec3 1)) :=
  (dat3 V c).arrAt_eq_of_cover 2 _ (fun t _ => flushed3_eq V c t) (cover3_arr)

end Region3c

end Cert.Kernel.Hand

end
-- ==== Proof.BRegion4.lean ====
/-
  Region 4 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 4: every edge row of the gathered block times its edge weight -/

section Region4
variable (V : (c : Dev nD) → (b : Ref sig .tc) → Buf (Elt F) ((c : Thread nD τ).loc b))

/-- Window `w`'s block at point `t` — the rows of the block that lie inside the array — read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rA4 : Rect S8192x64 := Rect.unit (s := S8192x64) ![0, 0] S8192x64.size inb_S8192x64_S8192x64_0_0
abbrev rB4 : Rect S8192x1 := Rect.unit (s := S8192x1) ![0, 0] S8192x1.size inb_S8192x1_S8192x1_0_0

/-- What the body leaves in the result's buffer: its one whole-buffer store of the product of the two loaded blocks. -/
def out4 (x0 : Vec F S8192x64 .f32) (x1 : Vec F S8192x1 .f32) : Vec F S8192x64 .f32 :=
  View.canon [⟨rA4, k4_pay1 (View.ld x0 rA4) (View.ld x1 rB4)⟩]

theorem cover4 (p0 : Vec F S8192x64 .f32) (y : S8192x64.Idx) :
    ∃ pc ∈ ([⟨rA4, p0⟩] : List (View.Piece (Elt F) S8192x64 .f32)), y ∈ pc.1.set :=
  View.cover_of_tiled [⟨rA4, p0⟩] S8192x64.size (by rfl) y

set_option maxHeartbeats 1000000 in
/-- The body on whole staging buffers: the two inputs' are read and left as they were, the result's ends at `out4`. -/
theorem sound_kernel4 (c : Dev nD) (E : Set ℕ) (i : grid4.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4 x0 x1)) -∗ K ⟨⟩))
      ⊢ wp frame (wpE (defs₀ (F := F)) Variants.none c none) E (cc4__weighted_mul_kernel i arg1 harg1 arg2 harg2 arg3 harg3) K := by
  simp only [cc4__weighted_mul_kernel_eq_skeleton]; unfold cc4__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4 _)

/-- The filler past the array's end: the zero word (nothing reads it). -/
abbrev zA4 : S8192x64.Idx → Elt F .f32 := fun _ => Scalar.ofBits .f32 0#32
abbrev zB4 : S8192x1.Idx → Elt F .f32 := fun _ => Scalar.ofBits .f32 0#32

/-- The proof data: the arrays as the region finds them; after the body each input's buffer at its block (filled out past
    the array's end) and the result's at the product of the two. -/
def dat4 (c : Dev nD) : Dat τ (Elt F) Unit ℕ (UR sig nD τ) ℕ cfg4 c where
  A w := V c (Pipeline.arrRef spec4 w)
  after w t := match w with
    | ⟨0, _⟩ => win4_0.fill (grid4.coords t) zA4 (iblk4 V c 0 t)
    | ⟨1, _⟩ => win4_1.fill (grid4.coords t) zB4 (iblk4 V c 1 t)
    | ⟨2, _⟩ => out4 (win4_0.fill (grid4.coords t) zA4 (iblk4 V c 0 t)) (win4_1.fill (grid4.coords t) zB4 (iblk4 V c 1 t))
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = win4_0.fill (grid4.coords t) zA4 (iblk4 V c 0 t) := by dsimp only [dat4]
theorem after4_1 (c : Dev nD) (t : Fin cfg4.N) : (dat4 V c).after 1 t = win4_1.fill (grid4.coords t) zB4 (iblk4 V c 1 t) := by dsimp only [dat4]
theorem after4_2 (c : Dev nD) (t : Fin cfg4.N) : (dat4 V c).after 2 t
    = out4 (win4_0.fill (grid4.coords t) zA4 (iblk4 V c 0 t)) (win4_1.fill (grid4.coords t) zB4 (iblk4 V c 1 t)) := by dsimp only [dat4]

/-- Each input's buffer is fetched at every point: it holds the block on the rows inside the array, `d` elsewhere. -/
theorem before4_0 (c : Dev nD) (t : Fin cfg4.N) (d) :
    (dat4 V c).before 0 t d = win4_0.fill (grid4.coords t) d (iblk4 V c 0 t) := by
  unfold Dat.before; rw [if_pos (fetch4_0 t)]; rfl
theorem before4_1 (c : Dev nD) (t : Fin cfg4.N) (d) :
    (dat4 V c).before 1 t d = win4_1.fill (grid4.coords t) d (iblk4 V c 1 t) := by
  unfold Dat.before; rw [if_pos (fetch4_1 t)]; rfl

end Region4

section Region4b
variable (V : (c : Dev nD) → (b : Ref sig .tc) → Buf (Elt F) ((c : Thread nD τ).loc b))

/-- The product at an index depends on the first block at that index and on the weight column at that row only. -/
theorem out4_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out4 X0 X1 y = out4 X0' X1' y := by
  have hz : (![0, 0] : Fin 2 → Nat) = fun _ => 0 := funext fun a => by fin_cases a <;> rfl
  unfold out4
  rw [View.canon_unit_zero hz, View.canon_unit_zero hz]
  simp only [View.ld_unit_zero (S := S8192x64) hz, View.ld_unit_zero (S := S8192x1) hz]
  unfold k4_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out4 (c : Dev nD) (t : Fin cfg4.N) (d0 : S8192x64.Idx → Elt F .f32) (d1 : S8192x1.Idx → Elt F .f32) :
    win4_2.cut (grid4.coords t) (out4 (win4_0.fill (grid4.coords t) d0 (iblk4 V c 0 t)) (win4_1.fill (grid4.coords t) d1 (iblk4 V c 1 t)))
      = win4_2.cut (grid4.coords t) (out4 (win4_0.fill (grid4.coords t) zA4 (iblk4 V c 0 t)) (win4_1.fill (grid4.coords t) zB4 (iblk4 V c 1 t))) := by
  funext j
  refine out4_congr _ _ _ _ _ ?_ ?_
  · exact fill_irrel win4_0 (grid4.coords t) d0 zA4 _ _ (fun a => (j a).isLt)
  · intro k hk
    refine fill_irrel win4_1 (grid4.coords t) d1 zB4 _ k (fun a => ?_)
    match a with
    | ⟨0, _⟩ => exact hk ▸ (j 0).isLt
    | ⟨1, _⟩ => exact (k 1).isLt

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (∃ d, owns (c : Thread nD τ) (st4_0 t) fullShare (win4_0.fill (grid4.coords t) d (win4_0.cut (grid4.coords t) ((dat4 V c).after 0 t))))
    ∗ (∃ d, owns (c : Thread nD τ) (st4_1 t) fullShare (win4_1.fill (grid4.coords t) d (win4_1.cut (grid4.coords t) ((dat4 V c).after 1 t))))
    ∗ (∃ d, owns (c : Thread nD τ) (st4_2 t) fullShare (win4_2.fill (grid4.coords t) d (win4_2.cut (grid4.coords t) ((dat4 V c).after 2 t)))))

/-- The body at any point: the inputs' buffers hold their blocks filled out with words nothing names; the result's buffer
    ends holding the product, which on the rows inside the array is the proof data's. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  rw [before4_0 V c t d0, before4_1 V c t d1]
  iapply (sound_kernel4 c Set.univ _ _ _ _ _ _ _ (win4_0.fill (grid4.coords t) d0 (iblk4 V c 0 t)) (win4_1.fill (grid4.coords t) d1 (iblk4 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win4_0.cut_fill]; iexact H0
  isplitl [H1]
  · iexists d1; rw [win4_1.cut_fill]; iexact H1
  · iexists _
    rw [← cut_out4 V c t d0 d1, win4_2.fill_cut]
    iexact H2

theorem body_obligation4 (c : Dev nD) : BodyObligationLoose (dat4 (F := F) V c) (defs₀ (F := F)) Variants.none () Set.univ := fun t => by
  rw [bigSep_W4, bigSep_W4]
  exact sound_body4 V c t

end Region4b

section Region4c
variable (V : (c : Dev nD) → (b : Ref sig .tc) → Buf (Elt F) ((c : Thread nD τ).loc b))

/-- The body's product at an index: the first block there times the weight column's entry of that row. -/
theorem out4_apply (X0 : Vec F S8192x64 .f32) (X1 : Vec F S8192x1 .f32) (y : S8192x64.Idx) :
    out4 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out4
  rw [View.canon_unit_zero hz]
  simp only [View.ld_unit_zero (S := S8192x64) hz, View.ld_unit_zero (S := S8192x1) hz]
  unfold k4_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G4 (a0 : S1500000x64.Idx → Elt F .f32) (a1 : S1500000x1.Idx → Elt F .f32) : S1500000x64.Idx → Elt F .f32 :=
  fun i => FloatOps.mulf (a0 i) (a1 (ValueIdx.ix2 (n0 := 1500000) (n1 := 1) (i 0) 0))

/-- The printed index maps over the grid: the three windows move together, one block of rows per point, and the last
    block is cut at the array's end. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_2.xsize (grid4.coords t) (0 : Fin 2) = min 8192 (1500000 - 8192 * t.val)
    ∧ win4_2.xsize (grid4.coords t) (1 : Fin 2) = 64 :=
  (by decide +kernel : ∀ t : Fin grid4.N, _)

set_option maxHeartbeats 1000000 in
/-- What point `t` writes back is block `t` of `G4` of the two arrays as the region finds them. -/
theorem flushed4_eq (c : Dev nD) (t : Fin cfg4.N) :
    (dat4 V c).flushed 2 t = ((cfg4.win 2).blk t).view.read (Elt F) (G4 (V c (Pipeline.arrRef spec4 0)) (V c (Pipeline.arrRef spec4 1))) := by
  show (cfg4.win 2).cut (grid4.coords t) ((dat4 V c).after 2 t) = _
  rw [after4_2]
  obtain ⟨e0, e1, e2, e3, e4, e5, e6, e7⟩ := idx_facts4 t
  funext j
  show out4 _ _ (win4_2.xinj (grid4.coords t) j) = G4 (V c (Pipeline.arrRef spec4 0)) (V c (Pipeline.arrRef spec4 1)) (((cfg4.win 2).blk t).view.emb j)
  have hj0 : ∀ a, ((win4_2.xinj (grid4.coords t) j) a).val < win4_0.xsize (grid4.coords t) a := fun a => (j a).isLt
  have hk : ∀ a, ((ValueIdx.ix2 (n0 := 8192) (n1 := 1) ((win4_2.xinj (grid4.coords t) j) 0) 0 : S8192x1.Idx) a).val < win4_1.xsize (grid4.coords t) a := fun a => by
    match a with
    | ⟨0, _⟩ => exact (j 0).isLt
    | ⟨1, _⟩ => exact Nat.zero_lt_one
  have h0 : iblk4 V c 0 t (fun a => ⟨((win4_2.xinj (grid4.coords t) j) a).val, hj0 a⟩) = V c (Pipeline.arrRef spec4 0) (((cfg4.win 2).blk t).view.emb j) := by
    show V c (Pipeline.arrRef spec4 0) (((cfg4.win 0).blk t).view.emb j) = _
    refine congrArg (V c (Pipeline.arrRef spec4 0)) ?_
    funext a; apply Fin.ext
    match a with
    | ⟨0, _⟩ => show win4_0.index t (0 : Fin 2) * 8192 + 1 * (j 0).val = win4_2.index t (0 : Fin 2) * 8192 + 1 * (j 0).val; omega
    | ⟨1, _⟩ => show win4_0.index t (1 : Fin 2) * 64 + 1 * (j 1).val = win4_2.index t (1 : Fin 2) * 64 + 1 * (j 1).val; omega
  have h1 : iblk4 V c 1 t (fun a => ⟨((ValueIdx.ix2 (n0 := 8192) (n1 := 1) ((win4_2.xinj (grid4.coords t) j) 0) 0 : S8192x1.Idx) a).val, hk a⟩)
      = V c (Pipeline.arrRef spec4 1) (ValueIdx.ix2 (n0 := 1500000) (n1 := 1) ((((cfg4.win 2).blk t).view.emb j) 0) 0) := by
    show V c (Pipeline.arrRef spec4 1) (((cfg4.win 1).blk t).view.emb (fun a => ⟨((ValueIdx.ix2 (n0 := 8192) (n1 := 1) ((win4_2.xinj (grid4.coords t) j) 0) 0 : S8192x1.Idx) a).val, hk a⟩)) = _
    refine congrArg (V c (Pipeline.arrRef spec4 1)) ?_
    funext a; apply Fin.ext
    match a with
    | ⟨0, _⟩ => show win4_1.index t (0 : Fin 2) * 8192 + 1 * (j 0).val = win4_2.index t (0 : Fin 2) * 8192 + 1 * (j 0).val; omega
    | ⟨1, _⟩ => show win4_1.index t (1 : Fin 2) * 1 + 1 * 0 = 0; omega
  rw [out4_apply, fill_of_lt win4_0 _ _ _ _ hj0, fill_of_lt win4_1 _ _ _ _ hk, h0, h1]
  rfl

theorem mem_blk4 (t : Fin cfg4.N) (i : S1500000x64.Idx) :
    i ∈ ((cfg4.win 2).blk t).view.set ↔ ∀ a : Fin 2, win4_2.index t a * S8192x64.size a ≤ (i a).val ∧ (i a).val < win4_2.index t a * S8192x64.size a + win4_2.xsize (grid4.coords t) a := by
  show i ∈ ((View.whole (Pipeline.arrRef spec4 2)).slice (win4_2.rect t)).set ↔ _
  rw [View.set_slice_whole, Rect.mem_set_unit]
  exact Iff.rfl

theorem cover4_arr (i : S1500000x64.Idx) : ∃ t : Fin cfg4.N, (cfg4.win 2).flush t = true ∧ i ∈ ((cfg4.win 2).blk t).view.set := by
  have hi0 : (i 0).val < 1500000 := (i 0).isLt
  have hi1 : (i 1).val < 64 := (i 1).isLt
  have hN : cfg4.N = 184 := N_4
  let t : Fin cfg4.N := ⟨(i 0).val / 8192, by rw [hN]; omega⟩
  refine ⟨t, flush4_2 t, ?_⟩
  rw [mem_blk4]
  obtain ⟨e0, e1, e2, e3, e4, e5, e6, e7⟩ := idx_facts4 t
  have ht : t.val = (i 0).val / 8192 := rfl
  intro a
  match a with
  | ⟨0, _⟩ => show win4_2.index t (0 : Fin 2) * 8192 ≤ (i 0).val ∧ (i 0).val < win4_2.index t (0 : Fin 2) * 8192 + win4_2.xsize (grid4.coords t) (0 : Fin 2); rw [e4, e6, ht]; omega
  | ⟨1, _⟩ => show win4_2.index t (1 : Fin 2) * 64 ≤ (i 1).val ∧ (i 1).val < win4_2.index t (1 : Fin 2) * 64 + win4_2.xsize (grid4.coords t) (1 : Fin 2); rw [e5, e7]; omega

/-- The result array after the region: `G4` of the two arrays as the region found them. -/
theorem final4 (c : Dev nD) : (dat4 V c).arrAt 2 cfg4.N = G4 (V c (Pipeline.arrRef spec4 0)) (V c (Pipeline.arrRef spec4 1)) :=
  (dat4 V c).arrAt_eq_of_cover 2 _ (fun t _ => flushed4_eq V c t) (cover4_arr)

end Region4c

end Cert.Kernel.Hand

end
-- ==== Proof.BRegion5.lean ====
/-
  Region 5 of the program: the entrywise sum of two arrays of embedding rows.  The arrays are cut into blocks of 8192 rows
  and the last block overhangs the array; the rows of a staging buffer past the array's end hold words nothing names, and
  the result on the rows inside the array does not depend on them because the sum is taken entry by entry.  After all
  points the result array holds the sum of the two arrays at every index.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 5: the running sum of the layers plus the newly propagated layer, row by row -/

section Region5
variable (V : (c : Dev nD) → (b : Ref sig .tc) → Buf (Elt F) ((c : Thread nD τ).loc b))

/-- Window `w`'s block at point `t` — the rows of the block that lie inside the array — read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rA5 : Rect S8192x64 := Rect.unit (s := S8192x64) ![0, 0] S8192x64.size inb_S8192x64_S8192x64_0_0

/-- What the body leaves in the result's buffer: its one whole-buffer store of the sum of the two loaded blocks. -/
def out5 (x0 : Vec F S8192x64 .f32) (x1 : Vec F S8192x64 .f32) : Vec F S8192x64 .f32 :=
  View.canon [⟨rA5, k5_pay1 (View.ld x0 rA5) (View.ld x1 rA5)⟩]

theorem cover5 (p0 : Vec F S8192x64 .f32) (y : S8192x64.Idx) :
    ∃ pc ∈ ([⟨rA5, p0⟩] : List (View.Piece (Elt F) S8192x64 .f32)), y ∈ pc.1.set :=
  View.cover_of_tiled [⟨rA5, p0⟩] S8192x64.size (by rfl) y

set_option maxHeartbeats 1000000 in
/-- The body on whole staging buffers: the two inputs' are read and left as they were, the result's ends at `out5`. -/
theorem sound_kernel5 (c : Dev nD) (E : Set ℕ) (i : grid5.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole)
    (x0 : Vec F S8192x64 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5 x0 x1)) -∗ K ⟨⟩))
      ⊢ wp frame (wpE (defs₀ (F := F)) Variants.none c none) E (cc5__add_kernel i arg1 harg1 arg2 harg2 arg3 harg3) K := by
  simp only [cc5__add_kernel_eq_skeleton]; unfold cc5__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-- The filler past the array's end: the zero word (nothing reads it). -/
abbrev zA5 : S8192x64.Idx → Elt F .f32 := fun _ => Scalar.ofBits .f32 0#32

/-- The body's sum at an index is the sum of the two blocks there. -/
theorem out5_apply (X0 X1 : Vec F S8192x64 .f32) (y : S8192x64.Idx) :
    out5 X0 X1 y = FloatOps.addf (X0 y) (X1 y) := by
  have hz : (![0, 0] : Fin 2 → Nat) = fun _ => 0 := funext fun a => by fin_cases a <;> rfl
  unfold out5
  rw [View.canon_unit_zero hz]
  simp only [View.ld_unit_zero (S := S8192x64) hz]
  unfold k5_pay1
  simp only [shapeCast_self]
  rfl

/-- The proof data: the arrays as the region finds them; after the body each input's buffer at its block (filled out past
    the array's end) and the result's at the sum of the two. -/
def dat5 (c : Dev nD) : Dat τ (Elt F) Unit ℕ (UR sig nD τ) ℕ cfg5 c where
  A w := V c (Pipeline.arrRef spec5 w)
  after w t := match w with
    | ⟨0, _⟩ => win5_0.fill (grid5.coords t) zA5 (iblk5 V c 0 t)
    | ⟨1, _⟩ => win5_1.fill (grid5.coords t) zA5 (iblk5 V c 1 t)
    | ⟨2, _⟩ => out5 (win5_0.fill (grid5.coords t) zA5 (iblk5 V c 0 t)) (win5_1.fill (grid5.coords t) zA5 (iblk5 V c 1 t))
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = win5_0.fill (grid5.coords t) zA5 (iblk5 V c 0 t) := by dsimp only [dat5]
theorem after5_1 (c : Dev nD) (t : Fin cfg5.N) : (dat5 V c).after 1 t = win5_1.fill (grid5.coords t) zA5 (iblk5 V c 1 t) := by dsimp only [dat5]
theorem after5_2 (c : Dev nD) (t : Fin cfg5.N) : (dat5 V c).after 2 t
    = out5 (win5_0.fill (grid5.coords t) zA5 (iblk5 V c 0 t)) (win5_1.fill (grid5.coords t) zA5 (iblk5 V c 1 t)) := by dsimp only [dat5]

theorem before5_0 (c : Dev nD) (t : Fin cfg5.N) (d) :
    (dat5 V c).before 0 t d = win5_0.fill (grid5.coords t) d (iblk5 V c 0 t) := by
  unfold Dat.before; rw [if_pos (fetch5_0 t)]; rfl
theorem before5_1 (c : Dev nD) (t : Fin cfg5.N) (d) :
    (dat5 V c).before 1 t d = win5_1.fill (grid5.coords t) d (iblk5 V c 1 t) := by
  unfold Dat.before; rw [if_pos (fetch5_1 t)]; rfl

/-- On the rows inside the array the result's buffer does not see what filled the inputs' buffers past the array's end. -/
theorem cut_out5 (c : Dev nD) (t : Fin cfg5.N) (d0 d1 : S8192x64.Idx → Elt F .f32) :
    win5_2.cut (grid5.coords t) (out5 (win5_0.fill (grid5.coords t) d0 (iblk5 V c 0 t)) (win5_1.fill (grid5.coords t) d1 (iblk5 V c 1 t)))
      = win5_2.cut (grid5.coords t) (out5 (win5_0.fill (grid5.coords t) zA5 (iblk5 V c 0 t)) (win5_1.fill (grid5.coords t) zA5 (iblk5 V c 1 t))) := by
  funext j
  show out5 _ _ (win5_2.xinj (grid5.coords t) j) = out5 _ _ (win5_2.xinj (grid5.coords t) j)
  rw [out5_apply, out5_apply,
    fill_irrel win5_0 (grid5.coords t) d0 zA5 _ _ (fun a => (j a).isLt),
    fill_irrel win5_1 (grid5.coords t) d1 zA5 _ _ (fun a => (j a).isLt)]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (∃ d, owns (c : Thread nD τ) (st5_0 t) fullShare (win5_0.fill (grid5.coords t) d (win5_0.cut (grid5.coords t) ((dat5 V c).after 0 t))))
    ∗ (∃ d, owns (c : Thread nD τ) (st5_1 t) fullShare (win5_1.fill (grid5.coords t) d (win5_1.cut (grid5.coords t) ((dat5 V c).after 1 t))))
    ∗ (∃ d, owns (c : Thread nD τ) (st5_2 t) fullShare (win5_2.fill (grid5.coords t) d (win5_2.cut (grid5.coords t) ((dat5 V c).after 2 t)))))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  rw [before5_0 V c t d0, before5_1 V c t d1]
  iapply (sound_kernel5 c Set.univ _ _ _ _ _ _ _ (win5_0.fill (grid5.coords t) d0 (iblk5 V c 0 t)) (win5_1.fill (grid5.coords t) d1 (iblk5 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win5_0.cut_fill]; iexact H0
  isplitl [H1]
  · iexists d1; rw [win5_1.cut_fill]; iexact H1
  · iexists _
    rw [← cut_out5 V c t d0 d1, win5_2.fill_cut]
    iexact H2

theorem body_obligation5 (c : Dev nD) : BodyObligationLoose (dat5 (F := F) V c) (defs₀ (F := F)) Variants.none () Set.univ := fun t => by
  rw [bigSep_W5, bigSep_W5]
  exact sound_body5 V c t

/-- The whole result: the two arrays added entry by entry. -/
def G5 (a0 a1 : S140000x64.Idx → Elt F .f32) : S140000x64.Idx → Elt F .f32 :=
  fun i => FloatOps.addf (a0 i) (a1 i)

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_2.xsize (grid5.coords t) (0 : Fin 2) = min 8192 (140000 - 8192 * t.val)
    ∧ win5_2.xsize (grid5.coords t) (1 : Fin 2) = 64 :=
  (by decide +kernel : ∀ t : Fin grid5.N, _)

set_option maxHeartbeats 1000000 in
/-- What point `t` writes back is block `t` of `G5` of the two arrays as the region finds them. -/
theorem flushed5_eq (c : Dev nD) (t : Fin cfg5.N) :
    (dat5 V c).flushed 2 t = ((cfg5.win 2).blk t).view.read (Elt F) (G5 (V c (Pipeline.arrRef spec5 0)) (V c (Pipeline.arrRef spec5 1))) := by
  show (cfg5.win 2).cut (grid5.coords t) ((dat5 V c).after 2 t) = _
  rw [after5_2]
  obtain ⟨e0, e1, e2, e3, e4, e5, e6, e7⟩ := idx_facts5 t
  funext j
  show out5 _ _ (win5_2.xinj (grid5.coords t) j) = G5 (V c (Pipeline.arrRef spec5 0)) (V c (Pipeline.arrRef spec5 1)) (((cfg5.win 2).blk t).view.emb j)
  have hj0 : ∀ a, ((win5_2.xinj (grid5.coords t) j) a).val < win5_0.xsize (grid5.coords t) a := fun a => (j a).isLt
  have hj1 : ∀ a, ((win5_2.xinj (grid5.coords t) j) a).val < win5_1.xsize (grid5.coords t) a := fun a => (j a).isLt
  have h0 : iblk5 V c 0 t (fun a => ⟨((win5_2.xinj (grid5.coords t) j) a).val, hj0 a⟩) = V c (Pipeline.arrRef spec5 0) (((cfg5.win 2).blk t).view.emb j) := by
    show V c (Pipeline.arrRef spec5 0) (((cfg5.win 0).blk t).view.emb j) = _
    refine congrArg (V c (Pipeline.arrRef spec5 0)) ?_
    funext a; apply Fin.ext
    match a with
    | ⟨0, _⟩ => show win5_0.index t (0 : Fin 2) * 8192 + 1 * (j 0).val = win5_2.index t (0 : Fin 2) * 8192 + 1 * (j 0).val; omega
    | ⟨1, _⟩ => show win5_0.index t (1 : Fin 2) * 64 + 1 * (j 1).val = win5_2.index t (1 : Fin 2) * 64 + 1 * (j 1).val; omega
  have h1 : iblk5 V c 1 t (fun a => ⟨((win5_2.xinj (grid5.coords t) j) a).val, hj1 a⟩) = V c (Pipeline.arrRef spec5 1) (((cfg5.win 2).blk t).view.emb j) := by
    show V c (Pipeline.arrRef spec5 1) (((cfg5.win 1).blk t).view.emb j) = _
    refine congrArg (V c (Pipeline.arrRef spec5 1)) ?_
    funext a; apply Fin.ext
    match a with
    | ⟨0, _⟩ => show win5_1.index t (0 : Fin 2) * 8192 + 1 * (j 0).val = win5_2.index t (0 : Fin 2) * 8192 + 1 * (j 0).val; omega
    | ⟨1, _⟩ => show win5_1.index t (1 : Fin 2) * 64 + 1 * (j 1).val = win5_2.index t (1 : Fin 2) * 64 + 1 * (j 1).val; omega
  rw [out5_apply, fill_of_lt win5_0 _ _ _ _ hj0, fill_of_lt win5_1 _ _ _ _ hj1, h0, h1]
  rfl

theorem mem_blk5 (t : Fin cfg5.N) (i : S140000x64.Idx) :
    i ∈ ((cfg5.win 2).blk t).view.set ↔ ∀ a : Fin 2, win5_2.index t a * S8192x64.size a ≤ (i a).val ∧ (i a).val < win5_2.index t a * S8192x64.size a + win5_2.xsize (grid5.coords t) a := by
  show i ∈ ((View.whole (Pipeline.arrRef spec5 2)).slice (win5_2.rect t)).set ↔ _
  rw [View.set_slice_whole, Rect.mem_set_unit]
  exact Iff.rfl

theorem cover5_arr (i : S140000x64.Idx) : ∃ t : Fin cfg5.N, (cfg5.win 2).flush t = true ∧ i ∈ ((cfg5.win 2).blk t).view.set := by
  have hi0 : (i 0).val < 140000 := (i 0).isLt
  have hi1 : (i 1).val < 64 := (i 1).isLt
  have hN : cfg5.N = 18 := N_5
  let t : Fin cfg5.N := ⟨(i 0).val / 8192, by rw [hN]; omega⟩
  refine ⟨t, flush5_2 t, ?_⟩
  rw [mem_blk5]
  obtain ⟨e0, e1, e2, e3, e4, e5, e6, e7⟩ := idx_facts5 t
  have ht : t.val = (i 0).val / 8192 := rfl
  intro a
  match a with
  | ⟨0, _⟩ => show win5_2.index t (0 : Fin 2) * 8192 ≤ (i 0).val ∧ (i 0).val < win5_2.index t (0 : Fin 2) * 8192 + win5_2.xsize (grid5.coords t) (0 : Fin 2); rw [e4, e6, ht]; omega
  | ⟨1, _⟩ => show win5_2.index t (1 : Fin 2) * 64 ≤ (i 1).val ∧ (i 1).val < win5_2.index t (1 : Fin 2) * 64 + win5_2.xsize (grid5.coords t) (1 : Fin 2); rw [e5, e7]; omega

/-- The result array after the region: `G5` of the two arrays as the region found them. -/
theorem final5 (c : Dev nD) : (dat5 V c).arrAt 2 cfg5.N = G5 (V c (Pipeline.arrRef spec5 0)) (V c (Pipeline.arrRef spec5 1)) :=
  (dat5 V c).arrAt_eq_of_cover 2 _ (fun t _ => flushed5_eq V c t) (cover5_arr)

end Region5

end Cert.Kernel.Hand

end
-- ==== Proof.BRegion6.lean ====
/-
  Region 6 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 6: every edge row of the gathered block times its edge weight -/

section Region6
variable (V : (c : Dev nD) → (b : Ref sig .tc) → Buf (Elt F) ((c : Thread nD τ).loc b))

/-- Window `w`'s block at point `t` — the rows of the block that lie inside the array — read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rA6 : Rect S8192x64 := Rect.unit (s := S8192x64) ![0, 0] S8192x64.size inb_S8192x64_S8192x64_0_0
abbrev rB6 : Rect S8192x1 := Rect.unit (s := S8192x1) ![0, 0] S8192x1.size inb_S8192x1_S8192x1_0_0

/-- What the body leaves in the result's buffer: its one whole-buffer store of the product of the two loaded blocks. -/
def out6 (x0 : Vec F S8192x64 .f32) (x1 : Vec F S8192x1 .f32) : Vec F S8192x64 .f32 :=
  View.canon [⟨rA6, k6_pay1 (View.ld x0 rA6) (View.ld x1 rB6)⟩]

theorem cover6 (p0 : Vec F S8192x64 .f32) (y : S8192x64.Idx) :
    ∃ pc ∈ ([⟨rA6, p0⟩] : List (View.Piece (Elt F) S8192x64 .f32)), y ∈ pc.1.set :=
  View.cover_of_tiled [⟨rA6, p0⟩] S8192x64.size (by rfl) y

set_option maxHeartbeats 1000000 in
/-- The body on whole staging buffers: the two inputs' are read and left as they were, the result's ends at `out6`. -/
theorem sound_kernel6 (c : Dev nD) (E : Set ℕ) (i : grid6.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6 x0 x1)) -∗ K ⟨⟩))
      ⊢ wp frame (wpE (defs₀ (F := F)) Variants.none c none) E (cc6__weighted_mul_kernel i arg1 harg1 arg2 harg2 arg3 harg3) K := by
  simp only [cc6__weighted_mul_kernel_eq_skeleton]; unfold cc6__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

/-- The filler past the array's end: the zero word (nothing reads it). -/
abbrev zA6 : S8192x64.Idx → Elt F .f32 := fun _ => Scalar.ofBits .f32 0#32
abbrev zB6 : S8192x1.Idx → Elt F .f32 := fun _ => Scalar.ofBits .f32 0#32

/-- The proof data: the arrays as the region finds them; after the body each input's buffer at its block (filled out past
    the array's end) and the result's at the product of the two. -/
def dat6 (c : Dev nD) : Dat τ (Elt F) Unit ℕ (UR sig nD τ) ℕ cfg6 c where
  A w := V c (Pipeline.arrRef spec6 w)
  after w t := match w with
    | ⟨0, _⟩ => win6_0.fill (grid6.coords t) zA6 (iblk6 V c 0 t)
    | ⟨1, _⟩ => win6_1.fill (grid6.coords t) zB6 (iblk6 V c 1 t)
    | ⟨2, _⟩ => out6 (win6_0.fill (grid6.coords t) zA6 (iblk6 V c 0 t)) (win6_1.fill (grid6.coords t) zB6 (iblk6 V c 1 t))
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = win6_0.fill (grid6.coords t) zA6 (iblk6 V c 0 t) := by dsimp only [dat6]
theorem after6_1 (c : Dev nD) (t : Fin cfg6.N) : (dat6 V c).after 1 t = win6_1.fill (grid6.coords t) zB6 (iblk6 V c 1 t) := by dsimp only [dat6]
theorem after6_2 (c : Dev nD) (t : Fin cfg6.N) : (dat6 V c).after 2 t
    = out6 (win6_0.fill (grid6.coords t) zA6 (iblk6 V c 0 t)) (win6_1.fill (grid6.coords t) zB6 (iblk6 V c 1 t)) := by dsimp only [dat6]

/-- Each input's buffer is fetched at every point: it holds the block on the rows inside the array, `d` elsewhere. -/
theorem before6_0 (c : Dev nD) (t : Fin cfg6.N) (d) :
    (dat6 V c).before 0 t d = win6_0.fill (grid6.coords t) d (iblk6 V c 0 t) := by
  unfold Dat.before; rw [if_pos (fetch6_0 t)]; rfl
theorem before6_1 (c : Dev nD) (t : Fin cfg6.N) (d) :
    (dat6 V c).before 1 t d = win6_1.fill (grid6.coords t) d (iblk6 V c 1 t) := by
  unfold Dat.before; rw [if_pos (fetch6_1 t)]; rfl

end Region6

section Region6b
variable (V : (c : Dev nD) → (b : Ref sig .tc) → Buf (Elt F) ((c : Thread nD τ).loc b))

/-- The product at an index depends on the first block at that index and on the weight column at that row only. -/
theorem out6_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out6 X0 X1 y = out6 X0' X1' y := by
  have hz : (![0, 0] : Fin 2 → Nat) = fun _ => 0 := funext fun a => by fin_cases a <;> rfl
  unfold out6
  rw [View.canon_unit_zero hz, View.canon_unit_zero hz]
  simp only [View.ld_unit_zero (S := S8192x64) hz, View.ld_unit_zero (S := S8192x1) hz]
  unfold k6_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out6 (c : Dev nD) (t : Fin cfg6.N) (d0 : S8192x64.Idx → Elt F .f32) (d1 : S8192x1.Idx → Elt F .f32) :
    win6_2.cut (grid6.coords t) (out6 (win6_0.fill (grid6.coords t) d0 (iblk6 V c 0 t)) (win6_1.fill (grid6.coords t) d1 (iblk6 V c 1 t)))
      = win6_2.cut (grid6.coords t) (out6 (win6_0.fill (grid6.coords t) zA6 (iblk6 V c 0 t)) (win6_1.fill (grid6.coords t) zB6 (iblk6 V c 1 t))) := by
  funext j
  refine out6_congr _ _ _ _ _ ?_ ?_
  · exact fill_irrel win6_0 (grid6.coords t) d0 zA6 _ _ (fun a => (j a).isLt)
  · intro k hk
    refine fill_irrel win6_1 (grid6.coords t) d1 zB6 _ k (fun a => ?_)
    match a with
    | ⟨0, _⟩ => exact hk ▸ (j 0).isLt
    | ⟨1, _⟩ => exact (k 1).isLt

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (∃ d, owns (c : Thread nD τ) (st6_0 t) fullShare (win6_0.fill (grid6.coords t) d (win6_0.cut (grid6.coords t) ((dat6 V c).after 0 t))))
    ∗ (∃ d, owns (c : Thread nD τ) (st6_1 t) fullShare (win6_1.fill (grid6.coords t) d (win6_1.cut (grid6.coords t) ((dat6 V c).after 1 t))))
    ∗ (∃ d, owns (c : Thread nD τ) (st6_2 t) fullShare (win6_2.fill (grid6.coords t) d (win6_2.cut (grid6.coords t) ((dat6 V c).after 2 t)))))

/-- The body at any point: the inputs' buffers hold their blocks filled out with words nothing names; the result's buffer
    ends holding the product, which on the rows inside the array is the proof data's. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  rw [before6_0 V c t d0, before6_1 V c t d1]
  iapply (sound_kernel6 c Set.univ _ _ _ _ _ _ _ (win6_0.fill (grid6.coords t) d0 (iblk6 V c 0 t)) (win6_1.fill (grid6.coords t) d1 (iblk6 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win6_0.cut_fill]; iexact H0
  isplitl [H1]
  · iexists d1; rw [win6_1.cut_fill]; iexact H1
  · iexists _
    rw [← cut_out6 V c t d0 d1, win6_2.fill_cut]
    iexact H2

theorem body_obligation6 (c : Dev nD) : BodyObligationLoose (dat6 (F := F) V c) (defs₀ (F := F)) Variants.none () Set.univ := fun t => by
  rw [bigSep_W6, bigSep_W6]
  exact sound_body6 V c t

end Region6b

section Region6c
variable (V : (c : Dev nD) → (b : Ref sig .tc) → Buf (Elt F) ((c : Thread nD τ).loc b))

/-- The body's product at an index: the first block there times the weight column's entry of that row. -/
theorem out6_apply (X0 : Vec F S8192x64 .f32) (X1 : Vec F S8192x1 .f32) (y : S8192x64.Idx) :
    out6 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out6
  rw [View.canon_unit_zero hz]
  simp only [View.ld_unit_zero (S := S8192x64) hz, View.ld_unit_zero (S := S8192x1) hz]
  unfold k6_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G6 (a0 : S1500000x64.Idx → Elt F .f32) (a1 : S1500000x1.Idx → Elt F .f32) : S1500000x64.Idx → Elt F .f32 :=
  fun i => FloatOps.mulf (a0 i) (a1 (ValueIdx.ix2 (n0 := 1500000) (n1 := 1) (i 0) 0))

/-- The printed index maps over the grid: the three windows move together, one block of rows per point, and the last
    block is cut at the array's end. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_2.xsize (grid6.coords t) (0 : Fin 2) = min 8192 (1500000 - 8192 * t.val)
    ∧ win6_2.xsize (grid6.coords t) (1 : Fin 2) = 64 :=
  (by decide +kernel : ∀ t : Fin grid6.N, _)

set_option maxHeartbeats 1000000 in
/-- What point `t` writes back is block `t` of `G6` of the two arrays as the region finds them. -/
theorem flushed6_eq (c : Dev nD) (t : Fin cfg6.N) :
    (dat6 V c).flushed 2 t = ((cfg6.win 2).blk t).view.read (Elt F) (G6 (V c (Pipeline.arrRef spec6 0)) (V c (Pipeline.arrRef spec6 1))) := by
  show (cfg6.win 2).cut (grid6.coords t) ((dat6 V c).after 2 t) = _
  rw [after6_2]
  obtain ⟨e0, e1, e2, e3, e4, e5, e6, e7⟩ := idx_facts6 t
  funext j
  show out6 _ _ (win6_2.xinj (grid6.coords t) j) = G6 (V c (Pipeline.arrRef spec6 0)) (V c (Pipeline.arrRef spec6 1)) (((cfg6.win 2).blk t).view.emb j)
  have hj0 : ∀ a, ((win6_2.xinj (grid6.coords t) j) a).val < win6_0.xsize (grid6.coords t) a := fun a => (j a).isLt
  have hk : ∀ a, ((ValueIdx.ix2 (n0 := 8192) (n1 := 1) ((win6_2.xinj (grid6.coords t) j) 0) 0 : S8192x1.Idx) a).val < win6_1.xsize (grid6.coords t) a := fun a => by
    match a with
    | ⟨0, _⟩ => exact (j 0).isLt
    | ⟨1, _⟩ => exact Nat.zero_lt_one
  have h0 : iblk6 V c 0 t (fun a => ⟨((win6_2.xinj (grid6.coords t) j) a).val, hj0 a⟩) = V c (Pipeline.arrRef spec6 0) (((cfg6.win 2).blk t).view.emb j) := by
    show V c (Pipeline.arrRef spec6 0) (((cfg6.win 0).blk t).view.emb j) = _
    refine congrArg (V c (Pipeline.arrRef spec6 0)) ?_
    funext a; apply Fin.ext
    match a with
    | ⟨0, _⟩ => show win6_0.index t (0 : Fin 2) * 8192 + 1 * (j 0).val = win6_2.index t (0 : Fin 2) * 8192 + 1 * (j 0).val; omega
    | ⟨1, _⟩ => show win6_0.index t (1 : Fin 2) * 64 + 1 * (j 1).val = win6_2.index t (1 : Fin 2) * 64 + 1 * (j 1).val; omega
  have h1 : iblk6 V c 1 t (fun a => ⟨((ValueIdx.ix2 (n0 := 8192) (n1 := 1) ((win6_2.xinj (grid6.coords t) j) 0) 0 : S8192x1.Idx) a).val, hk a⟩)
      = V c (Pipeline.arrRef spec6 1) (ValueIdx.ix2 (n0 := 1500000) (n1 := 1) ((((cfg6.win 2).blk t).view.emb j) 0) 0) := by
    show V c (Pipeline.arrRef spec6 1) (((cfg6.win 1).blk t).view.emb (fun a => ⟨((ValueIdx.ix2 (n0 := 8192) (n1 := 1) ((win6_2.xinj (grid6.coords t) j) 0) 0 : S8192x1.Idx) a).val, hk a⟩)) = _
    refine congrArg (V c (Pipeline.arrRef spec6 1)) ?_
    funext a; apply Fin.ext
    match a with
    | ⟨0, _⟩ => show win6_1.index t (0 : Fin 2) * 8192 + 1 * (j 0).val = win6_2.index t (0 : Fin 2) * 8192 + 1 * (j 0).val; omega
    | ⟨1, _⟩ => show win6_1.index t (1 : Fin 2) * 1 + 1 * 0 = 0; omega
  rw [out6_apply, fill_of_lt win6_0 _ _ _ _ hj0, fill_of_lt win6_1 _ _ _ _ hk, h0, h1]
  rfl

theorem mem_blk6 (t : Fin cfg6.N) (i : S1500000x64.Idx) :
    i ∈ ((cfg6.win 2).blk t).view.set ↔ ∀ a : Fin 2, win6_2.index t a * S8192x64.size a ≤ (i a).val ∧ (i a).val < win6_2.index t a * S8192x64.size a + win6_2.xsize (grid6.coords t) a := by
  show i ∈ ((View.whole (Pipeline.arrRef spec6 2)).slice (win6_2.rect t)).set ↔ _
  rw [View.set_slice_whole, Rect.mem_set_unit]
  exact Iff.rfl

theorem cover6_arr (i : S1500000x64.Idx) : ∃ t : Fin cfg6.N, (cfg6.win 2).flush t = true ∧ i ∈ ((cfg6.win 2).blk t).view.set := by
  have hi0 : (i 0).val < 1500000 := (i 0).isLt
  have hi1 : (i 1).val < 64 := (i 1).isLt
  have hN : cfg6.N = 184 := N_6
  let t : Fin cfg6.N := ⟨(i 0).val / 8192, by rw [hN]; omega⟩
  refine ⟨t, flush6_2 t, ?_⟩
  rw [mem_blk6]
  obtain ⟨e0, e1, e2, e3, e4, e5, e6, e7⟩ := idx_facts6 t
  have ht : t.val = (i 0).val / 8192 := rfl
  intro a
  match a with
  | ⟨0, _⟩ => show win6_2.index t (0 : Fin 2) * 8192 ≤ (i 0).val ∧ (i 0).val < win6_2.index t (0 : Fin 2) * 8192 + win6_2.xsize (grid6.coords t) (0 : Fin 2); rw [e4, e6, ht]; omega
  | ⟨1, _⟩ => show win6_2.index t (1 : Fin 2) * 64 ≤ (i 1).val ∧ (i 1).val < win6_2.index t (1 : Fin 2) * 64 + win6_2.xsize (grid6.coords t) (1 : Fin 2); rw [e5, e7]; omega

/-- The result array after the region: `G6` of the two arrays as the region found them. -/
theorem final6 (c : Dev nD) : (dat6 V c).arrAt 2 cfg6.N = G6 (V c (Pipeline.arrRef spec6 0)) (V c (Pipeline.arrRef spec6 1)) :=
  (dat6 V c).arrAt_eq_of_cover 2 _ (fun t _ => flushed6_eq V c t) (cover6_arr)

end Region6c

end Cert.Kernel.Hand

end
-- ==== Proof.BRegion7.lean ====
/-
  Region 7 of the program: the entrywise sum of two arrays of embedding rows.  The arrays are cut into blocks of 8192 rows
  and the last block overhangs the array; the rows of a staging buffer past the array's end hold words nothing names, and
  the result on the rows inside the array does not depend on them because the sum is taken entry by entry.  After all
  points the result array holds the sum of the two arrays at every index.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 7: the running sum of the layers plus the newly propagated layer, row by row -/

section Region7
variable (V : (c : Dev nD) → (b : Ref sig .tc) → Buf (Elt F) ((c : Thread nD τ).loc b))

/-- Window `w`'s block at point `t` — the rows of the block that lie inside the array — read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rA7 : Rect S8192x64 := Rect.unit (s := S8192x64) ![0, 0] S8192x64.size inb_S8192x64_S8192x64_0_0

/-- What the body leaves in the result's buffer: its one whole-buffer store of the sum of the two loaded blocks. -/
def out7 (x0 : Vec F S8192x64 .f32) (x1 : Vec F S8192x64 .f32) : Vec F S8192x64 .f32 :=
  View.canon [⟨rA7, k7_pay1 (View.ld x0 rA7) (View.ld x1 rA7)⟩]

theorem cover7 (p0 : Vec F S8192x64 .f32) (y : S8192x64.Idx) :
    ∃ pc ∈ ([⟨rA7, p0⟩] : List (View.Piece (Elt F) S8192x64 .f32)), y ∈ pc.1.set :=
  View.cover_of_tiled [⟨rA7, p0⟩] S8192x64.size (by rfl) y

set_option maxHeartbeats 1000000 in
/-- The body on whole staging buffers: the two inputs' are read and left as they were, the result's ends at `out7`. -/
theorem sound_kernel7 (c : Dev nD) (E : Set ℕ) (i : grid7.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole)
    (x0 : Vec F S8192x64 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out7 x0 x1)) -∗ K ⟨⟩))
      ⊢ wp frame (wpE (defs₀ (F := F)) Variants.none c none) E (cc7__add_kernel i arg1 harg1 arg2 harg2 arg3 harg3) K := by
  simp only [cc7__add_kernel_eq_skeleton]; unfold cc7__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7 _)

/-- The filler past the array's end: the zero word (nothing reads it). -/
abbrev zA7 : S8192x64.Idx → Elt F .f32 := fun _ => Scalar.ofBits .f32 0#32

/-- The body's sum at an index is the sum of the two blocks there. -/
theorem out7_apply (X0 X1 : Vec F S8192x64 .f32) (y : S8192x64.Idx) :
    out7 X0 X1 y = FloatOps.addf (X0 y) (X1 y) := by
  have hz : (![0, 0] : Fin 2 → Nat) = fun _ => 0 := funext fun a => by fin_cases a <;> rfl
  unfold out7
  rw [View.canon_unit_zero hz]
  simp only [View.ld_unit_zero (S := S8192x64) hz]
  unfold k7_pay1
  simp only [shapeCast_self]
  rfl

/-- The proof data: the arrays as the region finds them; after the body each input's buffer at its block (filled out past
    the array's end) and the result's at the sum of the two. -/
def dat7 (c : Dev nD) : Dat τ (Elt F) Unit ℕ (UR sig nD τ) ℕ cfg7 c where
  A w := V c (Pipeline.arrRef spec7 w)
  after w t := match w with
    | ⟨0, _⟩ => win7_0.fill (grid7.coords t) zA7 (iblk7 V c 0 t)
    | ⟨1, _⟩ => win7_1.fill (grid7.coords t) zA7 (iblk7 V c 1 t)
    | ⟨2, _⟩ => out7 (win7_0.fill (grid7.coords t) zA7 (iblk7 V c 0 t)) (win7_1.fill (grid7.coords t) zA7 (iblk7 V c 1 t))
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = win7_0.fill (grid7.coords t) zA7 (iblk7 V c 0 t) := by dsimp only [dat7]
theorem after7_1 (c : Dev nD) (t : Fin cfg7.N) : (dat7 V c).after 1 t = win7_1.fill (grid7.coords t) zA7 (iblk7 V c 1 t) := by dsimp only [dat7]
theorem after7_2 (c : Dev nD) (t : Fin cfg7.N) : (dat7 V c).after 2 t
    = out7 (win7_0.fill (grid7.coords t) zA7 (iblk7 V c 0 t)) (win7_1.fill (grid7.coords t) zA7 (iblk7 V c 1 t)) := by dsimp only [dat7]

theorem before7_0 (c : Dev nD) (t : Fin cfg7.N) (d) :
    (dat7 V c).before 0 t d = win7_0.fill (grid7.coords t) d (iblk7 V c 0 t) := by
  unfold Dat.before; rw [if_pos (fetch7_0 t)]; rfl
theorem before7_1 (c : Dev nD) (t : Fin cfg7.N) (d) :
    (dat7 V c).before 1 t d = win7_1.fill (grid7.coords t) d (iblk7 V c 1 t) := by
  unfold Dat.before; rw [if_pos (fetch7_1 t)]; rfl

/-- On the rows inside the array the result's buffer does not see what filled the inputs' buffers past the array's end. -/
theorem cut_out7 (c : Dev nD) (t : Fin cfg7.N) (d0 d1 : S8192x64.Idx → Elt F .f32) :
    win7_2.cut (grid7.coords t) (out7 (win7_0.fill (grid7.coords t) d0 (iblk7 V c 0 t)) (win7_1.fill (grid7.coords t) d1 (iblk7 V c 1 t)))
      = win7_2.cut (grid7.coords t) (out7 (win7_0.fill (grid7.coords t) zA7 (iblk7 V c 0 t)) (win7_1.fill (grid7.coords t) zA7 (iblk7 V c 1 t))) := by
  funext j
  show out7 _ _ (win7_2.xinj (grid7.coords t) j) = out7 _ _ (win7_2.xinj (grid7.coords t) j)
  rw [out7_apply, out7_apply,
    fill_irrel win7_0 (grid7.coords t) d0 zA7 _ _ (fun a => (j a).isLt),
    fill_irrel win7_1 (grid7.coords t) d1 zA7 _ _ (fun a => (j a).isLt)]

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (∃ d, owns (c : Thread nD τ) (st7_0 t) fullShare (win7_0.fill (grid7.coords t) d (win7_0.cut (grid7.coords t) ((dat7 V c).after 0 t))))
    ∗ (∃ d, owns (c : Thread nD τ) (st7_1 t) fullShare (win7_1.fill (grid7.coords t) d (win7_1.cut (grid7.coords t) ((dat7 V c).after 1 t))))
    ∗ (∃ d, owns (c : Thread nD τ) (st7_2 t) fullShare (win7_2.fill (grid7.coords t) d (win7_2.cut (grid7.coords t) ((dat7 V c).after 2 t)))))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  rw [before7_0 V c t d0, before7_1 V c t d1]
  iapply (sound_kernel7 c Set.univ _ _ _ _ _ _ _ (win7_0.fill (grid7.coords t) d0 (iblk7 V c 0 t)) (win7_1.fill (grid7.coords t) d1 (iblk7 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win7_0.cut_fill]; iexact H0
  isplitl [H1]
  · iexists d1; rw [win7_1.cut_fill]; iexact H1
  · iexists _
    rw [← cut_out7 V c t d0 d1, win7_2.fill_cut]
    iexact H2

theorem body_obligation7 (c : Dev nD) : BodyObligationLoose (dat7 (F := F) V c) (defs₀ (F := F)) Variants.none () Set.univ := fun t => by
  rw [bigSep_W7, bigSep_W7]
  exact sound_body7 V c t

/-- The whole result: the two arrays added entry by entry. -/
def G7 (a0 a1 : S140000x64.Idx → Elt F .f32) : S140000x64.Idx → Elt F .f32 :=
  fun i => FloatOps.addf (a0 i) (a1 i)

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_2.xsize (grid7.coords t) (0 : Fin 2) = min 8192 (140000 - 8192 * t.val)
    ∧ win7_2.xsize (grid7.coords t) (1 : Fin 2) = 64 :=
  (by decide +kernel : ∀ t : Fin grid7.N, _)

set_option maxHeartbeats 1000000 in
/-- What point `t` writes back is block `t` of `G7` of the two arrays as the region finds them. -/
theorem flushed7_eq (c : Dev nD) (t : Fin cfg7.N) :
    (dat7 V c).flushed 2 t = ((cfg7.win 2).blk t).view.read (Elt F) (G7 (V c (Pipeline.arrRef spec7 0)) (V c (Pipeline.arrRef spec7 1))) := by
  show (cfg7.win 2).cut (grid7.coords t) ((dat7 V c).after 2 t) = _
  rw [after7_2]
  obtain ⟨e0, e1, e2, e3, e4, e5, e6, e7⟩ := idx_facts7 t
  funext j
  show out7 _ _ (win7_2.xinj (grid7.coords t) j) = G7 (V c (Pipeline.arrRef spec7 0)) (V c (Pipeline.arrRef spec7 1)) (((cfg7.win 2).blk t).view.emb j)
  have hj0 : ∀ a, ((win7_2.xinj (grid7.coords t) j) a).val < win7_0.xsize (grid7.coords t) a := fun a => (j a).isLt
  have hj1 : ∀ a, ((win7_2.xinj (grid7.coords t) j) a).val < win7_1.xsize (grid7.coords t) a := fun a => (j a).isLt
  have h0 : iblk7 V c 0 t (fun a => ⟨((win7_2.xinj (grid7.coords t) j) a).val, hj0 a⟩) = V c (Pipeline.arrRef spec7 0) (((cfg7.win 2).blk t).view.emb j) := by
    show V c (Pipeline.arrRef spec7 0) (((cfg7.win 0).blk t).view.emb j) = _
    refine congrArg (V c (Pipeline.arrRef spec7 0)) ?_
    funext a; apply Fin.ext
    match a with
    | ⟨0, _⟩ => show win7_0.index t (0 : Fin 2) * 8192 + 1 * (j 0).val = win7_2.index t (0 : Fin 2) * 8192 + 1 * (j 0).val; omega
    | ⟨1, _⟩ => show win7_0.index t (1 : Fin 2) * 64 + 1 * (j 1).val = win7_2.index t (1 : Fin 2) * 64 + 1 * (j 1).val; omega
  have h1 : iblk7 V c 1 t (fun a => ⟨((win7_2.xinj (grid7.coords t) j) a).val, hj1 a⟩) = V c (Pipeline.arrRef spec7 1) (((cfg7.win 2).blk t).view.emb j) := by
    show V c (Pipeline.arrRef spec7 1) (((cfg7.win 1).blk t).view.emb j) = _
    refine congrArg (V c (Pipeline.arrRef spec7 1)) ?_
    funext a; apply Fin.ext
    match a with
    | ⟨0, _⟩ => show win7_1.index t (0 : Fin 2) * 8192 + 1 * (j 0).val = win7_2.index t (0 : Fin 2) * 8192 + 1 * (j 0).val; omega
    | ⟨1, _⟩ => show win7_1.index t (1 : Fin 2) * 64 + 1 * (j 1).val = win7_2.index t (1 : Fin 2) * 64 + 1 * (j 1).val; omega
  rw [out7_apply, fill_of_lt win7_0 _ _ _ _ hj0, fill_of_lt win7_1 _ _ _ _ hj1, h0, h1]
  rfl

theorem mem_blk7 (t : Fin cfg7.N) (i : S140000x64.Idx) :
    i ∈ ((cfg7.win 2).blk t).view.set ↔ ∀ a : Fin 2, win7_2.index t a * S8192x64.size a ≤ (i a).val ∧ (i a).val < win7_2.index t a * S8192x64.size a + win7_2.xsize (grid7.coords t) a := by
  show i ∈ ((View.whole (Pipeline.arrRef spec7 2)).slice (win7_2.rect t)).set ↔ _
  rw [View.set_slice_whole, Rect.mem_set_unit]
  exact Iff.rfl

theorem cover7_arr (i : S140000x64.Idx) : ∃ t : Fin cfg7.N, (cfg7.win 2).flush t = true ∧ i ∈ ((cfg7.win 2).blk t).view.set := by
  have hi0 : (i 0).val < 140000 := (i 0).isLt
  have hi1 : (i 1).val < 64 := (i 1).isLt
  have hN : cfg7.N = 18 := N_7
  let t : Fin cfg7.N := ⟨(i 0).val / 8192, by rw [hN]; omega⟩
  refine ⟨t, flush7_2 t, ?_⟩
  rw [mem_blk7]
  obtain ⟨e0, e1, e2, e3, e4, e5, e6, e7⟩ := idx_facts7 t
  have ht : t.val = (i 0).val / 8192 := rfl
  intro a
  match a with
  | ⟨0, _⟩ => show win7_2.index t (0 : Fin 2) * 8192 ≤ (i 0).val ∧ (i 0).val < win7_2.index t (0 : Fin 2) * 8192 + win7_2.xsize (grid7.coords t) (0 : Fin 2); rw [e4, e6, ht]; omega
  | ⟨1, _⟩ => show win7_2.index t (1 : Fin 2) * 64 ≤ (i 1).val ∧ (i 1).val < win7_2.index t (1 : Fin 2) * 64 + win7_2.xsize (grid7.coords t) (1 : Fin 2); rw [e5, e7]; omega

/-- The result array after the region: `G7` of the two arrays as the region found them. -/
theorem final7 (c : Dev nD) : (dat7 V c).arrAt 2 cfg7.N = G7 (V c (Pipeline.arrRef spec7 0)) (V c (Pipeline.arrRef spec7 1)) :=
  (dat7 V c).arrAt_eq_of_cover 2 _ (fun t _ => flushed7_eq V c t) (cover7_arr)

end Region7

end Cert.Kernel.Hand

end
-- ==== Proof.BRegion8.lean ====
/-
  Region 8 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 8: every edge row of the gathered block times its edge weight -/

section Region8
variable (V : (c : Dev nD) → (b : Ref sig .tc) → Buf (Elt F) ((c : Thread nD τ).loc b))

/-- Window `w`'s block at point `t` — the rows of the block that lie inside the array — read off the array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev rA8 : Rect S8192x64 := Rect.unit (s := S8192x64) ![0, 0] S8192x64.size inb_S8192x64_S8192x64_0_0
abbrev rB8 : Rect S8192x1 := Rect.unit (s := S8192x1) ![0, 0] S8192x1.size inb_S8192x1_S8192x1_0_0

/-- What the body leaves in the result's buffer: its one whole-buffer store of the product of the two loaded blocks. -/
def out8 (x0 : Vec F S8192x64 .f32) (x1 : Vec F S8192x1 .f32) : Vec F S8192x64 .f32 :=
  View.canon [⟨rA8, k8_pay1 (View.ld x0 rA8) (View.ld x1 rB8)⟩]

theorem cover8 (p0 : Vec F S8192x64 .f32) (y : S8192x64.Idx) :
    ∃ pc ∈ ([⟨rA8, p0⟩] : List (View.Piece (Elt F) S8192x64 .f32)), y ∈ pc.1.set :=
  View.cover_of_tiled [⟨rA8, p0⟩] S8192x64.size (by rfl) y

set_option maxHeartbeats 1000000 in
/-- The body on whole staging buffers: the two inputs' are read and left as they were, the result's ends at `out8`. -/
theorem sound_kernel8 (c : Dev nD) (E : Set ℕ) (i : grid8.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8 x0 x1)) -∗ K ⟨⟩))
      ⊢ wp frame (wpE (defs₀ (F := F)) Variants.none c none) E (cc8__weighted_mul_kernel i arg1 harg1 arg2 harg2 arg3 harg3) K := by
  simp only [cc8__weighted_mul_kernel_eq_skeleton]; unfold cc8__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8 _)

/-- The filler past the array's end: the zero word (nothing reads it). -/
abbrev zA8 : S8192x64.Idx → Elt F .f32 := fun _ => Scalar.ofBits .f32 0#32
abbrev zB8 : S8192x1.Idx → Elt F .f32 := fun _ => Scalar.ofBits .f32 0#32

/-- The proof data: the arrays as the region finds them; after the body each input's buffer at its block (filled out past
    the array's end) and the result's at the product of the two. -/
def dat8 (c : Dev nD) : Dat τ (Elt F) Unit ℕ (UR sig nD τ) ℕ cfg8 c where
  A w := V c (Pipeline.arrRef spec8 w)
  after w t := match w with
    | ⟨0, _⟩ => win8_0.fill (grid8.coords t) zA8 (iblk8 V c 0 t)
    | ⟨1, _⟩ => win8_1.fill (grid8.coords t) zB8 (iblk8 V c 1 t)
    | ⟨2, _⟩ => out8 (win8_0.fill (grid8.coords t) zA8 (iblk8 V c 0 t)) (win8_1.fill (grid8.coords t) zB8 (iblk8 V c 1 t))
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = win8_0.fill (grid8.coords t) zA8 (iblk8 V c 0 t) := by dsimp only [dat8]
theorem after8_1 (c : Dev nD) (t : Fin cfg8.N) : (dat8 V c).after 1 t = win8_1.fill (grid8.coords t) zB8 (iblk8 V c 1 t) := by dsimp only [dat8]
theorem after8_2 (c : Dev nD) (t : Fin cfg8.N) : (dat8 V c).after 2 t
    = out8 (win8_0.fill (grid8.coords t) zA8 (iblk8 V c 0 t)) (win8_1.fill (grid8.coords t) zB8 (iblk8 V c 1 t)) := by dsimp only [dat8]

/-- Each input's buffer is fetched at every point: it holds the block on the rows inside the array, `d` elsewhere. -/
theorem before8_0 (c : Dev nD) (t : Fin cfg8.N) (d) :
    (dat8 V c).before 0 t d = win8_0.fill (grid8.coords t) d (iblk8 V c 0 t) := by
  unfold Dat.before; rw [if_pos (fetch8_0 t)]; rfl
theorem before8_1 (c : Dev nD) (t : Fin cfg8.N) (d) :
    (dat8 V c).before 1 t d = win8_1.fill (grid8.coords t) d (iblk8 V c 1 t) := by
  unfold Dat.before; rw [if_pos (fetch8_1 t)]; rfl

end Region8

section Region8b
variable (V : (c : Dev nD) → (b : Ref sig .tc) → Buf (Elt F) ((c : Thread nD τ).loc b))

/-- The product at an index depends on the first block at that index and on the weight column at that row only. -/
theorem out8_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out8 X0 X1 y = out8 X0' X1' y := by
  have hz : (![0, 0] : Fin 2 → Nat) = fun _ => 0 := funext fun a => by fin_cases a <;> rfl
  unfold out8
  rw [View.canon_unit_zero hz, View.canon_unit_zero hz]
  simp only [View.ld_unit_zero (S := S8192x64) hz, View.ld_unit_zero (S := S8192x1) hz]
  unfold k8_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out8 (c : Dev nD) (t : Fin cfg8.N) (d0 : S8192x64.Idx → Elt F .f32) (d1 : S8192x1.Idx → Elt F .f32) :
    win8_2.cut (grid8.coords t) (out8 (win8_0.fill (grid8.coords t) d0 (iblk8 V c 0 t)) (win8_1.fill (grid8.coords t) d1 (iblk8 V c 1 t)))
      = win8_2.cut (grid8.coords t) (out8 (win8_0.fill (grid8.coords t) zA8 (iblk8 V c 0 t)) (win8_1.fill (grid8.coords t) zB8 (iblk8 V c 1 t))) := by
  funext j
  refine out8_congr _ _ _ _ _ ?_ ?_
  · exact fill_irrel win8_0 (grid8.coords t) d0 zA8 _ _ (fun a => (j a).isLt)
  · intro k hk
    refine fill_irrel win8_1 (grid8.coords t) d1 zB8 _ k (fun a => ?_)
    match a with
    | ⟨0, _⟩ => exact hk ▸ (j 0).isLt
    | ⟨1, _⟩ => exact (k 1).isLt

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (∃ d, owns (c : Thread nD τ) (st8_0 t) fullShare (win8_0.fill (grid8.coords t) d (win8_0.cut (grid8.coords t) ((dat8 V c).after 0 t))))
    ∗ (∃ d, owns (c : Thread nD τ) (st8_1 t) fullShare (win8_1.fill (grid8.coords t) d (win8_1.cut (grid8.coords t) ((dat8 V c).after 1 t))))
    ∗ (∃ d, owns (c : Thread nD τ) (st8_2 t) fullShare (win8_2.fill (grid8.coords t) d (win8_2.cut (grid8.coords t) ((dat8 V c).after 2 t)))))

/-- The body at any point: the inputs' buffers hold their blocks filled out with words nothing names; the result's buffer
    ends holding the product, which on the rows inside the array is the proof data's. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  rw [before8_0 V c t d0, before8_1 V c t d1]
  iapply (sound_kernel8 c Set.univ _ _ _ _ _ _ _ (win8_0.fill (grid8.coords t) d0 (iblk8 V c 0 t)) (win8_1.fill (grid8.coords t) d1 (iblk8 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win8_0.cut_fill]; iexact H0
  isplitl [H1]
  · iexists d1; rw [win8_1.cut_fill]; iexact H1
  · iexists _
    rw [← cut_out8 V c t d0 d1, win8_2.fill_cut]
    iexact H2

theorem body_obligation8 (c : Dev nD) : BodyObligationLoose (dat8 (F := F) V c) (defs₀ (F := F)) Variants.none () Set.univ := fun t => by
  rw [bigSep_W8, bigSep_W8]
  exact sound_body8 V c t

end Region8b

section Region8c
variable (V : (c : Dev nD) → (b : Ref sig .tc) → Buf (Elt F) ((c : Thread nD τ).loc b))

/-- The body's product at an index: the first block there times the weight column's entry of that row. -/
theorem out8_apply (X0 : Vec F S8192x64 .f32) (X1 : Vec F S8192x1 .f32) (y : S8192x64.Idx) :
    out8 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out8
  rw [View.canon_unit_zero hz]
  simp only [View.ld_unit_zero (S := S8192x64) hz, View.ld_unit_zero (S := S8192x1) hz]
  unfold k8_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G8 (a0 : S1500000x64.Idx → Elt F .f32) (a1 : S1500000x1.Idx → Elt F .f32) : S1500000x64.Idx → Elt F .f32 :=
  fun i => FloatOps.mulf (a0 i) (a1 (ValueIdx.ix2 (n0 := 1500000) (n1 := 1) (i 0) 0))

/-- The printed index maps over the grid: the three windows move together, one block of rows per point, and the last
    block is cut at the array's end. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_2.xsize (grid8.coords t) (0 : Fin 2) = min 8192 (1500000 - 8192 * t.val)
    ∧ win8_2.xsize (grid8.coords t) (1 : Fin 2) = 64 :=
  (by decide +kernel : ∀ t : Fin grid8.N, _)

set_option maxHeartbeats 1000000 in
/-- What point `t` writes back is block `t` of `G8` of the two arrays as the region finds them. -/
theorem flushed8_eq (c : Dev nD) (t : Fin cfg8.N) :
    (dat8 V c).flushed 2 t = ((cfg8.win 2).blk t).view.read (Elt F) (G8 (V c (Pipeline.arrRef spec8 0)) (V c (Pipeline.arrRef spec8 1))) := by
  show (cfg8.win 2).cut (grid8.coords t) ((dat8 V c).after 2 t) = _
  rw [after8_2]
  obtain ⟨e0, e1, e2, e3, e4, e5, e6, e7⟩ := idx_facts8 t
  funext j
  show out8 _ _ (win8_2.xinj (grid8.coords t) j) = G8 (V c (Pipeline.arrRef spec8 0)) (V c (Pipeline.arrRef spec8 1)) (((cfg8.win 2).blk t).view.emb j)
  have hj0 : ∀ a, ((win8_2.xinj (grid8.coords t) j) a).val < win8_0.xsize (grid8.coords t) a := fun a => (j a).isLt
  have hk : ∀ a, ((ValueIdx.ix2 (n0 := 8192) (n1 := 1) ((win8_2.xinj (grid8.coords t) j) 0) 0 : S8192x1.Idx) a).val < win8_1.xsize (grid8.coords t) a := fun a => by
    match a with
    | ⟨0, _⟩ => exact (j 0).isLt
    | ⟨1, _⟩ => exact Nat.zero_lt_one
  have h0 : iblk8 V c 0 t (fun a => ⟨((win8_2.xinj (grid8.coords t) j) a).val, hj0 a⟩) = V c (Pipeline.arrRef spec8 0) (((cfg8.win 2).blk t).view.emb j) := by
    show V c (Pipeline.arrRef spec8 0) (((cfg8.win 0).blk t).view.emb j) = _
    refine congrArg (V c (Pipeline.arrRef spec8 0)) ?_
    funext a; apply Fin.ext
    match a with
    | ⟨0, _⟩ => show win8_0.index t (0 : Fin 2) * 8192 + 1 * (j 0).val = win8_2.index t (0 : Fin 2) * 8192 + 1 * (j 0).val; omega
    | ⟨1, _⟩ => show win8_0.index t (1 : Fin 2) * 64 + 1 * (j 1).val = win8_2.index t (1 : Fin 2) * 64 + 1 * (j 1).val; omega
  have h1 : iblk8 V c 1 t (fun a => ⟨((ValueIdx.ix2 (n0 := 8192) (n1 := 1) ((win8_2.xinj (grid8.coords t) j) 0) 0 : S8192x1.Idx) a).val, hk a⟩)
      = V c (Pipeline.arrRef spec8 1) (ValueIdx.ix2 (n0 := 1500000) (n1 := 1) ((((cfg8.win 2).blk t).view.emb j) 0) 0) := by
    show V c (Pipeline.arrRef spec8 1) (((cfg8.win 1).blk t).view.emb (fun a => ⟨((ValueIdx.ix2 (n0 := 8192) (n1 := 1) ((win8_2.xinj (grid8.coords t) j) 0) 0 : S8192x1.Idx) a).val, hk a⟩)) = _
    refine congrArg (V c (Pipeline.arrRef spec8 1)) ?_
    funext a; apply Fin.ext
    match a with
    | ⟨0, _⟩ => show win8_1.index t (0 : Fin 2) * 8192 + 1 * (j 0).val = win8_2.index t (0 : Fin 2) * 8192 + 1 * (j 0).val; omega
    | ⟨1, _⟩ => show win8_1.index t (1 : Fin 2) * 1 + 1 * 0 = 0; omega
  rw [out8_apply, fill_of_lt win8_0 _ _ _ _ hj0, fill_of_lt win8_1 _ _ _ _ hk, h0, h1]
  rfl

theorem mem_blk8 (t : Fin cfg8.N) (i : S1500000x64.Idx) :
    i ∈ ((cfg8.win 2).blk t).view.set ↔ ∀ a : Fin 2, win8_2.index t a * S8192x64.size a ≤ (i a).val ∧ (i a).val < win8_2.index t a * S8192x64.size a + win8_2.xsize (grid8.coords t) a := by
  show i ∈ ((View.whole (Pipeline.arrRef spec8 2)).slice (win8_2.rect t)).set ↔ _
  rw [View.set_slice_whole, Rect.mem_set_unit]
  exact Iff.rfl

theorem cover8_arr (i : S1500000x64.Idx) : ∃ t : Fin cfg8.N, (cfg8.win 2).flush t = true ∧ i ∈ ((cfg8.win 2).blk t).view.set := by
  have hi0 : (i 0).val < 1500000 := (i 0).isLt
  have hi1 : (i 1).val < 64 := (i 1).isLt
  have hN : cfg8.N = 184 := N_8
  let t : Fin cfg8.N := ⟨(i 0).val / 8192, by rw [hN]; omega⟩
  refine ⟨t, flush8_2 t, ?_⟩
  rw [mem_blk8]
  obtain ⟨e0, e1, e2, e3, e4, e5, e6, e7⟩ := idx_facts8 t
  have ht : t.val = (i 0).val / 8192 := rfl
  intro a
  match a with
  | ⟨0, _⟩ => show win8_2.index t (0 : Fin 2) * 8192 ≤ (i 0).val ∧ (i 0).val < win8_2.index t (0 : Fin 2) * 8192 + win8_2.xsize (grid8.coords t) (0 : Fin 2); rw [e4, e6, ht]; omega
  | ⟨1, _⟩ => show win8_2.index t (1 : Fin 2) * 64 ≤ (i 1).val ∧ (i 1).val < win8_2.index t (1 : Fin 2) * 64 + win8_2.xsize (grid8.coords t) (1 : Fin 2); rw [e5, e7]; omega

/-- The result array after the region: `G8` of the two arrays as the region found them. -/
theorem final8 (c : Dev nD) : (dat8 V c).arrAt 2 cfg8.N = G8 (V c (Pipeline.arrRef spec8 0)) (V c (Pipeline.arrRef spec8 1)) :=
  (dat8 V c).arrAt_eq_of_cover 2 _ (fun t _ => flushed8_eq V c t) (cover8_arr)

end Region8c

end Cert.Kernel.Hand

end
-- ==== Proof.BRegion9.lean ====
/-
  Region 9 of the program: the entrywise sum of two arrays of embedding rows.  The arrays are cut into blocks of 8192 rows
  and the last block overhangs the array; the rows of a staging buffer past the array's end hold words nothing names, and
  the result on the rows inside the array does not depend on them because the sum is taken entry by entry.  After all
  points the result array holds the sum of the two arrays at every index.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 9: the running sum of the layers plus the newly propagated layer, row by row -/

section Region9
variable (V : (c : Dev nD) → (b : Ref sig .tc) → Buf (Elt F) ((c : Thread nD τ).loc b))

/-- Window `w`'s block at point `t` — the rows of the block that lie inside the array — read off the array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev rA9 : Rect S8192x64 := Rect.unit (s := S8192x64) ![0, 0] S8192x64.size inb_S8192x64_S8192x64_0_0

/-- What the body leaves in the result's buffer: its one whole-buffer store of the sum of the two loaded blocks. -/
def out9 (x0 : Vec F S8192x64 .f32) (x1 : Vec F S8192x64 .f32) : Vec F S8192x64 .f32 :=
  View.canon [⟨rA9, k9_pay1 (View.ld x0 rA9) (View.ld x1 rA9)⟩]

theorem cover9 (p0 : Vec F S8192x64 .f32) (y : S8192x64.Idx) :
    ∃ pc ∈ ([⟨rA9, p0⟩] : List (View.Piece (Elt F) S8192x64 .f32)), y ∈ pc.1.set :=
  View.cover_of_tiled [⟨rA9, p0⟩] S8192x64.size (by rfl) y

set_option maxHeartbeats 1000000 in
/-- The body on whole staging buffers: the two inputs' are read and left as they were, the result's ends at `out9`. -/
theorem sound_kernel9 (c : Dev nD) (E : Set ℕ) (i : grid9.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole)
    (x0 : Vec F S8192x64 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9 x0 x1)) -∗ K ⟨⟩))
      ⊢ wp frame (wpE (defs₀ (F := F)) Variants.none c none) E (cc9__add_kernel i arg1 harg1 arg2 harg2 arg3 harg3) K := by
  simp only [cc9__add_kernel_eq_skeleton]; unfold cc9__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9 _)

/-- The filler past the array's end: the zero word (nothing reads it). -/
abbrev zA9 : S8192x64.Idx → Elt F .f32 := fun _ => Scalar.ofBits .f32 0#32

/-- The body's sum at an index is the sum of the two blocks there. -/
theorem out9_apply (X0 X1 : Vec F S8192x64 .f32) (y : S8192x64.Idx) :
    out9 X0 X1 y = FloatOps.addf (X0 y) (X1 y) := by
  have hz : (![0, 0] : Fin 2 → Nat) = fun _ => 0 := funext fun a => by fin_cases a <;> rfl
  unfold out9
  rw [View.canon_unit_zero hz]
  simp only [View.ld_unit_zero (S := S8192x64) hz]
  unfold k9_pay1
  simp only [shapeCast_self]
  rfl

/-- The proof data: the arrays as the region finds them; after the body each input's buffer at its block (filled out past
    the array's end) and the result's at the sum of the two. -/
def dat9 (c : Dev nD) : Dat τ (Elt F) Unit ℕ (UR sig nD τ) ℕ cfg9 c where
  A w := V c (Pipeline.arrRef spec9 w)
  after w t := match w with
    | ⟨0, _⟩ => win9_0.fill (grid9.coords t) zA9 (iblk9 V c 0 t)
    | ⟨1, _⟩ => win9_1.fill (grid9.coords t) zA9 (iblk9 V c 1 t)
    | ⟨2, _⟩ => out9 (win9_0.fill (grid9.coords t) zA9 (iblk9 V c 0 t)) (win9_1.fill (grid9.coords t) zA9 (iblk9 V c 1 t))
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = win9_0.fill (grid9.coords t) zA9 (iblk9 V c 0 t) := by dsimp only [dat9]
theorem after9_1 (c : Dev nD) (t : Fin cfg9.N) : (dat9 V c).after 1 t = win9_1.fill (grid9.coords t) zA9 (iblk9 V c 1 t) := by dsimp only [dat9]
theorem after9_2 (c : Dev nD) (t : Fin cfg9.N) : (dat9 V c).after 2 t
    = out9 (win9_0.fill (grid9.coords t) zA9 (iblk9 V c 0 t)) (win9_1.fill (grid9.coords t) zA9 (iblk9 V c 1 t)) := by dsimp only [dat9]

theorem before9_0 (c : Dev nD) (t : Fin cfg9.N) (d) :
    (dat9 V c).before 0 t d = win9_0.fill (grid9.coords t) d (iblk9 V c 0 t) := by
  unfold Dat.before; rw [if_pos (fetch9_0 t)]; rfl
theorem before9_1 (c : Dev nD) (t : Fin cfg9.N) (d) :
    (dat9 V c).before 1 t d = win9_1.fill (grid9.coords t) d (iblk9 V c 1 t) := by
  unfold Dat.before; rw [if_pos (fetch9_1 t)]; rfl

/-- On the rows inside the array the result's buffer does not see what filled the inputs' buffers past the array's end. -/
theorem cut_out9 (c : Dev nD) (t : Fin cfg9.N) (d0 d1 : S8192x64.Idx → Elt F .f32) :
    win9_2.cut (grid9.coords t) (out9 (win9_0.fill (grid9.coords t) d0 (iblk9 V c 0 t)) (win9_1.fill (grid9.coords t) d1 (iblk9 V c 1 t)))
      = win9_2.cut (grid9.coords t) (out9 (win9_0.fill (grid9.coords t) zA9 (iblk9 V c 0 t)) (win9_1.fill (grid9.coords t) zA9 (iblk9 V c 1 t))) := by
  funext j
  show out9 _ _ (win9_2.xinj (grid9.coords t) j) = out9 _ _ (win9_2.xinj (grid9.coords t) j)
  rw [out9_apply, out9_apply,
    fill_irrel win9_0 (grid9.coords t) d0 zA9 _ _ (fun a => (j a).isLt),
    fill_irrel win9_1 (grid9.coords t) d1 zA9 _ _ (fun a => (j a).isLt)]

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ (∃ d, owns (c : Thread nD τ) (st9_0 t) fullShare (win9_0.fill (grid9.coords t) d (win9_0.cut (grid9.coords t) ((dat9 V c).after 0 t))))
    ∗ (∃ d, owns (c : Thread nD τ) (st9_1 t) fullShare (win9_1.fill (grid9.coords t) d (win9_1.cut (grid9.coords t) ((dat9 V c).after 1 t))))
    ∗ (∃ d, owns (c : Thread nD τ) (st9_2 t) fullShare (win9_2.fill (grid9.coords t) d (win9_2.cut (grid9.coords t) ((dat9 V c).after 2 t)))))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  rw [before9_0 V c t d0, before9_1 V c t d1]
  iapply (sound_kernel9 c Set.univ _ _ _ _ _ _ _ (win9_0.fill (grid9.coords t) d0 (iblk9 V c 0 t)) (win9_1.fill (grid9.coords t) d1 (iblk9 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win9_0.cut_fill]; iexact H0
  isplitl [H1]
  · iexists d1; rw [win9_1.cut_fill]; iexact H1
  · iexists _
    rw [← cut_out9 V c t d0 d1, win9_2.fill_cut]
    iexact H2

theorem body_obligation9 (c : Dev nD) : BodyObligationLoose (dat9 (F := F) V c) (defs₀ (F := F)) Variants.none () Set.univ := fun t => by
  rw [bigSep_W9, bigSep_W9]
  exact sound_body9 V c t

/-- The whole result: the two arrays added entry by entry. -/
def G9 (a0 a1 : S140000x64.Idx → Elt F .f32) : S140000x64.Idx → Elt F .f32 :=
  fun i => FloatOps.addf (a0 i) (a1 i)

theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_2.xsize (grid9.coords t) (0 : Fin 2) = min 8192 (140000 - 8192 * t.val)
    ∧ win9_2.xsize (grid9.coords t) (1 : Fin 2) = 64 :=
  (by decide +kernel : ∀ t : Fin grid9.N, _)

set_option maxHeartbeats 1000000 in
/-- What point `t` writes back is block `t` of `G9` of the two arrays as the region finds them. -/
theorem flushed9_eq (c : Dev nD) (t : Fin cfg9.N) :
    (dat9 V c).flushed 2 t = ((cfg9.win 2).blk t).view.read (Elt F) (G9 (V c (Pipeline.arrRef spec9 0)) (V c (Pipeline.arrRef spec9 1))) := by
  show (cfg9.win 2).cut (grid9.coords t) ((dat9 V c).after 2 t) = _
  rw [after9_2]
  obtain ⟨e0, e1, e2, e3, e4, e5, e6, e7⟩ := idx_facts9 t
  funext j
  show out9 _ _ (win9_2.xinj (grid9.coords t) j) = G9 (V c (Pipeline.arrRef spec9 0)) (V c (Pipeline.arrRef spec9 1)) (((cfg9.win 2).blk t).view.emb j)
  have hj0 : ∀ a, ((win9_2.xinj (grid9.coords t) j) a).val < win9_0.xsize (grid9.coords t) a := fun a => (j a).isLt
  have hj1 : ∀ a, ((win9_2.xinj (grid9.coords t) j) a).val < win9_1.xsize (grid9.coords t) a := fun a => (j a).isLt
  have h0 : iblk9 V c 0 t (fun a => ⟨((win9_2.xinj (grid9.coords t) j) a).val, hj0 a⟩) = V c (Pipeline.arrRef spec9 0) (((cfg9.win 2).blk t).view.emb j) := by
    show V c (Pipeline.arrRef spec9 0) (((cfg9.win 0).blk t).view.emb j) = _
    refine congrArg (V c (Pipeline.arrRef spec9 0)) ?_
    funext a; apply Fin.ext
    match a with
    | ⟨0, _⟩ => show win9_0.index t (0 : Fin 2) * 8192 + 1 * (j 0).val = win9_2.index t (0 : Fin 2) * 8192 + 1 * (j 0).val; omega
    | ⟨1, _⟩ => show win9_0.index t (1 : Fin 2) * 64 + 1 * (j 1).val = win9_2.index t (1 : Fin 2) * 64 + 1 * (j 1).val; omega
  have h1 : iblk9 V c 1 t (fun a => ⟨((win9_2.xinj (grid9.coords t) j) a).val, hj1 a⟩) = V c (Pipeline.arrRef spec9 1) (((cfg9.win 2).blk t).view.emb j) := by
    show V c (Pipeline.arrRef spec9 1) (((cfg9.win 1).blk t).view.emb j) = _
    refine congrArg (V c (Pipeline.arrRef spec9 1)) ?_
    funext a; apply Fin.ext
    match a with
    | ⟨0, _⟩ => show win9_1.index t (0 : Fin 2) * 8192 + 1 * (j 0).val = win9_2.index t (0 : Fin 2) * 8192 + 1 * (j 0).val; omega
    | ⟨1, _⟩ => show win9_1.index t (1 : Fin 2) * 64 + 1 * (j 1).val = win9_2.index t (1 : Fin 2) * 64 + 1 * (j 1).val; omega
  rw [out9_apply, fill_of_lt win9_0 _ _ _ _ hj0, fill_of_lt win9_1 _ _ _ _ hj1, h0, h1]
  rfl

theorem mem_blk9 (t : Fin cfg9.N) (i : S140000x64.Idx) :
    i ∈ ((cfg9.win 2).blk t).view.set ↔ ∀ a : Fin 2, win9_2.index t a * S8192x64.size a ≤ (i a).val ∧ (i a).val < win9_2.index t a * S8192x64.size a + win9_2.xsize (grid9.coords t) a := by
  show i ∈ ((View.whole (Pipeline.arrRef spec9 2)).slice (win9_2.rect t)).set ↔ _
  rw [View.set_slice_whole, Rect.mem_set_unit]
  exact Iff.rfl

theorem cover9_arr (i : S140000x64.Idx) : ∃ t : Fin cfg9.N, (cfg9.win 2).flush t = true ∧ i ∈ ((cfg9.win 2).blk t).view.set := by
  have hi0 : (i 0).val < 140000 := (i 0).isLt
  have hi1 : (i 1).val < 64 := (i 1).isLt
  have hN : cfg9.N = 18 := N_9
  let t : Fin cfg9.N := ⟨(i 0).val / 8192, by rw [hN]; omega⟩
  refine ⟨t, flush9_2 t, ?_⟩
  rw [mem_blk9]
  obtain ⟨e0, e1, e2, e3, e4, e5, e6, e7⟩ := idx_facts9 t
  have ht : t.val = (i 0).val / 8192 := rfl
  intro a
  match a with
  | ⟨0, _⟩ => show win9_2.index t (0 : Fin 2) * 8192 ≤ (i 0).val ∧ (i 0).val < win9_2.index t (0 : Fin 2) * 8192 + win9_2.xsize (grid9.coords t) (0 : Fin 2); rw [e4, e6, ht]; omega
  | ⟨1, _⟩ => show win9_2.index t (1 : Fin 2) * 64 ≤ (i 1).val ∧ (i 1).val < win9_2.index t (1 : Fin 2) * 64 + win9_2.xsize (grid9.coords t) (1 : Fin 2); rw [e5, e7]; omega

/-- The result array after the region: `G9` of the two arrays as the region found them. -/
theorem final9 (c : Dev nD) : (dat9 V c).arrAt 2 cfg9.N = G9 (V c (Pipeline.arrRef spec9 0)) (V c (Pipeline.arrRef spec9 1)) :=
  (dat9 V c).arrAt_eq_of_cover 2 _ (fun t _ => flushed9_eq V c t) (cover9_arr)

end Region9

end Cert.Kernel.Hand

end
-- ==== Proof.BRegion10.lean ====
/-
  Region 10 of the program at any reading of the floating-point operations: a quarter of the summed layers plus each
  propagated row divided by its Euclidean length.  The arrays are cut into blocks of 8192 rows and the last block overhangs
  the array; the rows of a staging buffer past the array's end hold words nothing names.  The sum of squares along a row
  is taken by one reduction of the whole block, so nothing is claimed here of what the body leaves in the result's buffer:
  that window is forgotten.  What is proved is that the body runs from the two inputs' buffers at their blocks (filled out
  with any words) and leaves those two as it found them.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open scoped BigOperators

/-! ## Region 10: a quarter of the summed layers plus each propagated row divided by its length (floored by a tiny constant) -/

section Region10
variable {F : FTy → Type} [FloatOps F]

abbrev rA10 : Rect S8192x64 := Rect.unit (s := S8192x64) ![0, 0] S8192x64.size inb_S8192x64_S8192x64_0_0

/-- What the body leaves in the result's buffer from the block of summed layers `x0` and the block of propagated rows `x1`. -/
def out10 (x0 : Vec F S8192x64 .f32) (x1 : Vec F S8192x64 .f32) : Vec F S8192x64 .f32 :=
  View.canon [⟨rA10, k10_pay1 (View.ld x1 rA10) (View.ld x0 rA10)⟩]

theorem cover10 (p0 : Vec F S8192x64 .f32) (y : S8192x64.Idx) :
    ∃ pc ∈ ([⟨rA10, p0⟩] : List (View.Piece (Elt F) S8192x64 .f32)), y ∈ pc.1.set :=
  View.cover_of_tiled [⟨rA10, p0⟩] S8192x64.size (by rfl) y

set_option maxHeartbeats 1000000 in
/-- The body on whole staging buffers: the two inputs' are read and left as they were, the result's ends at `out10`. -/
theorem sound_kernel10 (c : Dev nD) (E : Set ℕ) (i : grid10.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole)
    (x0 : Vec F S8192x64 .f32) (x1 : Vec F S8192x64 .f32) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out10 x0 x1)) -∗ K ⟨⟩))
      ⊢ wp frame (wpE (defs₀ (F := F)) Variants.none c none) E (cc10__norm_add_kernel i arg1 harg1 arg2 harg2 arg3 harg3) K := by
  simp only [cc10__norm_add_kernel_eq_skeleton]; unfold cc10__norm_add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10 _)

end Region10

section Region10f
variable {F : FTy → Type} [FloatOps F]
variable (V : (c : Dev nD) → (b : Ref sig .tc) → Buf (Elt F) ((c : Thread nD τ).loc b))

local notation "𝕄" => MT nD τ sig Unit (Elt F) ℕ (UR sig nD τ) ℕ

/-- Window `w`'s block at point `t` — the rows of the block that lie inside the array — read off the array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The filler past the array's end: the zero word (nothing reads it). -/
abbrev zA10 : S8192x64.Idx → Elt F .f32 := fun _ => Scalar.ofBits .f32 0#32

/-- The result's window is forgotten: nothing is said of what the body leaves in its buffer. -/
def fgt10 : Fin cfg10.W → Bool
  | ⟨0, _⟩ => false
  | ⟨1, _⟩ => false
  | ⟨2, _⟩ => true

/-- The proof data: the arrays as the region finds them; after the body each input's buffer at its block (filled out past
    the array's end). The entry for the result's window is never read. -/
def dat10 (c : Dev nD) : Dat τ (Elt F) Unit ℕ (UR sig nD τ) ℕ cfg10 c where
  A w := V c (Pipeline.arrRef spec10 w)
  after w t := match w with
    | ⟨0, _⟩ => win10_0.fill (grid10.coords t) zA10 (iblk10 V c 0 t)
    | ⟨1, _⟩ => win10_1.fill (grid10.coords t) zA10 (iblk10 V c 1 t)
    | ⟨2, _⟩ => zA10
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = win10_0.fill (grid10.coords t) zA10 (iblk10 V c 0 t) := by dsimp only [dat10]
theorem after10_1 (c : Dev nD) (t : Fin cfg10.N) : (dat10 V c).after 1 t = win10_1.fill (grid10.coords t) zA10 (iblk10 V c 1 t) := by dsimp only [dat10]

theorem before10_0 (c : Dev nD) (t : Fin cfg10.N) (d) :
    (dat10 V c).before 0 t d = win10_0.fill (grid10.coords t) d (iblk10 V c 0 t) := by
  unfold Dat.before; rw [if_pos (fetch10_0 t)]; rfl
theorem before10_1 (c : Dev nD) (t : Fin cfg10.N) (d) :
    (dat10 V c).before 1 t d = win10_1.fill (grid10.coords t) d (iblk10 V c 1 t) := by
  unfold Dat.before; rw [if_pos (fetch10_1 t)]; rfl

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ X, owns (c : Thread nD τ) (st10_2 t) fullShare X))

def bodyPost10 (c : Dev nD) (t : Fin cfg10.N) : sProp 𝕄 :=
  iprop((dat10 V c).Φ t.succ ∗ (dat10 V c).owesAt () t.succ
    ∗ (∃ d, owns (c : Thread nD τ) (st10_0 t) fullShare (win10_0.fill (grid10.coords t) d (win10_0.cut (grid10.coords t) ((dat10 V c).after 0 t))))
    ∗ (∃ d, owns (c : Thread nD τ) (st10_1 t) fullShare (win10_1.fill (grid10.coords t) d (win10_1.cut (grid10.coords t) ((dat10 V c).after 1 t))))
    ∗ (∃ X, owns (c : Thread nD τ) (st10_2 t) fullShare X))

/-- The body at any point: the inputs' buffers hold their blocks filled out with words nothing names and are left so; the
    result's buffer is handed over at any contents and taken back at any. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  rw [show (dat10 V c).Φ t.succ = (dat10 V c).Φ t.castSucc from rfl,
    show (dat10 V c).owesAt () t.succ = (dat10 V c).owesAt () t.castSucc from rfl,
    after10_0, after10_1]
  iintro ⟨HΦ, Ho, ⟨%d0, H0⟩, ⟨%d1, H1⟩, ⟨%d2, H2⟩⟩
  rw [before10_0 V c t d0, before10_1 V c t d1]
  iapply (sound_kernel10 (F := F) c Set.univ _ _ _ _ _ _ _ (win10_0.fill (grid10.coords t) d0 (iblk10 V c 0 t)) (win10_1.fill (grid10.coords t) d1 (iblk10 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win10_0.cut_fill]; iexact H0
  isplitl [H1]
  · iexists d1; rw [win10_1.cut_fill]; iexact H1
  · iexists _; iexact H2

theorem body_obligation10 (c : Dev nD) : BodyObligationLoose (dat10 (F := F) V c) (defs₀ (F := F)) Variants.none () Set.univ fgt10 := fun t => by
  rw [bigSep_W10, bigSep_W10]
  exact sound_body10 V c t

end Region10f

end Cert.Kernel.Hand

end
-- ==== Proof.BRegion11.lean ====
/-
  Region 11 of the program at any reading of the floating-point operations: a quarter of the summed layers plus each
  propagated row divided by its Euclidean length.  The arrays are cut into blocks of 8192 rows and the last block overhangs
  the array; the rows of a staging buffer past the array's end hold words nothing names.  The sum of squares along a row
  is taken by one reduction of the whole block, so nothing is claimed here of what the body leaves in the result's buffer:
  that window is forgotten.  What is proved is that the body runs from the two inputs' buffers at their blocks (filled out
  with any words) and leaves those two as it found them.
-/
import proofs.«177237_j55430847922201_2_alg».proof.Proof.Gen.Kernel.Launch
import proofs.«177237_j55430847922201_2_alg».proof.Proof.Gen.Kernel.Skeleton
import proofs.«177237_j55430847922201_2_alg».proof.Proof.Gen.Kernel.Points
import proofs.«177237_j55430847922201_2_alg».proof.Proof.BClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open scoped BigOperators

/-! ## Region 11: a quarter of the summed layers plus each propagated row divided by its length (floored by a tiny constant) -/

section Region11
variable {F : FTy → Type} [FloatOps F]

abbrev rA11 : Rect S8192x64 := Rect.unit (s := S8192x64) ![0, 0] S8192x64.size inb_S8192x64_S8192x64_0_0

/-- What the body leaves in the result's buffer from the block of summed layers `x0` and the block of propagated rows `x1`. -/
def out11 (x0 : Vec F S8192x64 .f32) (x1 : Vec F S8192x64 .f32) : Vec F S8192x64 .f32 :=
  View.canon [⟨rA11, k11_pay1 (View.ld x1 rA11) (View.ld x0 rA11)⟩]

theorem cover11 (p0 : Vec F S8192x64 .f32) (y : S8192x64.Idx) :
    ∃ pc ∈ ([⟨rA11, p0⟩] : List (View.Piece (Elt F) S8192x64 .f32)), y ∈ pc.1.set :=
  View.cover_of_tiled [⟨rA11, p0⟩] S8192x64.size (by rfl) y

set_option maxHeartbeats 1000000 in
/-- The body on whole staging buffers: the two inputs' are read and left as they were, the result's ends at `out11`. -/
theorem sound_kernel11 (c : Dev nD) (E : Set ℕ) (i : grid11.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole)
    (x0 : Vec F S8192x64 .f32) (x1 : Vec F S8192x64 .f32) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out11 x0 x1)) -∗ K ⟨⟩))
      ⊢ wp frame (wpE (defs₀ (F := F)) Variants.none c none) E (cc11__norm_add_kernel i arg1 harg1 arg2 harg2 arg3 harg3) K := by
  simp only [cc11__norm_add_kernel_eq_skeleton]; unfold cc11__norm_add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11 _)

end Region11

section Region11f
variable {F : FTy → Type} [FloatOps F]
variable (V : (c : Dev nD) → (b : Ref sig .tc) → Buf (Elt F) ((c : Thread nD τ).loc b))

local notation "𝕄" => MT nD τ sig Unit (Elt F) ℕ (UR sig nD τ) ℕ

/-- Window `w`'s block at point `t` — the rows of the block that lie inside the array — read off the array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The filler past the array's end: the zero word (nothing reads it). -/
abbrev zA11 : S8192x64.Idx → Elt F .f32 := fun _ => Scalar.ofBits .f32 0#32

/-- The result's window is forgotten: nothing is said of what the body leaves in its buffer. -/
def fgt11 : Fin cfg11.W → Bool
  | ⟨0, _⟩ => false
  | ⟨1, _⟩ => false
  | ⟨2, _⟩ => true

/-- The proof data: the arrays as the region finds them; after the body each input's buffer at its block (filled out past
    the array's end). The entry for the result's window is never read. -/
def dat11 (c : Dev nD) : Dat τ (Elt F) Unit ℕ (UR sig nD τ) ℕ cfg11 c where
  A w := V c (Pipeline.arrRef spec11 w)
  after w t := match w with
    | ⟨0, _⟩ => win11_0.fill (grid11.coords t) zA11 (iblk11 V c 0 t)
    | ⟨1, _⟩ => win11_1.fill (grid11.coords t) zA11 (iblk11 V c 1 t)
    | ⟨2, _⟩ => zA11
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = win11_0.fill (grid11.coords t) zA11 (iblk11 V c 0 t) := by dsimp only [dat11]
theorem after11_1 (c : Dev nD) (t : Fin cfg11.N) : (dat11 V c).after 1 t = win11_1.fill (grid11.coords t) zA11 (iblk11 V c 1 t) := by dsimp only [dat11]

theorem before11_0 (c : Dev nD) (t : Fin cfg11.N) (d) :
    (dat11 V c).before 0 t d = win11_0.fill (grid11.coords t) d (iblk11 V c 0 t) := by
  unfold Dat.before; rw [if_pos (fetch11_0 t)]; rfl
theorem before11_1 (c : Dev nD) (t : Fin cfg11.N) (d) :
    (dat11 V c).before 1 t d = win11_1.fill (grid11.coords t) d (iblk11 V c 1 t) := by
  unfold Dat.before; rw [if_pos (fetch11_1 t)]; rfl

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ X, owns (c : Thread nD τ) (st11_2 t) fullShare X))

def bodyPost11 (c : Dev nD) (t : Fin cfg11.N) : sProp 𝕄 :=
  iprop((dat11 V c).Φ t.succ ∗ (dat11 V c).owesAt () t.succ
    ∗ (∃ d, owns (c : Thread nD τ) (st11_0 t) fullShare (win11_0.fill (grid11.coords t) d (win11_0.cut (grid11.coords t) ((dat11 V c).after 0 t))))
    ∗ (∃ d, owns (c : Thread nD τ) (st11_1 t) fullShare (win11_1.fill (grid11.coords t) d (win11_1.cut (grid11.coords t) ((dat11 V c).after 1 t))))
    ∗ (∃ X, owns (c : Thread nD τ) (st11_2 t) fullShare X))

/-- The body at any point: the inputs' buffers hold their blocks filled out with words nothing names and are left so; the
    result's buffer is handed over at any contents and taken back at any. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [show (dat11 V c).Φ t.succ = (dat11 V c).Φ t.castSucc from rfl,
    show (dat11 V c).owesAt () t.succ = (dat11 V c).owesAt () t.castSucc from rfl,
    after11_0, after11_1]
  iintro ⟨HΦ, Ho, ⟨%d0, H0⟩, ⟨%d1, H1⟩, ⟨%d2, H2⟩⟩
  rw [before11_0 V c t d0, before11_1 V c t d1]
  iapply (sound_kernel11 (F := F) c Set.univ _ _ _ _ _ _ _ (win11_0.fill (grid11.coords t) d0 (iblk11 V c 0 t)) (win11_1.fill (grid11.coords t) d1 (iblk11 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win11_0.cut_fill]; iexact H0
  isplitl [H1]
  · iexists d1; rw [win11_1.cut_fill]; iexact H1
  · iexists _; iexact H2

theorem body_obligation11 (c : Dev nD) : BodyObligationLoose (dat11 (F := F) V c) (defs₀ (F := F)) Variants.none () Set.univ fgt11 := fun t => by
  rw [bigSep_W11, bigSep_W11]
  exact sound_body11 V c t

end Region11f

end Cert.Kernel.Hand

end
-- ==== Proof.BFold.lean ====
/-
  The buffers' contents at each boundary of the program, at any reading of the floating-point operations.  @main is twelve
  kernel regions among stretches of host operations.  The contents are a fold from the launch memory: a stretch applies its
  operations, a region replaces its result array by what its write-backs leave and keeps everything else.  For regions 0
  to 9 what the write-backs leave is named by the regions' proof data.  Of the result arrays of regions 10 and 11 nothing is
  named: the contents after them are written over two unknowns.  No boundary changes an argument array.
-/
import proofs.«177237_j55430847922201_2_alg».proof.Proof.Gen.Kernel.Regions
import proofs.«177237_j55430847922201_2_alg».proof.Proof.BRegion0
import proofs.«177237_j55430847922201_2_alg».proof.Proof.BRegion1
import proofs.«177237_j55430847922201_2_alg».proof.Proof.BRegion2
import proofs.«177237_j55430847922201_2_alg».proof.Proof.BRegion3
import proofs.«177237_j55430847922201_2_alg».proof.Proof.BRegion4
import proofs.«177237_j55430847922201_2_alg».proof.Proof.BRegion5
import proofs.«177237_j55430847922201_2_alg».proof.Proof.BRegion6
import proofs.«177237_j55430847922201_2_alg».proof.Proof.BRegion7
import proofs.«177237_j55430847922201_2_alg».proof.Proof.BRegion8
import proofs.«177237_j55430847922201_2_alg».proof.Proof.BRegion9
import proofs.«177237_j55430847922201_2_alg».proof.Proof.BRegion10
import proofs.«177237_j55430847922201_2_alg».proof.Proof.BRegion11
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The buffers' contents at each boundary of @main: a fold from the launch memory -/

section Fold
variable (m : (ℓ : Loc nD τ sig) → Buf (Elt F) ℓ)

/-- Core `c`'s buffers at launch. -/
abbrev W0 (c : Dev nD) : Valuation τ sig (Elt F) := fun b => m (c, b)
/-- After the host operations before region 0. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h
/-- After region 0: its result array at what the write-backs leave, every other buffer as entered. -/
def W2 (c : Dev nD) : Valuation τ sig (Elt F) := Function.update (W1 m c) main_v8 ((dat0 (U1 m) c).arrAt 2 cfg0.N)
abbrev U2 : (c : Dev nD) → (b : Ref sig .tc) → Buf (Elt F) ((c : Thread nD τ).loc b) := fun c b => W2 m c b
theorem W2_out (c : Dev nD) : W2 m c main_v8 = (dat0 (U1 m) c).arrAt 2 cfg0.N := by
  unfold W2; exact Function.update_self _ _ _
theorem W2_of (c : Dev nD) (r : Ref sig .tc) (h : r ∉ ([main_v8] : List (Ref sig .tc))) : W2 m c r = W1 m c r := by
  unfold W2
  exact Function.update_of_ne (StableHlo.devRef_ne_of_ne (List.ne_of_not_mem_cons h) : (Proc.devRef .tc r : DevRef τ sig) ≠ Proc.devRef .tc main_v8) _ _
/-- At region 0's exit each of its arrays holds what the pipeline leaves, and every other buffer what it held at entry. -/
theorem hF0 (c : Dev nD) (w : Fin cfg0.W) : (dat0 (U1 m) c).arrAt w cfg0.N = U2 m c (Pipeline.arrRef spec0 w) := by
  match w with
  | ⟨0, _⟩ => exact ((dat0 (U1 m) c).arrAt_in 0 rfl _).trans ((A_eq0 (U1 m) c 0).trans (W2_of m c _ (by decide)).symm)
  | ⟨1, _⟩ => exact ((dat0 (U1 m) c).arrAt_in 1 rfl _).trans ((A_eq0 (U1 m) c 1).trans (W2_of m c _ (by decide)).symm)
  | ⟨2, _⟩ => exact (W2_out m c).symm
theorem hrest0 (c : Dev nD) : ∀ b, b ∉ Finset.univ.image (Pipeline.arrRef spec0) → U2 m c b = U1 m c b :=
  fun b hb => W2_of m c b (fun hm => hb (Finset.mem_image.mpr ⟨2, Finset.mem_univ _, (List.mem_singleton.mp hm).symm⟩))
/-- After the host operations before region 1. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
theorem W3_of (c : Dev nD) (r : Ref sig .tc) (h : r ∉ hostOps1_W) : W3 m c r = W2 m c r :=
  StableHlo.after_of_writes_sub hostOps1 _ hostOps1_writes h
/-- After region 1: its result array at what the write-backs leave, every other buffer as entered. -/
def W4 (c : Dev nD) : Valuation τ sig (Elt F) := Function.update (W3 m c) main_v20 ((dat1 (U3 m) c).arrAt 2 cfg1.N)
abbrev U4 : (c : Dev nD) → (b : Ref sig .tc) → Buf (Elt F) ((c : Thread nD τ).loc b) := fun c b => W4 m c b
theorem W4_out (c : Dev nD) : W4 m c main_v20 = (dat1 (U3 m) c).arrAt 2 cfg1.N := by
  unfold W4; exact Function.update_self _ _ _
theorem W4_of (c : Dev nD) (r : Ref sig .tc) (h : r ∉ ([main_v20] : List (Ref sig .tc))) : W4 m c r = W3 m c r := by
  unfold W4
  exact Function.update_of_ne (StableHlo.devRef_ne_of_ne (List.ne_of_not_mem_cons h) : (Proc.devRef .tc r : DevRef τ sig) ≠ Proc.devRef .tc main_v20) _ _
/-- At region 1's exit each of its arrays holds what the pipeline leaves, and every other buffer what it held at entry. -/
theorem hF1 (c : Dev nD) (w : Fin cfg1.W) : (dat1 (U3 m) c).arrAt w cfg1.N = U4 m c (Pipeline.arrRef spec1 w) := by
  match w with
  | ⟨0, _⟩ => exact ((dat1 (U3 m) c).arrAt_in 0 rfl _).trans ((A_eq1 (U3 m) c 0).trans (W4_of m c _ (by decide)).symm)
  | ⟨1, _⟩ => exact ((dat1 (U3 m) c).arrAt_in 1 rfl _).trans ((A_eq1 (U3 m) c 1).trans (W4_of m c _ (by decide)).symm)
  | ⟨2, _⟩ => exact (W4_out m c).symm
theorem hrest1 (c : Dev nD) : ∀ b, b ∉ Finset.univ.image (Pipeline.arrRef spec1) → U4 m c b = U3 m c b :=
  fun b hb => W4_of m c b (fun hm => hb (Finset.mem_image.mpr ⟨2, Finset.mem_univ _, (List.mem_singleton.mp hm).symm⟩))
/-- After the host operations before region 2. -/
abbrev W5 (c : Dev nD) : Valuation τ sig (Elt F) := StableHlo.after hostOps2 (W4 m c)
abbrev U5 : (c : Dev nD) → (b : Ref sig .tc) → Buf (Elt F) ((c : Thread nD τ).loc b) := fun c b => W5 m c b
theorem W5_of (c : Dev nD) (r : Ref sig .tc) (h : r ∉ hostOps2_W) : W5 m c r = W4 m c r :=
  StableHlo.after_of_writes_sub hostOps2 _ hostOps2_writes h
/-- After region 2: its result array at what the write-backs leave, every other buffer as entered. -/
def W6 (c : Dev nD) : Valuation τ sig (Elt F) := Function.update (W5 m c) main_v32 ((dat2 (U5 m) c).arrAt 2 cfg2.N)
abbrev U6 : (c : Dev nD) → (b : Ref sig .tc) → Buf (Elt F) ((c : Thread nD τ).loc b) := fun c b => W6 m c b
theorem W6_out (c : Dev nD) : W6 m c main_v32 = (dat2 (U5 m) c).arrAt 2 cfg2.N := by
  unfold W6; exact Function.update_self _ _ _
theorem W6_of (c : Dev nD) (r : Ref sig .tc) (h : r ∉ ([main_v32] : List (Ref sig .tc))) : W6 m c r = W5 m c r := by
  unfold W6
  exact Function.update_of_ne (StableHlo.devRef_ne_of_ne (List.ne_of_not_mem_cons h) : (Proc.devRef .tc r : DevRef τ sig) ≠ Proc.devRef .tc main_v32) _ _
/-- At region 2's exit each of its arrays holds what the pipeline leaves, and every other buffer what it held at entry. -/
theorem hF2 (c : Dev nD) (w : Fin cfg2.W) : (dat2 (U5 m) c).arrAt w cfg2.N = U6 m c (Pipeline.arrRef spec2 w) := by
  match w with
  | ⟨0, _⟩ => exact ((dat2 (U5 m) c).arrAt_in 0 rfl _).trans ((A_eq2 (U5 m) c 0).trans (W6_of m c _ (by decide)).symm)
  | ⟨1, _⟩ => exact ((dat2 (U5 m) c).arrAt_in 1 rfl _).trans ((A_eq2 (U5 m) c 1).trans (W6_of m c _ (by decide)).symm)
  | ⟨2, _⟩ => exact (W6_out m c).symm
theorem hrest2 (c : Dev nD) : ∀ b, b ∉ Finset.univ.image (Pipeline.arrRef spec2) → U6 m c b = U5 m c b :=
  fun b hb => W6_of m c b (fun hm => hb (Finset.mem_image.mpr ⟨2, Finset.mem_univ _, (List.mem_singleton.mp hm).symm⟩))
/-- After the host operations before region 3. -/
abbrev W7 (c : Dev nD) : Valuation τ sig (Elt F) := StableHlo.after hostOps3 (W6 m c)
abbrev U7 : (c : Dev nD) → (b : Ref sig .tc) → Buf (Elt F) ((c : Thread nD τ).loc b) := fun c b => W7 m c b
theorem W7_of (c : Dev nD) (r : Ref sig .tc) (h : r ∉ hostOps3_W) : W7 m c r = W6 m c r :=
  StableHlo.after_of_writes_sub hostOps3 _ hostOps3_writes h
/-- After region 3: its result array at what the write-backs leave, every other buffer as entered. -/
def W8 (c : Dev nD) : Valuation τ sig (Elt F) := Function.update (W7 m c) main_v44 ((dat3 (U7 m) c).arrAt 2 cfg3.N)
abbrev U8 : (c : Dev nD) → (b : Ref sig .tc) → Buf (Elt F) ((c : Thread nD τ).loc b) := fun c b => W8 m c b
theorem W8_out (c : Dev nD) : W8 m c main_v44 = (dat3 (U7 m) c).arrAt 2 cfg3.N := by
  unfold W8; exact Function.update_self _ _ _
theorem W8_of (c : Dev nD) (r : Ref sig .tc) (h : r ∉ ([main_v44] : List (Ref sig .tc))) : W8 m c r = W7 m c r := by
  unfold W8
  exact Function.update_of_ne (StableHlo.devRef_ne_of_ne (List.ne_of_not_mem_cons h) : (Proc.devRef .tc r : DevRef τ sig) ≠ Proc.devRef .tc main_v44) _ _
/-- At region 3's exit each of its arrays holds what the pipeline leaves, and every other buffer what it held at entry. -/
theorem hF3 (c : Dev nD) (w : Fin cfg3.W) : (dat3 (U7 m) c).arrAt w cfg3.N = U8 m c (Pipeline.arrRef spec3 w) := by
  match w with
  | ⟨0, _⟩ => exact ((dat3 (U7 m) c).arrAt_in 0 rfl _).trans ((A_eq3 (U7 m) c 0).trans (W8_of m c _ (by decide)).symm)
  | ⟨1, _⟩ => exact ((dat3 (U7 m) c).arrAt_in 1 rfl _).trans ((A_eq3 (U7 m) c 1).trans (W8_of m c _ (by decide)).symm)
  | ⟨2, _⟩ => exact (W8_out m c).symm
theorem hrest3 (c : Dev nD) : ∀ b, b ∉ Finset.univ.image (Pipeline.arrRef spec3) → U8 m c b = U7 m c b :=
  fun b hb => W8_of m c b (fun hm => hb (Finset.mem_image.mpr ⟨2, Finset.mem_univ _, (List.mem_singleton.mp hm).symm⟩))
/-- After the host operations before region 4. -/
abbrev W9 (c : Dev nD) : Valuation τ sig (Elt F) := StableHlo.after hostOps4 (W8 m c)
abbrev U9 : (c : Dev nD) → (b : Ref sig .tc) → Buf (Elt F) ((c : Thread nD τ).loc b) := fun c b => W9 m c b
theorem W9_of (c : Dev nD) (r : Ref sig .tc) (h : r ∉ hostOps4_W) : W9 m c r = W8 m c r :=
  StableHlo.after_of_writes_sub hostOps4 _ hostOps4_writes h
/-- After region 4: its result array at what the write-backs leave, every other buffer as entered. -/
def W10 (c : Dev nD) : Valuation τ sig (Elt F) := Function.update (W9 m c) main_v57 ((dat4 (U9 m) c).arrAt 2 cfg4.N)
abbrev U10 : (c : Dev nD) → (b : Ref sig .tc) → Buf (Elt F) ((c : Thread nD τ).loc b) := fun c b => W10 m c b
theorem W10_out (c : Dev nD) : W10 m c main_v57 = (dat4 (U9 m) c).arrAt 2 cfg4.N := by
  unfold W10; exact Function.update_self _ _ _
theorem W10_of (c : Dev nD) (r : Ref sig .tc) (h : r ∉ ([main_v57] : List (Ref sig .tc))) : W10 m c r = W9 m c r := by
  unfold W10
  exact Function.update_of_ne (StableHlo.devRef_ne_of_ne (List.ne_of_not_mem_cons h) : (Proc.devRef .tc r : DevRef τ sig) ≠ Proc.devRef .tc main_v57) _ _
/-- At region 4's exit each of its arrays holds what the pipeline leaves, and every other buffer what it held at entry. -/
theorem hF4 (c : Dev nD) (w : Fin cfg4.W) : (dat4 (U9 m) c).arrAt w cfg4.N = U10 m c (Pipeline.arrRef spec4 w) := by
  match w with
  | ⟨0, _⟩ => exact ((dat4 (U9 m) c).arrAt_in 0 rfl _).trans ((A_eq4 (U9 m) c 0).trans (W10_of m c _ (by decide)).symm)
  | ⟨1, _⟩ => exact ((dat4 (U9 m) c).arrAt_in 1 rfl _).trans ((A_eq4 (U9 m) c 1).trans (W10_of m c _ (by decide)).symm)
  | ⟨2, _⟩ => exact (W10_out m c).symm
theorem hrest4 (c : Dev nD) : ∀ b, b ∉ Finset.univ.image (Pipeline.arrRef spec4) → U10 m c b = U9 m c b :=
  fun b hb => W10_of m c b (fun hm => hb (Finset.mem_image.mpr ⟨2, Finset.mem_univ _, (List.mem_singleton.mp hm).symm⟩))
/-- After the host operations before region 5. -/
abbrev W11 (c : Dev nD) : Valuation τ sig (Elt F) := StableHlo.after hostOps5 (W10 m c)
abbrev U11 : (c : Dev nD) → (b : Ref sig .tc) → Buf (Elt F) ((c : Thread nD τ).loc b) := fun c b => W11 m c b
theorem W11_of (c : Dev nD) (r : Ref sig .tc) (h : r ∉ hostOps5_W) : W11 m c r = W10 m c r :=
  StableHlo.after_of_writes_sub hostOps5 _ hostOps5_writes h
/-- After region 5: its result array at what the write-backs leave, every other buffer as entered. -/
def W12 (c : Dev nD) : Valuation τ sig (Elt F) := Function.update (W11 m c) main_v61 ((dat5 (U11 m) c).arrAt 2 cfg5.N)
abbrev U12 : (c : Dev nD) → (b : Ref sig .tc) → Buf (Elt F) ((c : Thread nD τ).loc b) := fun c b => W12 m c b
theorem W12_out (c : Dev nD) : W12 m c main_v61 = (dat5 (U11 m) c).arrAt 2 cfg5.N := by
  unfold W12; exact Function.update_self _ _ _
theorem W12_of (c : Dev nD) (r : Ref sig .tc) (h : r ∉ ([main_v61] : List (Ref sig .tc))) : W12 m c r = W11 m c r := by
  unfold W12
  exact Function.update_of_ne (StableHlo.devRef_ne_of_ne (List.ne_of_not_mem_cons h) : (Proc.devRef .tc r : DevRef τ sig) ≠ Proc.devRef .tc main_v61) _ _
/-- At region 5's exit each of its arrays holds what the pipeline leaves, and every other buffer what it held at entry. -/
theorem hF5 (c : Dev nD) (w : Fin cfg5.W) : (dat5 (U11 m) c).arrAt w cfg5.N = U12 m c (Pipeline.arrRef spec5 w) := by
  match w with
  | ⟨0, _⟩ => exact ((dat5 (U11 m) c).arrAt_in 0 rfl _).trans ((A_eq5 (U11 m) c 0).trans (W12_of m c _ (by decide)).symm)
  | ⟨1, _⟩ => exact ((dat5 (U11 m) c).arrAt_in 1 rfl _).trans ((A_eq5 (U11 m) c 1).trans (W12_of m c _ (by decide)).symm)
  | ⟨2, _⟩ => exact (W12_out m c).symm
theorem hrest5 (c : Dev nD) : ∀ b, b ∉ Finset.univ.image (Pipeline.arrRef spec5) → U12 m c b = U11 m c b :=
  fun b hb => W12_of m c b (fun hm => hb (Finset.mem_image.mpr ⟨2, Finset.mem_univ _, (List.mem_singleton.mp hm).symm⟩))
/-- After the host operations before region 6. -/
abbrev W13 (c : Dev nD) : Valuation τ sig (Elt F) := StableHlo.after hostOps6 (W12 m c)
abbrev U13 : (c : Dev nD) → (b : Ref sig .tc) → Buf (Elt F) ((c : Thread nD τ).loc b) := fun c b => W13 m c b
theorem W13_of (c : Dev nD) (r : Ref sig .tc) (h : r ∉ hostOps6_W) : W13 m c r = W12 m c r :=
  StableHlo.after_of_writes_sub hostOps6 _ hostOps6_writes h
/-- After region 6: its result array at what the write-backs leave, every other buffer as entered. -/
def W14 (c : Dev nD) : Valuation τ sig (Elt F) := Function.update (W13 m c) main_v70 ((dat6 (U13 m) c).arrAt 2 cfg6.N)
abbrev U14 : (c : Dev nD) → (b : Ref sig .tc) → Buf (Elt F) ((c : Thread nD τ).loc b) := fun c b => W14 m c b
theorem W14_out (c : Dev nD) : W14 m c main_v70 = (dat6 (U13 m) c).arrAt 2 cfg6.N := by
  unfold W14; exact Function.update_self _ _ _
theorem W14_of (c : Dev nD) (r : Ref sig .tc) (h : r ∉ ([main_v70] : List (Ref sig .tc))) : W14 m c r = W13 m c r := by
  unfold W14
  exact Function.update_of_ne (StableHlo.devRef_ne_of_ne (List.ne_of_not_mem_cons h) : (Proc.devRef .tc r : DevRef τ sig) ≠ Proc.devRef .tc main_v70) _ _
/-- At region 6's exit each of its arrays holds what the pipeline leaves, and every other buffer what it held at entry. -/
theorem hF6 (c : Dev nD) (w : Fin cfg6.W) : (dat6 (U13 m) c).arrAt w cfg6.N = U14 m c (Pipeline.arrRef spec6 w) := by
  match w with
  | ⟨0, _⟩ => exact ((dat6 (U13 m) c).arrAt_in 0 rfl _).trans ((A_eq6 (U13 m) c 0).trans (W14_of m c _ (by decide)).symm)
  | ⟨1, _⟩ => exact ((dat6 (U13 m) c).arrAt_in 1 rfl _).trans ((A_eq6 (U13 m) c 1).trans (W14_of m c _ (by decide)).symm)
  | ⟨2, _⟩ => exact (W14_out m c).symm
theorem hrest6 (c : Dev nD) : ∀ b, b ∉ Finset.univ.image (Pipeline.arrRef spec6) → U14 m c b = U13 m c b :=
  fun b hb => W14_of m c b (fun hm => hb (Finset.mem_image.mpr ⟨2, Finset.mem_univ _, (List.mem_singleton.mp hm).symm⟩))
/-- After the host operations before region 7. -/
abbrev W15 (c : Dev nD) : Valuation τ sig (Elt F) := StableHlo.after hostOps7 (W14 m c)
abbrev U15 : (c : Dev nD) → (b : Ref sig .tc) → Buf (Elt F) ((c : Thread nD τ).loc b) := fun c b => W15 m c b
theorem W15_of (c : Dev nD) (r : Ref sig .tc) (h : r ∉ hostOps7_W) : W15 m c r = W14 m c r :=
  StableHlo.after_of_writes_sub hostOps7 _ hostOps7_writes h
/-- After region 7: its result array at what the write-backs leave, every other buffer as entered. -/
def W16 (c : Dev nD) : Valuation τ sig (Elt F) := Function.update (W15 m c) main_v74 ((dat7 (U15 m) c).arrAt 2 cfg7.N)
abbrev U16 : (c : Dev nD) → (b : Ref sig .tc) → Buf (Elt F) ((c : Thread nD τ).loc b) := fun c b => W16 m c b
theorem W16_out (c : Dev nD) : W16 m c main_v74 = (dat7 (U15 m) c).arrAt 2 cfg7.N := by
  unfold W16; exact Function.update_self _ _ _
theorem W16_of (c : Dev nD) (r : Ref sig .tc) (h : r ∉ ([main_v74] : List (Ref sig .tc))) : W16 m c r = W15 m c r := by
  unfold W16
  exact Function.update_of_ne (StableHlo.devRef_ne_of_ne (List.ne_of_not_mem_cons h) : (Proc.devRef .tc r : DevRef τ sig) ≠ Proc.devRef .tc main_v74) _ _
/-- At region 7's exit each of its arrays holds what the pipeline leaves, and every other buffer what it held at entry. -/
theorem hF7 (c : Dev nD) (w : Fin cfg7.W) : (dat7 (U15 m) c).arrAt w cfg7.N = U16 m c (Pipeline.arrRef spec7 w) := by
  match w with
  | ⟨0, _⟩ => exact ((dat7 (U15 m) c).arrAt_in 0 rfl _).trans ((A_eq7 (U15 m) c 0).trans (W16_of m c _ (by decide)).symm)
  | ⟨1, _⟩ => exact ((dat7 (U15 m) c).arrAt_in 1 rfl _).trans ((A_eq7 (U15 m) c 1).trans (W16_of m c _ (by decide)).symm)
  | ⟨2, _⟩ => exact (W16_out m c).symm
theorem hrest7 (c : Dev nD) : ∀ b, b ∉ Finset.univ.image (Pipeline.arrRef spec7) → U16 m c b = U15 m c b :=
  fun b hb => W16_of m c b (fun hm => hb (Finset.mem_image.mpr ⟨2, Finset.mem_univ _, (List.mem_singleton.mp hm).symm⟩))
/-- After the host operations before region 8. -/
abbrev W17 (c : Dev nD) : Valuation τ sig (Elt F) := StableHlo.after hostOps8 (W16 m c)
abbrev U17 : (c : Dev nD) → (b : Ref sig .tc) → Buf (Elt F) ((c : Thread nD τ).loc b) := fun c b => W17 m c b
theorem W17_of (c : Dev nD) (r : Ref sig .tc) (h : r ∉ hostOps8_W) : W17 m c r = W16 m c r :=
  StableHlo.after_of_writes_sub hostOps8 _ hostOps8_writes h
/-- After region 8: its result array at what the write-backs leave, every other buffer as entered. -/
def W18 (c : Dev nD) : Valuation τ sig (Elt F) := Function.update (W17 m c) main_v83 ((dat8 (U17 m) c).arrAt 2 cfg8.N)
abbrev U18 : (c : Dev nD) → (b : Ref sig .tc) → Buf (Elt F) ((c : Thread nD τ).loc b) := fun c b => W18 m c b
theorem W18_out (c : Dev nD) : W18 m c main_v83 = (dat8 (U17 m) c).arrAt 2 cfg8.N := by
  unfold W18; exact Function.update_self _ _ _
theorem W18_of (c : Dev nD) (r : Ref sig .tc) (h : r ∉ ([main_v83] : List (Ref sig .tc))) : W18 m c r = W17 m c r := by
  unfold W18
  exact Function.update_of_ne (StableHlo.devRef_ne_of_ne (List.ne_of_not_mem_cons h) : (Proc.devRef .tc r : DevRef τ sig) ≠ Proc.devRef .tc main_v83) _ _
/-- At region 8's exit each of its arrays holds what the pipeline leaves, and every other buffer what it held at entry. -/
theorem hF8 (c : Dev nD) (w : Fin cfg8.W) : (dat8 (U17 m) c).arrAt w cfg8.N = U18 m c (Pipeline.arrRef spec8 w) := by
  match w with
  | ⟨0, _⟩ => exact ((dat8 (U17 m) c).arrAt_in 0 rfl _).trans ((A_eq8 (U17 m) c 0).trans (W18_of m c _ (by decide)).symm)
  | ⟨1, _⟩ => exact ((dat8 (U17 m) c).arrAt_in 1 rfl _).trans ((A_eq8 (U17 m) c 1).trans (W18_of m c _ (by decide)).symm)
  | ⟨2, _⟩ => exact (W18_out m c).symm
theorem hrest8 (c : Dev nD) : ∀ b, b ∉ Finset.univ.image (Pipeline.arrRef spec8) → U18 m c b = U17 m c b :=
  fun b hb => W18_of m c b (fun hm => hb (Finset.mem_image.mpr ⟨2, Finset.mem_univ _, (List.mem_singleton.mp hm).symm⟩))
/-- After the host operations before region 9. -/
abbrev W19 (c : Dev nD) : Valuation τ sig (Elt F) := StableHlo.after hostOps9 (W18 m c)
abbrev U19 : (c : Dev nD) → (b : Ref sig .tc) → Buf (Elt F) ((c : Thread nD τ).loc b) := fun c b => W19 m c b
theorem W19_of (c : Dev nD) (r : Ref sig .tc) (h : r ∉ hostOps9_W) : W19 m c r = W18 m c r :=
  StableHlo.after_of_writes_sub hostOps9 _ hostOps9_writes h
/-- After region 9: its result array at what the write-backs leave, every other buffer as entered. -/
def W20 (c : Dev nD) : Valuation τ sig (Elt F) := Function.update (W19 m c) main_v87 ((dat9 (U19 m) c).arrAt 2 cfg9.N)
abbrev U20 : (c : Dev nD) → (b : Ref sig .tc) → Buf (Elt F) ((c : Thread nD τ).loc b) := fun c b => W20 m c b
theorem W20_out (c : Dev nD) : W20 m c main_v87 = (dat9 (U19 m) c).arrAt 2 cfg9.N := by
  unfold W20; exact Function.update_self _ _ _
theorem W20_of (c : Dev nD) (r : Ref sig .tc) (h : r ∉ ([main_v87] : List (Ref sig .tc))) : W20 m c r = W19 m c r := by
  unfold W20
  exact Function.update_of_ne (StableHlo.devRef_ne_of_ne (List.ne_of_not_mem_cons h) : (Proc.devRef .tc r : DevRef τ sig) ≠ Proc.devRef .tc main_v87) _ _
/-- At region 9's exit each of its arrays holds what the pipeline leaves, and every other buffer what it held at entry. -/
theorem hF9 (c : Dev nD) (w : Fin cfg9.W) : (dat9 (U19 m) c).arrAt w cfg9.N = U20 m c (Pipeline.arrRef spec9 w) := by
  match w with
  | ⟨0, _⟩ => exact ((dat9 (U19 m) c).arrAt_in 0 rfl _).trans ((A_eq9 (U19 m) c 0).trans (W20_of m c _ (by decide)).symm)
  | ⟨1, _⟩ => exact ((dat9 (U19 m) c).arrAt_in 1 rfl _).trans ((A_eq9 (U19 m) c 1).trans (W20_of m c _ (by decide)).symm)
  | ⟨2, _⟩ => exact (W20_out m c).symm
theorem hrest9 (c : Dev nD) : ∀ b, b ∉ Finset.univ.image (Pipeline.arrRef spec9) → U20 m c b = U19 m c b :=
  fun b hb => W20_of m c b (fun hm => hb (Finset.mem_image.mpr ⟨2, Finset.mem_univ _, (List.mem_singleton.mp hm).symm⟩))
/-- After the host operations before region 10. -/
abbrev W21 (c : Dev nD) : Valuation τ sig (Elt F) := StableHlo.after hostOps10 (W20 m c)
abbrev U21 : (c : Dev nD) → (b : Ref sig .tc) → Buf (Elt F) ((c : Thread nD τ).loc b) := fun c b => W21 m c b
theorem W21_of (c : Dev nD) (r : Ref sig .tc) (h : r ∉ hostOps10_W) : W21 m c r = W20 m c r :=
  StableHlo.after_of_writes_sub hostOps10 _ hostOps10_writes h
/-- After region 10: its result array at contents `X` nothing names, every other buffer as entered. -/
def W22 (X : (Proc.devRef .tc main_v89 : DevRef τ sig).ty.Contents (Elt F)) (c : Dev nD) : Valuation τ sig (Elt F) :=
  Function.update (W21 m c) main_v89 X
theorem W22_out (X) (c : Dev nD) : W22 m X c main_v89 = X := by
  unfold W22; exact Function.update_self _ _ _
theorem W22_of (X) (c : Dev nD) (r : Ref sig .tc) (h : r ∉ ([main_v89] : List (Ref sig .tc))) : W22 m X c r = W21 m c r := by
  unfold W22
  exact Function.update_of_ne (StableHlo.devRef_ne_of_ne (List.ne_of_not_mem_cons h) : (Proc.devRef .tc r : DevRef τ sig) ≠ Proc.devRef .tc main_v89) _ _
/-- Region 10's arrays at its exit: the two inputs as entered, the result at `X`. -/
def F10 (X : (Proc.devRef .tc main_v89 : DevRef τ sig).ty.Contents (Elt F)) (c : Dev nD) :
    (w : Fin cfg10.W) → Buf (Elt F) ((cfg10.win w).arr.view.loc (c.tc : Thread nD τ))
  | ⟨0, _⟩ => (dat10 (U21 m) c).A 0
  | ⟨1, _⟩ => (dat10 (U21 m) c).A 1
  | ⟨2, _⟩ => X
theorem hF10 (X) (c : Dev nD) (w : Fin cfg10.W) : F10 m X c w = W22 m X c (Pipeline.arrRef spec10 w) := by
  match w with
  | ⟨0, _⟩ => exact (A_eq10 (U21 m) c 0).trans (W22_of m X c _ (by decide)).symm
  | ⟨1, _⟩ => exact (A_eq10 (U21 m) c 1).trans (W22_of m X c _ (by decide)).symm
  | ⟨2, _⟩ => exact (W22_out m X c).symm
theorem hrest10 (X) (c : Dev nD) : ∀ b : Ref sig .tc, b ∉ Finset.univ.image (Pipeline.arrRef spec10) → W22 m X c b = U21 m c b :=
  fun b hb => W22_of m X c b (fun hm => hb (Finset.mem_image.mpr ⟨2, Finset.mem_univ _, (List.mem_singleton.mp hm).symm⟩))
/-- After the host operations before region 11. -/
abbrev W23 (X : (Proc.devRef .tc main_v89 : DevRef τ sig).ty.Contents (Elt F)) (c : Dev nD) : Valuation τ sig (Elt F) :=
  StableHlo.after hostOps11 (W22 m X c)
theorem W23_of (X) (c : Dev nD) (r : Ref sig .tc) (h : r ∉ hostOps11_W) : W23 m X c r = W22 m X c r :=
  StableHlo.after_of_writes_sub hostOps11 _ hostOps11_writes h
/-- The same operations run from the contents region 10 was entered at: they do not read region 10's result, so on every
    buffer but that one this is what region 11 is entered at. -/
abbrev V23 (c : Dev nD) : Valuation τ sig (Elt F) := StableHlo.after hostOps11 (W21 m c)
abbrev U23 : (c : Dev nD) → (b : Ref sig .tc) → Buf (Elt F) ((c : Thread nD τ).loc b) := fun c b => V23 m c b
theorem V23_of (c : Dev nD) (r : Ref sig .tc) (h : r ∉ hostOps11_W) : V23 m c r = W21 m c r :=
  StableHlo.after_of_writes_sub hostOps11 _ hostOps11_writes h
/-- The one buffer the stretch writes is a slice of a buffer region 10 does not change. -/
theorem W23_v90 (X) (c : Dev nD) : W23 m X c main_v90 = V23 m c main_v90 := by
  simp only [W23, V23, hostOps11, StableHlo.after_cons, StableHlo.after_nil]
  rw [StableHlo.unary_result, StableHlo.unary_result, W22_of m X c main_v87 (by decide)]
  rfl
/-- Region 11's arrays are entered at contents that do not depend on what region 10 left in its result. -/
theorem W23_arr (X) (c : Dev nD) (w : Fin cfg11.W) : W23 m X c (Pipeline.arrRef spec11 w) = V23 m c (Pipeline.arrRef spec11 w) := by
  match w with
  | ⟨0, _⟩ => exact W23_v90 m X c
  | ⟨1, _⟩ => exact (W23_of m X c main_v23 (by decide)).trans ((W22_of m X c main_v23 (by decide)).trans (V23_of m c main_v23 (by decide)).symm)
  | ⟨2, _⟩ => exact (W23_of m X c main_v91 (by decide)).trans ((W22_of m X c main_v91 (by decide)).trans (V23_of m c main_v91 (by decide)).symm)
/-- After region 11: its result array at contents `X'` nothing names, every other buffer as entered. -/
def W24 (X : (Proc.devRef .tc main_v89 : DevRef τ sig).ty.Contents (Elt F)) (X' : (Proc.devRef .tc main_v91 : DevRef τ sig).ty.Contents (Elt F))
    (c : Dev nD) : Valuation τ sig (Elt F) :=
  Function.update (W23 m X c) main_v91 X'
theorem W24_out (X X') (c : Dev nD) : W24 m X X' c main_v91 = X' := by
  unfold W24; exact Function.update_self _ _ _
theorem W24_of (X X') (c : Dev nD) (r : Ref sig .tc) (h : r ∉ ([main_v91] : List (Ref sig .tc))) : W24 m X X' c r = W23 m X c r := by
  unfold W24
  exact Function.update_of_ne (StableHlo.devRef_ne_of_ne (List.ne_of_not_mem_cons h) : (Proc.devRef .tc r : DevRef τ sig) ≠ Proc.devRef .tc main_v91) _ _
/-- Region 11's arrays at its exit: the two inputs as entered, the result at `X'`. -/
def F11 (X' : (Proc.devRef .tc main_v91 : DevRef τ sig).ty.Contents (Elt F)) (c : Dev nD) :
    (w : Fin cfg11.W) → Buf (Elt F) ((cfg11.win w).arr.view.loc (c.tc : Thread nD τ))
  | ⟨0, _⟩ => (dat11 (U23 m) c).A 0
  | ⟨1, _⟩ => (dat11 (U23 m) c).A 1
  | ⟨2, _⟩ => X'
theorem hF11 (X X') (c : Dev nD) (w : Fin cfg11.W) : F11 m X' c w = W24 m X X' c (Pipeline.arrRef spec11 w) := by
  match w with
  | ⟨0, _⟩ => exact (A_eq11 (U23 m) c 0).trans ((W23_arr m X c 0).symm.trans (W24_of m X X' c _ (by decide)).symm)
  | ⟨1, _⟩ => exact (A_eq11 (U23 m) c 1).trans ((W23_arr m X c 1).symm.trans (W24_of m X X' c _ (by decide)).symm)
  | ⟨2, _⟩ => exact (W24_out m X X' c).symm
theorem hrest11 (X X') (c : Dev nD) : ∀ b : Ref sig .tc, b ∉ Finset.univ.image (Pipeline.arrRef spec11) → W24 m X X' c b = W23 m X c b :=
  fun b hb => W24_of m X X' c b (fun hm => hb (Finset.mem_image.mpr ⟨2, Finset.mem_univ _, (List.mem_singleton.mp hm).symm⟩))

/-! ## No boundary changes an argument -/

/-- `main_arg0` reaches the end as launched: no host stretch writes it, no region's result array is it. -/
theorem W24_main_arg0 (X X') (c : Dev nD) : W24 m X X' c main_arg0 = m ((c : Thread nD τ).loc main_arg0) :=
  (W24_of m X X' c main_arg0 (by decide)).trans <| (W23_of m X c main_arg0 (by decide)).trans <| (W22_of m X c main_arg0 (by decide)).trans <| (W21_of m c main_arg0 (by decide)).trans <| (W20_of m c main_arg0 (by decide)).trans <| (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide))
/-- `main_arg1` reaches the end as launched: no host stretch writes it, no region's result array is it. -/
theorem W24_main_arg1 (X X') (c : Dev nD) : W24 m X X' c main_arg1 = m ((c : Thread nD τ).loc main_arg1) :=
  (W24_of m X X' c main_arg1 (by decide)).trans <| (W23_of m X c main_arg1 (by decide)).trans <| (W22_of m X c main_arg1 (by decide)).trans <| (W21_of m c main_arg1 (by decide)).trans <| (W20_of m c main_arg1 (by decide)).trans <| (W19_of m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide))
/-- `main_arg2` reaches the end as launched: no host stretch writes it, no region's result array is it. -/
theorem W24_main_arg2 (X X') (c : Dev nD) : W24 m X X' c main_arg2 = m ((c : Thread nD τ).loc main_arg2) :=
  (W24_of m X X' c main_arg2 (by decide)).trans <| (W23_of m X c main_arg2 (by decide)).trans <| (W22_of m X c main_arg2 (by decide)).trans <| (W21_of m c main_arg2 (by decide)).trans <| (W20_of m c main_arg2 (by decide)).trans <| (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide))
/-- `main_arg3` reaches the end as launched: no host stretch writes it, no region's result array is it. -/
theorem W24_main_arg3 (X X') (c : Dev nD) : W24 m X X' c main_arg3 = m ((c : Thread nD τ).loc main_arg3) :=
  (W24_of m X X' c main_arg3 (by decide)).trans <| (W23_of m X c main_arg3 (by decide)).trans <| (W22_of m X c main_arg3 (by decide)).trans <| (W21_of m c main_arg3 (by decide)).trans <| (W20_of m c main_arg3 (by decide)).trans <| (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide))
/-- `main_arg4` reaches the end as launched: no host stretch writes it, no region's result array is it. -/
theorem W24_main_arg4 (X X') (c : Dev nD) : W24 m X X' c main_arg4 = m ((c : Thread nD τ).loc main_arg4) :=
  (W24_of m X X' c main_arg4 (by decide)).trans <| (W23_of m X c main_arg4 (by decide)).trans <| (W22_of m X c main_arg4 (by decide)).trans <| (W21_of m c main_arg4 (by decide)).trans <| (W20_of m c main_arg4 (by decide)).trans <| (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide))
/-- `main_arg5` reaches the end as launched: no host stretch writes it, no region's result array is it. -/
theorem W24_main_arg5 (X X') (c : Dev nD) : W24 m X X' c main_arg5 = m ((c : Thread nD τ).loc main_arg5) :=
  (W24_of m X X' c main_arg5 (by decide)).trans <| (W23_of m X c main_arg5 (by decide)).trans <| (W22_of m X c main_arg5 (by decide)).trans <| (W21_of m c main_arg5 (by decide)).trans <| (W20_of m c main_arg5 (by decide)).trans <| (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide))
/-- `main_arg6` reaches the end as launched: no host stretch writes it, no region's result array is it. -/
theorem W24_main_arg6 (X X') (c : Dev nD) : W24 m X X' c main_arg6 = m ((c : Thread nD τ).loc main_arg6) :=
  (W24_of m X X' c main_arg6 (by decide)).trans <| (W23_of m X c main_arg6 (by decide)).trans <| (W22_of m X c main_arg6 (by decide)).trans <| (W21_of m c main_arg6 (by decide)).trans <| (W20_of m c main_arg6 (by decide)).trans <| (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide))
/-- `main_arg7` reaches the end as launched: no host stretch writes it, no region's result array is it. -/
theorem W24_main_arg7 (X X') (c : Dev nD) : W24 m X X' c main_arg7 = m ((c : Thread nD τ).loc main_arg7) :=
  (W24_of m X X' c main_arg7 (by decide)).trans <| (W23_of m X c main_arg7 (by decide)).trans <| (W22_of m X c main_arg7 (by decide)).trans <| (W21_of m c main_arg7 (by decide)).trans <| (W20_of m c main_arg7 (by decide)).trans <| (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide))
/-- `main_arg8` reaches the end as launched: no host stretch writes it, no region's result array is it. -/
theorem W24_main_arg8 (X X') (c : Dev nD) : W24 m X X' c main_arg8 = m ((c : Thread nD τ).loc main_arg8) :=
  (W24_of m X X' c main_arg8 (by decide)).trans <| (W23_of m X c main_arg8 (by decide)).trans <| (W22_of m X c main_arg8 (by decide)).trans <| (W21_of m c main_arg8 (by decide)).trans <| (W20_of m c main_arg8 (by decide)).trans <| (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide))
/-- `main_arg9` reaches the end as launched: no host stretch writes it, no region's result array is it. -/
theorem W24_main_arg9 (X X') (c : Dev nD) : W24 m X X' c main_arg9 = m ((c : Thread nD τ).loc main_arg9) :=
  (W24_of m X X' c main_arg9 (by decide)).trans <| (W23_of m X c main_arg9 (by decide)).trans <| (W22_of m X c main_arg9 (by decide)).trans <| (W21_of m c main_arg9 (by decide)).trans <| (W20_of m c main_arg9 (by decide)).trans <| (W19_of m c main_arg9 (by decide)).trans <| (W18_of m c main_arg9 (by decide)).trans <| (W17_of m c main_arg9 (by decide)).trans <| (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide))
/-- `main_arg10` reaches the end as launched: no host stretch writes it, no region's result array is it. -/
theorem W24_main_arg10 (X X') (c : Dev nD) : W24 m X X' c main_arg10 = m ((c : Thread nD τ).loc main_arg10) :=
  (W24_of m X X' c main_arg10 (by decide)).trans <| (W23_of m X c main_arg10 (by decide)).trans <| (W22_of m X c main_arg10 (by decide)).trans <| (W21_of m c main_arg10 (by decide)).trans <| (W20_of m c main_arg10 (by decide)).trans <| (W19_of m c main_arg10 (by decide)).trans <| (W18_of m c main_arg10 (by decide)).trans <| (W17_of m c main_arg10 (by decide)).trans <| (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide))
/-- `main_arg11` reaches the end as launched: no host stretch writes it, no region's result array is it. -/
theorem W24_main_arg11 (X X') (c : Dev nD) : W24 m X X' c main_arg11 = m ((c : Thread nD τ).loc main_arg11) :=
  (W24_of m X X' c main_arg11 (by decide)).trans <| (W23_of m X c main_arg11 (by decide)).trans <| (W22_of m X c main_arg11 (by decide)).trans <| (W21_of m c main_arg11 (by decide)).trans <| (W20_of m c main_arg11 (by decide)).trans <| (W19_of m c main_arg11 (by decide)).trans <| (W18_of m c main_arg11 (by decide)).trans <| (W17_of m c main_arg11 (by decide)).trans <| (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide))
/-- `main_arg12` reaches the end as launched: no host stretch writes it, no region's result array is it. -/
theorem W24_main_arg12 (X X') (c : Dev nD) : W24 m X X' c main_arg12 = m ((c : Thread nD τ).loc main_arg12) :=
  (W24_of m X X' c main_arg12 (by decide)).trans <| (W23_of m X c main_arg12 (by decide)).trans <| (W22_of m X c main_arg12 (by decide)).trans <| (W21_of m c main_arg12 (by decide)).trans <| (W20_of m c main_arg12 (by decide)).trans <| (W19_of m c main_arg12 (by decide)).trans <| (W18_of m c main_arg12 (by decide)).trans <| (W17_of m c main_arg12 (by decide)).trans <| (W16_of m c main_arg12 (by decide)).trans <| (W15_of m c main_arg12 (by decide)).trans <| (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide))

end Fold

end Cert.Kernel.Hand

end
-- ==== Proof.BitsRun.lean ====
/-
  The frame of the program at any reading of the floating-point operations: every argument array ends holding what it
  held at launch.  Each region runs from the state "every unscoped buffer at the boundary's contents" to the same state at
  the next boundary.  Regions 10 and 11 sum squares along each row by one reduction over a whole block, whose rows past
  the array's end hold words nothing names; nothing is claimed of their result arrays, which are no argument and which
  nothing later reads: from region 10 on the thread state says "some contents" of those two arrays.
-/
import proofs.«177237_j55430847922201_2_alg».proof.Proof.BFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The proof data family and the thread state -/

section Run
variable (m : (ℓ : Loc nD τ sig) → Buf (Elt F) ℓ) (ρ : Dev nD → PrngReg)

/-- The prefetched tables' admissible contents: no pallas_call has a table. -/
abbrev adm' : (p : Fin 12) → (pcfgs (F := F) p).Adm := fun p => (cfgs p).toPCfg_adm
/-- Every pipeline's proof data that names contents, each at its region's entry contents. -/
def dats : (p : Fin 12) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
  | ⟨6, _⟩ => fun c => dat6 (U13 m) c
  | ⟨7, _⟩ => fun c => dat7 (U15 m) c
  | ⟨8, _⟩ => fun c => dat8 (U17 m) c
  | ⟨9, _⟩ => fun c => dat9 (U19 m) c
  | ⟨10, _⟩ => fun c => dat10 (U21 m) c
  | ⟨11, _⟩ => fun c => dat11 (U23 m) c
/-- The same read as data that constrains contents: regions 0 to 9 as they are, regions 10 and 11 with the result's window forgotten. -/
def rdats : (p : Fin 12) → (c : Dev nD) → RDat τ (Elt F) Unit ℕ (UR sig nD τ) ℕ (Pipeline.pin (pcfgs (F := F)) adm' p) c
  | ⟨0, _⟩ => fun c => (dat0 (U1 m) c).toR
  | ⟨1, _⟩ => fun c => (dat1 (U3 m) c).toR
  | ⟨2, _⟩ => fun c => (dat2 (U5 m) c).toR
  | ⟨3, _⟩ => fun c => (dat3 (U7 m) c).toR
  | ⟨4, _⟩ => fun c => (dat4 (U9 m) c).toR
  | ⟨5, _⟩ => fun c => (dat5 (U11 m) c).toR
  | ⟨6, _⟩ => fun c => (dat6 (U13 m) c).toR
  | ⟨7, _⟩ => fun c => (dat7 (U15 m) c).toR
  | ⟨8, _⟩ => fun c => (dat8 (U17 m) c).toR
  | ⟨9, _⟩ => fun c => (dat9 (U19 m) c).toR
  | ⟨10, _⟩ => fun c => (dat10 (U21 m) c).toRForget fgt10
  | ⟨11, _⟩ => fun c => (dat11 (U23 m) c).toRForget fgt11
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the two forgotten result
    arrays at some contents. -/
abbrev Tₙ (c : Dev nD) : sProp 𝕄 :=
  iprop(∃ X X', StableHlo.held (c : Thread nD τ) (Pipeline.ucRefs τ sig) (W24 m X X' c) ∗ ∃ r, prngReg c r)

/-- The stretch between regions 10 and 11 from every unscoped buffer at region 10's exit contents, region 10's result at
    some contents: the stretch runs from whichever contents those are. -/
def hseg11 : Pipeline.HostSeg (Name := ℕ) (U := UR sig nD τ) (pcfgs (F := F)) defs₀ 𝒱₀ L lv where
  prog := StableHlo.seq hostOps11
  pre c := iprop(∃ X, StableHlo.held (c : Thread nD τ) (Pipeline.ucRefs τ sig) (W22 m X c) ∗ R c)
  post c := iprop(∃ X, StableHlo.held (c : Thread nD τ) (Pipeline.ucRefs τ sig) (W23 m X c) ∗ R c)
  run c {β} k K := by
    iintro ⟨Hk, Hbd, ⟨%X, Hh, HR⟩, Hla⟩
    have h := (hseg hostOps11 hostOps11_sub hostOps11_fresh (W22 m X)).run c k K
    dsimp only [hseg, Pipeline.HostSeg.ofOps] at h
    iapply h
    isplitl [Hk]
    · iintro ⟨Hbd, Hh, HR⟩
      iapply Hk
      isplitl [Hbd]; · iexact Hbd
      iexists X
      isplitl [Hh]; · iexact Hh
      iexact HR
    isplitl [Hbd]; · iexact Hbd
    isplitl [Hh HR]
    · isplitl [Hh]; · iexact Hh
      iexact HR
    iexact Hla

set_option maxHeartbeats 1000000 in
/-- What region 10's arrays may hold after its write-backs: the inputs as entered, the result at some contents. -/
theorem arraysAt10_elim (c : Dev nD) :
    ((dat10 (U21 m) c).toRForget fgt10).arraysAt cfg10.N ⊢ (iprop(∃ X, (dat10 (U21 m) c).arrays (F10 m X c)) : sProp 𝕄) := by
  have e0 := congrFun (Pipeline.RDat.ArrAt_in ((dat10 (U21 m) c).toRForget fgt10) 0 rfl cfg10.N)
  have e1 := congrFun (Pipeline.RDat.ArrAt_in ((dat10 (U21 m) c).toRForget fgt10) 1 rfl cfg10.N)
  unfold RDat.arraysAt Dat.arrays
  rw [bigSep_W10]
  iintro ⟨⟨%F0, %h0, H0⟩, ⟨%F1, %h1, H1⟩, ⟨%F2, -, H2⟩⟩
  have h0' : F0 = (dat10 (U21 m) c).A 0 := (e0 F0).mp h0
  have h1' : F1 = (dat10 (U21 m) c).A 1 := (e1 F1).mp h1
  subst h0'; subst h1'
  iexists F2
  rw [bigSep_W10]
  isplitl [H0]; · iexact H0
  isplitl [H1]; · iexact H1
  iexact H2

set_option maxHeartbeats 1000000 in
/-- What region 11's arrays may hold after its write-backs: the inputs as entered, the result at some contents. -/
theorem arraysAt11_elim (c : Dev nD) :
    ((dat11 (U23 m) c).toRForget fgt11).arraysAt cfg11.N ⊢ (iprop(∃ X', (dat11 (U23 m) c).arrays (F11 m X' c)) : sProp 𝕄) := by
  have e0 := congrFun (Pipeline.RDat.ArrAt_in ((dat11 (U23 m) c).toRForget fgt11) 0 rfl cfg11.N)
  have e1 := congrFun (Pipeline.RDat.ArrAt_in ((dat11 (U23 m) c).toRForget fgt11) 1 rfl cfg11.N)
  unfold RDat.arraysAt Dat.arrays
  rw [bigSep_W11]
  iintro ⟨⟨%F0, %h0, H0⟩, ⟨%F1, %h1, H1⟩, ⟨%F2, -, H2⟩⟩
  have h0' : F0 = (dat11 (U23 m) c).A 0 := (e0 F0).mp h0
  have h1' : F1 = (dat11 (U23 m) c).A 1 := (e1 F1).mp h1
  subst h0'; subst h1'
  iexists F2
  rw [bigSep_W11]
  isplitl [H0]; · iexact H0
  isplitl [H1]; · iexact H1
  iexact H2

/-! ## The regions as segments -/

set_option backward.isDefEq.respectTransparency.types false in
/-- Region 0 over the thread state: entered from every unscoped buffer at `W1`, left at `W2`. Its arrays are split out of the
    unscoped buffers and put back at the exit contents; the generator register goes into the invariant and out; nothing owed. -/
def reg0 : Pipeline.RDat.RegionSeg (pcfgs (F := F)) adm' (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.RDat.arrays_of_unscopedBufs (p := 0) (pcfgs (F := F)) adm' (rdats m) launch0.win launch0.arr_whole c
      ((rdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (dats m) ((dats m 0 c).share_full fun _ => rfl)
      (U1 m c) (U2 m c) ((dats m 0 c).arrAt · cfg0.N) (hF0 m c) (hrest0 m c)
    rw [Pipeline.unscopedBufs_held] at hjoin
    refine (sep_mono (Entails.of_eq ((dats m 0 c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 over the thread state: entered from every unscoped buffer at `W3`, left at `W4`. Its arrays are split out of the
    unscoped buffers and put back at the exit contents; the generator register goes into the invariant and out; nothing owed. -/
def reg1 : Pipeline.RDat.RegionSeg (pcfgs (F := F)) adm' (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.RDat.arrays_of_unscopedBufs (p := 1) (pcfgs (F := F)) adm' (rdats m) launch1.win launch1.arr_whole c
      ((rdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (dats m) ((dats m 1 c).share_full fun _ => rfl)
      (U3 m c) (U4 m c) ((dats m 1 c).arrAt · cfg1.N) (hF1 m c) (hrest1 m c)
    rw [Pipeline.unscopedBufs_held] at hjoin
    refine (sep_mono (Entails.of_eq ((dats m 1 c).toR_arraysAt_eq cfg1.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 2 over the thread state: entered from every unscoped buffer at `W5`, left at `W6`. Its arrays are split out of the
    unscoped buffers and put back at the exit contents; the generator register goes into the invariant and out; nothing owed. -/
def reg2 : Pipeline.RDat.RegionSeg (pcfgs (F := F)) adm' (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).toR
  hwaits := Pipeline.RDat.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.RDat.arrays_of_unscopedBufs (p := 2) (pcfgs (F := F)) adm' (rdats m) launch2.win launch2.arr_whole c
      ((rdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (dats m) ((dats m 2 c).share_full fun _ => rfl)
      (U5 m c) (U6 m c) ((dats m 2 c).arrAt · cfg2.N) (hF2 m c) (hrest2 m c)
    rw [Pipeline.unscopedBufs_held] at hjoin
    refine (sep_mono (Entails.of_eq ((dats m 2 c).toR_arraysAt_eq cfg2.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 3 over the thread state: entered from every unscoped buffer at `W7`, left at `W8`. Its arrays are split out of the
    unscoped buffers and put back at the exit contents; the generator register goes into the invariant and out; nothing owed. -/
def reg3 : Pipeline.RDat.RegionSeg (pcfgs (F := F)) adm' (rdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).toR
  hwaits := Pipeline.RDat.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.RDat.arrays_of_unscopedBufs (p := 3) (pcfgs (F := F)) adm' (rdats m) launch3.win launch3.arr_whole c
      ((rdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (dats m) ((dats m 3 c).share_full fun _ => rfl)
      (U7 m c) (U8 m c) ((dats m 3 c).arrAt · cfg3.N) (hF3 m c) (hrest3 m c)
    rw [Pipeline.unscopedBufs_held] at hjoin
    refine (sep_mono (Entails.of_eq ((dats m 3 c).toR_arraysAt_eq cfg3.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 4 over the thread state: entered from every unscoped buffer at `W9`, left at `W10`. Its arrays are split out of the
    unscoped buffers and put back at the exit contents; the generator register goes into the invariant and out; nothing owed. -/
def reg4 : Pipeline.RDat.RegionSeg (pcfgs (F := F)) adm' (rdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).toR
  hwaits := Pipeline.RDat.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.RDat.arrays_of_unscopedBufs (p := 4) (pcfgs (F := F)) adm' (rdats m) launch4.win launch4.arr_whole c
      ((rdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (rdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (dats m) ((dats m 4 c).share_full fun _ => rfl)
      (U9 m c) (U10 m c) ((dats m 4 c).arrAt · cfg4.N) (hF4 m c) (hrest4 m c)
    rw [Pipeline.unscopedBufs_held] at hjoin
    refine (sep_mono (Entails.of_eq ((dats m 4 c).toR_arraysAt_eq cfg4.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 5 over the thread state: entered from every unscoped buffer at `W11`, left at `W12`. Its arrays are split out of the
    unscoped buffers and put back at the exit contents; the generator register goes into the invariant and out; nothing owed. -/
def reg5 : Pipeline.RDat.RegionSeg (pcfgs (F := F)) adm' (rdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) c).toR
  hwaits := Pipeline.RDat.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.RDat.arrays_of_unscopedBufs (p := 5) (pcfgs (F := F)) adm' (rdats m) launch5.win launch5.arr_whole c
      ((rdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (rdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (dats m) ((dats m 5 c).share_full fun _ => rfl)
      (U11 m c) (U12 m c) ((dats m 5 c).arrAt · cfg5.N) (hF5 m c) (hrest5 m c)
    rw [Pipeline.unscopedBufs_held] at hjoin
    refine (sep_mono (Entails.of_eq ((dats m 5 c).toR_arraysAt_eq cfg5.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 6 over the thread state: entered from every unscoped buffer at `W13`, left at `W14`. Its arrays are split out of the
    unscoped buffers and put back at the exit contents; the generator register goes into the invariant and out; nothing owed. -/
def reg6 : Pipeline.RDat.RegionSeg (pcfgs (F := F)) adm' (rdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U13 m) c).toR
  hwaits := Pipeline.RDat.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (U13 m c)
  hentry c := by
    rw [Pipeline.ownSems0_none]
    have hsplit := Pipeline.RDat.arrays_of_unscopedBufs (p := 6) (pcfgs (F := F)) adm' (rdats m) launch6.win launch6.arr_whole c
      ((rdats m 6 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (rdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm' (Ix := Unit) (Name := ℕ) (U := UR sig nD τ) (Lvl := ℕ)
      launch6.win launch6.arr_whole c (dats m) ((dats m 6 c).share_full fun _ => rfl)
      (U13 m c) (U14 m c) ((dats m 6 c).arrAt · cfg6.N) (hF6 m c) (hrest6 m c)
    rw [Pipeline.unscopedBufs_held] at hjoin
    refine (sep_mono (Entails.of_eq ((dats m 6 c).toR_arraysAt_eq cfg6.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 7 over the thread state: entered from every unscoped buffer at `W15`, left at `W16`. Its arrays are split out of the
    unscoped buffers and put back at the exit contents; the generator register goes into the invariant and out; nothing owed. -/
def reg7 : Pipeline.RDat.RegionSeg (pcfgs (F := F)) adm' (rdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (U15 m) c).toR
  hwaits := Pipeline.RDat.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (U15 m c)
  hentry c := by
    rw [Pipeline.ownSems0_none]
    have hsplit := Pipeline.RDat.arrays_of_unscopedBufs (p := 7) (pcfgs (F := F)) adm' (rdats m) launch7.win launch7.arr_whole c
      ((rdats m 7 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (rdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm' (Ix := Unit) (Name := ℕ) (U := UR sig nD τ) (Lvl := ℕ)
      launch7.win launch7.arr_whole c (dats m) ((dats m 7 c).share_full fun _ => rfl)
      (U15 m c) (U16 m c) ((dats m 7 c).arrAt · cfg7.N) (hF7 m c) (hrest7 m c)
    rw [Pipeline.unscopedBufs_held] at hjoin
    refine (sep_mono (Entails.of_eq ((dats m 7 c).toR_arraysAt_eq cfg7.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 8 over the thread state: entered from every unscoped buffer at `W17`, left at `W18`. Its arrays are split out of the
    unscoped buffers and put back at the exit contents; the generator register goes into the invariant and out; nothing owed. -/
def reg8 : Pipeline.RDat.RegionSeg (pcfgs (F := F)) adm' (rdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (U17 m) c).toR
  hwaits := Pipeline.RDat.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (U17 m c)
  hentry c := by
    rw [Pipeline.ownSems0_none]
    have hsplit := Pipeline.RDat.arrays_of_unscopedBufs (p := 8) (pcfgs (F := F)) adm' (rdats m) launch8.win launch8.arr_whole c
      ((rdats m 8 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (rdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm' (Ix := Unit) (Name := ℕ) (U := UR sig nD τ) (Lvl := ℕ)
      launch8.win launch8.arr_whole c (dats m) ((dats m 8 c).share_full fun _ => rfl)
      (U17 m c) (U18 m c) ((dats m 8 c).arrAt · cfg8.N) (hF8 m c) (hrest8 m c)
    rw [Pipeline.unscopedBufs_held] at hjoin
    refine (sep_mono (Entails.of_eq ((dats m 8 c).toR_arraysAt_eq cfg8.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 9 over the thread state: entered from every unscoped buffer at `W19`, left at `W20`. Its arrays are split out of the
    unscoped buffers and put back at the exit contents; the generator register goes into the invariant and out; nothing owed. -/
def reg9 : Pipeline.RDat.RegionSeg (pcfgs (F := F)) adm' (rdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (U19 m) c).toR
  hwaits := Pipeline.RDat.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (U19 m c)
  hentry c := by
    rw [Pipeline.ownSems0_none]
    have hsplit := Pipeline.RDat.arrays_of_unscopedBufs (p := 9) (pcfgs (F := F)) adm' (rdats m) launch9.win launch9.arr_whole c
      ((rdats m 9 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (rdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm' (Ix := Unit) (Name := ℕ) (U := UR sig nD τ) (Lvl := ℕ)
      launch9.win launch9.arr_whole c (dats m) ((dats m 9 c).share_full fun _ => rfl)
      (U19 m c) (U20 m c) ((dats m 9 c).arrAt · cfg9.N) (hF9 m c) (hrest9 m c)
    rw [Pipeline.unscopedBufs_held] at hjoin
    refine (sep_mono (Entails.of_eq ((dats m 9 c).toR_arraysAt_eq cfg9.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 10 over the thread state: entered from every unscoped buffer at `W21`, left with its result array at some contents
    and every other buffer as entered. -/
def reg10 : Pipeline.RDat.RegionSeg (pcfgs (F := F)) adm' (rdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (U21 m) c).toRForget
  hwaits := Pipeline.RDat.hwaits_of_owed_zero _ _ _ _ L lv 10 fun _ _ => rfl
  pre c := iprop(StableHlo.held (c : Thread nD τ) (Pipeline.ucRefs τ sig) (W21 m c) ∗ R c)
  post c := iprop(∃ X, StableHlo.held (c : Thread nD τ) (Pipeline.ucRefs τ sig) (W22 m X c) ∗ R c)
  X c := iprop(∃ r, prngReg c r)
  Y c := iprop(∃ r, prngReg c r)
  Z c := Pipeline.unscopedRest (Ix := Unit) (Name := ℕ) (U := UR sig nD τ) (Lvl := ℕ) spec10 c (U21 m c)
  hentry c := by
    rw [Pipeline.ownSems0_none]
    have hsplit := Pipeline.RDat.arrays_of_unscopedBufs (p := 10) (pcfgs (F := F)) adm' (rdats m) launch10.win launch10.arr_whole c
      ((rdats m 10 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (rdats m 10 c).Φ (Fin.last _) = Pipeline.ΦA spec10 c from rfl]; unfold Pipeline.ΦA
    iintro ⟨Hr, Hp⟩
    isplitl [Hp]; · iexact Hp
    isplitr; · iempintro
    iexact Hr
  hexit c := by
    refine (sep_mono (arraysAt10_elim m c) .rfl).trans ?_
    iintro ⟨⟨%X, Ha⟩, HO, HY, Hrest⟩
    have hjoin : iprop((dat10 (U21 m) c).arrays (F10 m X c)
          ∗ Pipeline.unscopedRest (Ix := Unit) (Name := ℕ) (U := UR sig nD τ) (Lvl := ℕ) spec10 c (U21 m c))
        ⊢ (unscopedBufs c (fun b => W22 m X c b) : sProp 𝕄) := Pipeline.unscopedBufs_of_arrays (p := 10) (pcfgs (F := F)) adm' (Ix := Unit) (Name := ℕ) (U := UR sig nD τ) (Lvl := ℕ)
      launch10.win launch10.arr_whole c (dats m) ((dats m 10 c).share_full fun _ => rfl)
      (U21 m c) (fun b => W22 m X c b) (F10 m X c) (hF10 m X c) (hrest10 m X c)
    rw [Pipeline.unscopedBufs_held] at hjoin
    imodintro
    iexists X
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 11 over the thread state: entered from every unscoped buffer at `W23` (region 10's result at some contents), left
    with its own result array at some contents too and every other buffer as entered. -/
def reg11 : Pipeline.RDat.RegionSeg (pcfgs (F := F)) adm' (rdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (U23 m) c).toRForget
  hwaits := Pipeline.RDat.hwaits_of_owed_zero _ _ _ _ L lv 11 fun _ _ => rfl
  pre c := iprop(∃ X, StableHlo.held (c : Thread nD τ) (Pipeline.ucRefs τ sig) (W23 m X c) ∗ R c)
  post c := iprop(Tₙ m c ∗ ∃ W, owes (c : Thread nD τ) (0 : CellTallies nD τ sig Unit) W)
  X c := iprop(∃ r, prngReg c r)
  Y c := iprop(∃ r, prngReg c r)
  Z c := iprop(∃ X, Pipeline.unscopedRest (Ix := Unit) (Name := ℕ) (U := UR sig nD τ) (Lvl := ℕ) spec11 c (fun b => W23 m X c b))
  hentry c := by
    rw [Pipeline.ownSems0_none]
    iintro ⟨⟨%X, Hub, Hp, HO⟩, -, -⟩
    have hsplit := Pipeline.RDat.arrays_of_unscopedBufs (p := 11) (pcfgs (F := F)) adm' (rdats m) launch11.win launch11.arr_whole c
      ((rdats m 11 c).share_full fun _ => rfl) (fun b => W23 m X c b) fun w => (W23_arr m X c w).symm
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists X; iexact Hrest
  hin c := by
    rw [show (rdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (rdats m 11 c).Φ (Fin.last _) = Pipeline.ΦA spec11 c from rfl]; unfold Pipeline.ΦA
    iintro ⟨Hr, Hp⟩
    isplitl [Hp]; · iexact Hp
    isplitr; · iempintro
    iexact Hr
  hexit c := by
    refine (sep_mono (arraysAt11_elim m c) .rfl).trans ?_
    iintro ⟨⟨%X', Ha⟩, HO, HY, ⟨%X, Hrest⟩⟩
    have hjoin : iprop((dat11 (U23 m) c).arrays (F11 m X' c)
          ∗ Pipeline.unscopedRest (Ix := Unit) (Name := ℕ) (U := UR sig nD τ) (Lvl := ℕ) spec11 c (fun b => W23 m X c b))
        ⊢ (unscopedBufs c (fun b => W24 m X X' c b) : sProp 𝕄) := Pipeline.unscopedBufs_of_arrays (p := 11) (pcfgs (F := F)) adm' (Ix := Unit) (Name := ℕ) (U := UR sig nD τ) (Lvl := ℕ)
      launch11.win launch11.arr_whole c (dats m) ((dats m 11 c).share_full fun _ => rfl)
      (fun b => W23 m X c b) (fun b => W24 m X X' c b) (F11 m X' c) (hF11 m X X' c) (hrest11 m X X' c)
    rw [Pipeline.unscopedBufs_held] at hjoin
    imodintro
    isplitl [Ha Hrest HY]
    · iexists X; iexists X'
      isplitl [Ha Hrest]
      · iapply hjoin; isplitl [Ha] <;> iassumption
      iexact HY
    unfold Pipeline.RDat.owesAt Pipeline.owesWithin
    icases HO with ⟨%W, -, HO⟩; iexists W; iexact HO

/-! ## @main as segments, and the launch -/

abbrev segs : List (Pipeline.RDat.Seg (pcfgs (F := F)) adm' (rdats m) () defs₀ 𝒱₀ L lv) :=
  [
    .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m),
    .host (hseg hostOps9 hostOps9_sub hostOps9_fresh (W18 m)),
    .region (reg9 m),
    .host (hseg hostOps10 hostOps10_sub hostOps10_fresh (W20 m)),
    .region (reg10 m),
    .host (hseg11 m),
    .region (reg11 m) ]

theorem main_run (c : Dev nD) : main (F := F) c = Pipeline.RDat.Seg.run (segs m) := (main_chain c).trans (by chain_rfl)

set_option backward.isDefEq.respectTransparency.types false in
/-- THE FRAME: from any memory with zero counters every weakly fair execution of @main terminates, nothing faulting, and every
    final state holds each argument array at its launch contents. -/
theorem frame_args : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.RDat.θ_run_regions_kit (pcfgs (F := F)) adm' (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12))
    (hfin := fun c s' => by
      iintro ⟨⟨%X, %X', Hh, -⟩, HSI⟩
      unfold StableHlo.held
      ihave Hr := (pointsTo_read_all (Pipeline.ucRefs τ sig) (fun b => ((c : Thread nD τ).1, b)) (W24 m X X' c) s') $$ [Hh HSI]
      · isplitl [Hh] <;> iassumption
      icases Hr with ⟨%h, HSI⟩
      imodintro
      isplitr
      · ipureintro
        exact ⟨(h (Proc.devRef .tc main_arg0) (mem_uc main_arg0 (by decide))).trans (W24_main_arg0 m X X' c),
          (h (Proc.devRef .tc main_arg1) (mem_uc main_arg1 (by decide))).trans (W24_main_arg1 m X X' c),
          (h (Proc.devRef .tc main_arg2) (mem_uc main_arg2 (by decide))).trans (W24_main_arg2 m X X' c),
          (h (Proc.devRef .tc main_arg3) (mem_uc main_arg3 (by decide))).trans (W24_main_arg3 m X X' c),
          (h (Proc.devRef .tc main_arg4) (mem_uc main_arg4 (by decide))).trans (W24_main_arg4 m X X' c),
          (h (Proc.devRef .tc main_arg5) (mem_uc main_arg5 (by decide))).trans (W24_main_arg5 m X X' c),
          (h (Proc.devRef .tc main_arg6) (mem_uc main_arg6 (by decide))).trans (W24_main_arg6 m X X' c),
          (h (Proc.devRef .tc main_arg7) (mem_uc main_arg7 (by decide))).trans (W24_main_arg7 m X X' c),
          (h (Proc.devRef .tc main_arg8) (mem_uc main_arg8 (by decide))).trans (W24_main_arg8 m X X' c),
          (h (Proc.devRef .tc main_arg9) (mem_uc main_arg9 (by decide))).trans (W24_main_arg9 m X X' c),
          (h (Proc.devRef .tc main_arg10) (mem_uc main_arg10 (by decide))).trans (W24_main_arg10 m X X' c),
          (h (Proc.devRef .tc main_arg11) (mem_uc main_arg11 (by decide))).trans (W24_main_arg11 m X X' c),
          (h (Proc.devRef .tc main_arg12) (mem_uc main_arg12 (by decide))).trans (W24_main_arg12 m X X' c)⟩
      · iexact HSI)
    (hQ := fun s h c => h c)

end Run

end Cert.Kernel.Hand

end
-- ==== Proof.ClippedFill.lean ====
import proofs.«177237_j55430847922201_2_alg».proof.Proof.Gen.KernelIdeal.Launch
import Idealize.ShloMosaic.Lib.Pipeline.Kit

noncomputable section

namespace Cert.KernelIdeal.Hand

open Idealize.ShloMosaic Idealize.ShloMosaic.Pipeline

/-- A block filled out past the array's end, read at an index inside the part the transfer moves, is the block's own
    entry there: the filler is never seen. -/
theorem fill_of_lt {sig : RefSig} {G : Pipeline.Grid} (w : Pipeline.Window sig G) {α : Type} (i : G.Coords)
    (d : w.block.Idx → α) (g : (w.xblock i).Idx → α) (y : w.block.Idx) (h : ∀ a, (y a).val < w.xsize i a) :
    w.fill i d g y = g (fun a => ⟨(y a).val, h a⟩) := by
  unfold Pipeline.Window.fill; rw [dif_pos ((w.moved_iff i y).mpr h)]

/-- So two fillings of one block agree there. -/
theorem fill_irrel {sig : RefSig} {G : Pipeline.Grid} (w : Pipeline.Window sig G) {α : Type} (i : G.Coords)
    (d d' : w.block.Idx → α) (g : (w.xblock i).Idx → α) (y : w.block.Idx) (h : ∀ a, (y a).val < w.xsize i a) :
    w.fill i d g y = w.fill i d' g y := by
  rw [fill_of_lt w i d g y h, fill_of_lt w i d' g y h]

end Cert.KernelIdeal.Hand

end
-- ==== Proof.Region0.lean ====
/-
  Region 0 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 0: every edge row of the gathered block times its edge weight -/

section Region0
variable (V : (c : Dev nD) → (b : Ref sig .tc) → Buf (Elt F) ((c : Thread nD τ).loc b))

/-- Window `w`'s block at point `t` — the rows of the block that lie inside the array — read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S8192x64 := Rect.unit (s := S8192x64) ![0, 0] S8192x64.size inb_S8192x64_S8192x64_0_0
abbrev rB0 : Rect S8192x1 := Rect.unit (s := S8192x1) ![0, 0] S8192x1.size inb_S8192x1_S8192x1_0_0

/-- What the body leaves in the result's buffer: its one whole-buffer store of the product of the two loaded blocks. -/
def out0 (x0 : Vec F S8192x64 .f32) (x1 : Vec F S8192x1 .f32) : Vec F S8192x64 .f32 :=
  View.canon [⟨rA0, k0_pay1 (View.ld x0 rA0) (View.ld x1 rB0)⟩]

theorem cover0 (p0 : Vec F S8192x64 .f32) (y : S8192x64.Idx) :
    ∃ pc ∈ ([⟨rA0, p0⟩] : List (View.Piece (Elt F) S8192x64 .f32)), y ∈ pc.1.set :=
  View.cover_of_tiled [⟨rA0, p0⟩] S8192x64.size (by rfl) y

set_option maxHeartbeats 1000000 in
/-- The body on whole staging buffers: the two inputs' are read and left as they were, the result's ends at `out0`. -/
theorem sound_kernel0 (c : Dev nD) (E : Set ℕ) (i : grid0.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0 x0 x1)) -∗ K ⟨⟩))
      ⊢ wp frame (wpE (defs₀ (F := F)) Variants.none c none) E (cc0__weighted_mul_kernel i arg1 harg1 arg2 harg2 arg3 harg3) K := by
  simp only [cc0__weighted_mul_kernel_eq_skeleton]; unfold cc0__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The filler past the array's end: the zero word (nothing reads it). -/
abbrev zA0 : S8192x64.Idx → Elt F .f32 := fun _ => Scalar.ofBits .f32 0#32
abbrev zB0 : S8192x1.Idx → Elt F .f32 := fun _ => Scalar.ofBits .f32 0#32

/-- The proof data: the arrays as the region finds them; after the body each input's buffer at its block (filled out past
    the array's end) and the result's at the product of the two. -/
def dat0 (c : Dev nD) : Dat τ (Elt F) Unit ℕ (UR sig nD τ) ℕ cfg0 c where
  A w := V c (Pipeline.arrRef spec0 w)
  after w t := match w with
    | ⟨0, _⟩ => win0_0.fill (grid0.coords t) zA0 (iblk0 V c 0 t)
    | ⟨1, _⟩ => win0_1.fill (grid0.coords t) zB0 (iblk0 V c 1 t)
    | ⟨2, _⟩ => out0 (win0_0.fill (grid0.coords t) zA0 (iblk0 V c 0 t)) (win0_1.fill (grid0.coords t) zB0 (iblk0 V c 1 t))
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = win0_0.fill (grid0.coords t) zA0 (iblk0 V c 0 t) := by dsimp only [dat0]
theorem after0_1 (c : Dev nD) (t : Fin cfg0.N) : (dat0 V c).after 1 t = win0_1.fill (grid0.coords t) zB0 (iblk0 V c 1 t) := by dsimp only [dat0]
theorem after0_2 (c : Dev nD) (t : Fin cfg0.N) : (dat0 V c).after 2 t
    = out0 (win0_0.fill (grid0.coords t) zA0 (iblk0 V c 0 t)) (win0_1.fill (grid0.coords t) zB0 (iblk0 V c 1 t)) := by dsimp only [dat0]

/-- Each input's buffer is fetched at every point: it holds the block on the rows inside the array, `d` elsewhere. -/
theorem before0_0 (c : Dev nD) (t : Fin cfg0.N) (d) :
    (dat0 V c).before 0 t d = win0_0.fill (grid0.coords t) d (iblk0 V c 0 t) := by
  unfold Dat.before; rw [if_pos (fetch0_0 t)]; rfl
theorem before0_1 (c : Dev nD) (t : Fin cfg0.N) (d) :
    (dat0 V c).before 1 t d = win0_1.fill (grid0.coords t) d (iblk0 V c 1 t) := by
  unfold Dat.before; rw [if_pos (fetch0_1 t)]; rfl

end Region0

section Region0b
variable (V : (c : Dev nD) → (b : Ref sig .tc) → Buf (Elt F) ((c : Thread nD τ).loc b))

/-- The product at an index depends on the first block at that index and on the weight column at that row only. -/
theorem out0_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out0 X0 X1 y = out0 X0' X1' y := by
  have hz : (![0, 0] : Fin 2 → Nat) = fun _ => 0 := funext fun a => by fin_cases a <;> rfl
  unfold out0
  rw [View.canon_unit_zero hz, View.canon_unit_zero hz]
  simp only [View.ld_unit_zero (S := S8192x64) hz, View.ld_unit_zero (S := S8192x1) hz]
  unfold k0_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out0 (c : Dev nD) (t : Fin cfg0.N) (d0 : S8192x64.Idx → Elt F .f32) (d1 : S8192x1.Idx → Elt F .f32) :
    win0_2.cut (grid0.coords t) (out0 (win0_0.fill (grid0.coords t) d0 (iblk0 V c 0 t)) (win0_1.fill (grid0.coords t) d1 (iblk0 V c 1 t)))
      = win0_2.cut (grid0.coords t) (out0 (win0_0.fill (grid0.coords t) zA0 (iblk0 V c 0 t)) (win0_1.fill (grid0.coords t) zB0 (iblk0 V c 1 t))) := by
  funext j
  refine out0_congr _ _ _ _ _ ?_ ?_
  · exact fill_irrel win0_0 (grid0.coords t) d0 zA0 _ _ (fun a => (j a).isLt)
  · intro k hk
    refine fill_irrel win0_1 (grid0.coords t) d1 zB0 _ k (fun a => ?_)
    match a with
    | ⟨0, _⟩ => exact hk ▸ (j 0).isLt
    | ⟨1, _⟩ => exact (k 1).isLt

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ (∃ d, owns (c : Thread nD τ) (st0_2 t) fullShare (win0_2.fill (grid0.coords t) d (win0_2.cut (grid0.coords t) ((dat0 V c).after 2 t)))))

/-- The body at any point: the inputs' buffers hold their blocks filled out with words nothing names; the result's buffer
    ends holding the product, which on the rows inside the array is the proof data's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  rw [before0_0 V c t d0, before0_1 V c t d1]
  iapply (sound_kernel0 c Set.univ _ _ _ _ _ _ _ (win0_0.fill (grid0.coords t) d0 (iblk0 V c 0 t)) (win0_1.fill (grid0.coords t) d1 (iblk0 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win0_0.cut_fill]; iexact H0
  isplitl [H1]
  · iexists d1; rw [win0_1.cut_fill]; iexact H1
  · iexists _
    rw [← cut_out0 V c t d0 d1, win0_2.fill_cut]
    iexact H2

theorem body_obligation0 (c : Dev nD) : BodyObligationLoose (dat0 (F := F) V c) (defs₀ (F := F)) Variants.none () Set.univ := fun t => by
  rw [bigSep_W0, bigSep_W0]
  exact sound_body0 V c t

end Region0b

section Region0c
variable (V : (c : Dev nD) → (b : Ref sig .tc) → Buf (Elt F) ((c : Thread nD τ).loc b))

/-- The body's product at an index: the first block there times the weight column's entry of that row. -/
theorem out0_apply (X0 : Vec F S8192x64 .f32) (X1 : Vec F S8192x1 .f32) (y : S8192x64.Idx) :
    out0 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out0
  rw [View.canon_unit_zero hz]
  simp only [View.ld_unit_zero (S := S8192x64) hz, View.ld_unit_zero (S := S8192x1) hz]
  unfold k0_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G0 (a0 : S1000000x64.Idx → Elt F .f32) (a1 : S1000000x1.Idx → Elt F .f32) : S1000000x64.Idx → Elt F .f32 :=
  fun i => FloatOps.mulf (a0 i) (a1 (ValueIdx.ix2 (n0 := 1000000) (n1 := 1) (i 0) 0))

/-- The printed index maps over the grid: the three windows move together, one block of rows per point, and the last
    block is cut at the array's end. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_2.xsize (grid0.coords t) (0 : Fin 2) = min 8192 (1000000 - 8192 * t.val)
    ∧ win0_2.xsize (grid0.coords t) (1 : Fin 2) = 64 :=
  (by decide +kernel : ∀ t : Fin grid0.N, _)

set_option maxHeartbeats 1000000 in
/-- What point `t` writes back is block `t` of `G0` of the two arrays as the region finds them. -/
theorem flushed0_eq (c : Dev nD) (t : Fin cfg0.N) :
    (dat0 V c).flushed 2 t = ((cfg0.win 2).blk t).view.read (Elt F) (G0 (V c (Pipeline.arrRef spec0 0)) (V c (Pipeline.arrRef spec0 1))) := by
  show (cfg0.win 2).cut (grid0.coords t) ((dat0 V c).after 2 t) = _
  rw [after0_2]
  obtain ⟨e0, e1, e2, e3, e4, e5, e6, e7⟩ := idx_facts0 t
  funext j
  show out0 _ _ (win0_2.xinj (grid0.coords t) j) = G0 (V c (Pipeline.arrRef spec0 0)) (V c (Pipeline.arrRef spec0 1)) (((cfg0.win 2).blk t).view.emb j)
  have hj0 : ∀ a, ((win0_2.xinj (grid0.coords t) j) a).val < win0_0.xsize (grid0.coords t) a := fun a => (j a).isLt
  have hk : ∀ a, ((ValueIdx.ix2 (n0 := 8192) (n1 := 1) ((win0_2.xinj (grid0.coords t) j) 0) 0 : S8192x1.Idx) a).val < win0_1.xsize (grid0.coords t) a := fun a => by
    match a with
    | ⟨0, _⟩ => exact (j 0).isLt
    | ⟨1, _⟩ => exact Nat.zero_lt_one
  have h0 : iblk0 V c 0 t (fun a => ⟨((win0_2.xinj (grid0.coords t) j) a).val, hj0 a⟩) = V c (Pipeline.arrRef spec0 0) (((cfg0.win 2).blk t).view.emb j) := by
    show V c (Pipeline.arrRef spec0 0) (((cfg0.win 0).blk t).view.emb j) = _
    refine congrArg (V c (Pipeline.arrRef spec0 0)) ?_
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 64 + 1 * (j 1).val = win0_2.index t (1 : Fin 2) * 64 + 1 * (j 1).val; omega
  have h1 : iblk0 V c 1 t (fun a => ⟨((ValueIdx.ix2 (n0 := 8192) (n1 := 1) ((win0_2.xinj (grid0.coords t) j) 0) 0 : S8192x1.Idx) a).val, hk a⟩)
      = V c (Pipeline.arrRef spec0 1) (ValueIdx.ix2 (n0 := 1000000) (n1 := 1) ((((cfg0.win 2).blk t).view.emb j) 0) 0) := by
    show V c (Pipeline.arrRef spec0 1) (((cfg0.win 1).blk t).view.emb (fun a => ⟨((ValueIdx.ix2 (n0 := 8192) (n1 := 1) ((win0_2.xinj (grid0.coords t) j) 0) 0 : S8192x1.Idx) a).val, hk a⟩)) = _
    refine congrArg (V c (Pipeline.arrRef spec0 1)) ?_
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 1 + 1 * 0 = 0; omega
  rw [out0_apply, fill_of_lt win0_0 _ _ _ _ hj0, fill_of_lt win0_1 _ _ _ _ hk, h0, h1]
  rfl

theorem mem_blk0 (t : Fin cfg0.N) (i : S1000000x64.Idx) :
    i ∈ ((cfg0.win 2).blk t).view.set ↔ ∀ a : Fin 2, win0_2.index t a * S8192x64.size a ≤ (i a).val ∧ (i a).val < win0_2.index t a * S8192x64.size a + win0_2.xsize (grid0.coords t) a := by
  show i ∈ ((View.whole (Pipeline.arrRef spec0 2)).slice (win0_2.rect t)).set ↔ _
  rw [View.set_slice_whole, Rect.mem_set_unit]
  exact Iff.rfl

theorem cover0_arr (i : S1000000x64.Idx) : ∃ t : Fin cfg0.N, (cfg0.win 2).flush t = true ∧ i ∈ ((cfg0.win 2).blk t).view.set := by
  have hi0 : (i 0).val < 1000000 := (i 0).isLt
  have hi1 : (i 1).val < 64 := (i 1).isLt
  have hN : cfg0.N = 123 := N_0
  let t : Fin cfg0.N := ⟨(i 0).val / 8192, by rw [hN]; omega⟩
  refine ⟨t, flush0_2 t, ?_⟩
  rw [mem_blk0]
  obtain ⟨e0, e1, e2, e3, e4, e5, e6, e7⟩ := idx_facts0 t
  have ht : t.val = (i 0).val / 8192 := rfl
  intro a
  match a with
  | ⟨0, _⟩ => show win0_2.index t (0 : Fin 2) * 8192 ≤ (i 0).val ∧ (i 0).val < win0_2.index t (0 : Fin 2) * 8192 + win0_2.xsize (grid0.coords t) (0 : Fin 2); rw [e4, e6, ht]; omega
  | ⟨1, _⟩ => show win0_2.index t (1 : Fin 2) * 64 ≤ (i 1).val ∧ (i 1).val < win0_2.index t (1 : Fin 2) * 64 + win0_2.xsize (grid0.coords t) (1 : Fin 2); rw [e5, e7]; omega

/-- The result array after the region: `G0` of the two arrays as the region found them. -/
theorem final0 (c : Dev nD) : (dat0 V c).arrAt 2 cfg0.N = G0 (V c (Pipeline.arrRef spec0 0)) (V c (Pipeline.arrRef spec0 1)) :=
  (dat0 V c).arrAt_eq_of_cover 2 _ (fun t _ => flushed0_eq V c t) (cover0_arr)

end Region0c

end Cert.KernelIdeal.Hand

end
-- ==== Proof.Region1.lean ====
/-
  Region 1 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 1: every edge row of the gathered block times its edge weight -/

section Region1
variable (V : (c : Dev nD) → (b : Ref sig .tc) → Buf (Elt F) ((c : Thread nD τ).loc b))

/-- Window `w`'s block at point `t` — the rows of the block that lie inside the array — read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S8192x64 := Rect.unit (s := S8192x64) ![0, 0] S8192x64.size inb_S8192x64_S8192x64_0_0
abbrev rB1 : Rect S8192x1 := Rect.unit (s := S8192x1) ![0, 0] S8192x1.size inb_S8192x1_S8192x1_0_0

/-- What the body leaves in the result's buffer: its one whole-buffer store of the product of the two loaded blocks. -/
def out1 (x0 : Vec F S8192x64 .f32) (x1 : Vec F S8192x1 .f32) : Vec F S8192x64 .f32 :=
  View.canon [⟨rA1, k1_pay1 (View.ld x0 rA1) (View.ld x1 rB1)⟩]

theorem cover1 (p0 : Vec F S8192x64 .f32) (y : S8192x64.Idx) :
    ∃ pc ∈ ([⟨rA1, p0⟩] : List (View.Piece (Elt F) S8192x64 .f32)), y ∈ pc.1.set :=
  View.cover_of_tiled [⟨rA1, p0⟩] S8192x64.size (by rfl) y

set_option maxHeartbeats 1000000 in
/-- The body on whole staging buffers: the two inputs' are read and left as they were, the result's ends at `out1`. -/
theorem sound_kernel1 (c : Dev nD) (E : Set ℕ) (i : grid1.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E (cc1__weighted_mul_kernel i arg1 harg1 arg2 harg2 arg3 harg3) K := by
  simp only [cc1__weighted_mul_kernel_eq_skeleton]; unfold cc1__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The filler past the array's end: the zero word (nothing reads it). -/
abbrev zA1 : S8192x64.Idx → Elt F .f32 := fun _ => Scalar.ofBits .f32 0#32
abbrev zB1 : S8192x1.Idx → Elt F .f32 := fun _ => Scalar.ofBits .f32 0#32

/-- The proof data: the arrays as the region finds them; after the body each input's buffer at its block (filled out past
    the array's end) and the result's at the product of the two. -/
def dat1 (c : Dev nD) : Dat τ (Elt F) Unit ℕ (UR sig nD τ) ℕ cfg1 c where
  A w := V c (Pipeline.arrRef spec1 w)
  after w t := match w with
    | ⟨0, _⟩ => win1_0.fill (grid1.coords t) zA1 (iblk1 V c 0 t)
    | ⟨1, _⟩ => win1_1.fill (grid1.coords t) zB1 (iblk1 V c 1 t)
    | ⟨2, _⟩ => out1 (win1_0.fill (grid1.coords t) zA1 (iblk1 V c 0 t)) (win1_1.fill (grid1.coords t) zB1 (iblk1 V c 1 t))
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = win1_0.fill (grid1.coords t) zA1 (iblk1 V c 0 t) := by dsimp only [dat1]
theorem after1_1 (c : Dev nD) (t : Fin cfg1.N) : (dat1 V c).after 1 t = win1_1.fill (grid1.coords t) zB1 (iblk1 V c 1 t) := by dsimp only [dat1]
theorem after1_2 (c : Dev nD) (t : Fin cfg1.N) : (dat1 V c).after 2 t
    = out1 (win1_0.fill (grid1.coords t) zA1 (iblk1 V c 0 t)) (win1_1.fill (grid1.coords t) zB1 (iblk1 V c 1 t)) := by dsimp only [dat1]

/-- Each input's buffer is fetched at every point: it holds the block on the rows inside the array, `d` elsewhere. -/
theorem before1_0 (c : Dev nD) (t : Fin cfg1.N) (d) :
    (dat1 V c).before 0 t d = win1_0.fill (grid1.coords t) d (iblk1 V c 0 t) := by
  unfold Dat.before; rw [if_pos (fetch1_0 t)]; rfl
theorem before1_1 (c : Dev nD) (t : Fin cfg1.N) (d) :
    (dat1 V c).before 1 t d = win1_1.fill (grid1.coords t) d (iblk1 V c 1 t) := by
  unfold Dat.before; rw [if_pos (fetch1_1 t)]; rfl

end Region1

section Region1b
variable (V : (c : Dev nD) → (b : Ref sig .tc) → Buf (Elt F) ((c : Thread nD τ).loc b))

/-- The product at an index depends on the first block at that index and on the weight column at that row only. -/
theorem out1_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out1 X0 X1 y = out1 X0' X1' y := by
  have hz : (![0, 0] : Fin 2 → Nat) = fun _ => 0 := funext fun a => by fin_cases a <;> rfl
  unfold out1
  rw [View.canon_unit_zero hz, View.canon_unit_zero hz]
  simp only [View.ld_unit_zero (S := S8192x64) hz, View.ld_unit_zero (S := S8192x1) hz]
  unfold k1_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out1 (c : Dev nD) (t : Fin cfg1.N) (d0 : S8192x64.Idx → Elt F .f32) (d1 : S8192x1.Idx → Elt F .f32) :
    win1_2.cut (grid1.coords t) (out1 (win1_0.fill (grid1.coords t) d0 (iblk1 V c 0 t)) (win1_1.fill (grid1.coords t) d1 (iblk1 V c 1 t)))
      = win1_2.cut (grid1.coords t) (out1 (win1_0.fill (grid1.coords t) zA1 (iblk1 V c 0 t)) (win1_1.fill (grid1.coords t) zB1 (iblk1 V c 1 t))) := by
  funext j
  refine out1_congr _ _ _ _ _ ?_ ?_
  · exact fill_irrel win1_0 (grid1.coords t) d0 zA1 _ _ (fun a => (j a).isLt)
  · intro k hk
    refine fill_irrel win1_1 (grid1.coords t) d1 zB1 _ k (fun a => ?_)
    match a with
    | ⟨0, _⟩ => exact hk ▸ (j 0).isLt
    | ⟨1, _⟩ => exact (k 1).isLt

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t)))))

/-- The body at any point: the inputs' buffers hold their blocks filled out with words nothing names; the result's buffer
    ends holding the product, which on the rows inside the array is the proof data's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  rw [before1_0 V c t d0, before1_1 V c t d1]
  iapply (sound_kernel1 c Set.univ _ _ _ _ _ _ _ (win1_0.fill (grid1.coords t) d0 (iblk1 V c 0 t)) (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win1_0.cut_fill]; iexact H0
  isplitl [H1]
  · iexists d1; rw [win1_1.cut_fill]; iexact H1
  · iexists _
    rw [← cut_out1 V c t d0 d1, win1_2.fill_cut]
    iexact H2

theorem body_obligation1 (c : Dev nD) : BodyObligationLoose (dat1 (F := F) V c) (defs₀ (F := F)) Variants.none () Set.univ := fun t => by
  rw [bigSep_W1, bigSep_W1]
  exact sound_body1 V c t

end Region1b

section Region1c
variable (V : (c : Dev nD) → (b : Ref sig .tc) → Buf (Elt F) ((c : Thread nD τ).loc b))

/-- The body's product at an index: the first block there times the weight column's entry of that row. -/
theorem out1_apply (X0 : Vec F S8192x64 .f32) (X1 : Vec F S8192x1 .f32) (y : S8192x64.Idx) :
    out1 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out1
  rw [View.canon_unit_zero hz]
  simp only [View.ld_unit_zero (S := S8192x64) hz, View.ld_unit_zero (S := S8192x1) hz]
  unfold k1_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G1 (a0 : S1000000x64.Idx → Elt F .f32) (a1 : S1000000x1.Idx → Elt F .f32) : S1000000x64.Idx → Elt F .f32 :=
  fun i => FloatOps.mulf (a0 i) (a1 (ValueIdx.ix2 (n0 := 1000000) (n1 := 1) (i 0) 0))

/-- The printed index maps over the grid: the three windows move together, one block of rows per point, and the last
    block is cut at the array's end. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_2.xsize (grid1.coords t) (0 : Fin 2) = min 8192 (1000000 - 8192 * t.val)
    ∧ win1_2.xsize (grid1.coords t) (1 : Fin 2) = 64 :=
  (by decide +kernel : ∀ t : Fin grid1.N, _)

set_option maxHeartbeats 1000000 in
/-- What point `t` writes back is block `t` of `G1` of the two arrays as the region finds them. -/
theorem flushed1_eq (c : Dev nD) (t : Fin cfg1.N) :
    (dat1 V c).flushed 2 t = ((cfg1.win 2).blk t).view.read (Elt F) (G1 (V c (Pipeline.arrRef spec1 0)) (V c (Pipeline.arrRef spec1 1))) := by
  show (cfg1.win 2).cut (grid1.coords t) ((dat1 V c).after 2 t) = _
  rw [after1_2]
  obtain ⟨e0, e1, e2, e3, e4, e5, e6, e7⟩ := idx_facts1 t
  funext j
  show out1 _ _ (win1_2.xinj (grid1.coords t) j) = G1 (V c (Pipeline.arrRef spec1 0)) (V c (Pipeline.arrRef spec1 1)) (((cfg1.win 2).blk t).view.emb j)
  have hj0 : ∀ a, ((win1_2.xinj (grid1.coords t) j) a).val < win1_0.xsize (grid1.coords t) a := fun a => (j a).isLt
  have hk : ∀ a, ((ValueIdx.ix2 (n0 := 8192) (n1 := 1) ((win1_2.xinj (grid1.coords t) j) 0) 0 : S8192x1.Idx) a).val < win1_1.xsize (grid1.coords t) a := fun a => by
    match a with
    | ⟨0, _⟩ => exact (j 0).isLt
    | ⟨1, _⟩ => exact Nat.zero_lt_one
  have h0 : iblk1 V c 0 t (fun a => ⟨((win1_2.xinj (grid1.coords t) j) a).val, hj0 a⟩) = V c (Pipeline.arrRef spec1 0) (((cfg1.win 2).blk t).view.emb j) := by
    show V c (Pipeline.arrRef spec1 0) (((cfg1.win 0).blk t).view.emb j) = _
    refine congrArg (V c (Pipeline.arrRef spec1 0)) ?_
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 64 + 1 * (j 1).val = win1_2.index t (1 : Fin 2) * 64 + 1 * (j 1).val; omega
  have h1 : iblk1 V c 1 t (fun a => ⟨((ValueIdx.ix2 (n0 := 8192) (n1 := 1) ((win1_2.xinj (grid1.coords t) j) 0) 0 : S8192x1.Idx) a).val, hk a⟩)
      = V c (Pipeline.arrRef spec1 1) (ValueIdx.ix2 (n0 := 1000000) (n1 := 1) ((((cfg1.win 2).blk t).view.emb j) 0) 0) := by
    show V c (Pipeline.arrRef spec1 1) (((cfg1.win 1).blk t).view.emb (fun a => ⟨((ValueIdx.ix2 (n0 := 8192) (n1 := 1) ((win1_2.xinj (grid1.coords t) j) 0) 0 : S8192x1.Idx) a).val, hk a⟩)) = _
    refine congrArg (V c (Pipeline.arrRef spec1 1)) ?_
    funext a; apply Fin.ext
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 1 + 1 * 0 = 0; omega
  rw [out1_apply, fill_of_lt win1_0 _ _ _ _ hj0, fill_of_lt win1_1 _ _ _ _ hk, h0, h1]
  rfl

theorem mem_blk1 (t : Fin cfg1.N) (i : S1000000x64.Idx) :
    i ∈ ((cfg1.win 2).blk t).view.set ↔ ∀ a : Fin 2, win1_2.index t a * S8192x64.size a ≤ (i a).val ∧ (i a).val < win1_2.index t a * S8192x64.size a + win1_2.xsize (grid1.coords t) a := by
  show i ∈ ((View.whole (Pipeline.arrRef spec1 2)).slice (win1_2.rect t)).set ↔ _
  rw [View.set_slice_whole, Rect.mem_set_unit]
  exact Iff.rfl

theorem cover1_arr (i : S1000000x64.Idx) : ∃ t : Fin cfg1.N, (cfg1.win 2).flush t = true ∧ i ∈ ((cfg1.win 2).blk t).view.set := by
  have hi0 : (i 0).val < 1000000 := (i 0).isLt
  have hi1 : (i 1).val < 64 := (i 1).isLt
  have hN : cfg1.N = 123 := N_1
  let t : Fin cfg1.N := ⟨(i 0).val / 8192, by rw [hN]; omega⟩
  refine ⟨t, flush1_2 t, ?_⟩
  rw [mem_blk1]
  obtain ⟨e0, e1, e2, e3, e4, e5, e6, e7⟩ := idx_facts1 t
  have ht : t.val = (i 0).val / 8192 := rfl
  intro a
  match a with
  | ⟨0, _⟩ => show win1_2.index t (0 : Fin 2) * 8192 ≤ (i 0).val ∧ (i 0).val < win1_2.index t (0 : Fin 2) * 8192 + win1_2.xsize (grid1.coords t) (0 : Fin 2); rw [e4, e6, ht]; omega
  | ⟨1, _⟩ => show win1_2.index t (1 : Fin 2) * 64 ≤ (i 1).val ∧ (i 1).val < win1_2.index t (1 : Fin 2) * 64 + win1_2.xsize (grid1.coords t) (1 : Fin 2); rw [e5, e7]; omega

/-- The result array after the region: `G1` of the two arrays as the region found them. -/
theorem final1 (c : Dev nD) : (dat1 V c).arrAt 2 cfg1.N = G1 (V c (Pipeline.arrRef spec1 0)) (V c (Pipeline.arrRef spec1 1)) :=
  (dat1 V c).arrAt_eq_of_cover 2 _ (fun t _ => flushed1_eq V c t) (cover1_arr)

end Region1c

end Cert.KernelIdeal.Hand

end
-- ==== Proof.Region2.lean ====
/-
  Region 2 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 2: every edge row of the gathered block times its edge weight -/

section Region2
variable (V : (c : Dev nD) → (b : Ref sig .tc) → Buf (Elt F) ((c : Thread nD τ).loc b))

/-- Window `w`'s block at point `t` — the rows of the block that lie inside the array — read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S8192x64 := Rect.unit (s := S8192x64) ![0, 0] S8192x64.size inb_S8192x64_S8192x64_0_0
abbrev rB2 : Rect S8192x1 := Rect.unit (s := S8192x1) ![0, 0] S8192x1.size inb_S8192x1_S8192x1_0_0

/-- What the body leaves in the result's buffer: its one whole-buffer store of the product of the two loaded blocks. -/
def out2 (x0 : Vec F S8192x64 .f32) (x1 : Vec F S8192x1 .f32) : Vec F S8192x64 .f32 :=
  View.canon [⟨rA2, k2_pay1 (View.ld x0 rA2) (View.ld x1 rB2)⟩]

theorem cover2 (p0 : Vec F S8192x64 .f32) (y : S8192x64.Idx) :
    ∃ pc ∈ ([⟨rA2, p0⟩] : List (View.Piece (Elt F) S8192x64 .f32)), y ∈ pc.1.set :=
  View.cover_of_tiled [⟨rA2, p0⟩] S8192x64.size (by rfl) y

set_option maxHeartbeats 1000000 in
/-- The body on whole staging buffers: the two inputs' are read and left as they were, the result's ends at `out2`. -/
theorem sound_kernel2 (c : Dev nD) (E : Set ℕ) (i : grid2.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc2__weighted_mul_kernel i arg1 harg1 arg2 harg2 arg3 harg3) K := by
  simp only [cc2__weighted_mul_kernel_eq_skeleton]; unfold cc2__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The filler past the array's end: the zero word (nothing reads it). -/
abbrev zA2 : S8192x64.Idx → Elt F .f32 := fun _ => Scalar.ofBits .f32 0#32
abbrev zB2 : S8192x1.Idx → Elt F .f32 := fun _ => Scalar.ofBits .f32 0#32

/-- The proof data: the arrays as the region finds them; after the body each input's buffer at its block (filled out past
    the array's end) and the result's at the product of the two. -/
def dat2 (c : Dev nD) : Dat τ (Elt F) Unit ℕ (UR sig nD τ) ℕ cfg2 c where
  A w := V c (Pipeline.arrRef spec2 w)
  after w t := match w with
    | ⟨0, _⟩ => win2_0.fill (grid2.coords t) zA2 (iblk2 V c 0 t)
    | ⟨1, _⟩ => win2_1.fill (grid2.coords t) zB2 (iblk2 V c 1 t)
    | ⟨2, _⟩ => out2 (win2_0.fill (grid2.coords t) zA2 (iblk2 V c 0 t)) (win2_1.fill (grid2.coords t) zB2 (iblk2 V c 1 t))
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = win2_0.fill (grid2.coords t) zA2 (iblk2 V c 0 t) := by dsimp only [dat2]
theorem after2_1 (c : Dev nD) (t : Fin cfg2.N) : (dat2 V c).after 1 t = win2_1.fill (grid2.coords t) zB2 (iblk2 V c 1 t) := by dsimp only [dat2]
theorem after2_2 (c : Dev nD) (t : Fin cfg2.N) : (dat2 V c).after 2 t
    = out2 (win2_0.fill (grid2.coords t) zA2 (iblk2 V c 0 t)) (win2_1.fill (grid2.coords t) zB2 (iblk2 V c 1 t)) := by dsimp only [dat2]

/-- Each input's buffer is fetched at every point: it holds the block on the rows inside the array, `d` elsewhere. -/
theorem before2_0 (c : Dev nD) (t : Fin cfg2.N) (d) :
    (dat2 V c).before 0 t d = win2_0.fill (grid2.coords t) d (iblk2 V c 0 t) := by
  unfold Dat.before; rw [if_pos (fetch2_0 t)]; rfl
theorem before2_1 (c : Dev nD) (t : Fin cfg2.N) (d) :
    (dat2 V c).before 1 t d = win2_1.fill (grid2.coords t) d (iblk2 V c 1 t) := by
  unfold Dat.before; rw [if_pos (fetch2_1 t)]; rfl

end Region2

section Region2b
variable (V : (c : Dev nD) → (b : Ref sig .tc) → Buf (Elt F) ((c : Thread nD τ).loc b))

/-- The product at an index depends on the first block at that index and on the weight column at that row only. -/
theorem out2_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out2 X0 X1 y = out2 X0' X1' y := by
  have hz : (![0, 0] : Fin 2 → Nat) = fun _ => 0 := funext fun a => by fin_cases a <;> rfl
  unfold out2
  rw [View.canon_unit_zero hz, View.canon_unit_zero hz]
  simp only [View.ld_unit_zero (S := S8192x64) hz, View.ld_unit_zero (S := S8192x1) hz]
  unfold k2_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out2 (c : Dev nD) (t : Fin cfg2.N) (d0 : S8192x64.Idx → Elt F .f32) (d1 : S8192x1.Idx → Elt F .f32) :
    win2_2.cut (grid2.coords t) (out2 (win2_0.fill (grid2.coords t) d0 (iblk2 V c 0 t)) (win2_1.fill (grid2.coords t) d1 (iblk2 V c 1 t)))
      = win2_2.cut (grid2.coords t) (out2 (win2_0.fill (grid2.coords t) zA2 (iblk2 V c 0 t)) (win2_1.fill (grid2.coords t) zB2 (iblk2 V c 1 t))) := by
  funext j
  refine out2_congr _ _ _ _ _ ?_ ?_
  · exact fill_irrel win2_0 (grid2.coords t) d0 zA2 _ _ (fun a => (j a).isLt)
  · intro k hk
    refine fill_irrel win2_1 (grid2.coords t) d1 zB2 _ k (fun a => ?_)
    match a with
    | ⟨0, _⟩ => exact hk ▸ (j 0).isLt
    | ⟨1, _⟩ => exact (k 1).isLt

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t)))))

/-- The body at any point: the inputs' buffers hold their blocks filled out with words nothing names; the result's buffer
    ends holding the product, which on the rows inside the array is the proof data's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  rw [before2_0 V c t d0, before2_1 V c t d1]
  iapply (sound_kernel2 c Set.univ _ _ _ _ _ _ _ (win2_0.fill (grid2.coords t) d0 (iblk2 V c 0 t)) (win2_1.fill (grid2.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win2_0.cut_fill]; iexact H0
  isplitl [H1]
  · iexists d1; rw [win2_1.cut_fill]; iexact H1
  · iexists _
    rw [← cut_out2 V c t d0 d1, win2_2.fill_cut]
    iexact H2

theorem body_obligation2 (c : Dev nD) : BodyObligationLoose (dat2 (F := F) V c) (defs₀ (F := F)) Variants.none () Set.univ := fun t => by
  rw [bigSep_W2, bigSep_W2]
  exact sound_body2 V c t

end Region2b

section Region2c
variable (V : (c : Dev nD) → (b : Ref sig .tc) → Buf (Elt F) ((c : Thread nD τ).loc b))

/-- The body's product at an index: the first block there times the weight column's entry of that row. -/
theorem out2_apply (X0 : Vec F S8192x64 .f32) (X1 : Vec F S8192x1 .f32) (y : S8192x64.Idx) :
    out2 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out2
  rw [View.canon_unit_zero hz]
  simp only [View.ld_unit_zero (S := S8192x64) hz, View.ld_unit_zero (S := S8192x1) hz]
  unfold k2_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G2 (a0 : S1500000x64.Idx → Elt F .f32) (a1 : S1500000x1.Idx → Elt F .f32) : S1500000x64.Idx → Elt F .f32 :=
  fun i => FloatOps.mulf (a0 i) (a1 (ValueIdx.ix2 (n0 := 1500000) (n1 := 1) (i 0) 0))

/-- The printed index maps over the grid: the three windows move together, one block of rows per point, and the last
    block is cut at the array's end. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_2.xsize (grid2.coords t) (0 : Fin 2) = min 8192 (1500000 - 8192 * t.val)
    ∧ win2_2.xsize (grid2.coords t) (1 : Fin 2) = 64 :=
  (by decide +kernel : ∀ t : Fin grid2.N, _)

set_option maxHeartbeats 1000000 in
/-- What point `t` writes back is block `t` of `G2` of the two arrays as the region finds them. -/
theorem flushed2_eq (c : Dev nD) (t : Fin cfg2.N) :
    (dat2 V c).flushed 2 t = ((cfg2.win 2).blk t).view.read (Elt F) (G2 (V c (Pipeline.arrRef spec2 0)) (V c (Pipeline.arrRef spec2 1))) := by
  show (cfg2.win 2).cut (grid2.coords t) ((dat2 V c).after 2 t) = _
  rw [after2_2]
  obtain ⟨e0, e1, e2, e3, e4, e5, e6, e7⟩ := idx_facts2 t
  funext j
  show out2 _ _ (win2_2.xinj (grid2.coords t) j) = G2 (V c (Pipeline.arrRef spec2 0)) (V c (Pipeline.arrRef spec2 1)) (((cfg2.win 2).blk t).view.emb j)
  have hj0 : ∀ a, ((win2_2.xinj (grid2.coords t) j) a).val < win2_0.xsize (grid2.coords t) a := fun a => (j a).isLt
  have hk : ∀ a, ((ValueIdx.ix2 (n0 := 8192) (n1 := 1) ((win2_2.xinj (grid2.coords t) j) 0) 0 : S8192x1.Idx) a).val < win2_1.xsize (grid2.coords t) a := fun a => by
    match a with
    | ⟨0, _⟩ => exact (j 0).isLt
    | ⟨1, _⟩ => exact Nat.zero_lt_one
  have h0 : iblk2 V c 0 t (fun a => ⟨((win2_2.xinj (grid2.coords t) j) a).val, hj0 a⟩) = V c (Pipeline.arrRef spec2 0) (((cfg2.win 2).blk t).view.emb j) := by
    show V c (Pipeline.arrRef spec2 0) (((cfg2.win 0).blk t).view.emb j) = _
    refine congrArg (V c (Pipeline.arrRef spec2 0)) ?_
    funext a; apply Fin.ext
    match a with
    | ⟨0, _⟩ => show win2_0.index t (0 : Fin 2) * 8192 + 1 * (j 0).val = win2_2.index t (0 : Fin 2) * 8192 + 1 * (j 0).val; omega
    | ⟨1, _⟩ => show win2_0.index t (1 : Fin 2) * 64 + 1 * (j 1).val = win2_2.index t (1 : Fin 2) * 64 + 1 * (j 1).val; omega
  have h1 : iblk2 V c 1 t (fun a => ⟨((ValueIdx.ix2 (n0 := 8192) (n1 := 1) ((win2_2.xinj (grid2.coords t) j) 0) 0 : S8192x1.Idx) a).val, hk a⟩)
      = V c (Pipeline.arrRef spec2 1) (ValueIdx.ix2 (n0 := 1500000) (n1 := 1) ((((cfg2.win 2).blk t).view.emb j) 0) 0) := by
    show V c (Pipeline.arrRef spec2 1) (((cfg2.win 1).blk t).view.emb (fun a => ⟨((ValueIdx.ix2 (n0 := 8192) (n1 := 1) ((win2_2.xinj (grid2.coords t) j) 0) 0 : S8192x1.Idx) a).val, hk a⟩)) = _
    refine congrArg (V c (Pipeline.arrRef spec2 1)) ?_
    funext a; apply Fin.ext
    match a with
    | ⟨0, _⟩ => show win2_1.index t (0 : Fin 2) * 8192 + 1 * (j 0).val = win2_2.index t (0 : Fin 2) * 8192 + 1 * (j 0).val; omega
    | ⟨1, _⟩ => show win2_1.index t (1 : Fin 2) * 1 + 1 * 0 = 0; omega
  rw [out2_apply, fill_of_lt win2_0 _ _ _ _ hj0, fill_of_lt win2_1 _ _ _ _ hk, h0, h1]
  rfl

theorem mem_blk2 (t : Fin cfg2.N) (i : S1500000x64.Idx) :
    i ∈ ((cfg2.win 2).blk t).view.set ↔ ∀ a : Fin 2, win2_2.index t a * S8192x64.size a ≤ (i a).val ∧ (i a).val < win2_2.index t a * S8192x64.size a + win2_2.xsize (grid2.coords t) a := by
  show i ∈ ((View.whole (Pipeline.arrRef spec2 2)).slice (win2_2.rect t)).set ↔ _
  rw [View.set_slice_whole, Rect.mem_set_unit]
  exact Iff.rfl

theorem cover2_arr (i : S1500000x64.Idx) : ∃ t : Fin cfg2.N, (cfg2.win 2).flush t = true ∧ i ∈ ((cfg2.win 2).blk t).view.set := by
  have hi0 : (i 0).val < 1500000 := (i 0).isLt
  have hi1 : (i 1).val < 64 := (i 1).isLt
  have hN : cfg2.N = 184 := N_2
  let t : Fin cfg2.N := ⟨(i 0).val / 8192, by rw [hN]; omega⟩
  refine ⟨t, flush2_2 t, ?_⟩
  rw [mem_blk2]
  obtain ⟨e0, e1, e2, e3, e4, e5, e6, e7⟩ := idx_facts2 t
  have ht : t.val = (i 0).val / 8192 := rfl
  intro a
  match a with
  | ⟨0, _⟩ => show win2_2.index t (0 : Fin 2) * 8192 ≤ (i 0).val ∧ (i 0).val < win2_2.index t (0 : Fin 2) * 8192 + win2_2.xsize (grid2.coords t) (0 : Fin 2); rw [e4, e6, ht]; omega
  | ⟨1, _⟩ => show win2_2.index t (1 : Fin 2) * 64 ≤ (i 1).val ∧ (i 1).val < win2_2.index t (1 : Fin 2) * 64 + win2_2.xsize (grid2.coords t) (1 : Fin 2); rw [e5, e7]; omega

/-- The result array after the region: `G2` of the two arrays as the region found them. -/
theorem final2 (c : Dev nD) : (dat2 V c).arrAt 2 cfg2.N = G2 (V c (Pipeline.arrRef spec2 0)) (V c (Pipeline.arrRef spec2 1)) :=
  (dat2 V c).arrAt_eq_of_cover 2 _ (fun t _ => flushed2_eq V c t) (cover2_arr)

end Region2c

end Cert.KernelIdeal.Hand

end
-- ==== Proof.Region3.lean ====
/-
  Region 3 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 3: every edge row of the gathered block times its edge weight -/

section Region3
variable (V : (c : Dev nD) → (b : Ref sig .tc) → Buf (Elt F) ((c : Thread nD τ).loc b))

/-- Window `w`'s block at point `t` — the rows of the block that lie inside the array — read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S8192x64 := Rect.unit (s := S8192x64) ![0, 0] S8192x64.size inb_S8192x64_S8192x64_0_0
abbrev rB3 : Rect S8192x1 := Rect.unit (s := S8192x1) ![0, 0] S8192x1.size inb_S8192x1_S8192x1_0_0

/-- What the body leaves in the result's buffer: its one whole-buffer store of the product of the two loaded blocks. -/
def out3 (x0 : Vec F S8192x64 .f32) (x1 : Vec F S8192x1 .f32) : Vec F S8192x64 .f32 :=
  View.canon [⟨rA3, k3_pay1 (View.ld x0 rA3) (View.ld x1 rB3)⟩]

theorem cover3 (p0 : Vec F S8192x64 .f32) (y : S8192x64.Idx) :
    ∃ pc ∈ ([⟨rA3, p0⟩] : List (View.Piece (Elt F) S8192x64 .f32)), y ∈ pc.1.set :=
  View.cover_of_tiled [⟨rA3, p0⟩] S8192x64.size (by rfl) y

set_option maxHeartbeats 1000000 in
/-- The body on whole staging buffers: the two inputs' are read and left as they were, the result's ends at `out3`. -/
theorem sound_kernel3 (c : Dev nD) (E : Set ℕ) (i : grid3.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3 x0 x1)) -∗ K ⟨⟩))
      ⊢ wp frame (wpE (defs₀ (F := F)) Variants.none c none) E (cc3__weighted_mul_kernel i arg1 harg1 arg2 harg2 arg3 harg3) K := by
  simp only [cc3__weighted_mul_kernel_eq_skeleton]; unfold cc3__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The filler past the array's end: the zero word (nothing reads it). -/
abbrev zA3 : S8192x64.Idx → Elt F .f32 := fun _ => Scalar.ofBits .f32 0#32
abbrev zB3 : S8192x1.Idx → Elt F .f32 := fun _ => Scalar.ofBits .f32 0#32

/-- The proof data: the arrays as the region finds them; after the body each input's buffer at its block (filled out past
    the array's end) and the result's at the product of the two. -/
def dat3 (c : Dev nD) : Dat τ (Elt F) Unit ℕ (UR sig nD τ) ℕ cfg3 c where
  A w := V c (Pipeline.arrRef spec3 w)
  after w t := match w with
    | ⟨0, _⟩ => win3_0.fill (grid3.coords t) zA3 (iblk3 V c 0 t)
    | ⟨1, _⟩ => win3_1.fill (grid3.coords t) zB3 (iblk3 V c 1 t)
    | ⟨2, _⟩ => out3 (win3_0.fill (grid3.coords t) zA3 (iblk3 V c 0 t)) (win3_1.fill (grid3.coords t) zB3 (iblk3 V c 1 t))
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = win3_0.fill (grid3.coords t) zA3 (iblk3 V c 0 t) := by dsimp only [dat3]
theorem after3_1 (c : Dev nD) (t : Fin cfg3.N) : (dat3 V c).after 1 t = win3_1.fill (grid3.coords t) zB3 (iblk3 V c 1 t) := by dsimp only [dat3]
theorem after3_2 (c : Dev nD) (t : Fin cfg3.N) : (dat3 V c).after 2 t
    = out3 (win3_0.fill (grid3.coords t) zA3 (iblk3 V c 0 t)) (win3_1.fill (grid3.coords t) zB3 (iblk3 V c 1 t)) := by dsimp only [dat3]

/-- Each input's buffer is fetched at every point: it holds the block on the rows inside the array, `d` elsewhere. -/
theorem before3_0 (c : Dev nD) (t : Fin cfg3.N) (d) :
    (dat3 V c).before 0 t d = win3_0.fill (grid3.coords t) d (iblk3 V c 0 t) := by
  unfold Dat.before; rw [if_pos (fetch3_0 t)]; rfl
theorem before3_1 (c : Dev nD) (t : Fin cfg3.N) (d) :
    (dat3 V c).before 1 t d = win3_1.fill (grid3.coords t) d (iblk3 V c 1 t) := by
  unfold Dat.before; rw [if_pos (fetch3_1 t)]; rfl

end Region3

section Region3b
variable (V : (c : Dev nD) → (b : Ref sig .tc) → Buf (Elt F) ((c : Thread nD τ).loc b))

/-- The product at an index depends on the first block at that index and on the weight column at that row only. -/
theorem out3_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out3 X0 X1 y = out3 X0' X1' y := by
  have hz : (![0, 0] : Fin 2 → Nat) = fun _ => 0 := funext fun a => by fin_cases a <;> rfl
  unfold out3
  rw [View.canon_unit_zero hz, View.canon_unit_zero hz]
  simp only [View.ld_unit_zero (S := S8192x64) hz, View.ld_unit_zero (S := S8192x1) hz]
  unfold k3_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out3 (c : Dev nD) (t : Fin cfg3.N) (d0 : S8192x64.Idx → Elt F .f32) (d1 : S8192x1.Idx → Elt F .f32) :
    win3_2.cut (grid3.coords t) (out3 (win3_0.fill (grid3.coords t) d0 (iblk3 V c 0 t)) (win3_1.fill (grid3.coords t) d1 (iblk3 V c 1 t)))
      = win3_2.cut (grid3.coords t) (out3 (win3_0.fill (grid3.coords t) zA3 (iblk3 V c 0 t)) (win3_1.fill (grid3.coords t) zB3 (iblk3 V c 1 t))) := by
  funext j
  refine out3_congr _ _ _ _ _ ?_ ?_
  · exact fill_irrel win3_0 (grid3.coords t) d0 zA3 _ _ (fun a => (j a).isLt)
  · intro k hk
    refine fill_irrel win3_1 (grid3.coords t) d1 zB3 _ k (fun a => ?_)
    match a with
    | ⟨0, _⟩ => exact hk ▸ (j 0).isLt
    | ⟨1, _⟩ => exact (k 1).isLt

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (∃ d, owns (c : Thread nD τ) (st3_0 t) fullShare (win3_0.fill (grid3.coords t) d (win3_0.cut (grid3.coords t) ((dat3 V c).after 0 t))))
    ∗ (∃ d, owns (c : Thread nD τ) (st3_1 t) fullShare (win3_1.fill (grid3.coords t) d (win3_1.cut (grid3.coords t) ((dat3 V c).after 1 t))))
    ∗ (∃ d, owns (c : Thread nD τ) (st3_2 t) fullShare (win3_2.fill (grid3.coords t) d (win3_2.cut (grid3.coords t) ((dat3 V c).after 2 t)))))

/-- The body at any point: the inputs' buffers hold their blocks filled out with words nothing names; the result's buffer
    ends holding the product, which on the rows inside the array is the proof data's. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  rw [before3_0 V c t d0, before3_1 V c t d1]
  iapply (sound_kernel3 c Set.univ _ _ _ _ _ _ _ (win3_0.fill (grid3.coords t) d0 (iblk3 V c 0 t)) (win3_1.fill (grid3.coords t) d1 (iblk3 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win3_0.cut_fill]; iexact H0
  isplitl [H1]
  · iexists d1; rw [win3_1.cut_fill]; iexact H1
  · iexists _
    rw [← cut_out3 V c t d0 d1, win3_2.fill_cut]
    iexact H2

theorem body_obligation3 (c : Dev nD) : BodyObligationLoose (dat3 (F := F) V c) (defs₀ (F := F)) Variants.none () Set.univ := fun t => by
  rw [bigSep_W3, bigSep_W3]
  exact sound_body3 V c t

end Region3b

section Region3c
variable (V : (c : Dev nD) → (b : Ref sig .tc) → Buf (Elt F) ((c : Thread nD τ).loc b))

/-- The body's product at an index: the first block there times the weight column's entry of that row. -/
theorem out3_apply (X0 : Vec F S8192x64 .f32) (X1 : Vec F S8192x1 .f32) (y : S8192x64.Idx) :
    out3 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out3
  rw [View.canon_unit_zero hz]
  simp only [View.ld_unit_zero (S := S8192x64) hz, View.ld_unit_zero (S := S8192x1) hz]
  unfold k3_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G3 (a0 : S1500000x64.Idx → Elt F .f32) (a1 : S1500000x1.Idx → Elt F .f32) : S1500000x64.Idx → Elt F .f32 :=
  fun i => FloatOps.mulf (a0 i) (a1 (ValueIdx.ix2 (n0 := 1500000) (n1 := 1) (i 0) 0))

/-- The printed index maps over the grid: the three windows move together, one block of rows per point, and the last
    block is cut at the array's end. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_2.xsize (grid3.coords t) (0 : Fin 2) = min 8192 (1500000 - 8192 * t.val)
    ∧ win3_2.xsize (grid3.coords t) (1 : Fin 2) = 64 :=
  (by decide +kernel : ∀ t : Fin grid3.N, _)

set_option maxHeartbeats 1000000 in
/-- What point `t` writes back is block `t` of `G3` of the two arrays as the region finds them. -/
theorem flushed3_eq (c : Dev nD) (t : Fin cfg3.N) :
    (dat3 V c).flushed 2 t = ((cfg3.win 2).blk t).view.read (Elt F) (G3 (V c (Pipeline.arrRef spec3 0)) (V c (Pipeline.arrRef spec3 1))) := by
  show (cfg3.win 2).cut (grid3.coords t) ((dat3 V c).after 2 t) = _
  rw [after3_2]
  obtain ⟨e0, e1, e2, e3, e4, e5, e6, e7⟩ := idx_facts3 t
  funext j
  show out3 _ _ (win3_2.xinj (grid3.coords t) j) = G3 (V c (Pipeline.arrRef spec3 0)) (V c (Pipeline.arrRef spec3 1)) (((cfg3.win 2).blk t).view.emb j)
  have hj0 : ∀ a, ((win3_2.xinj (grid3.coords t) j) a).val < win3_0.xsize (grid3.coords t) a := fun a => (j a).isLt
  have hk : ∀ a, ((ValueIdx.ix2 (n0 := 8192) (n1 := 1) ((win3_2.xinj (grid3.coords t) j) 0) 0 : S8192x1.Idx) a).val < win3_1.xsize (grid3.coords t) a := fun a => by
    match a with
    | ⟨0, _⟩ => exact (j 0).isLt
    | ⟨1, _⟩ => exact Nat.zero_lt_one
  have h0 : iblk3 V c 0 t (fun a => ⟨((win3_2.xinj (grid3.coords t) j) a).val, hj0 a⟩) = V c (Pipeline.arrRef spec3 0) (((cfg3.win 2).blk t).view.emb j) := by
    show V c (Pipeline.arrRef spec3 0) (((cfg3.win 0).blk t).view.emb j) = _
    refine congrArg (V c (Pipeline.arrRef spec3 0)) ?_
    funext a; apply Fin.ext
    match a with
    | ⟨0, _⟩ => show win3_0.index t (0 : Fin 2) * 8192 + 1 * (j 0).val = win3_2.index t (0 : Fin 2) * 8192 + 1 * (j 0).val; omega
    | ⟨1, _⟩ => show win3_0.index t (1 : Fin 2) * 64 + 1 * (j 1).val = win3_2.index t (1 : Fin 2) * 64 + 1 * (j 1).val; omega
  have h1 : iblk3 V c 1 t (fun a => ⟨((ValueIdx.ix2 (n0 := 8192) (n1 := 1) ((win3_2.xinj (grid3.coords t) j) 0) 0 : S8192x1.Idx) a).val, hk a⟩)
      = V c (Pipeline.arrRef spec3 1) (ValueIdx.ix2 (n0 := 1500000) (n1 := 1) ((((cfg3.win 2).blk t).view.emb j) 0) 0) := by
    show V c (Pipeline.arrRef spec3 1) (((cfg3.win 1).blk t).view.emb (fun a => ⟨((ValueIdx.ix2 (n0 := 8192) (n1 := 1) ((win3_2.xinj (grid3.coords t) j) 0) 0 : S8192x1.Idx) a).val, hk a⟩)) = _
    refine congrArg (V c (Pipeline.arrRef spec3 1)) ?_
    funext a; apply Fin.ext
    match a with
    | ⟨0, _⟩ => show win3_1.index t (0 : Fin 2) * 8192 + 1 * (j 0).val = win3_2.index t (0 : Fin 2) * 8192 + 1 * (j 0).val; omega
    | ⟨1, _⟩ => show win3_1.index t (1 : Fin 2) * 1 + 1 * 0 = 0; omega
  rw [out3_apply, fill_of_lt win3_0 _ _ _ _ hj0, fill_of_lt win3_1 _ _ _ _ hk, h0, h1]
  rfl

theorem mem_blk3 (t : Fin cfg3.N) (i : S1500000x64.Idx) :
    i ∈ ((cfg3.win 2).blk t).view.set ↔ ∀ a : Fin 2, win3_2.index t a * S8192x64.size a ≤ (i a).val ∧ (i a).val < win3_2.index t a * S8192x64.size a + win3_2.xsize (grid3.coords t) a := by
  show i ∈ ((View.whole (Pipeline.arrRef spec3 2)).slice (win3_2.rect t)).set ↔ _
  rw [View.set_slice_whole, Rect.mem_set_unit]
  exact Iff.rfl

theorem cover3_arr (i : S1500000x64.Idx) : ∃ t : Fin cfg3.N, (cfg3.win 2).flush t = true ∧ i ∈ ((cfg3.win 2).blk t).view.set := by
  have hi0 : (i 0).val < 1500000 := (i 0).isLt
  have hi1 : (i 1).val < 64 := (i 1).isLt
  have hN : cfg3.N = 184 := N_3
  let t : Fin cfg3.N := ⟨(i 0).val / 8192, by rw [hN]; omega⟩
  refine ⟨t, flush3_2 t, ?_⟩
  rw [mem_blk3]
  obtain ⟨e0, e1, e2, e3, e4, e5, e6, e7⟩ := idx_facts3 t
  have ht : t.val = (i 0).val / 8192 := rfl
  intro a
  match a with
  | ⟨0, _⟩ => show win3_2.index t (0 : Fin 2) * 8192 ≤ (i 0).val ∧ (i 0).val < win3_2.index t (0 : Fin 2) * 8192 + win3_2.xsize (grid3.coords t) (0 : Fin 2); rw [e4, e6, ht]; omega
  | ⟨1, _⟩ => show win3_2.index t (1 : Fin 2) * 64 ≤ (i 1).val ∧ (i 1).val < win3_2.index t (1 : Fin 2) * 64 + win3_2.xsize (grid3.coords t) (1 : Fin 2); rw [e5, e7]; omega

/-- The result array after the region: `G3` of the two arrays as the region found them. -/
theorem final3 (c : Dev nD) : (dat3 V c).arrAt 2 cfg3.N = G3 (V c (Pipeline.arrRef spec3 0)) (V c (Pipeline.arrRef spec3 1)) :=
  (dat3 V c).arrAt_eq_of_cover 2 _ (fun t _ => flushed3_eq V c t) (cover3_arr)

end Region3c

end Cert.KernelIdeal.Hand

end
-- ==== Proof.Region4.lean ====
/-
  Region 4 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 4: every edge row of the gathered block times its edge weight -/

section Region4
variable (V : (c : Dev nD) → (b : Ref sig .tc) → Buf (Elt F) ((c : Thread nD τ).loc b))

/-- Window `w`'s block at point `t` — the rows of the block that lie inside the array — read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rA4 : Rect S8192x64 := Rect.unit (s := S8192x64) ![0, 0] S8192x64.size inb_S8192x64_S8192x64_0_0
abbrev rB4 : Rect S8192x1 := Rect.unit (s := S8192x1) ![0, 0] S8192x1.size inb_S8192x1_S8192x1_0_0

/-- What the body leaves in the result's buffer: its one whole-buffer store of the product of the two loaded blocks. -/
def out4 (x0 : Vec F S8192x64 .f32) (x1 : Vec F S8192x1 .f32) : Vec F S8192x64 .f32 :=
  View.canon [⟨rA4, k4_pay1 (View.ld x0 rA4) (View.ld x1 rB4)⟩]

theorem cover4 (p0 : Vec F S8192x64 .f32) (y : S8192x64.Idx) :
    ∃ pc ∈ ([⟨rA4, p0⟩] : List (View.Piece (Elt F) S8192x64 .f32)), y ∈ pc.1.set :=
  View.cover_of_tiled [⟨rA4, p0⟩] S8192x64.size (by rfl) y

set_option maxHeartbeats 1000000 in
/-- The body on whole staging buffers: the two inputs' are read and left as they were, the result's ends at `out4`. -/
theorem sound_kernel4 (c : Dev nD) (E : Set ℕ) (i : grid4.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4 x0 x1)) -∗ K ⟨⟩))
      ⊢ wp frame (wpE (defs₀ (F := F)) Variants.none c none) E (cc4__weighted_mul_kernel i arg1 harg1 arg2 harg2 arg3 harg3) K := by
  simp only [cc4__weighted_mul_kernel_eq_skeleton]; unfold cc4__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4 _)

/-- The filler past the array's end: the zero word (nothing reads it). -/
abbrev zA4 : S8192x64.Idx → Elt F .f32 := fun _ => Scalar.ofBits .f32 0#32
abbrev zB4 : S8192x1.Idx → Elt F .f32 := fun _ => Scalar.ofBits .f32 0#32

/-- The proof data: the arrays as the region finds them; after the body each input's buffer at its block (filled out past
    the array's end) and the result's at the product of the two. -/
def dat4 (c : Dev nD) : Dat τ (Elt F) Unit ℕ (UR sig nD τ) ℕ cfg4 c where
  A w := V c (Pipeline.arrRef spec4 w)
  after w t := match w with
    | ⟨0, _⟩ => win4_0.fill (grid4.coords t) zA4 (iblk4 V c 0 t)
    | ⟨1, _⟩ => win4_1.fill (grid4.coords t) zB4 (iblk4 V c 1 t)
    | ⟨2, _⟩ => out4 (win4_0.fill (grid4.coords t) zA4 (iblk4 V c 0 t)) (win4_1.fill (grid4.coords t) zB4 (iblk4 V c 1 t))
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = win4_0.fill (grid4.coords t) zA4 (iblk4 V c 0 t) := by dsimp only [dat4]
theorem after4_1 (c : Dev nD) (t : Fin cfg4.N) : (dat4 V c).after 1 t = win4_1.fill (grid4.coords t) zB4 (iblk4 V c 1 t) := by dsimp only [dat4]
theorem after4_2 (c : Dev nD) (t : Fin cfg4.N) : (dat4 V c).after 2 t
    = out4 (win4_0.fill (grid4.coords t) zA4 (iblk4 V c 0 t)) (win4_1.fill (grid4.coords t) zB4 (iblk4 V c 1 t)) := by dsimp only [dat4]

/-- Each input's buffer is fetched at every point: it holds the block on the rows inside the array, `d` elsewhere. -/
theorem before4_0 (c : Dev nD) (t : Fin cfg4.N) (d) :
    (dat4 V c).before 0 t d = win4_0.fill (grid4.coords t) d (iblk4 V c 0 t) := by
  unfold Dat.before; rw [if_pos (fetch4_0 t)]; rfl
theorem before4_1 (c : Dev nD) (t : Fin cfg4.N) (d) :
    (dat4 V c).before 1 t d = win4_1.fill (grid4.coords t) d (iblk4 V c 1 t) := by
  unfold Dat.before; rw [if_pos (fetch4_1 t)]; rfl

end Region4

section Region4b
variable (V : (c : Dev nD) → (b : Ref sig .tc) → Buf (Elt F) ((c : Thread nD τ).loc b))

/-- The product at an index depends on the first block at that index and on the weight column at that row only. -/
theorem out4_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out4 X0 X1 y = out4 X0' X1' y := by
  have hz : (![0, 0] : Fin 2 → Nat) = fun _ => 0 := funext fun a => by fin_cases a <;> rfl
  unfold out4
  rw [View.canon_unit_zero hz, View.canon_unit_zero hz]
  simp only [View.ld_unit_zero (S := S8192x64) hz, View.ld_unit_zero (S := S8192x1) hz]
  unfold k4_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out4 (c : Dev nD) (t : Fin cfg4.N) (d0 : S8192x64.Idx → Elt F .f32) (d1 : S8192x1.Idx → Elt F .f32) :
    win4_2.cut (grid4.coords t) (out4 (win4_0.fill (grid4.coords t) d0 (iblk4 V c 0 t)) (win4_1.fill (grid4.coords t) d1 (iblk4 V c 1 t)))
      = win4_2.cut (grid4.coords t) (out4 (win4_0.fill (grid4.coords t) zA4 (iblk4 V c 0 t)) (win4_1.fill (grid4.coords t) zB4 (iblk4 V c 1 t))) := by
  funext j
  refine out4_congr _ _ _ _ _ ?_ ?_
  · exact fill_irrel win4_0 (grid4.coords t) d0 zA4 _ _ (fun a => (j a).isLt)
  · intro k hk
    refine fill_irrel win4_1 (grid4.coords t) d1 zB4 _ k (fun a => ?_)
    match a with
    | ⟨0, _⟩ => exact hk ▸ (j 0).isLt
    | ⟨1, _⟩ => exact (k 1).isLt

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (∃ d, owns (c : Thread nD τ) (st4_0 t) fullShare (win4_0.fill (grid4.coords t) d (win4_0.cut (grid4.coords t) ((dat4 V c).after 0 t))))
    ∗ (∃ d, owns (c : Thread nD τ) (st4_1 t) fullShare (win4_1.fill (grid4.coords t) d (win4_1.cut (grid4.coords t) ((dat4 V c).after 1 t))))
    ∗ (∃ d, owns (c : Thread nD τ) (st4_2 t) fullShare (win4_2.fill (grid4.coords t) d (win4_2.cut (grid4.coords t) ((dat4 V c).after 2 t)))))

/-- The body at any point: the inputs' buffers hold their blocks filled out with words nothing names; the result's buffer
    ends holding the product, which on the rows inside the array is the proof data's. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  rw [before4_0 V c t d0, before4_1 V c t d1]
  iapply (sound_kernel4 c Set.univ _ _ _ _ _ _ _ (win4_0.fill (grid4.coords t) d0 (iblk4 V c 0 t)) (win4_1.fill (grid4.coords t) d1 (iblk4 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win4_0.cut_fill]; iexact H0
  isplitl [H1]
  · iexists d1; rw [win4_1.cut_fill]; iexact H1
  · iexists _
    rw [← cut_out4 V c t d0 d1, win4_2.fill_cut]
    iexact H2

theorem body_obligation4 (c : Dev nD) : BodyObligationLoose (dat4 (F := F) V c) (defs₀ (F := F)) Variants.none () Set.univ := fun t => by
  rw [bigSep_W4, bigSep_W4]
  exact sound_body4 V c t

end Region4b

section Region4c
variable (V : (c : Dev nD) → (b : Ref sig .tc) → Buf (Elt F) ((c : Thread nD τ).loc b))

/-- The body's product at an index: the first block there times the weight column's entry of that row. -/
theorem out4_apply (X0 : Vec F S8192x64 .f32) (X1 : Vec F S8192x1 .f32) (y : S8192x64.Idx) :
    out4 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out4
  rw [View.canon_unit_zero hz]
  simp only [View.ld_unit_zero (S := S8192x64) hz, View.ld_unit_zero (S := S8192x1) hz]
  unfold k4_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G4 (a0 : S1500000x64.Idx → Elt F .f32) (a1 : S1500000x1.Idx → Elt F .f32) : S1500000x64.Idx → Elt F .f32 :=
  fun i => FloatOps.mulf (a0 i) (a1 (ValueIdx.ix2 (n0 := 1500000) (n1 := 1) (i 0) 0))

/-- The printed index maps over the grid: the three windows move together, one block of rows per point, and the last
    block is cut at the array's end. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_2.xsize (grid4.coords t) (0 : Fin 2) = min 8192 (1500000 - 8192 * t.val)
    ∧ win4_2.xsize (grid4.coords t) (1 : Fin 2) = 64 :=
  (by decide +kernel : ∀ t : Fin grid4.N, _)

set_option maxHeartbeats 1000000 in
/-- What point `t` writes back is block `t` of `G4` of the two arrays as the region finds them. -/
theorem flushed4_eq (c : Dev nD) (t : Fin cfg4.N) :
    (dat4 V c).flushed 2 t = ((cfg4.win 2).blk t).view.read (Elt F) (G4 (V c (Pipeline.arrRef spec4 0)) (V c (Pipeline.arrRef spec4 1))) := by
  show (cfg4.win 2).cut (grid4.coords t) ((dat4 V c).after 2 t) = _
  rw [after4_2]
  obtain ⟨e0, e1, e2, e3, e4, e5, e6, e7⟩ := idx_facts4 t
  funext j
  show out4 _ _ (win4_2.xinj (grid4.coords t) j) = G4 (V c (Pipeline.arrRef spec4 0)) (V c (Pipeline.arrRef spec4 1)) (((cfg4.win 2).blk t).view.emb j)
  have hj0 : ∀ a, ((win4_2.xinj (grid4.coords t) j) a).val < win4_0.xsize (grid4.coords t) a := fun a => (j a).isLt
  have hk : ∀ a, ((ValueIdx.ix2 (n0 := 8192) (n1 := 1) ((win4_2.xinj (grid4.coords t) j) 0) 0 : S8192x1.Idx) a).val < win4_1.xsize (grid4.coords t) a := fun a => by
    match a with
    | ⟨0, _⟩ => exact (j 0).isLt
    | ⟨1, _⟩ => exact Nat.zero_lt_one
  have h0 : iblk4 V c 0 t (fun a => ⟨((win4_2.xinj (grid4.coords t) j) a).val, hj0 a⟩) = V c (Pipeline.arrRef spec4 0) (((cfg4.win 2).blk t).view.emb j) := by
    show V c (Pipeline.arrRef spec4 0) (((cfg4.win 0).blk t).view.emb j) = _
    refine congrArg (V c (Pipeline.arrRef spec4 0)) ?_
    funext a; apply Fin.ext
    match a with
    | ⟨0, _⟩ => show win4_0.index t (0 : Fin 2) * 8192 + 1 * (j 0).val = win4_2.index t (0 : Fin 2) * 8192 + 1 * (j 0).val; omega
    | ⟨1, _⟩ => show win4_0.index t (1 : Fin 2) * 64 + 1 * (j 1).val = win4_2.index t (1 : Fin 2) * 64 + 1 * (j 1).val; omega
  have h1 : iblk4 V c 1 t (fun a => ⟨((ValueIdx.ix2 (n0 := 8192) (n1 := 1) ((win4_2.xinj (grid4.coords t) j) 0) 0 : S8192x1.Idx) a).val, hk a⟩)
      = V c (Pipeline.arrRef spec4 1) (ValueIdx.ix2 (n0 := 1500000) (n1 := 1) ((((cfg4.win 2).blk t).view.emb j) 0) 0) := by
    show V c (Pipeline.arrRef spec4 1) (((cfg4.win 1).blk t).view.emb (fun a => ⟨((ValueIdx.ix2 (n0 := 8192) (n1 := 1) ((win4_2.xinj (grid4.coords t) j) 0) 0 : S8192x1.Idx) a).val, hk a⟩)) = _
    refine congrArg (V c (Pipeline.arrRef spec4 1)) ?_
    funext a; apply Fin.ext
    match a with
    | ⟨0, _⟩ => show win4_1.index t (0 : Fin 2) * 8192 + 1 * (j 0).val = win4_2.index t (0 : Fin 2) * 8192 + 1 * (j 0).val; omega
    | ⟨1, _⟩ => show win4_1.index t (1 : Fin 2) * 1 + 1 * 0 = 0; omega
  rw [out4_apply, fill_of_lt win4_0 _ _ _ _ hj0, fill_of_lt win4_1 _ _ _ _ hk, h0, h1]
  rfl

theorem mem_blk4 (t : Fin cfg4.N) (i : S1500000x64.Idx) :
    i ∈ ((cfg4.win 2).blk t).view.set ↔ ∀ a : Fin 2, win4_2.index t a * S8192x64.size a ≤ (i a).val ∧ (i a).val < win4_2.index t a * S8192x64.size a + win4_2.xsize (grid4.coords t) a := by
  show i ∈ ((View.whole (Pipeline.arrRef spec4 2)).slice (win4_2.rect t)).set ↔ _
  rw [View.set_slice_whole, Rect.mem_set_unit]
  exact Iff.rfl

theorem cover4_arr (i : S1500000x64.Idx) : ∃ t : Fin cfg4.N, (cfg4.win 2).flush t = true ∧ i ∈ ((cfg4.win 2).blk t).view.set := by
  have hi0 : (i 0).val < 1500000 := (i 0).isLt
  have hi1 : (i 1).val < 64 := (i 1).isLt
  have hN : cfg4.N = 184 := N_4
  let t : Fin cfg4.N := ⟨(i 0).val / 8192, by rw [hN]; omega⟩
  refine ⟨t, flush4_2 t, ?_⟩
  rw [mem_blk4]
  obtain ⟨e0, e1, e2, e3, e4, e5, e6, e7⟩ := idx_facts4 t
  have ht : t.val = (i 0).val / 8192 := rfl
  intro a
  match a with
  | ⟨0, _⟩ => show win4_2.index t (0 : Fin 2) * 8192 ≤ (i 0).val ∧ (i 0).val < win4_2.index t (0 : Fin 2) * 8192 + win4_2.xsize (grid4.coords t) (0 : Fin 2); rw [e4, e6, ht]; omega
  | ⟨1, _⟩ => show win4_2.index t (1 : Fin 2) * 64 ≤ (i 1).val ∧ (i 1).val < win4_2.index t (1 : Fin 2) * 64 + win4_2.xsize (grid4.coords t) (1 : Fin 2); rw [e5, e7]; omega

/-- The result array after the region: `G4` of the two arrays as the region found them. -/
theorem final4 (c : Dev nD) : (dat4 V c).arrAt 2 cfg4.N = G4 (V c (Pipeline.arrRef spec4 0)) (V c (Pipeline.arrRef spec4 1)) :=
  (dat4 V c).arrAt_eq_of_cover 2 _ (fun t _ => flushed4_eq V c t) (cover4_arr)

end Region4c

end Cert.KernelIdeal.Hand

end
-- ==== Proof.Region5.lean ====
/-
  Region 5 of the program: the entrywise sum of two arrays of embedding rows.  The arrays are cut into blocks of 8192 rows
  and the last block overhangs the array; the rows of a staging buffer past the array's end hold words nothing names, and
  the result on the rows inside the array does not depend on them because the sum is taken entry by entry.  After all
  points the result array holds the sum of the two arrays at every index.
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 5: the running sum of the layers plus the newly propagated layer, row by row -/

section Region5
variable (V : (c : Dev nD) → (b : Ref sig .tc) → Buf (Elt F) ((c : Thread nD τ).loc b))

/-- Window `w`'s block at point `t` — the rows of the block that lie inside the array — read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rA5 : Rect S8192x64 := Rect.unit (s := S8192x64) ![0, 0] S8192x64.size inb_S8192x64_S8192x64_0_0

/-- What the body leaves in the result's buffer: its one whole-buffer store of the sum of the two loaded blocks. -/
def out5 (x0 : Vec F S8192x64 .f32) (x1 : Vec F S8192x64 .f32) : Vec F S8192x64 .f32 :=
  View.canon [⟨rA5, k5_pay1 (View.ld x0 rA5) (View.ld x1 rA5)⟩]

theorem cover5 (p0 : Vec F S8192x64 .f32) (y : S8192x64.Idx) :
    ∃ pc ∈ ([⟨rA5, p0⟩] : List (View.Piece (Elt F) S8192x64 .f32)), y ∈ pc.1.set :=
  View.cover_of_tiled [⟨rA5, p0⟩] S8192x64.size (by rfl) y

set_option maxHeartbeats 1000000 in
/-- The body on whole staging buffers: the two inputs' are read and left as they were, the result's ends at `out5`. -/
theorem sound_kernel5 (c : Dev nD) (E : Set ℕ) (i : grid5.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole)
    (x0 : Vec F S8192x64 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5 x0 x1)) -∗ K ⟨⟩))
      ⊢ wp frame (wpE (defs₀ (F := F)) Variants.none c none) E (cc5__add_kernel i arg1 harg1 arg2 harg2 arg3 harg3) K := by
  simp only [cc5__add_kernel_eq_skeleton]; unfold cc5__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-- The filler past the array's end: the zero word (nothing reads it). -/
abbrev zA5 : S8192x64.Idx → Elt F .f32 := fun _ => Scalar.ofBits .f32 0#32

/-- The body's sum at an index is the sum of the two blocks there. -/
theorem out5_apply (X0 X1 : Vec F S8192x64 .f32) (y : S8192x64.Idx) :
    out5 X0 X1 y = FloatOps.addf (X0 y) (X1 y) := by
  have hz : (![0, 0] : Fin 2 → Nat) = fun _ => 0 := funext fun a => by fin_cases a <;> rfl
  unfold out5
  rw [View.canon_unit_zero hz]
  simp only [View.ld_unit_zero (S := S8192x64) hz]
  unfold k5_pay1
  simp only [shapeCast_self]
  rfl

/-- The proof data: the arrays as the region finds them; after the body each input's buffer at its block (filled out past
    the array's end) and the result's at the sum of the two. -/
def dat5 (c : Dev nD) : Dat τ (Elt F) Unit ℕ (UR sig nD τ) ℕ cfg5 c where
  A w := V c (Pipeline.arrRef spec5 w)
  after w t := match w with
    | ⟨0, _⟩ => win5_0.fill (grid5.coords t) zA5 (iblk5 V c 0 t)
    | ⟨1, _⟩ => win5_1.fill (grid5.coords t) zA5 (iblk5 V c 1 t)
    | ⟨2, _⟩ => out5 (win5_0.fill (grid5.coords t) zA5 (iblk5 V c 0 t)) (win5_1.fill (grid5.coords t) zA5 (iblk5 V c 1 t))
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = win5_0.fill (grid5.coords t) zA5 (iblk5 V c 0 t) := by dsimp only [dat5]
theorem after5_1 (c : Dev nD) (t : Fin cfg5.N) : (dat5 V c).after 1 t = win5_1.fill (grid5.coords t) zA5 (iblk5 V c 1 t) := by dsimp only [dat5]
theorem after5_2 (c : Dev nD) (t : Fin cfg5.N) : (dat5 V c).after 2 t
    = out5 (win5_0.fill (grid5.coords t) zA5 (iblk5 V c 0 t)) (win5_1.fill (grid5.coords t) zA5 (iblk5 V c 1 t)) := by dsimp only [dat5]

theorem before5_0 (c : Dev nD) (t : Fin cfg5.N) (d) :
    (dat5 V c).before 0 t d = win5_0.fill (grid5.coords t) d (iblk5 V c 0 t) := by
  unfold Dat.before; rw [if_pos (fetch5_0 t)]; rfl
theorem before5_1 (c : Dev nD) (t : Fin cfg5.N) (d) :
    (dat5 V c).before 1 t d = win5_1.fill (grid5.coords t) d (iblk5 V c 1 t) := by
  unfold Dat.before; rw [if_pos (fetch5_1 t)]; rfl

/-- On the rows inside the array the result's buffer does not see what filled the inputs' buffers past the array's end. -/
theorem cut_out5 (c : Dev nD) (t : Fin cfg5.N) (d0 d1 : S8192x64.Idx → Elt F .f32) :
    win5_2.cut (grid5.coords t) (out5 (win5_0.fill (grid5.coords t) d0 (iblk5 V c 0 t)) (win5_1.fill (grid5.coords t) d1 (iblk5 V c 1 t)))
      = win5_2.cut (grid5.coords t) (out5 (win5_0.fill (grid5.coords t) zA5 (iblk5 V c 0 t)) (win5_1.fill (grid5.coords t) zA5 (iblk5 V c 1 t))) := by
  funext j
  show out5 _ _ (win5_2.xinj (grid5.coords t) j) = out5 _ _ (win5_2.xinj (grid5.coords t) j)
  rw [out5_apply, out5_apply,
    fill_irrel win5_0 (grid5.coords t) d0 zA5 _ _ (fun a => (j a).isLt),
    fill_irrel win5_1 (grid5.coords t) d1 zA5 _ _ (fun a => (j a).isLt)]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (∃ d, owns (c : Thread nD τ) (st5_0 t) fullShare (win5_0.fill (grid5.coords t) d (win5_0.cut (grid5.coords t) ((dat5 V c).after 0 t))))
    ∗ (∃ d, owns (c : Thread nD τ) (st5_1 t) fullShare (win5_1.fill (grid5.coords t) d (win5_1.cut (grid5.coords t) ((dat5 V c).after 1 t))))
    ∗ (∃ d, owns (c : Thread nD τ) (st5_2 t) fullShare (win5_2.fill (grid5.coords t) d (win5_2.cut (grid5.coords t) ((dat5 V c).after 2 t)))))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  rw [before5_0 V c t d0, before5_1 V c t d1]
  iapply (sound_kernel5 c Set.univ _ _ _ _ _ _ _ (win5_0.fill (grid5.coords t) d0 (iblk5 V c 0 t)) (win5_1.fill (grid5.coords t) d1 (iblk5 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win5_0.cut_fill]; iexact H0
  isplitl [H1]
  · iexists d1; rw [win5_1.cut_fill]; iexact H1
  · iexists _
    rw [← cut_out5 V c t d0 d1, win5_2.fill_cut]
    iexact H2

theorem body_obligation5 (c : Dev nD) : BodyObligationLoose (dat5 (F := F) V c) (defs₀ (F := F)) Variants.none () Set.univ := fun t => by
  rw [bigSep_W5, bigSep_W5]
  exact sound_body5 V c t

/-- The whole result: the two arrays added entry by entry. -/
def G5 (a0 a1 : S140000x64.Idx → Elt F .f32) : S140000x64.Idx → Elt F .f32 :=
  fun i => FloatOps.addf (a0 i) (a1 i)

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_2.xsize (grid5.coords t) (0 : Fin 2) = min 8192 (140000 - 8192 * t.val)
    ∧ win5_2.xsize (grid5.coords t) (1 : Fin 2) = 64 :=
  (by decide +kernel : ∀ t : Fin grid5.N, _)

set_option maxHeartbeats 1000000 in
/-- What point `t` writes back is block `t` of `G5` of the two arrays as the region finds them. -/
theorem flushed5_eq (c : Dev nD) (t : Fin cfg5.N) :
    (dat5 V c).flushed 2 t = ((cfg5.win 2).blk t).view.read (Elt F) (G5 (V c (Pipeline.arrRef spec5 0)) (V c (Pipeline.arrRef spec5 1))) := by
  show (cfg5.win 2).cut (grid5.coords t) ((dat5 V c).after 2 t) = _
  rw [after5_2]
  obtain ⟨e0, e1, e2, e3, e4, e5, e6, e7⟩ := idx_facts5 t
  funext j
  show out5 _ _ (win5_2.xinj (grid5.coords t) j) = G5 (V c (Pipeline.arrRef spec5 0)) (V c (Pipeline.arrRef spec5 1)) (((cfg5.win 2).blk t).view.emb j)
  have hj0 : ∀ a, ((win5_2.xinj (grid5.coords t) j) a).val < win5_0.xsize (grid5.coords t) a := fun a => (j a).isLt
  have hj1 : ∀ a, ((win5_2.xinj (grid5.coords t) j) a).val < win5_1.xsize (grid5.coords t) a := fun a => (j a).isLt
  have h0 : iblk5 V c 0 t (fun a => ⟨((win5_2.xinj (grid5.coords t) j) a).val, hj0 a⟩) = V c (Pipeline.arrRef spec5 0) (((cfg5.win 2).blk t).view.emb j) := by
    show V c (Pipeline.arrRef spec5 0) (((cfg5.win 0).blk t).view.emb j) = _
    refine congrArg (V c (Pipeline.arrRef spec5 0)) ?_
    funext a; apply Fin.ext
    match a with
    | ⟨0, _⟩ => show win5_0.index t (0 : Fin 2) * 8192 + 1 * (j 0).val = win5_2.index t (0 : Fin 2) * 8192 + 1 * (j 0).val; omega
    | ⟨1, _⟩ => show win5_0.index t (1 : Fin 2) * 64 + 1 * (j 1).val = win5_2.index t (1 : Fin 2) * 64 + 1 * (j 1).val; omega
  have h1 : iblk5 V c 1 t (fun a => ⟨((win5_2.xinj (grid5.coords t) j) a).val, hj1 a⟩) = V c (Pipeline.arrRef spec5 1) (((cfg5.win 2).blk t).view.emb j) := by
    show V c (Pipeline.arrRef spec5 1) (((cfg5.win 1).blk t).view.emb j) = _
    refine congrArg (V c (Pipeline.arrRef spec5 1)) ?_
    funext a; apply Fin.ext
    match a with
    | ⟨0, _⟩ => show win5_1.index t (0 : Fin 2) * 8192 + 1 * (j 0).val = win5_2.index t (0 : Fin 2) * 8192 + 1 * (j 0).val; omega
    | ⟨1, _⟩ => show win5_1.index t (1 : Fin 2) * 64 + 1 * (j 1).val = win5_2.index t (1 : Fin 2) * 64 + 1 * (j 1).val; omega
  rw [out5_apply, fill_of_lt win5_0 _ _ _ _ hj0, fill_of_lt win5_1 _ _ _ _ hj1, h0, h1]
  rfl

theorem mem_blk5 (t : Fin cfg5.N) (i : S140000x64.Idx) :
    i ∈ ((cfg5.win 2).blk t).view.set ↔ ∀ a : Fin 2, win5_2.index t a * S8192x64.size a ≤ (i a).val ∧ (i a).val < win5_2.index t a * S8192x64.size a + win5_2.xsize (grid5.coords t) a := by
  show i ∈ ((View.whole (Pipeline.arrRef spec5 2)).slice (win5_2.rect t)).set ↔ _
  rw [View.set_slice_whole, Rect.mem_set_unit]
  exact Iff.rfl

theorem cover5_arr (i : S140000x64.Idx) : ∃ t : Fin cfg5.N, (cfg5.win 2).flush t = true ∧ i ∈ ((cfg5.win 2).blk t).view.set := by
  have hi0 : (i 0).val < 140000 := (i 0).isLt
  have hi1 : (i 1).val < 64 := (i 1).isLt
  have hN : cfg5.N = 18 := N_5
  let t : Fin cfg5.N := ⟨(i 0).val / 8192, by rw [hN]; omega⟩
  refine ⟨t, flush5_2 t, ?_⟩
  rw [mem_blk5]
  obtain ⟨e0, e1, e2, e3, e4, e5, e6, e7⟩ := idx_facts5 t
  have ht : t.val = (i 0).val / 8192 := rfl
  intro a
  match a with
  | ⟨0, _⟩ => show win5_2.index t (0 : Fin 2) * 8192 ≤ (i 0).val ∧ (i 0).val < win5_2.index t (0 : Fin 2) * 8192 + win5_2.xsize (grid5.coords t) (0 : Fin 2); rw [e4, e6, ht]; omega
  | ⟨1, _⟩ => show win5_2.index t (1 : Fin 2) * 64 ≤ (i 1).val ∧ (i 1).val < win5_2.index t (1 : Fin 2) * 64 + win5_2.xsize (grid5.coords t) (1 : Fin 2); rw [e5, e7]; omega

/-- The result array after the region: `G5` of the two arrays as the region found them. -/
theorem final5 (c : Dev nD) : (dat5 V c).arrAt 2 cfg5.N = G5 (V c (Pipeline.arrRef spec5 0)) (V c (Pipeline.arrRef spec5 1)) :=
  (dat5 V c).arrAt_eq_of_cover 2 _ (fun t _ => flushed5_eq V c t) (cover5_arr)

end Region5

end Cert.KernelIdeal.Hand

end
-- ==== Proof.Region6.lean ====
/-
  Region 6 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 6: every edge row of the gathered block times its edge weight -/

section Region6
variable (V : (c : Dev nD) → (b : Ref sig .tc) → Buf (Elt F) ((c : Thread nD τ).loc b))

/-- Window `w`'s block at point `t` — the rows of the block that lie inside the array — read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rA6 : Rect S8192x64 := Rect.unit (s := S8192x64) ![0, 0] S8192x64.size inb_S8192x64_S8192x64_0_0
abbrev rB6 : Rect S8192x1 := Rect.unit (s := S8192x1) ![0, 0] S8192x1.size inb_S8192x1_S8192x1_0_0

/-- What the body leaves in the result's buffer: its one whole-buffer store of the product of the two loaded blocks. -/
def out6 (x0 : Vec F S8192x64 .f32) (x1 : Vec F S8192x1 .f32) : Vec F S8192x64 .f32 :=
  View.canon [⟨rA6, k6_pay1 (View.ld x0 rA6) (View.ld x1 rB6)⟩]

theorem cover6 (p0 : Vec F S8192x64 .f32) (y : S8192x64.Idx) :
    ∃ pc ∈ ([⟨rA6, p0⟩] : List (View.Piece (Elt F) S8192x64 .f32)), y ∈ pc.1.set :=
  View.cover_of_tiled [⟨rA6, p0⟩] S8192x64.size (by rfl) y

set_option maxHeartbeats 1000000 in
/-- The body on whole staging buffers: the two inputs' are read and left as they were, the result's ends at `out6`. -/
theorem sound_kernel6 (c : Dev nD) (E : Set ℕ) (i : grid6.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6 x0 x1)) -∗ K ⟨⟩))
      ⊢ wp frame (wpE (defs₀ (F := F)) Variants.none c none) E (cc6__weighted_mul_kernel i arg1 harg1 arg2 harg2 arg3 harg3) K := by
  simp only [cc6__weighted_mul_kernel_eq_skeleton]; unfold cc6__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

/-- The filler past the array's end: the zero word (nothing reads it). -/
abbrev zA6 : S8192x64.Idx → Elt F .f32 := fun _ => Scalar.ofBits .f32 0#32
abbrev zB6 : S8192x1.Idx → Elt F .f32 := fun _ => Scalar.ofBits .f32 0#32

/-- The proof data: the arrays as the region finds them; after the body each input's buffer at its block (filled out past
    the array's end) and the result's at the product of the two. -/
def dat6 (c : Dev nD) : Dat τ (Elt F) Unit ℕ (UR sig nD τ) ℕ cfg6 c where
  A w := V c (Pipeline.arrRef spec6 w)
  after w t := match w with
    | ⟨0, _⟩ => win6_0.fill (grid6.coords t) zA6 (iblk6 V c 0 t)
    | ⟨1, _⟩ => win6_1.fill (grid6.coords t) zB6 (iblk6 V c 1 t)
    | ⟨2, _⟩ => out6 (win6_0.fill (grid6.coords t) zA6 (iblk6 V c 0 t)) (win6_1.fill (grid6.coords t) zB6 (iblk6 V c 1 t))
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = win6_0.fill (grid6.coords t) zA6 (iblk6 V c 0 t) := by dsimp only [dat6]
theorem after6_1 (c : Dev nD) (t : Fin cfg6.N) : (dat6 V c).after 1 t = win6_1.fill (grid6.coords t) zB6 (iblk6 V c 1 t) := by dsimp only [dat6]
theorem after6_2 (c : Dev nD) (t : Fin cfg6.N) : (dat6 V c).after 2 t
    = out6 (win6_0.fill (grid6.coords t) zA6 (iblk6 V c 0 t)) (win6_1.fill (grid6.coords t) zB6 (iblk6 V c 1 t)) := by dsimp only [dat6]

/-- Each input's buffer is fetched at every point: it holds the block on the rows inside the array, `d` elsewhere. -/
theorem before6_0 (c : Dev nD) (t : Fin cfg6.N) (d) :
    (dat6 V c).before 0 t d = win6_0.fill (grid6.coords t) d (iblk6 V c 0 t) := by
  unfold Dat.before; rw [if_pos (fetch6_0 t)]; rfl
theorem before6_1 (c : Dev nD) (t : Fin cfg6.N) (d) :
    (dat6 V c).before 1 t d = win6_1.fill (grid6.coords t) d (iblk6 V c 1 t) := by
  unfold Dat.before; rw [if_pos (fetch6_1 t)]; rfl

end Region6

section Region6b
variable (V : (c : Dev nD) → (b : Ref sig .tc) → Buf (Elt F) ((c : Thread nD τ).loc b))

/-- The product at an index depends on the first block at that index and on the weight column at that row only. -/
theorem out6_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out6 X0 X1 y = out6 X0' X1' y := by
  have hz : (![0, 0] : Fin 2 → Nat) = fun _ => 0 := funext fun a => by fin_cases a <;> rfl
  unfold out6
  rw [View.canon_unit_zero hz, View.canon_unit_zero hz]
  simp only [View.ld_unit_zero (S := S8192x64) hz, View.ld_unit_zero (S := S8192x1) hz]
  unfold k6_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out6 (c : Dev nD) (t : Fin cfg6.N) (d0 : S8192x64.Idx → Elt F .f32) (d1 : S8192x1.Idx → Elt F .f32) :
    win6_2.cut (grid6.coords t) (out6 (win6_0.fill (grid6.coords t) d0 (iblk6 V c 0 t)) (win6_1.fill (grid6.coords t) d1 (iblk6 V c 1 t)))
      = win6_2.cut (grid6.coords t) (out6 (win6_0.fill (grid6.coords t) zA6 (iblk6 V c 0 t)) (win6_1.fill (grid6.coords t) zB6 (iblk6 V c 1 t))) := by
  funext j
  refine out6_congr _ _ _ _ _ ?_ ?_
  · exact fill_irrel win6_0 (grid6.coords t) d0 zA6 _ _ (fun a => (j a).isLt)
  · intro k hk
    refine fill_irrel win6_1 (grid6.coords t) d1 zB6 _ k (fun a => ?_)
    match a with
    | ⟨0, _⟩ => exact hk ▸ (j 0).isLt
    | ⟨1, _⟩ => exact (k 1).isLt

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (∃ d, owns (c : Thread nD τ) (st6_0 t) fullShare (win6_0.fill (grid6.coords t) d (win6_0.cut (grid6.coords t) ((dat6 V c).after 0 t))))
    ∗ (∃ d, owns (c : Thread nD τ) (st6_1 t) fullShare (win6_1.fill (grid6.coords t) d (win6_1.cut (grid6.coords t) ((dat6 V c).after 1 t))))
    ∗ (∃ d, owns (c : Thread nD τ) (st6_2 t) fullShare (win6_2.fill (grid6.coords t) d (win6_2.cut (grid6.coords t) ((dat6 V c).after 2 t)))))

/-- The body at any point: the inputs' buffers hold their blocks filled out with words nothing names; the result's buffer
    ends holding the product, which on the rows inside the array is the proof data's. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  rw [before6_0 V c t d0, before6_1 V c t d1]
  iapply (sound_kernel6 c Set.univ _ _ _ _ _ _ _ (win6_0.fill (grid6.coords t) d0 (iblk6 V c 0 t)) (win6_1.fill (grid6.coords t) d1 (iblk6 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win6_0.cut_fill]; iexact H0
  isplitl [H1]
  · iexists d1; rw [win6_1.cut_fill]; iexact H1
  · iexists _
    rw [← cut_out6 V c t d0 d1, win6_2.fill_cut]
    iexact H2

theorem body_obligation6 (c : Dev nD) : BodyObligationLoose (dat6 (F := F) V c) (defs₀ (F := F)) Variants.none () Set.univ := fun t => by
  rw [bigSep_W6, bigSep_W6]
  exact sound_body6 V c t

end Region6b

section Region6c
variable (V : (c : Dev nD) → (b : Ref sig .tc) → Buf (Elt F) ((c : Thread nD τ).loc b))

/-- The body's product at an index: the first block there times the weight column's entry of that row. -/
theorem out6_apply (X0 : Vec F S8192x64 .f32) (X1 : Vec F S8192x1 .f32) (y : S8192x64.Idx) :
    out6 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out6
  rw [View.canon_unit_zero hz]
  simp only [View.ld_unit_zero (S := S8192x64) hz, View.ld_unit_zero (S := S8192x1) hz]
  unfold k6_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G6 (a0 : S1500000x64.Idx → Elt F .f32) (a1 : S1500000x1.Idx → Elt F .f32) : S1500000x64.Idx → Elt F .f32 :=
  fun i => FloatOps.mulf (a0 i) (a1 (ValueIdx.ix2 (n0 := 1500000) (n1 := 1) (i 0) 0))

/-- The printed index maps over the grid: the three windows move together, one block of rows per point, and the last
    block is cut at the array's end. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_2.xsize (grid6.coords t) (0 : Fin 2) = min 8192 (1500000 - 8192 * t.val)
    ∧ win6_2.xsize (grid6.coords t) (1 : Fin 2) = 64 :=
  (by decide +kernel : ∀ t : Fin grid6.N, _)

set_option maxHeartbeats 1000000 in
/-- What point `t` writes back is block `t` of `G6` of the two arrays as the region finds them. -/
theorem flushed6_eq (c : Dev nD) (t : Fin cfg6.N) :
    (dat6 V c).flushed 2 t = ((cfg6.win 2).blk t).view.read (Elt F) (G6 (V c (Pipeline.arrRef spec6 0)) (V c (Pipeline.arrRef spec6 1))) := by
  show (cfg6.win 2).cut (grid6.coords t) ((dat6 V c).after 2 t) = _
  rw [after6_2]
  obtain ⟨e0, e1, e2, e3, e4, e5, e6, e7⟩ := idx_facts6 t
  funext j
  show out6 _ _ (win6_2.xinj (grid6.coords t) j) = G6 (V c (Pipeline.arrRef spec6 0)) (V c (Pipeline.arrRef spec6 1)) (((cfg6.win 2).blk t).view.emb j)
  have hj0 : ∀ a, ((win6_2.xinj (grid6.coords t) j) a).val < win6_0.xsize (grid6.coords t) a := fun a => (j a).isLt
  have hk : ∀ a, ((ValueIdx.ix2 (n0 := 8192) (n1 := 1) ((win6_2.xinj (grid6.coords t) j) 0) 0 : S8192x1.Idx) a).val < win6_1.xsize (grid6.coords t) a := fun a => by
    match a with
    | ⟨0, _⟩ => exact (j 0).isLt
    | ⟨1, _⟩ => exact Nat.zero_lt_one
  have h0 : iblk6 V c 0 t (fun a => ⟨((win6_2.xinj (grid6.coords t) j) a).val, hj0 a⟩) = V c (Pipeline.arrRef spec6 0) (((cfg6.win 2).blk t).view.emb j) := by
    show V c (Pipeline.arrRef spec6 0) (((cfg6.win 0).blk t).view.emb j) = _
    refine congrArg (V c (Pipeline.arrRef spec6 0)) ?_
    funext a; apply Fin.ext
    match a with
    | ⟨0, _⟩ => show win6_0.index t (0 : Fin 2) * 8192 + 1 * (j 0).val = win6_2.index t (0 : Fin 2) * 8192 + 1 * (j 0).val; omega
    | ⟨1, _⟩ => show win6_0.index t (1 : Fin 2) * 64 + 1 * (j 1).val = win6_2.index t (1 : Fin 2) * 64 + 1 * (j 1).val; omega
  have h1 : iblk6 V c 1 t (fun a => ⟨((ValueIdx.ix2 (n0 := 8192) (n1 := 1) ((win6_2.xinj (grid6.coords t) j) 0) 0 : S8192x1.Idx) a).val, hk a⟩)
      = V c (Pipeline.arrRef spec6 1) (ValueIdx.ix2 (n0 := 1500000) (n1 := 1) ((((cfg6.win 2).blk t).view.emb j) 0) 0) := by
    show V c (Pipeline.arrRef spec6 1) (((cfg6.win 1).blk t).view.emb (fun a => ⟨((ValueIdx.ix2 (n0 := 8192) (n1 := 1) ((win6_2.xinj (grid6.coords t) j) 0) 0 : S8192x1.Idx) a).val, hk a⟩)) = _
    refine congrArg (V c (Pipeline.arrRef spec6 1)) ?_
    funext a; apply Fin.ext
    match a with
    | ⟨0, _⟩ => show win6_1.index t (0 : Fin 2) * 8192 + 1 * (j 0).val = win6_2.index t (0 : Fin 2) * 8192 + 1 * (j 0).val; omega
    | ⟨1, _⟩ => show win6_1.index t (1 : Fin 2) * 1 + 1 * 0 = 0; omega
  rw [out6_apply, fill_of_lt win6_0 _ _ _ _ hj0, fill_of_lt win6_1 _ _ _ _ hk, h0, h1]
  rfl

theorem mem_blk6 (t : Fin cfg6.N) (i : S1500000x64.Idx) :
    i ∈ ((cfg6.win 2).blk t).view.set ↔ ∀ a : Fin 2, win6_2.index t a * S8192x64.size a ≤ (i a).val ∧ (i a).val < win6_2.index t a * S8192x64.size a + win6_2.xsize (grid6.coords t) a := by
  show i ∈ ((View.whole (Pipeline.arrRef spec6 2)).slice (win6_2.rect t)).set ↔ _
  rw [View.set_slice_whole, Rect.mem_set_unit]
  exact Iff.rfl

theorem cover6_arr (i : S1500000x64.Idx) : ∃ t : Fin cfg6.N, (cfg6.win 2).flush t = true ∧ i ∈ ((cfg6.win 2).blk t).view.set := by
  have hi0 : (i 0).val < 1500000 := (i 0).isLt
  have hi1 : (i 1).val < 64 := (i 1).isLt
  have hN : cfg6.N = 184 := N_6
  let t : Fin cfg6.N := ⟨(i 0).val / 8192, by rw [hN]; omega⟩
  refine ⟨t, flush6_2 t, ?_⟩
  rw [mem_blk6]
  obtain ⟨e0, e1, e2, e3, e4, e5, e6, e7⟩ := idx_facts6 t
  have ht : t.val = (i 0).val / 8192 := rfl
  intro a
  match a with
  | ⟨0, _⟩ => show win6_2.index t (0 : Fin 2) * 8192 ≤ (i 0).val ∧ (i 0).val < win6_2.index t (0 : Fin 2) * 8192 + win6_2.xsize (grid6.coords t) (0 : Fin 2); rw [e4, e6, ht]; omega
  | ⟨1, _⟩ => show win6_2.index t (1 : Fin 2) * 64 ≤ (i 1).val ∧ (i 1).val < win6_2.index t (1 : Fin 2) * 64 + win6_2.xsize (grid6.coords t) (1 : Fin 2); rw [e5, e7]; omega

/-- The result array after the region: `G6` of the two arrays as the region found them. -/
theorem final6 (c : Dev nD) : (dat6 V c).arrAt 2 cfg6.N = G6 (V c (Pipeline.arrRef spec6 0)) (V c (Pipeline.arrRef spec6 1)) :=
  (dat6 V c).arrAt_eq_of_cover 2 _ (fun t _ => flushed6_eq V c t) (cover6_arr)

end Region6c

end Cert.KernelIdeal.Hand

end
-- ==== Proof.Region7.lean ====
/-
  Region 7 of the program: the entrywise sum of two arrays of embedding rows.  The arrays are cut into blocks of 8192 rows
  and the last block overhangs the array; the rows of a staging buffer past the array's end hold words nothing names, and
  the result on the rows inside the array does not depend on them because the sum is taken entry by entry.  After all
  points the result array holds the sum of the two arrays at every index.
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 7: the running sum of the layers plus the newly propagated layer, row by row -/

section Region7
variable (V : (c : Dev nD) → (b : Ref sig .tc) → Buf (Elt F) ((c : Thread nD τ).loc b))

/-- Window `w`'s block at point `t` — the rows of the block that lie inside the array — read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rA7 : Rect S8192x64 := Rect.unit (s := S8192x64) ![0, 0] S8192x64.size inb_S8192x64_S8192x64_0_0

/-- What the body leaves in the result's buffer: its one whole-buffer store of the sum of the two loaded blocks. -/
def out7 (x0 : Vec F S8192x64 .f32) (x1 : Vec F S8192x64 .f32) : Vec F S8192x64 .f32 :=
  View.canon [⟨rA7, k7_pay1 (View.ld x0 rA7) (View.ld x1 rA7)⟩]

theorem cover7 (p0 : Vec F S8192x64 .f32) (y : S8192x64.Idx) :
    ∃ pc ∈ ([⟨rA7, p0⟩] : List (View.Piece (Elt F) S8192x64 .f32)), y ∈ pc.1.set :=
  View.cover_of_tiled [⟨rA7, p0⟩] S8192x64.size (by rfl) y

set_option maxHeartbeats 1000000 in
/-- The body on whole staging buffers: the two inputs' are read and left as they were, the result's ends at `out7`. -/
theorem sound_kernel7 (c : Dev nD) (E : Set ℕ) (i : grid7.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole)
    (x0 : Vec F S8192x64 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out7 x0 x1)) -∗ K ⟨⟩))
      ⊢ wp frame (wpE (defs₀ (F := F)) Variants.none c none) E (cc7__add_kernel i arg1 harg1 arg2 harg2 arg3 harg3) K := by
  simp only [cc7__add_kernel_eq_skeleton]; unfold cc7__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7 _)

/-- The filler past the array's end: the zero word (nothing reads it). -/
abbrev zA7 : S8192x64.Idx → Elt F .f32 := fun _ => Scalar.ofBits .f32 0#32

/-- The body's sum at an index is the sum of the two blocks there. -/
theorem out7_apply (X0 X1 : Vec F S8192x64 .f32) (y : S8192x64.Idx) :
    out7 X0 X1 y = FloatOps.addf (X0 y) (X1 y) := by
  have hz : (![0, 0] : Fin 2 → Nat) = fun _ => 0 := funext fun a => by fin_cases a <;> rfl
  unfold out7
  rw [View.canon_unit_zero hz]
  simp only [View.ld_unit_zero (S := S8192x64) hz]
  unfold k7_pay1
  simp only [shapeCast_self]
  rfl

/-- The proof data: the arrays as the region finds them; after the body each input's buffer at its block (filled out past
    the array's end) and the result's at the sum of the two. -/
def dat7 (c : Dev nD) : Dat τ (Elt F) Unit ℕ (UR sig nD τ) ℕ cfg7 c where
  A w := V c (Pipeline.arrRef spec7 w)
  after w t := match w with
    | ⟨0, _⟩ => win7_0.fill (grid7.coords t) zA7 (iblk7 V c 0 t)
    | ⟨1, _⟩ => win7_1.fill (grid7.coords t) zA7 (iblk7 V c 1 t)
    | ⟨2, _⟩ => out7 (win7_0.fill (grid7.coords t) zA7 (iblk7 V c 0 t)) (win7_1.fill (grid7.coords t) zA7 (iblk7 V c 1 t))
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = win7_0.fill (grid7.coords t) zA7 (iblk7 V c 0 t) := by dsimp only [dat7]
theorem after7_1 (c : Dev nD) (t : Fin cfg7.N) : (dat7 V c).after 1 t = win7_1.fill (grid7.coords t) zA7 (iblk7 V c 1 t) := by dsimp only [dat7]
theorem after7_2 (c : Dev nD) (t : Fin cfg7.N) : (dat7 V c).after 2 t
    = out7 (win7_0.fill (grid7.coords t) zA7 (iblk7 V c 0 t)) (win7_1.fill (grid7.coords t) zA7 (iblk7 V c 1 t)) := by dsimp only [dat7]

theorem before7_0 (c : Dev nD) (t : Fin cfg7.N) (d) :
    (dat7 V c).before 0 t d = win7_0.fill (grid7.coords t) d (iblk7 V c 0 t) := by
  unfold Dat.before; rw [if_pos (fetch7_0 t)]; rfl
theorem before7_1 (c : Dev nD) (t : Fin cfg7.N) (d) :
    (dat7 V c).before 1 t d = win7_1.fill (grid7.coords t) d (iblk7 V c 1 t) := by
  unfold Dat.before; rw [if_pos (fetch7_1 t)]; rfl

/-- On the rows inside the array the result's buffer does not see what filled the inputs' buffers past the array's end. -/
theorem cut_out7 (c : Dev nD) (t : Fin cfg7.N) (d0 d1 : S8192x64.Idx → Elt F .f32) :
    win7_2.cut (grid7.coords t) (out7 (win7_0.fill (grid7.coords t) d0 (iblk7 V c 0 t)) (win7_1.fill (grid7.coords t) d1 (iblk7 V c 1 t)))
      = win7_2.cut (grid7.coords t) (out7 (win7_0.fill (grid7.coords t) zA7 (iblk7 V c 0 t)) (win7_1.fill (grid7.coords t) zA7 (iblk7 V c 1 t))) := by
  funext j
  show out7 _ _ (win7_2.xinj (grid7.coords t) j) = out7 _ _ (win7_2.xinj (grid7.coords t) j)
  rw [out7_apply, out7_apply,
    fill_irrel win7_0 (grid7.coords t) d0 zA7 _ _ (fun a => (j a).isLt),
    fill_irrel win7_1 (grid7.coords t) d1 zA7 _ _ (fun a => (j a).isLt)]

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (∃ d, owns (c : Thread nD τ) (st7_0 t) fullShare (win7_0.fill (grid7.coords t) d (win7_0.cut (grid7.coords t) ((dat7 V c).after 0 t))))
    ∗ (∃ d, owns (c : Thread nD τ) (st7_1 t) fullShare (win7_1.fill (grid7.coords t) d (win7_1.cut (grid7.coords t) ((dat7 V c).after 1 t))))
    ∗ (∃ d, owns (c : Thread nD τ) (st7_2 t) fullShare (win7_2.fill (grid7.coords t) d (win7_2.cut (grid7.coords t) ((dat7 V c).after 2 t)))))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  rw [before7_0 V c t d0, before7_1 V c t d1]
  iapply (sound_kernel7 c Set.univ _ _ _ _ _ _ _ (win7_0.fill (grid7.coords t) d0 (iblk7 V c 0 t)) (win7_1.fill (grid7.coords t) d1 (iblk7 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win7_0.cut_fill]; iexact H0
  isplitl [H1]
  · iexists d1; rw [win7_1.cut_fill]; iexact H1
  · iexists _
    rw [← cut_out7 V c t d0 d1, win7_2.fill_cut]
    iexact H2

theorem body_obligation7 (c : Dev nD) : BodyObligationLoose (dat7 (F := F) V c) (defs₀ (F := F)) Variants.none () Set.univ := fun t => by
  rw [bigSep_W7, bigSep_W7]
  exact sound_body7 V c t

/-- The whole result: the two arrays added entry by entry. -/
def G7 (a0 a1 : S140000x64.Idx → Elt F .f32) : S140000x64.Idx → Elt F .f32 :=
  fun i => FloatOps.addf (a0 i) (a1 i)

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_2.xsize (grid7.coords t) (0 : Fin 2) = min 8192 (140000 - 8192 * t.val)
    ∧ win7_2.xsize (grid7.coords t) (1 : Fin 2) = 64 :=
  (by decide +kernel : ∀ t : Fin grid7.N, _)

set_option maxHeartbeats 1000000 in
/-- What point `t` writes back is block `t` of `G7` of the two arrays as the region finds them. -/
theorem flushed7_eq (c : Dev nD) (t : Fin cfg7.N) :
    (dat7 V c).flushed 2 t = ((cfg7.win 2).blk t).view.read (Elt F) (G7 (V c (Pipeline.arrRef spec7 0)) (V c (Pipeline.arrRef spec7 1))) := by
  show (cfg7.win 2).cut (grid7.coords t) ((dat7 V c).after 2 t) = _
  rw [after7_2]
  obtain ⟨e0, e1, e2, e3, e4, e5, e6, e7⟩ := idx_facts7 t
  funext j
  show out7 _ _ (win7_2.xinj (grid7.coords t) j) = G7 (V c (Pipeline.arrRef spec7 0)) (V c (Pipeline.arrRef spec7 1)) (((cfg7.win 2).blk t).view.emb j)
  have hj0 : ∀ a, ((win7_2.xinj (grid7.coords t) j) a).val < win7_0.xsize (grid7.coords t) a := fun a => (j a).isLt
  have hj1 : ∀ a, ((win7_2.xinj (grid7.coords t) j) a).val < win7_1.xsize (grid7.coords t) a := fun a => (j a).isLt
  have h0 : iblk7 V c 0 t (fun a => ⟨((win7_2.xinj (grid7.coords t) j) a).val, hj0 a⟩) = V c (Pipeline.arrRef spec7 0) (((cfg7.win 2).blk t).view.emb j) := by
    show V c (Pipeline.arrRef spec7 0) (((cfg7.win 0).blk t).view.emb j) = _
    refine congrArg (V c (Pipeline.arrRef spec7 0)) ?_
    funext a; apply Fin.ext
    match a with
    | ⟨0, _⟩ => show win7_0.index t (0 : Fin 2) * 8192 + 1 * (j 0).val = win7_2.index t (0 : Fin 2) * 8192 + 1 * (j 0).val; omega
    | ⟨1, _⟩ => show win7_0.index t (1 : Fin 2) * 64 + 1 * (j 1).val = win7_2.index t (1 : Fin 2) * 64 + 1 * (j 1).val; omega
  have h1 : iblk7 V c 1 t (fun a => ⟨((win7_2.xinj (grid7.coords t) j) a).val, hj1 a⟩) = V c (Pipeline.arrRef spec7 1) (((cfg7.win 2).blk t).view.emb j) := by
    show V c (Pipeline.arrRef spec7 1) (((cfg7.win 1).blk t).view.emb j) = _
    refine congrArg (V c (Pipeline.arrRef spec7 1)) ?_
    funext a; apply Fin.ext
    match a with
    | ⟨0, _⟩ => show win7_1.index t (0 : Fin 2) * 8192 + 1 * (j 0).val = win7_2.index t (0 : Fin 2) * 8192 + 1 * (j 0).val; omega
    | ⟨1, _⟩ => show win7_1.index t (1 : Fin 2) * 64 + 1 * (j 1).val = win7_2.index t (1 : Fin 2) * 64 + 1 * (j 1).val; omega
  rw [out7_apply, fill_of_lt win7_0 _ _ _ _ hj0, fill_of_lt win7_1 _ _ _ _ hj1, h0, h1]
  rfl

theorem mem_blk7 (t : Fin cfg7.N) (i : S140000x64.Idx) :
    i ∈ ((cfg7.win 2).blk t).view.set ↔ ∀ a : Fin 2, win7_2.index t a * S8192x64.size a ≤ (i a).val ∧ (i a).val < win7_2.index t a * S8192x64.size a + win7_2.xsize (grid7.coords t) a := by
  show i ∈ ((View.whole (Pipeline.arrRef spec7 2)).slice (win7_2.rect t)).set ↔ _
  rw [View.set_slice_whole, Rect.mem_set_unit]
  exact Iff.rfl

theorem cover7_arr (i : S140000x64.Idx) : ∃ t : Fin cfg7.N, (cfg7.win 2).flush t = true ∧ i ∈ ((cfg7.win 2).blk t).view.set := by
  have hi0 : (i 0).val < 140000 := (i 0).isLt
  have hi1 : (i 1).val < 64 := (i 1).isLt
  have hN : cfg7.N = 18 := N_7
  let t : Fin cfg7.N := ⟨(i 0).val / 8192, by rw [hN]; omega⟩
  refine ⟨t, flush7_2 t, ?_⟩
  rw [mem_blk7]
  obtain ⟨e0, e1, e2, e3, e4, e5, e6, e7⟩ := idx_facts7 t
  have ht : t.val = (i 0).val / 8192 := rfl
  intro a
  match a with
  | ⟨0, _⟩ => show win7_2.index t (0 : Fin 2) * 8192 ≤ (i 0).val ∧ (i 0).val < win7_2.index t (0 : Fin 2) * 8192 + win7_2.xsize (grid7.coords t) (0 : Fin 2); rw [e4, e6, ht]; omega
  | ⟨1, _⟩ => show win7_2.index t (1 : Fin 2) * 64 ≤ (i 1).val ∧ (i 1).val < win7_2.index t (1 : Fin 2) * 64 + win7_2.xsize (grid7.coords t) (1 : Fin 2); rw [e5, e7]; omega

/-- The result array after the region: `G7` of the two arrays as the region found them. -/
theorem final7 (c : Dev nD) : (dat7 V c).arrAt 2 cfg7.N = G7 (V c (Pipeline.arrRef spec7 0)) (V c (Pipeline.arrRef spec7 1)) :=
  (dat7 V c).arrAt_eq_of_cover 2 _ (fun t _ => flushed7_eq V c t) (cover7_arr)

end Region7

end Cert.KernelIdeal.Hand

end
-- ==== Proof.Region8.lean ====
/-
  Region 8 of the program: the product, row by row, of a block of gathered embedding rows with the edge weights of those
  rows.  The arrays are cut into blocks of 8192 rows and the last block overhangs the array; the rows of a staging buffer
  past the array's end hold words nothing names, and the result on the rows inside the array does not depend on them
  because the product is taken entry by entry.  After all points the result array holds, at row p and lane q, the first
  array at (p, q) times the weight of row p.
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 8: every edge row of the gathered block times its edge weight -/

section Region8
variable (V : (c : Dev nD) → (b : Ref sig .tc) → Buf (Elt F) ((c : Thread nD τ).loc b))

/-- Window `w`'s block at point `t` — the rows of the block that lie inside the array — read off the array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev rA8 : Rect S8192x64 := Rect.unit (s := S8192x64) ![0, 0] S8192x64.size inb_S8192x64_S8192x64_0_0
abbrev rB8 : Rect S8192x1 := Rect.unit (s := S8192x1) ![0, 0] S8192x1.size inb_S8192x1_S8192x1_0_0

/-- What the body leaves in the result's buffer: its one whole-buffer store of the product of the two loaded blocks. -/
def out8 (x0 : Vec F S8192x64 .f32) (x1 : Vec F S8192x1 .f32) : Vec F S8192x64 .f32 :=
  View.canon [⟨rA8, k8_pay1 (View.ld x0 rA8) (View.ld x1 rB8)⟩]

theorem cover8 (p0 : Vec F S8192x64 .f32) (y : S8192x64.Idx) :
    ∃ pc ∈ ([⟨rA8, p0⟩] : List (View.Piece (Elt F) S8192x64 .f32)), y ∈ pc.1.set :=
  View.cover_of_tiled [⟨rA8, p0⟩] S8192x64.size (by rfl) y

set_option maxHeartbeats 1000000 in
/-- The body on whole staging buffers: the two inputs' are read and left as they were, the result's ends at `out8`. -/
theorem sound_kernel8 (c : Dev nD) (E : Set ℕ) (i : grid8.Coords)
    (arg1 : Memref sig .tc .vmem S8192x64 .f32) (harg1 : arg1.IsWhole) (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8 x0 x1)) -∗ K ⟨⟩))
      ⊢ wp frame (wpE (defs₀ (F := F)) Variants.none c none) E (cc8__weighted_mul_kernel i arg1 harg1 arg2 harg2 arg3 harg3) K := by
  simp only [cc8__weighted_mul_kernel_eq_skeleton]; unfold cc8__weighted_mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8 _)

/-- The filler past the array's end: the zero word (nothing reads it). -/
abbrev zA8 : S8192x64.Idx → Elt F .f32 := fun _ => Scalar.ofBits .f32 0#32
abbrev zB8 : S8192x1.Idx → Elt F .f32 := fun _ => Scalar.ofBits .f32 0#32

/-- The proof data: the arrays as the region finds them; after the body each input's buffer at its block (filled out past
    the array's end) and the result's at the product of the two. -/
def dat8 (c : Dev nD) : Dat τ (Elt F) Unit ℕ (UR sig nD τ) ℕ cfg8 c where
  A w := V c (Pipeline.arrRef spec8 w)
  after w t := match w with
    | ⟨0, _⟩ => win8_0.fill (grid8.coords t) zA8 (iblk8 V c 0 t)
    | ⟨1, _⟩ => win8_1.fill (grid8.coords t) zB8 (iblk8 V c 1 t)
    | ⟨2, _⟩ => out8 (win8_0.fill (grid8.coords t) zA8 (iblk8 V c 0 t)) (win8_1.fill (grid8.coords t) zB8 (iblk8 V c 1 t))
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = win8_0.fill (grid8.coords t) zA8 (iblk8 V c 0 t) := by dsimp only [dat8]
theorem after8_1 (c : Dev nD) (t : Fin cfg8.N) : (dat8 V c).after 1 t = win8_1.fill (grid8.coords t) zB8 (iblk8 V c 1 t) := by dsimp only [dat8]
theorem after8_2 (c : Dev nD) (t : Fin cfg8.N) : (dat8 V c).after 2 t
    = out8 (win8_0.fill (grid8.coords t) zA8 (iblk8 V c 0 t)) (win8_1.fill (grid8.coords t) zB8 (iblk8 V c 1 t)) := by dsimp only [dat8]

/-- Each input's buffer is fetched at every point: it holds the block on the rows inside the array, `d` elsewhere. -/
theorem before8_0 (c : Dev nD) (t : Fin cfg8.N) (d) :
    (dat8 V c).before 0 t d = win8_0.fill (grid8.coords t) d (iblk8 V c 0 t) := by
  unfold Dat.before; rw [if_pos (fetch8_0 t)]; rfl
theorem before8_1 (c : Dev nD) (t : Fin cfg8.N) (d) :
    (dat8 V c).before 1 t d = win8_1.fill (grid8.coords t) d (iblk8 V c 1 t) := by
  unfold Dat.before; rw [if_pos (fetch8_1 t)]; rfl

end Region8

section Region8b
variable (V : (c : Dev nD) → (b : Ref sig .tc) → Buf (Elt F) ((c : Thread nD τ).loc b))

/-- The product at an index depends on the first block at that index and on the weight column at that row only. -/
theorem out8_congr (X0 X0' : Vec F S8192x64 .f32) (X1 X1' : Vec F S8192x1 .f32) (y : S8192x64.Idx)
    (h0 : X0 y = X0' y) (h1 : ∀ k : S8192x1.Idx, (k 0).val = (y 0).val → X1 k = X1' k) :
    out8 X0 X1 y = out8 X0' X1' y := by
  have hz : (![0, 0] : Fin 2 → Nat) = fun _ => 0 := funext fun a => by fin_cases a <;> rfl
  unfold out8
  rw [View.canon_unit_zero hz, View.canon_unit_zero hz]
  simp only [View.ld_unit_zero (S := S8192x64) hz, View.ld_unit_zero (S := S8192x1) hz]
  unfold k8_pay1
  simp only [shapeCast_self]
  show FloatOps.mulf (X0 y) (broadcastTo S8192x64 X1 broadcasts_S8192x1_S8192x64 y) = FloatOps.mulf (X0' y) (broadcastTo S8192x64 X1' broadcasts_S8192x1_S8192x64 y)
  unfold broadcastTo
  rw [h0, h1 _ (by simp)]

/-- On the rows inside the array the result's buffer does not see what filled the inputs' buffers past the array's end. -/
theorem cut_out8 (c : Dev nD) (t : Fin cfg8.N) (d0 : S8192x64.Idx → Elt F .f32) (d1 : S8192x1.Idx → Elt F .f32) :
    win8_2.cut (grid8.coords t) (out8 (win8_0.fill (grid8.coords t) d0 (iblk8 V c 0 t)) (win8_1.fill (grid8.coords t) d1 (iblk8 V c 1 t)))
      = win8_2.cut (grid8.coords t) (out8 (win8_0.fill (grid8.coords t) zA8 (iblk8 V c 0 t)) (win8_1.fill (grid8.coords t) zB8 (iblk8 V c 1 t))) := by
  funext j
  refine out8_congr _ _ _ _ _ ?_ ?_
  · exact fill_irrel win8_0 (grid8.coords t) d0 zA8 _ _ (fun a => (j a).isLt)
  · intro k hk
    refine fill_irrel win8_1 (grid8.coords t) d1 zB8 _ k (fun a => ?_)
    match a with
    | ⟨0, _⟩ => exact hk ▸ (j 0).isLt
    | ⟨1, _⟩ => exact (k 1).isLt

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (∃ d, owns (c : Thread nD τ) (st8_0 t) fullShare (win8_0.fill (grid8.coords t) d (win8_0.cut (grid8.coords t) ((dat8 V c).after 0 t))))
    ∗ (∃ d, owns (c : Thread nD τ) (st8_1 t) fullShare (win8_1.fill (grid8.coords t) d (win8_1.cut (grid8.coords t) ((dat8 V c).after 1 t))))
    ∗ (∃ d, owns (c : Thread nD τ) (st8_2 t) fullShare (win8_2.fill (grid8.coords t) d (win8_2.cut (grid8.coords t) ((dat8 V c).after 2 t)))))

/-- The body at any point: the inputs' buffers hold their blocks filled out with words nothing names; the result's buffer
    ends holding the product, which on the rows inside the array is the proof data's. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  rw [before8_0 V c t d0, before8_1 V c t d1]
  iapply (sound_kernel8 c Set.univ _ _ _ _ _ _ _ (win8_0.fill (grid8.coords t) d0 (iblk8 V c 0 t)) (win8_1.fill (grid8.coords t) d1 (iblk8 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win8_0.cut_fill]; iexact H0
  isplitl [H1]
  · iexists d1; rw [win8_1.cut_fill]; iexact H1
  · iexists _
    rw [← cut_out8 V c t d0 d1, win8_2.fill_cut]
    iexact H2

theorem body_obligation8 (c : Dev nD) : BodyObligationLoose (dat8 (F := F) V c) (defs₀ (F := F)) Variants.none () Set.univ := fun t => by
  rw [bigSep_W8, bigSep_W8]
  exact sound_body8 V c t

end Region8b

section Region8c
variable (V : (c : Dev nD) → (b : Ref sig .tc) → Buf (Elt F) ((c : Thread nD τ).loc b))

/-- The body's product at an index: the first block there times the weight column's entry of that row. -/
theorem out8_apply (X0 : Vec F S8192x64 .f32) (X1 : Vec F S8192x1 .f32) (y : S8192x64.Idx) :
    out8 X0 X1 y = FloatOps.mulf (X0 y) (X1 (ValueIdx.ix2 (n0 := 8192) (n1 := 1) (y 0) 0)) := by
  have hz : (![0, 0] : Fin 2 → Nat) = fun _ => 0 := funext fun a => by fin_cases a <;> rfl
  unfold out8
  rw [View.canon_unit_zero hz]
  simp only [View.ld_unit_zero (S := S8192x64) hz, View.ld_unit_zero (S := S8192x1) hz]
  unfold k8_pay1
  simp only [shapeCast_self]
  show FloatOps.mulf (X0 y) (broadcastTo S8192x64 X1 broadcasts_S8192x1_S8192x64 y) = _
  rw [broadcastTo_apply X1 broadcasts_S8192x1_S8192x64 y (ValueIdx.ix2 (n0 := 8192) (n1 := 1) (y 0) 0)
    (fun a => by match a with | ⟨0, _⟩ => rfl | ⟨1, _⟩ => rfl)]

/-- The whole result: every row of the first array times that row's entry of the weight column. -/
def G8 (a0 : S1500000x64.Idx → Elt F .f32) (a1 : S1500000x1.Idx → Elt F .f32) : S1500000x64.Idx → Elt F .f32 :=
  fun i => FloatOps.mulf (a0 i) (a1 (ValueIdx.ix2 (n0 := 1500000) (n1 := 1) (i 0) 0))

/-- The printed index maps over the grid: the three windows move together, one block of rows per point, and the last
    block is cut at the array's end. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_2.xsize (grid8.coords t) (0 : Fin 2) = min 8192 (1500000 - 8192 * t.val)
    ∧ win8_2.xsize (grid8.coords t) (1 : Fin 2) = 64 :=
  (by decide +kernel : ∀ t : Fin grid8.N, _)

set_option maxHeartbeats 1000000 in
/-- What point `t` writes back is block `t` of `G8` of the two arrays as the region finds them. -/
theorem flushed8_eq (c : Dev nD) (t : Fin cfg8.N) :
    (dat8 V c).flushed 2 t = ((cfg8.win 2).blk t).view.read (Elt F) (G8 (V c (Pipeline.arrRef spec8 0)) (V c (Pipeline.arrRef spec8 1))) := by
  show (cfg8.win 2).cut (grid8.coords t) ((dat8 V c).after 2 t) = _
  rw [after8_2]
  obtain ⟨e0, e1, e2, e3, e4, e5, e6, e7⟩ := idx_facts8 t
  funext j
  show out8 _ _ (win8_2.xinj (grid8.coords t) j) = G8 (V c (Pipeline.arrRef spec8 0)) (V c (Pipeline.arrRef spec8 1)) (((cfg8.win 2).blk t).view.emb j)
  have hj0 : ∀ a, ((win8_2.xinj (grid8.coords t) j) a).val < win8_0.xsize (grid8.coords t) a := fun a => (j a).isLt
  have hk : ∀ a, ((ValueIdx.ix2 (n0 := 8192) (n1 := 1) ((win8_2.xinj (grid8.coords t) j) 0) 0 : S8192x1.Idx) a).val < win8_1.xsize (grid8.coords t) a := fun a => by
    match a with
    | ⟨0, _⟩ => exact (j 0).isLt
    | ⟨1, _⟩ => exact Nat.zero_lt_one
  have h0 : iblk8 V c 0 t (fun a => ⟨((win8_2.xinj (grid8.coords t) j) a).val, hj0 a⟩) = V c (Pipeline.arrRef spec8 0) (((cfg8.win 2).blk t).view.emb j) := by
    show V c (Pipeline.arrRef spec8 0) (((cfg8.win 0).blk t).view.emb j) = _
    refine congrArg (V c (Pipeline.arrRef spec8 0)) ?_
    funext a; apply Fin.ext
    match a with
    | ⟨0, _⟩ => show win8_0.index t (0 : Fin 2) * 8192 + 1 * (j 0).val = win8_2.index t (0 : Fin 2) * 8192 + 1 * (j 0).val; omega
    | ⟨1, _⟩ => show win8_0.index t (1 : Fin 2) * 64 + 1 * (j 1).val = win8_2.index t (1 : Fin 2) * 64 + 1 * (j 1).val; omega
  have h1 : iblk8 V c 1 t (fun a => ⟨((ValueIdx.ix2 (n0 := 8192) (n1 := 1) ((win8_2.xinj (grid8.coords t) j) 0) 0 : S8192x1.Idx) a).val, hk a⟩)
      = V c (Pipeline.arrRef spec8 1) (ValueIdx.ix2 (n0 := 1500000) (n1 := 1) ((((cfg8.win 2).blk t).view.emb j) 0) 0) := by
    show V c (Pipeline.arrRef spec8 1) (((cfg8.win 1).blk t).view.emb (fun a => ⟨((ValueIdx.ix2 (n0 := 8192) (n1 := 1) ((win8_2.xinj (grid8.coords t) j) 0) 0 : S8192x1.Idx) a).val, hk a⟩)) = _
    refine congrArg (V c (Pipeline.arrRef spec8 1)) ?_
    funext a; apply Fin.ext
    match a with
    | ⟨0, _⟩ => show win8_1.index t (0 : Fin 2) * 8192 + 1 * (j 0).val = win8_2.index t (0 : Fin 2) * 8192 + 1 * (j 0).val; omega
    | ⟨1, _⟩ => show win8_1.index t (1 : Fin 2) * 1 + 1 * 0 = 0; omega
  rw [out8_apply, fill_of_lt win8_0 _ _ _ _ hj0, fill_of_lt win8_1 _ _ _ _ hk, h0, h1]
  rfl

theorem mem_blk8 (t : Fin cfg8.N) (i : S1500000x64.Idx) :
    i ∈ ((cfg8.win 2).blk t).view.set ↔ ∀ a : Fin 2, win8_2.index t a * S8192x64.size a ≤ (i a).val ∧ (i a).val < win8_2.index t a * S8192x64.size a + win8_2.xsize (grid8.coords t) a := by
  show i ∈ ((View.whole (Pipeline.arrRef spec8 2)).slice (win8_2.rect t)).set ↔ _
  rw [View.set_slice_whole, Rect.mem_set_unit]
  exact Iff.rfl

theorem cover8_arr (i : S1500000x64.Idx) : ∃ t : Fin cfg8.N, (cfg8.win 2).flush t = true ∧ i ∈ ((cfg8.win 2).blk t).view.set := by
  have hi0 : (i 0).val < 1500000 := (i 0).isLt
  have hi1 : (i 1).val < 64 := (i 1).isLt
  have hN : cfg8.N = 184 := N_8
  let t : Fin cfg8.N := ⟨(i 0).val / 8192, by rw [hN]; omega⟩
  refine ⟨t, flush8_2 t, ?_⟩
  rw [mem_blk8]
  obtain ⟨e0, e1, e2, e3, e4, e5, e6, e7⟩ := idx_facts8 t
  have ht : t.val = (i 0).val / 8192 := rfl
  intro a
  match a with
  | ⟨0, _⟩ => show win8_2.index t (0 : Fin 2) * 8192 ≤ (i 0).val ∧ (i 0).val < win8_2.index t (0 : Fin 2) * 8192 + win8_2.xsize (grid8.coords t) (0 : Fin 2); rw [e4, e6, ht]; omega
  | ⟨1, _⟩ => show win8_2.index t (1 : Fin 2) * 64 ≤ (i 1).val ∧ (i 1).val < win8_2.index t (1 : Fin 2) * 64 + win8_2.xsize (grid8.coords t) (1 : Fin 2); rw [e5, e7]; omega

/-- The result array after the region: `G8` of the two arrays as the region found them. -/
theorem final8 (c : Dev nD) : (dat8 V c).arrAt 2 cfg8.N = G8 (V c (Pipeline.arrRef spec8 0)) (V c (Pipeline.arrRef spec8 1)) :=
  (dat8 V c).arrAt_eq_of_cover 2 _ (fun t _ => flushed8_eq V c t) (cover8_arr)

end Region8c

end Cert.KernelIdeal.Hand

end
-- ==== Proof.Region9.lean ====
/-
  Region 9 of the program: the entrywise sum of two arrays of embedding rows.  The arrays are cut into blocks of 8192 rows
  and the last block overhangs the array; the rows of a staging buffer past the array's end hold words nothing names, and
  the result on the rows inside the array does not depend on them because the sum is taken entry by entry.  After all
  points the result array holds the sum of the two arrays at every index.
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 9: the running sum of the layers plus the newly propagated layer, row by row -/

section Region9
variable (V : (c : Dev nD) → (b : Ref sig .tc) → Buf (Elt F) ((c : Thread nD τ).loc b))

/-- Window `w`'s block at point `t` — the rows of the block that lie inside the array — read off the array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev rA9 : Rect S8192x64 := Rect.unit (s := S8192x64) ![0, 0] S8192x64.size inb_S8192x64_S8192x64_0_0

/-- What the body leaves in the result's buffer: its one whole-buffer store of the sum of the two loaded blocks. -/
def out9 (x0 : Vec F S8192x64 .f32) (x1 : Vec F S8192x64 .f32) : Vec F S8192x64 .f32 :=
  View.canon [⟨rA9, k9_pay1 (View.ld x0 rA9) (View.ld x1 rA9)⟩]

theorem cover9 (p0 : Vec F S8192x64 .f32) (y : S8192x64.Idx) :
    ∃ pc ∈ ([⟨rA9, p0⟩] : List (View.Piece (Elt F) S8192x64 .f32)), y ∈ pc.1.set :=
  View.cover_of_tiled [⟨rA9, p0⟩] S8192x64.size (by rfl) y

set_option maxHeartbeats 1000000 in
/-- The body on whole staging buffers: the two inputs' are read and left as they were, the result's ends at `out9`. -/
theorem sound_kernel9 (c : Dev nD) (E : Set ℕ) (i : grid9.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole)
    (x0 : Vec F S8192x64 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9 x0 x1)) -∗ K ⟨⟩))
      ⊢ wp frame (wpE (defs₀ (F := F)) Variants.none c none) E (cc9__add_kernel i arg1 harg1 arg2 harg2 arg3 harg3) K := by
  simp only [cc9__add_kernel_eq_skeleton]; unfold cc9__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9 _)

/-- The filler past the array's end: the zero word (nothing reads it). -/
abbrev zA9 : S8192x64.Idx → Elt F .f32 := fun _ => Scalar.ofBits .f32 0#32

/-- The body's sum at an index is the sum of the two blocks there. -/
theorem out9_apply (X0 X1 : Vec F S8192x64 .f32) (y : S8192x64.Idx) :
    out9 X0 X1 y = FloatOps.addf (X0 y) (X1 y) := by
  have hz : (![0, 0] : Fin 2 → Nat) = fun _ => 0 := funext fun a => by fin_cases a <;> rfl
  unfold out9
  rw [View.canon_unit_zero hz]
  simp only [View.ld_unit_zero (S := S8192x64) hz]
  unfold k9_pay1
  simp only [shapeCast_self]
  rfl

/-- The proof data: the arrays as the region finds them; after the body each input's buffer at its block (filled out past
    the array's end) and the result's at the sum of the two. -/
def dat9 (c : Dev nD) : Dat τ (Elt F) Unit ℕ (UR sig nD τ) ℕ cfg9 c where
  A w := V c (Pipeline.arrRef spec9 w)
  after w t := match w with
    | ⟨0, _⟩ => win9_0.fill (grid9.coords t) zA9 (iblk9 V c 0 t)
    | ⟨1, _⟩ => win9_1.fill (grid9.coords t) zA9 (iblk9 V c 1 t)
    | ⟨2, _⟩ => out9 (win9_0.fill (grid9.coords t) zA9 (iblk9 V c 0 t)) (win9_1.fill (grid9.coords t) zA9 (iblk9 V c 1 t))
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = win9_0.fill (grid9.coords t) zA9 (iblk9 V c 0 t) := by dsimp only [dat9]
theorem after9_1 (c : Dev nD) (t : Fin cfg9.N) : (dat9 V c).after 1 t = win9_1.fill (grid9.coords t) zA9 (iblk9 V c 1 t) := by dsimp only [dat9]
theorem after9_2 (c : Dev nD) (t : Fin cfg9.N) : (dat9 V c).after 2 t
    = out9 (win9_0.fill (grid9.coords t) zA9 (iblk9 V c 0 t)) (win9_1.fill (grid9.coords t) zA9 (iblk9 V c 1 t)) := by dsimp only [dat9]

theorem before9_0 (c : Dev nD) (t : Fin cfg9.N) (d) :
    (dat9 V c).before 0 t d = win9_0.fill (grid9.coords t) d (iblk9 V c 0 t) := by
  unfold Dat.before; rw [if_pos (fetch9_0 t)]; rfl
theorem before9_1 (c : Dev nD) (t : Fin cfg9.N) (d) :
    (dat9 V c).before 1 t d = win9_1.fill (grid9.coords t) d (iblk9 V c 1 t) := by
  unfold Dat.before; rw [if_pos (fetch9_1 t)]; rfl

/-- On the rows inside the array the result's buffer does not see what filled the inputs' buffers past the array's end. -/
theorem cut_out9 (c : Dev nD) (t : Fin cfg9.N) (d0 d1 : S8192x64.Idx → Elt F .f32) :
    win9_2.cut (grid9.coords t) (out9 (win9_0.fill (grid9.coords t) d0 (iblk9 V c 0 t)) (win9_1.fill (grid9.coords t) d1 (iblk9 V c 1 t)))
      = win9_2.cut (grid9.coords t) (out9 (win9_0.fill (grid9.coords t) zA9 (iblk9 V c 0 t)) (win9_1.fill (grid9.coords t) zA9 (iblk9 V c 1 t))) := by
  funext j
  show out9 _ _ (win9_2.xinj (grid9.coords t) j) = out9 _ _ (win9_2.xinj (grid9.coords t) j)
  rw [out9_apply, out9_apply,
    fill_irrel win9_0 (grid9.coords t) d0 zA9 _ _ (fun a => (j a).isLt),
    fill_irrel win9_1 (grid9.coords t) d1 zA9 _ _ (fun a => (j a).isLt)]

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ (∃ d, owns (c : Thread nD τ) (st9_0 t) fullShare (win9_0.fill (grid9.coords t) d (win9_0.cut (grid9.coords t) ((dat9 V c).after 0 t))))
    ∗ (∃ d, owns (c : Thread nD τ) (st9_1 t) fullShare (win9_1.fill (grid9.coords t) d (win9_1.cut (grid9.coords t) ((dat9 V c).after 1 t))))
    ∗ (∃ d, owns (c : Thread nD τ) (st9_2 t) fullShare (win9_2.fill (grid9.coords t) d (win9_2.cut (grid9.coords t) ((dat9 V c).after 2 t)))))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  rw [before9_0 V c t d0, before9_1 V c t d1]
  iapply (sound_kernel9 c Set.univ _ _ _ _ _ _ _ (win9_0.fill (grid9.coords t) d0 (iblk9 V c 0 t)) (win9_1.fill (grid9.coords t) d1 (iblk9 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win9_0.cut_fill]; iexact H0
  isplitl [H1]
  · iexists d1; rw [win9_1.cut_fill]; iexact H1
  · iexists _
    rw [← cut_out9 V c t d0 d1, win9_2.fill_cut]
    iexact H2

theorem body_obligation9 (c : Dev nD) : BodyObligationLoose (dat9 (F := F) V c) (defs₀ (F := F)) Variants.none () Set.univ := fun t => by
  rw [bigSep_W9, bigSep_W9]
  exact sound_body9 V c t

/-- The whole result: the two arrays added entry by entry. -/
def G9 (a0 a1 : S140000x64.Idx → Elt F .f32) : S140000x64.Idx → Elt F .f32 :=
  fun i => FloatOps.addf (a0 i) (a1 i)

theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_2.xsize (grid9.coords t) (0 : Fin 2) = min 8192 (140000 - 8192 * t.val)
    ∧ win9_2.xsize (grid9.coords t) (1 : Fin 2) = 64 :=
  (by decide +kernel : ∀ t : Fin grid9.N, _)

set_option maxHeartbeats 1000000 in
/-- What point `t` writes back is block `t` of `G9` of the two arrays as the region finds them. -/
theorem flushed9_eq (c : Dev nD) (t : Fin cfg9.N) :
    (dat9 V c).flushed 2 t = ((cfg9.win 2).blk t).view.read (Elt F) (G9 (V c (Pipeline.arrRef spec9 0)) (V c (Pipeline.arrRef spec9 1))) := by
  show (cfg9.win 2).cut (grid9.coords t) ((dat9 V c).after 2 t) = _
  rw [after9_2]
  obtain ⟨e0, e1, e2, e3, e4, e5, e6, e7⟩ := idx_facts9 t
  funext j
  show out9 _ _ (win9_2.xinj (grid9.coords t) j) = G9 (V c (Pipeline.arrRef spec9 0)) (V c (Pipeline.arrRef spec9 1)) (((cfg9.win 2).blk t).view.emb j)
  have hj0 : ∀ a, ((win9_2.xinj (grid9.coords t) j) a).val < win9_0.xsize (grid9.coords t) a := fun a => (j a).isLt
  have hj1 : ∀ a, ((win9_2.xinj (grid9.coords t) j) a).val < win9_1.xsize (grid9.coords t) a := fun a => (j a).isLt
  have h0 : iblk9 V c 0 t (fun a => ⟨((win9_2.xinj (grid9.coords t) j) a).val, hj0 a⟩) = V c (Pipeline.arrRef spec9 0) (((cfg9.win 2).blk t).view.emb j) := by
    show V c (Pipeline.arrRef spec9 0) (((cfg9.win 0).blk t).view.emb j) = _
    refine congrArg (V c (Pipeline.arrRef spec9 0)) ?_
    funext a; apply Fin.ext
    match a with
    | ⟨0, _⟩ => show win9_0.index t (0 : Fin 2) * 8192 + 1 * (j 0).val = win9_2.index t (0 : Fin 2) * 8192 + 1 * (j 0).val; omega
    | ⟨1, _⟩ => show win9_0.index t (1 : Fin 2) * 64 + 1 * (j 1).val = win9_2.index t (1 : Fin 2) * 64 + 1 * (j 1).val; omega
  have h1 : iblk9 V c 1 t (fun a => ⟨((win9_2.xinj (grid9.coords t) j) a).val, hj1 a⟩) = V c (Pipeline.arrRef spec9 1) (((cfg9.win 2).blk t).view.emb j) := by
    show V c (Pipeline.arrRef spec9 1) (((cfg9.win 1).blk t).view.emb j) = _
    refine congrArg (V c (Pipeline.arrRef spec9 1)) ?_
    funext a; apply Fin.ext
    match a with
    | ⟨0, _⟩ => show win9_1.index t (0 : Fin 2) * 8192 + 1 * (j 0).val = win9_2.index t (0 : Fin 2) * 8192 + 1 * (j 0).val; omega
    | ⟨1, _⟩ => show win9_1.index t (1 : Fin 2) * 64 + 1 * (j 1).val = win9_2.index t (1 : Fin 2) * 64 + 1 * (j 1).val; omega
  rw [out9_apply, fill_of_lt win9_0 _ _ _ _ hj0, fill_of_lt win9_1 _ _ _ _ hj1, h0, h1]
  rfl

theorem mem_blk9 (t : Fin cfg9.N) (i : S140000x64.Idx) :
    i ∈ ((cfg9.win 2).blk t).view.set ↔ ∀ a : Fin 2, win9_2.index t a * S8192x64.size a ≤ (i a).val ∧ (i a).val < win9_2.index t a * S8192x64.size a + win9_2.xsize (grid9.coords t) a := by
  show i ∈ ((View.whole (Pipeline.arrRef spec9 2)).slice (win9_2.rect t)).set ↔ _
  rw [View.set_slice_whole, Rect.mem_set_unit]
  exact Iff.rfl

theorem cover9_arr (i : S140000x64.Idx) : ∃ t : Fin cfg9.N, (cfg9.win 2).flush t = true ∧ i ∈ ((cfg9.win 2).blk t).view.set := by
  have hi0 : (i 0).val < 140000 := (i 0).isLt
  have hi1 : (i 1).val < 64 := (i 1).isLt
  have hN : cfg9.N = 18 := N_9
  let t : Fin cfg9.N := ⟨(i 0).val / 8192, by rw [hN]; omega⟩
  refine ⟨t, flush9_2 t, ?_⟩
  rw [mem_blk9]
  obtain ⟨e0, e1, e2, e3, e4, e5, e6, e7⟩ := idx_facts9 t
  have ht : t.val = (i 0).val / 8192 := rfl
  intro a
  match a with
  | ⟨0, _⟩ => show win9_2.index t (0 : Fin 2) * 8192 ≤ (i 0).val ∧ (i 0).val < win9_2.index t (0 : Fin 2) * 8192 + win9_2.xsize (grid9.coords t) (0 : Fin 2); rw [e4, e6, ht]; omega
  | ⟨1, _⟩ => show win9_2.index t (1 : Fin 2) * 64 ≤ (i 1).val ∧ (i 1).val < win9_2.index t (1 : Fin 2) * 64 + win9_2.xsize (grid9.coords t) (1 : Fin 2); rw [e5, e7]; omega

/-- The result array after the region: `G9` of the two arrays as the region found them. -/
theorem final9 (c : Dev nD) : (dat9 V c).arrAt 2 cfg9.N = G9 (V c (Pipeline.arrRef spec9 0)) (V c (Pipeline.arrRef spec9 1)) :=
  (dat9 V c).arrAt_eq_of_cover 2 _ (fun t _ => flushed9_eq V c t) (cover9_arr)

end Region9

end Cert.KernelIdeal.Hand

end
-- ==== Proof.LibLaneSum.lean ====
/-
  A sum along the second axis of a matrix, read at a row.

  Reducing an [a, b] array by addition along its second axis leaves one number per row, a vector of shape [a].  On the
  extended reals the entry at row r is the plain sum of the b entries of that row: the reduced index r with the
  coordinate k put back on the second axis is the matrix index (r, k).  It holds for any extents a and b and any
  float format.
-/
import Idealize.ShloMosaic.PureOps.Ideal.Laws
import Idealize.ShloMosaic.Lib.ValueIdx

open scoped BigOperators

namespace Cert.Lib.LaneSum

open Idealize.ShloMosaic Idealize.ShloMosaic.ValueIdx

/-- The sum along the second axis of an [a, b] array, read at row r, is the sum over k of the array at (r, k). -/
theorem laneSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  refine (Ideal.multiReduction_add_single src acc h hφ hacc (ix1 r)).trans ?_
  show ∑ k : Fin b, src (h.lift (ix1 r) k) = _
  refine Finset.sum_congr rfl fun k _ => congrArg src ?_
  funext c
  match c with
  | ⟨0, _⟩ => rfl
  | ⟨1, _⟩ => rfl

end Cert.Lib.LaneSum
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.Region10.lean ====
/-
  Region 10 of the program, read on the extended reals: a quarter of the summed layers plus each propagated row divided by
  its Euclidean length, the length floored by a tiny positive constant.  The arrays are cut into blocks of 8192 rows and
  the last block overhangs the array; the rows of a staging buffer past the array's end hold words nothing names.  A
  row's result reads that row of the two blocks only — the sum of squares runs along the row — so the result on the rows
  inside the array does not depend on those words.  After all points the result array holds, at row p and lane q,
  acc(p,q)·(1/4 as an f32 word) + x(p,q) / max(sqrt(Σ_k x(p,k)²), floor).
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import proofs.«177237_j55430847922201_2_alg».proof.Proof.LibLaneSum
import proofs.«177237_j55430847922201_2_alg».proof.Proof.LibColumnLayout
import Idealize.ShloMosaic.PureOps.Ideal.Laws
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open scoped BigOperators

/-! ## Region 10: a quarter of the summed layers plus each propagated row divided by its length (floored by a tiny constant) -/

section Region10
variable {F : FTy → Type} [FloatOps F]

abbrev rA10 : Rect S8192x64 := Rect.unit (s := S8192x64) ![0, 0] S8192x64.size inb_S8192x64_S8192x64_0_0

/-- What the body leaves in the result's buffer from the block of summed layers `x0` and the block of propagated rows `x1`. -/
def out10 (x0 : Vec F S8192x64 .f32) (x1 : Vec F S8192x64 .f32) : Vec F S8192x64 .f32 :=
  View.canon [⟨rA10, k10_pay1 (View.ld x1 rA10) (View.ld x0 rA10)⟩]

theorem cover10 (p0 : Vec F S8192x64 .f32) (y : S8192x64.Idx) :
    ∃ pc ∈ ([⟨rA10, p0⟩] : List (View.Piece (Elt F) S8192x64 .f32)), y ∈ pc.1.set :=
  View.cover_of_tiled [⟨rA10, p0⟩] S8192x64.size (by rfl) y

set_option maxHeartbeats 1000000 in
/-- The body on whole staging buffers: the two inputs' are read and left as they were, the result's ends at `out10`. -/
theorem sound_kernel10 (c : Dev nD) (E : Set ℕ) (i : grid10.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole)
    (x0 : Vec F S8192x64 .f32) (x1 : Vec F S8192x64 .f32) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out10 x0 x1)) -∗ K ⟨⟩))
      ⊢ wp frame (wpE (defs₀ (F := F)) Variants.none c none) E (cc10__norm_add_kernel i arg1 harg1 arg2 harg2 arg3 harg3) K := by
  simp only [cc10__norm_add_kernel_eq_skeleton]; unfold cc10__norm_add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10 _)

end Region10

section Region10i

/-- The body's result at row p, lane q, on the extended reals: a quarter (the f32 word of 0.25) of the summed layers there,
    plus the propagated entry divided by the larger of the row's length — the square root of the sum of its squares — and
    the tiny floor (the f32 word nearest 1e-12). -/
theorem out10_apply (X0 X1 : Vec Ideal S8192x64 .f32) (p : Fin 8192) (q : Fin 64) :
    out10 (F := Ideal) X0 X1 (ValueIdx.ix2 p q)
      = X0 (ValueIdx.ix2 p q) * Ideal.ofBits .f32 0x3E800000#32
        + Ideal.div (X1 (ValueIdx.ix2 p q))
            (max (Ideal.sqrt (∑ k : Fin 64, X1 (ValueIdx.ix2 p k) * X1 (ValueIdx.ix2 p k))) (Ideal.ofBits .f32 0x2B8CBCCC#32)) := by
  have hz : (![0, 0] : Fin 2 → Nat) = fun _ => 0 := funext fun a => by fin_cases a <;> rfl
  unfold out10
  rw [View.canon_unit_zero hz]
  simp only [View.ld_unit_zero (S := S8192x64) hz]
  unfold k10_pay1
  simp only [shapeCast_self]
  show X0 (ValueIdx.ix2 p q) * Ideal.ofBits .f32 0x3E800000#32
      + Ideal.div (X1 (ValueIdx.ix2 p q)) (broadcastTo S8192x64 (maximumf (sqrt (shapeCast S8192x1
          (multiReduction (F := Ideal) .add [1] S8192 (mulf X1 X1) 0x00000000#32 reduces_S8192x64_S8192 (.inl rfl) rfl) shapeCasts_S8192_S8192x1))
          (broadcast S8192x1 (Scalar.ofBits .f32 0x2B8CBCCC#32))) broadcasts_S8192x1_S8192x64 (ValueIdx.ix2 p q)) = _
  rw [Cert.Lib.ColumnLayout.broadcastTo_a1_ab_apply _ broadcasts_S8192x1_S8192x64 p q 0]
  show _ + Ideal.div _ (max (Ideal.sqrt (shapeCast S8192x1 _ shapeCasts_S8192_S8192x1 (ValueIdx.ix2 p 0))) (Ideal.ofBits .f32 0x2B8CBCCC#32)) = _
  rw [Cert.Lib.ColumnLayout.shapeCast_a_a1_apply _ shapeCasts_S8192_S8192x1 p 0]
  exact congrArg (fun s : EReal => X0 (ValueIdx.ix2 p q) * Ideal.ofBits .f32 0x3E800000#32
      + Ideal.div (X1 (ValueIdx.ix2 p q)) (max (Ideal.sqrt s) (Ideal.ofBits .f32 0x2B8CBCCC#32)))
    (Cert.Lib.LaneSum.laneSum_apply (mulf X1 X1) 0x00000000#32 reduces_S8192x64_S8192 (.inl rfl) rfl p)

end Region10i

section Region10v
variable (V : (c : Dev nD) → (b : Ref sig .tc) → Buf (Elt Ideal) ((c : Thread nD τ).loc b))

local notation "𝕄" => MT nD τ sig Unit (Elt Ideal) ℕ (UR sig nD τ) ℕ

/-- The same at any index of the block. -/
theorem out10_apply' (X0 X1 : Vec Ideal S8192x64 .f32) (y : S8192x64.Idx) :
    out10 (F := Ideal) X0 X1 y
      = X0 y * Ideal.ofBits .f32 0x3E800000#32
        + Ideal.div (X1 y)
            (max (Ideal.sqrt (∑ k : Fin 64, X1 (ValueIdx.ix2 (n0 := 8192) (n1 := 64) (y 0) k) * X1 (ValueIdx.ix2 (n0 := 8192) (n1 := 64) (y 0) k))) (Ideal.ofBits .f32 0x2B8CBCCC#32)) := by
  obtain ⟨p, q, rfl⟩ : ∃ (p : Fin 8192) (q : Fin 64), y = ValueIdx.ix2 p q := ⟨y 0, y 1, ValueIdx.eq_ix2 y⟩
  exact out10_apply X0 X1 p q

/-- Window `w`'s block at point `t` — the rows of the block that lie inside the array — read off the array as the region finds it. -/
def iblk10 (c : Dev nD) (w : Fin cfg10.W) (t : Fin cfg10.N) : ((cfg10.win w).xblock (cfg10.grid.coords t)).Idx → Elt Ideal (cfg10.win w).elt :=
  ((cfg10.win w).blk t).view.read (Elt Ideal) (V c (Pipeline.arrRef spec10 w))

/-- The filler past the array's end: the zero word (nothing reads it). -/
abbrev zA10 : S8192x64.Idx → Elt Ideal .f32 := fun _ => Scalar.ofBits (F := Ideal) .f32 0#32

/-- The proof data: the arrays as the region finds them; after the body each input's buffer at its block (filled out past
    the array's end) and the result's at the body's function of the two. -/
def dat10 (c : Dev nD) : Dat τ (Elt Ideal) Unit ℕ (UR sig nD τ) ℕ cfg10 c where
  A w := V c (Pipeline.arrRef spec10 w)
  after w t := match w with
    | ⟨0, _⟩ => win10_0.fill (grid10.coords t) zA10 (iblk10 V c 0 t)
    | ⟨1, _⟩ => win10_1.fill (grid10.coords t) zA10 (iblk10 V c 1 t)
    | ⟨2, _⟩ => out10 (F := Ideal) (win10_0.fill (grid10.coords t) zA10 (iblk10 V c 0 t)) (win10_1.fill (grid10.coords t) zA10 (iblk10 V c 1 t))
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = win10_0.fill (grid10.coords t) zA10 (iblk10 V c 0 t) := by dsimp only [dat10]
theorem after10_1 (c : Dev nD) (t : Fin cfg10.N) : (dat10 V c).after 1 t = win10_1.fill (grid10.coords t) zA10 (iblk10 V c 1 t) := by dsimp only [dat10]
theorem after10_2 (c : Dev nD) (t : Fin cfg10.N) : (dat10 V c).after 2 t
    = out10 (F := Ideal) (win10_0.fill (grid10.coords t) zA10 (iblk10 V c 0 t)) (win10_1.fill (grid10.coords t) zA10 (iblk10 V c 1 t)) := by dsimp only [dat10]

theorem before10_0 (c : Dev nD) (t : Fin cfg10.N) (d) :
    (dat10 V c).before 0 t d = win10_0.fill (grid10.coords t) d (iblk10 V c 0 t) := by
  unfold Dat.before; rw [if_pos (fetch10_0 t)]; rfl
theorem before10_1 (c : Dev nD) (t : Fin cfg10.N) (d) :
    (dat10 V c).before 1 t d = win10_1.fill (grid10.coords t) d (iblk10 V c 1 t) := by
  unfold Dat.before; rw [if_pos (fetch10_1 t)]; rfl

/-- On the rows inside the array the result's buffer does not see what filled the inputs' buffers past the array's end: a
    row's result reads that row of the two blocks only. -/
theorem cut_out10 (c : Dev nD) (t : Fin cfg10.N) (d0 d1 : S8192x64.Idx → Elt Ideal .f32) :
    win10_2.cut (grid10.coords t) (out10 (F := Ideal) (win10_0.fill (grid10.coords t) d0 (iblk10 V c 0 t)) (win10_1.fill (grid10.coords t) d1 (iblk10 V c 1 t)))
      = win10_2.cut (grid10.coords t) (out10 (F := Ideal) (win10_0.fill (grid10.coords t) zA10 (iblk10 V c 0 t)) (win10_1.fill (grid10.coords t) zA10 (iblk10 V c 1 t))) := by
  funext j
  show out10 (F := Ideal) _ _ (win10_2.xinj (grid10.coords t) j) = out10 (F := Ideal) _ _ (win10_2.xinj (grid10.coords t) j)
  have hs : ∀ k : Fin 64, win10_1.fill (grid10.coords t) d1 (iblk10 V c 1 t) (ValueIdx.ix2 (n0 := 8192) (n1 := 64) ((win10_2.xinj (grid10.coords t) j) 0) k)
      = win10_1.fill (grid10.coords t) zA10 (iblk10 V c 1 t) (ValueIdx.ix2 (n0 := 8192) (n1 := 64) ((win10_2.xinj (grid10.coords t) j) 0) k) := fun k =>
    fill_irrel win10_1 (grid10.coords t) d1 zA10 _ _ (fun a => by
      match a with
      | ⟨0, _⟩ => exact (j 0).isLt
      | ⟨1, _⟩ => exact k.isLt)
  have hj0 : ∀ a, ((win10_2.xinj (grid10.coords t) j) a).val < win10_0.xsize (grid10.coords t) a := fun a => (j a).isLt
  have hj1 : ∀ a, ((win10_2.xinj (grid10.coords t) j) a).val < win10_1.xsize (grid10.coords t) a := fun a => (j a).isLt
  rw [out10_apply', out10_apply']
  simp only [hs]
  rw [fill_irrel win10_0 (grid10.coords t) d0 zA10 _ _ hj0, fill_irrel win10_1 (grid10.coords t) d1 zA10 _ _ hj1]

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ (∃ d, owns (c : Thread nD τ) (st10_0 t) fullShare (win10_0.fill (grid10.coords t) d (win10_0.cut (grid10.coords t) ((dat10 V c).after 0 t))))
    ∗ (∃ d, owns (c : Thread nD τ) (st10_1 t) fullShare (win10_1.fill (grid10.coords t) d (win10_1.cut (grid10.coords t) ((dat10 V c).after 1 t))))
    ∗ (∃ d, owns (c : Thread nD τ) (st10_2 t) fullShare (win10_2.fill (grid10.coords t) d (win10_2.cut (grid10.coords t) ((dat10 V c).after 2 t)))))

theorem sound_body10 (c : Dev nD) (t : Fin cfg10.N) :
    bodyPre10 V c t ⊢ wp frame (wpE (defs₀ (F := Ideal)) Variants.none c none) Set.univ (bodyAt10 t) (fun _ => bodyPost10 V c t) := by
  unfold bodyPre10 bodyPost10 bodyAt10
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  rw [before10_0 V c t d0, before10_1 V c t d1]
  iapply (sound_kernel10 (F := Ideal) c Set.univ _ _ _ _ _ _ _ (win10_0.fill (grid10.coords t) d0 (iblk10 V c 0 t)) (win10_1.fill (grid10.coords t) d1 (iblk10 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win10_0.cut_fill]; iexact H0
  isplitl [H1]
  · iexists d1; rw [win10_1.cut_fill]; iexact H1
  · iexists _
    rw [← cut_out10 V c t d0 d1, win10_2.fill_cut]
    iexact H2

theorem body_obligation10 (c : Dev nD) : BodyObligationLoose (dat10 V c) (defs₀ (F := Ideal)) Variants.none () Set.univ := fun t => by
  rw [bigSep_W10, bigSep_W10]
  exact sound_body10 V c t

/-- The whole result, row p lane q: a quarter of the summed layers plus the propagated entry over the floored length of its row. -/
def G10 (a0 a1 : S100000x64.Idx → EReal) : S100000x64.Idx → EReal :=
  fun i => a0 i * Ideal.ofBits .f32 0x3E800000#32
    + Ideal.div (a1 i) (max (Ideal.sqrt (∑ k : Fin 64, a1 (ValueIdx.ix2 (n0 := 100000) (n1 := 64) (i 0) k) * a1 (ValueIdx.ix2 (n0 := 100000) (n1 := 64) (i 0) k))) (Ideal.ofBits .f32 0x2B8CBCCC#32))

theorem idx_facts10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_2.xsize (grid10.coords t) (0 : Fin 2) = min 8192 (100000 - 8192 * t.val)
    ∧ win10_2.xsize (grid10.coords t) (1 : Fin 2) = 64 :=
  (by decide +kernel : ∀ t : Fin grid10.N, _)

set_option maxHeartbeats 1000000 in
/-- What point `t` writes back is block `t` of `G10` of the two arrays as the region finds them. -/
theorem flushed10_eq (c : Dev nD) (t : Fin cfg10.N) :
    (dat10 V c).flushed 2 t = ((cfg10.win 2).blk t).view.read (Elt Ideal) (G10 (V c (Pipeline.arrRef spec10 0)) (V c (Pipeline.arrRef spec10 1))) := by
  show (cfg10.win 2).cut (grid10.coords t) ((dat10 V c).after 2 t) = _
  rw [after10_2]
  obtain ⟨e0, e1, e2, e3, e4, e5, e6, e7⟩ := idx_facts10 t
  funext j
  show out10 (F := Ideal) _ _ (win10_2.xinj (grid10.coords t) j) = _
  have hk : ∀ (k : Fin 64) a, ((ValueIdx.ix2 (n0 := 8192) (n1 := 64) ((win10_2.xinj (grid10.coords t) j) 0) k : S8192x64.Idx) a).val < win10_1.xsize (grid10.coords t) a := fun k a => by
    match a with
    | ⟨0, _⟩ => exact (j 0).isLt
    | ⟨1, _⟩ => exact k.isLt
  have hs : ∀ k : Fin 64, win10_1.fill (grid10.coords t) zA10 (iblk10 V c 1 t) (ValueIdx.ix2 (n0 := 8192) (n1 := 64) ((win10_2.xinj (grid10.coords t) j) 0) k)
      = V c (Pipeline.arrRef spec10 1) (ValueIdx.ix2 (n0 := 100000) (n1 := 64) ((((cfg10.win 2).blk t).view.emb j) 0) k) := fun k => by
    rw [fill_of_lt win10_1 _ _ _ _ (hk k)]
    show V c (Pipeline.arrRef spec10 1) (((cfg10.win 1).blk t).view.emb (fun a => ⟨((ValueIdx.ix2 (n0 := 8192) (n1 := 64) ((win10_2.xinj (grid10.coords t) j) 0) k : S8192x64.Idx) a).val, hk k a⟩)) = _
    refine congrArg (V c (Pipeline.arrRef spec10 1)) ?_
    funext a; apply Fin.ext
    match a with
    | ⟨0, _⟩ => show win10_1.index t (0 : Fin 2) * 8192 + 1 * (j 0).val = win10_2.index t (0 : Fin 2) * 8192 + 1 * (j 0).val; omega
    | ⟨1, _⟩ => show win10_1.index t (1 : Fin 2) * 64 + 1 * k.val = k.val; omega
  have hj0 : ∀ a, ((win10_2.xinj (grid10.coords t) j) a).val < win10_0.xsize (grid10.coords t) a := fun a => (j a).isLt
  have hj1 : ∀ a, ((win10_2.xinj (grid10.coords t) j) a).val < win10_1.xsize (grid10.coords t) a := fun a => (j a).isLt
  have h0 : iblk10 V c 0 t (fun a => ⟨((win10_2.xinj (grid10.coords t) j) a).val, hj0 a⟩) = V c (Pipeline.arrRef spec10 0) (((cfg10.win 2).blk t).view.emb j) := by
    show V c (Pipeline.arrRef spec10 0) (((cfg10.win 0).blk t).view.emb j) = _
    refine congrArg (V c (Pipeline.arrRef spec10 0)) ?_
    funext a; apply Fin.ext
    match a with
    | ⟨0, _⟩ => show win10_0.index t (0 : Fin 2) * 8192 + 1 * (j 0).val = win10_2.index t (0 : Fin 2) * 8192 + 1 * (j 0).val; omega
    | ⟨1, _⟩ => show win10_0.index t (1 : Fin 2) * 64 + 1 * (j 1).val = win10_2.index t (1 : Fin 2) * 64 + 1 * (j 1).val; omega
  have h1 : iblk10 V c 1 t (fun a => ⟨((win10_2.xinj (grid10.coords t) j) a).val, hj1 a⟩) = V c (Pipeline.arrRef spec10 1) (((cfg10.win 2).blk t).view.emb j) := by
    show V c (Pipeline.arrRef spec10 1) (((cfg10.win 1).blk t).view.emb j) = _
    refine congrArg (V c (Pipeline.arrRef spec10 1)) ?_
    funext a; apply Fin.ext
    match a with
    | ⟨0, _⟩ => show win10_1.index t (0 : Fin 2) * 8192 + 1 * (j 0).val = win10_2.index t (0 : Fin 2) * 8192 + 1 * (j 0).val; omega
    | ⟨1, _⟩ => show win10_1.index t (1 : Fin 2) * 64 + 1 * (j 1).val = win10_2.index t (1 : Fin 2) * 64 + 1 * (j 1).val; omega
  rw [out10_apply']
  simp only [hs]
  rw [fill_of_lt win10_0 _ _ _ _ hj0, fill_of_lt win10_1 _ _ _ _ hj1, h0, h1]
  rfl

theorem mem_blk10 (t : Fin cfg10.N) (i : S100000x64.Idx) :
    i ∈ ((cfg10.win 2).blk t).view.set ↔ ∀ a : Fin 2, win10_2.index t a * S8192x64.size a ≤ (i a).val ∧ (i a).val < win10_2.index t a * S8192x64.size a + win10_2.xsize (grid10.coords t) a := by
  show i ∈ ((View.whole (Pipeline.arrRef spec10 2)).slice (win10_2.rect t)).set ↔ _
  rw [View.set_slice_whole, Rect.mem_set_unit]
  exact Iff.rfl

theorem cover10_arr (i : S100000x64.Idx) : ∃ t : Fin cfg10.N, (cfg10.win 2).flush t = true ∧ i ∈ ((cfg10.win 2).blk t).view.set := by
  have hi0 : (i 0).val < 100000 := (i 0).isLt
  have hi1 : (i 1).val < 64 := (i 1).isLt
  have hN : cfg10.N = 13 := N_10
  let t : Fin cfg10.N := ⟨(i 0).val / 8192, by rw [hN]; omega⟩
  refine ⟨t, flush10_2 t, ?_⟩
  rw [mem_blk10]
  obtain ⟨e0, e1, e2, e3, e4, e5, e6, e7⟩ := idx_facts10 t
  have ht : t.val = (i 0).val / 8192 := rfl
  intro a
  match a with
  | ⟨0, _⟩ => show win10_2.index t (0 : Fin 2) * 8192 ≤ (i 0).val ∧ (i 0).val < win10_2.index t (0 : Fin 2) * 8192 + win10_2.xsize (grid10.coords t) (0 : Fin 2); rw [e4, e6, ht]; omega
  | ⟨1, _⟩ => show win10_2.index t (1 : Fin 2) * 64 ≤ (i 1).val ∧ (i 1).val < win10_2.index t (1 : Fin 2) * 64 + win10_2.xsize (grid10.coords t) (1 : Fin 2); rw [e5, e7]; omega

/-- The result array after the region: `G10` of the two arrays as the region found them. -/
theorem final10 (c : Dev nD) : (dat10 V c).arrAt 2 cfg10.N = G10 (V c (Pipeline.arrRef spec10 0)) (V c (Pipeline.arrRef spec10 1)) :=
  (dat10 V c).arrAt_eq_of_cover 2 _ (fun t _ => flushed10_eq V c t) (cover10_arr)

end Region10v

end Cert.KernelIdeal.Hand

end
-- ==== Proof.Region11.lean ====
/-
  Region 11 of the program, read on the extended reals: a quarter of the summed layers plus each propagated row divided by
  its Euclidean length, the length floored by a tiny positive constant.  The arrays are cut into blocks of 8192 rows and
  the last block overhangs the array; the rows of a staging buffer past the array's end hold words nothing names.  A
  row's result reads that row of the two blocks only — the sum of squares runs along the row — so the result on the rows
  inside the array does not depend on those words.  After all points the result array holds, at row p and lane q,
  acc(p,q)·(1/4 as an f32 word) + x(p,q) / max(sqrt(Σ_k x(p,k)²), floor).
-/
import proofs.«177237_j55430847922201_2_alg».proof.Proof.Gen.KernelIdeal.Launch
import proofs.«177237_j55430847922201_2_alg».proof.Proof.Gen.KernelIdeal.Skeleton
import proofs.«177237_j55430847922201_2_alg».proof.Proof.Gen.KernelIdeal.Points
import proofs.«177237_j55430847922201_2_alg».proof.Proof.ClippedFill
import Idealize.ShloMosaic.Lib.Pipeline.FrameBody
import Idealize.ShloMosaic.Lib.Pipeline.Value
import Idealize.ShloMosaic.Lib.ValueIdx
import proofs.«177237_j55430847922201_2_alg».proof.Proof.LibLaneSum
import proofs.«177237_j55430847922201_2_alg».proof.Proof.LibColumnLayout
import Idealize.ShloMosaic.PureOps.Ideal.Laws
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open scoped BigOperators

/-! ## Region 11: a quarter of the summed layers plus each propagated row divided by its length (floored by a tiny constant) -/

section Region11
variable {F : FTy → Type} [FloatOps F]

abbrev rA11 : Rect S8192x64 := Rect.unit (s := S8192x64) ![0, 0] S8192x64.size inb_S8192x64_S8192x64_0_0

/-- What the body leaves in the result's buffer from the block of summed layers `x0` and the block of propagated rows `x1`. -/
def out11 (x0 : Vec F S8192x64 .f32) (x1 : Vec F S8192x64 .f32) : Vec F S8192x64 .f32 :=
  View.canon [⟨rA11, k11_pay1 (View.ld x1 rA11) (View.ld x0 rA11)⟩]

theorem cover11 (p0 : Vec F S8192x64 .f32) (y : S8192x64.Idx) :
    ∃ pc ∈ ([⟨rA11, p0⟩] : List (View.Piece (Elt F) S8192x64 .f32)), y ∈ pc.1.set :=
  View.cover_of_tiled [⟨rA11, p0⟩] S8192x64.size (by rfl) y

set_option maxHeartbeats 1000000 in
/-- The body on whole staging buffers: the two inputs' are read and left as they were, the result's ends at `out11`. -/
theorem sound_kernel11 (c : Dev nD) (E : Set ℕ) (i : grid11.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole)
    (x0 : Vec F S8192x64 .f32) (x1 : Vec F S8192x64 .f32) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out11 x0 x1)) -∗ K ⟨⟩))
      ⊢ wp frame (wpE (defs₀ (F := F)) Variants.none c none) E (cc11__norm_add_kernel i arg1 harg1 arg2 harg2 arg3 harg3) K := by
  simp only [cc11__norm_add_kernel_eq_skeleton]; unfold cc11__norm_add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11 _)

end Region11

section Region11i

/-- The body's result at row p, lane q, on the extended reals: a quarter (the f32 word of 0.25) of the summed layers there,
    plus the propagated entry divided by the larger of the row's length — the square root of the sum of its squares — and
    the tiny floor (the f32 word nearest 1e-12). -/
theorem out11_apply (X0 X1 : Vec Ideal S8192x64 .f32) (p : Fin 8192) (q : Fin 64) :
    out11 (F := Ideal) X0 X1 (ValueIdx.ix2 p q)
      = X0 (ValueIdx.ix2 p q) * Ideal.ofBits .f32 0x3E800000#32
        + Ideal.div (X1 (ValueIdx.ix2 p q))
            (max (Ideal.sqrt (∑ k : Fin 64, X1 (ValueIdx.ix2 p k) * X1 (ValueIdx.ix2 p k))) (Ideal.ofBits .f32 0x2B8CBCCC#32)) := by
  have hz : (![0, 0] : Fin 2 → Nat) = fun _ => 0 := funext fun a => by fin_cases a <;> rfl
  unfold out11
  rw [View.canon_unit_zero hz]
  simp only [View.ld_unit_zero (S := S8192x64) hz]
  unfold k11_pay1
  simp only [shapeCast_self]
  show X0 (ValueIdx.ix2 p q) * Ideal.ofBits .f32 0x3E800000#32
      + Ideal.div (X1 (ValueIdx.ix2 p q)) (broadcastTo S8192x64 (maximumf (sqrt (shapeCast S8192x1
          (multiReduction (F := Ideal) .add [1] S8192 (mulf X1 X1) 0x00000000#32 reduces_S8192x64_S8192 (.inl rfl) rfl) shapeCasts_S8192_S8192x1))
          (broadcast S8192x1 (Scalar.ofBits .f32 0x2B8CBCCC#32))) broadcasts_S8192x1_S8192x64 (ValueIdx.ix2 p q)) = _
  rw [Cert.Lib.ColumnLayout.broadcastTo_a1_ab_apply _ broadcasts_S8192x1_S8192x64 p q 0]
  show _ + Ideal.div _ (max (Ideal.sqrt (shapeCast S8192x1 _ shapeCasts_S8192_S8192x1 (ValueIdx.ix2 p 0))) (Ideal.ofBits .f32 0x2B8CBCCC#32)) = _
  rw [Cert.Lib.ColumnLayout.shapeCast_a_a1_apply _ shapeCasts_S8192_S8192x1 p 0]
  exact congrArg (fun s : EReal => X0 (ValueIdx.ix2 p q) * Ideal.ofBits .f32 0x3E800000#32
      + Ideal.div (X1 (ValueIdx.ix2 p q)) (max (Ideal.sqrt s) (Ideal.ofBits .f32 0x2B8CBCCC#32)))
    (Cert.Lib.LaneSum.laneSum_apply (mulf X1 X1) 0x00000000#32 reduces_S8192x64_S8192 (.inl rfl) rfl p)

end Region11i

section Region11v
variable (V : (c : Dev nD) → (b : Ref sig .tc) → Buf (Elt Ideal) ((c : Thread nD τ).loc b))

local notation "𝕄" => MT nD τ sig Unit (Elt Ideal) ℕ (UR sig nD τ) ℕ

/-- The same at any index of the block. -/
theorem out11_apply' (X0 X1 : Vec Ideal S8192x64 .f32) (y : S8192x64.Idx) :
    out11 (F := Ideal) X0 X1 y
      = X0 y * Ideal.ofBits .f32 0x3E800000#32
        + Ideal.div (X1 y)
            (max (Ideal.sqrt (∑ k : Fin 64, X1 (ValueIdx.ix2 (n0 := 8192) (n1 := 64) (y 0) k) * X1 (ValueIdx.ix2 (n0 := 8192) (n1 := 64) (y 0) k))) (Ideal.ofBits .f32 0x2B8CBCCC#32)) := by
  obtain ⟨p, q, rfl⟩ : ∃ (p : Fin 8192) (q : Fin 64), y = ValueIdx.ix2 p q := ⟨y 0, y 1, ValueIdx.eq_ix2 y⟩
  exact out11_apply X0 X1 p q

/-- Window `w`'s block at point `t` — the rows of the block that lie inside the array — read off the array as the region finds it. -/
def iblk11 (c : Dev nD) (w : Fin cfg11.W) (t : Fin cfg11.N) : ((cfg11.win w).xblock (cfg11.grid.coords t)).Idx → Elt Ideal (cfg11.win w).elt :=
  ((cfg11.win w).blk t).view.read (Elt Ideal) (V c (Pipeline.arrRef spec11 w))

/-- The filler past the array's end: the zero word (nothing reads it). -/
abbrev zA11 : S8192x64.Idx → Elt Ideal .f32 := fun _ => Scalar.ofBits (F := Ideal) .f32 0#32

/-- The proof data: the arrays as the region finds them; after the body each input's buffer at its block (filled out past
    the array's end) and the result's at the body's function of the two. -/
def dat11 (c : Dev nD) : Dat τ (Elt Ideal) Unit ℕ (UR sig nD τ) ℕ cfg11 c where
  A w := V c (Pipeline.arrRef spec11 w)
  after w t := match w with
    | ⟨0, _⟩ => win11_0.fill (grid11.coords t) zA11 (iblk11 V c 0 t)
    | ⟨1, _⟩ => win11_1.fill (grid11.coords t) zA11 (iblk11 V c 1 t)
    | ⟨2, _⟩ => out11 (F := Ideal) (win11_0.fill (grid11.coords t) zA11 (iblk11 V c 0 t)) (win11_1.fill (grid11.coords t) zA11 (iblk11 V c 1 t))
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = win11_0.fill (grid11.coords t) zA11 (iblk11 V c 0 t) := by dsimp only [dat11]
theorem after11_1 (c : Dev nD) (t : Fin cfg11.N) : (dat11 V c).after 1 t = win11_1.fill (grid11.coords t) zA11 (iblk11 V c 1 t) := by dsimp only [dat11]
theorem after11_2 (c : Dev nD) (t : Fin cfg11.N) : (dat11 V c).after 2 t
    = out11 (F := Ideal) (win11_0.fill (grid11.coords t) zA11 (iblk11 V c 0 t)) (win11_1.fill (grid11.coords t) zA11 (iblk11 V c 1 t)) := by dsimp only [dat11]

theorem before11_0 (c : Dev nD) (t : Fin cfg11.N) (d) :
    (dat11 V c).before 0 t d = win11_0.fill (grid11.coords t) d (iblk11 V c 0 t) := by
  unfold Dat.before; rw [if_pos (fetch11_0 t)]; rfl
theorem before11_1 (c : Dev nD) (t : Fin cfg11.N) (d) :
    (dat11 V c).before 1 t d = win11_1.fill (grid11.coords t) d (iblk11 V c 1 t) := by
  unfold Dat.before; rw [if_pos (fetch11_1 t)]; rfl

/-- On the rows inside the array the result's buffer does not see what filled the inputs' buffers past the array's end: a
    row's result reads that row of the two blocks only. -/
theorem cut_out11 (c : Dev nD) (t : Fin cfg11.N) (d0 d1 : S8192x64.Idx → Elt Ideal .f32) :
    win11_2.cut (grid11.coords t) (out11 (F := Ideal) (win11_0.fill (grid11.coords t) d0 (iblk11 V c 0 t)) (win11_1.fill (grid11.coords t) d1 (iblk11 V c 1 t)))
      = win11_2.cut (grid11.coords t) (out11 (F := Ideal) (win11_0.fill (grid11.coords t) zA11 (iblk11 V c 0 t)) (win11_1.fill (grid11.coords t) zA11 (iblk11 V c 1 t))) := by
  funext j
  show out11 (F := Ideal) _ _ (win11_2.xinj (grid11.coords t) j) = out11 (F := Ideal) _ _ (win11_2.xinj (grid11.coords t) j)
  have hs : ∀ k : Fin 64, win11_1.fill (grid11.coords t) d1 (iblk11 V c 1 t) (ValueIdx.ix2 (n0 := 8192) (n1 := 64) ((win11_2.xinj (grid11.coords t) j) 0) k)
      = win11_1.fill (grid11.coords t) zA11 (iblk11 V c 1 t) (ValueIdx.ix2 (n0 := 8192) (n1 := 64) ((win11_2.xinj (grid11.coords t) j) 0) k) := fun k =>
    fill_irrel win11_1 (grid11.coords t) d1 zA11 _ _ (fun a => by
      match a with
      | ⟨0, _⟩ => exact (j 0).isLt
      | ⟨1, _⟩ => exact k.isLt)
  have hj0 : ∀ a, ((win11_2.xinj (grid11.coords t) j) a).val < win11_0.xsize (grid11.coords t) a := fun a => (j a).isLt
  have hj1 : ∀ a, ((win11_2.xinj (grid11.coords t) j) a).val < win11_1.xsize (grid11.coords t) a := fun a => (j a).isLt
  rw [out11_apply', out11_apply']
  simp only [hs]
  rw [fill_irrel win11_0 (grid11.coords t) d0 zA11 _ _ hj0, fill_irrel win11_1 (grid11.coords t) d1 zA11 _ _ hj1]

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

def bodyPost11 (c : Dev nD) (t : Fin cfg11.N) : sProp 𝕄 :=
  iprop((dat11 V c).Φ t.succ ∗ (dat11 V c).owesAt () t.succ
    ∗ (∃ d, owns (c : Thread nD τ) (st11_0 t) fullShare (win11_0.fill (grid11.coords t) d (win11_0.cut (grid11.coords t) ((dat11 V c).after 0 t))))
    ∗ (∃ d, owns (c : Thread nD τ) (st11_1 t) fullShare (win11_1.fill (grid11.coords t) d (win11_1.cut (grid11.coords t) ((dat11 V c).after 1 t))))
    ∗ (∃ d, owns (c : Thread nD τ) (st11_2 t) fullShare (win11_2.fill (grid11.coords t) d (win11_2.cut (grid11.coords t) ((dat11 V c).after 2 t)))))

theorem sound_body11 (c : Dev nD) (t : Fin cfg11.N) :
    bodyPre11 V c t ⊢ wp frame (wpE (defs₀ (F := Ideal)) Variants.none c none) Set.univ (bodyAt11 t) (fun _ => bodyPost11 V c t) := by
  unfold bodyPre11 bodyPost11 bodyAt11
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  rw [before11_0 V c t d0, before11_1 V c t d1]
  iapply (sound_kernel11 (F := Ideal) c Set.univ _ _ _ _ _ _ _ (win11_0.fill (grid11.coords t) d0 (iblk11 V c 0 t)) (win11_1.fill (grid11.coords t) d1 (iblk11 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win11_0.cut_fill]; iexact H0
  isplitl [H1]
  · iexists d1; rw [win11_1.cut_fill]; iexact H1
  · iexists _
    rw [← cut_out11 V c t d0 d1, win11_2.fill_cut]
    iexact H2

theorem body_obligation11 (c : Dev nD) : BodyObligationLoose (dat11 V c) (defs₀ (F := Ideal)) Variants.none () Set.univ := fun t => by
  rw [bigSep_W11, bigSep_W11]
  exact sound_body11 V c t

/-- The whole result, row p lane q: a quarter of the summed layers plus the propagated entry over the floored length of its row. -/
def G11 (a0 a1 : S40000x64.Idx → EReal) : S40000x64.Idx → EReal :=
  fun i => a0 i * Ideal.ofBits .f32 0x3E800000#32
    + Ideal.div (a1 i) (max (Ideal.sqrt (∑ k : Fin 64, a1 (ValueIdx.ix2 (n0 := 40000) (n1 := 64) (i 0) k) * a1 (ValueIdx.ix2 (n0 := 40000) (n1 := 64) (i 0) k))) (Ideal.ofBits .f32 0x2B8CBCCC#32))

theorem idx_facts11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_2.xsize (grid11.coords t) (0 : Fin 2) = min 8192 (40000 - 8192 * t.val)
    ∧ win11_2.xsize (grid11.coords t) (1 : Fin 2) = 64 :=
  (by decide +kernel : ∀ t : Fin grid11.N, _)

set_option maxHeartbeats 1000000 in
/-- What point `t` writes back is block `t` of `G11` of the two arrays as the region finds them. -/
theorem flushed11_eq (c : Dev nD) (t : Fin cfg11.N) :
    (dat11 V c).flushed 2 t = ((cfg11.win 2).blk t).view.read (Elt Ideal) (G11 (V c (Pipeline.arrRef spec11 0)) (V c (Pipeline.arrRef spec11 1))) := by
  show (cfg11.win 2).cut (grid11.coords t) ((dat11 V c).after 2 t) = _
  rw [after11_2]
  obtain ⟨e0, e1, e2, e3, e4, e5, e6, e7⟩ := idx_facts11 t
  funext j
  show out11 (F := Ideal) _ _ (win11_2.xinj (grid11.coords t) j) = _
  have hk : ∀ (k : Fin 64) a, ((ValueIdx.ix2 (n0 := 8192) (n1 := 64) ((win11_2.xinj (grid11.coords t) j) 0) k : S8192x64.Idx) a).val < win11_1.xsize (grid11.coords t) a := fun k a => by
    match a with
    | ⟨0, _⟩ => exact (j 0).isLt
    | ⟨1, _⟩ => exact k.isLt
  have hs : ∀ k : Fin 64, win11_1.fill (grid11.coords t) zA11 (iblk11 V c 1 t) (ValueIdx.ix2 (n0 := 8192) (n1 := 64) ((win11_2.xinj (grid11.coords t) j) 0) k)
      = V c (Pipeline.arrRef spec11 1) (ValueIdx.ix2 (n0 := 40000) (n1 := 64) ((((cfg11.win 2).blk t).view.emb j) 0) k) := fun k => by
    rw [fill_of_lt win11_1 _ _ _ _ (hk k)]
    show V c (Pipeline.arrRef spec11 1) (((cfg11.win 1).blk t).view.emb (fun a => ⟨((ValueIdx.ix2 (n0 := 8192) (n1 := 64) ((win11_2.xinj (grid11.coords t) j) 0) k : S8192x64.Idx) a).val, hk k a⟩)) = _
    refine congrArg (V c (Pipeline.arrRef spec11 1)) ?_
    funext a; apply Fin.ext
    match a with
    | ⟨0, _⟩ => show win11_1.index t (0 : Fin 2) * 8192 + 1 * (j 0).val = win11_2.index t (0 : Fin 2) * 8192 + 1 * (j 0).val; omega
    | ⟨1, _⟩ => show win11_1.index t (1 : Fin 2) * 64 + 1 * k.val = k.val; omega
  have hj0 : ∀ a, ((win11_2.xinj (grid11.coords t) j) a).val < win11_0.xsize (grid11.coords t) a := fun a => (j a).isLt
  have hj1 : ∀ a, ((win11_2.xinj (grid11.coords t) j) a).val < win11_1.xsize (grid11.coords t) a := fun a => (j a).isLt
  have h0 : iblk11 V c 0 t (fun a => ⟨((win11_2.xinj (grid11.coords t) j) a).val, hj0 a⟩) = V c (Pipeline.arrRef spec11 0) (((cfg11.win 2).blk t).view.emb j) := by
    show V c (Pipeline.arrRef spec11 0) (((cfg11.win 0).blk t).view.emb j) = _
    refine congrArg (V c (Pipeline.arrRef spec11 0)) ?_
    funext a; apply Fin.ext
    match a with
    | ⟨0, _⟩ => show win11_0.index t (0 : Fin 2) * 8192 + 1 * (j 0).val = win11_2.index t (0 : Fin 2) * 8192 + 1 * (j 0).val; omega
    | ⟨1, _⟩ => show win11_0.index t (1 : Fin 2) * 64 + 1 * (j 1).val = win11_2.index t (1 : Fin 2) * 64 + 1 * (j 1).val; omega
  have h1 : iblk11 V c 1 t (fun a => ⟨((win11_2.xinj (grid11.coords t) j) a).val, hj1 a⟩) = V c (Pipeline.arrRef spec11 1) (((cfg11.win 2).blk t).view.emb j) := by
    show V c (Pipeline.arrRef spec11 1) (((cfg11.win 1).blk t).view.emb j) = _
    refine congrArg (V c (Pipeline.arrRef spec11 1)) ?_
    funext a; apply Fin.ext
    match a with
    | ⟨0, _⟩ => show win11_1.index t (0 : Fin 2) * 8192 + 1 * (j 0).val = win11_2.index t (0 : Fin 2) * 8192 + 1 * (j 0).val; omega
    | ⟨1, _⟩ => show win11_1.index t (1 : Fin 2) * 64 + 1 * (j 1).val = win11_2.index t (1 : Fin 2) * 64 + 1 * (j 1).val; omega
  rw [out11_apply']
  simp only [hs]
  rw [fill_of_lt win11_0 _ _ _ _ hj0, fill_of_lt win11_1 _ _ _ _ hj1, h0, h1]
  rfl

theorem mem_blk11 (t : Fin cfg11.N) (i : S40000x64.Idx) :
    i ∈ ((cfg11.win 2).blk t).view.set ↔ ∀ a : Fin 2, win11_2.index t a * S8192x64.size a ≤ (i a).val ∧ (i a).val < win11_2.index t a * S8192x64.size a + win11_2.xsize (grid11.coords t) a := by
  show i ∈ ((View.whole (Pipeline.arrRef spec11 2)).slice (win11_2.rect t)).set ↔ _
  rw [View.set_slice_whole, Rect.mem_set_unit]
  exact Iff.rfl

theorem cover11_arr (i : S40000x64.Idx) : ∃ t : Fin cfg11.N, (cfg11.win 2).flush t = true ∧ i ∈ ((cfg11.win 2).blk t).view.set := by
  have hi0 : (i 0).val < 40000 := (i 0).isLt
  have hi1 : (i 1).val < 64 := (i 1).isLt
  have hN : cfg11.N = 5 := N_11
  let t : Fin cfg11.N := ⟨(i 0).val / 8192, by rw [hN]; omega⟩
  refine ⟨t, flush11_2 t, ?_⟩
  rw [mem_blk11]
  obtain ⟨e0, e1, e2, e3, e4, e5, e6, e7⟩ := idx_facts11 t
  have ht : t.val = (i 0).val / 8192 := rfl
  intro a
  match a with
  | ⟨0, _⟩ => show win11_2.index t (0 : Fin 2) * 8192 ≤ (i 0).val ∧ (i 0).val < win11_2.index t (0 : Fin 2) * 8192 + win11_2.xsize (grid11.coords t) (0 : Fin 2); rw [e4, e6, ht]; omega
  | ⟨1, _⟩ => show win11_2.index t (1 : Fin 2) * 64 ≤ (i 1).val ∧ (i 1).val < win11_2.index t (1 : Fin 2) * 64 + win11_2.xsize (grid11.coords t) (1 : Fin 2); rw [e5, e7]; omega

/-- The result array after the region: `G11` of the two arrays as the region found them. -/
theorem final11 (c : Dev nD) : (dat11 V c).arrAt 2 cfg11.N = G11 (V c (Pipeline.arrRef spec11 0)) (V c (Pipeline.arrRef spec11 1)) :=
  (dat11 V c).arrAt_eq_of_cover 2 _ (fun t _ => flushed11_eq V c t) (cover11_arr)

end Region11v

end Cert.KernelIdeal.Hand

end
-- ==== Proof.IdealRun.lean ====
/-
  The whole run of the program read on the extended reals.  @main is twelve kernel regions among stretches of host
  operations.  The buffers' contents at each boundary are a fold from the launch memory: a stretch applies its operations,
  a region replaces its result array by what its write-backs leave and keeps everything else.  Each region runs from the
  state "every unscoped buffer at the boundary's contents" to the same state at the next boundary, and the run ends with
  every unscoped buffer at the last boundary's contents.
-/
import proofs.«177237_j55430847922201_2_alg».proof.Proof.Gen.KernelIdeal.Regions
import proofs.«177237_j55430847922201_2_alg».proof.Proof.Region0
import proofs.«177237_j55430847922201_2_alg».proof.Proof.Region1
import proofs.«177237_j55430847922201_2_alg».proof.Proof.Region2
import proofs.«177237_j55430847922201_2_alg».proof.Proof.Region3
import proofs.«177237_j55430847922201_2_alg».proof.Proof.Region4
import proofs.«177237_j55430847922201_2_alg».proof.Proof.Region5
import proofs.«177237_j55430847922201_2_alg».proof.Proof.Region6
import proofs.«177237_j55430847922201_2_alg».proof.Proof.Region7
import proofs.«177237_j55430847922201_2_alg».proof.Proof.Region8
import proofs.«177237_j55430847922201_2_alg».proof.Proof.Region9
import proofs.«177237_j55430847922201_2_alg».proof.Proof.Region10
import proofs.«177237_j55430847922201_2_alg».proof.Proof.Region11
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The buffers' contents at each boundary of @main: a fold from the launch memory -/

section Fold
variable (m : (ℓ : Loc nD τ sig) → Buf (Elt Ideal) ℓ)

/-- Core `c`'s buffers at launch. -/
abbrev W0 (c : Dev nD) : Valuation τ sig (Elt Ideal) := fun b => m (c, b)
/-- After the host operations before region 0. -/
abbrev W1 (c : Dev nD) : Valuation τ sig (Elt Ideal) := StableHlo.after hostOps0 (W0 m c)
abbrev U1 : (c : Dev nD) → (b : Ref sig .tc) → Buf (Elt Ideal) ((c : Thread nD τ).loc b) := fun c b => W1 m c b
/-- After region 0: its result array at what the write-backs leave, every other buffer as entered. -/
def W2 (c : Dev nD) : Valuation τ sig (Elt Ideal) := Function.update (W1 m c) main_v8 ((dat0 (U1 m) c).arrAt 2 cfg0.N)
abbrev U2 : (c : Dev nD) → (b : Ref sig .tc) → Buf (Elt Ideal) ((c : Thread nD τ).loc b) := fun c b => W2 m c b
theorem W2_out (c : Dev nD) : W2 m c main_v8 = (dat0 (U1 m) c).arrAt 2 cfg0.N := by
  unfold W2; exact Function.update_self _ _ _
theorem W2_of (c : Dev nD) (r : Ref sig .tc) (h : r ∉ ([main_v8] : List (Ref sig .tc))) : W2 m c r = W1 m c r := by
  unfold W2
  exact Function.update_of_ne (StableHlo.devRef_ne_of_ne (List.ne_of_not_mem_cons h) : (Proc.devRef .tc r : DevRef τ sig) ≠ Proc.devRef .tc main_v8) _ _
theorem W1_of (c : Dev nD) (r : Ref sig .tc) (h : r ∉ hostOps0_W) : W1 m c r = W0 m c r :=
  StableHlo.after_of_writes_sub hostOps0 _ hostOps0_writes h
/-- At region 0's exit each of its arrays holds what the pipeline leaves, and every other buffer what it held at entry. -/
theorem hF0 (c : Dev nD) (w : Fin cfg0.W) : (dat0 (U1 m) c).arrAt w cfg0.N = U2 m c (Pipeline.arrRef spec0 w) := by
  match w with
  | ⟨0, _⟩ => exact ((dat0 (U1 m) c).arrAt_in 0 rfl _).trans ((A_eq0 (U1 m) c 0).trans (W2_of m c _ (by decide)).symm)
  | ⟨1, _⟩ => exact ((dat0 (U1 m) c).arrAt_in 1 rfl _).trans ((A_eq0 (U1 m) c 1).trans (W2_of m c _ (by decide)).symm)
  | ⟨2, _⟩ => exact (W2_out m c).symm
theorem hrest0 (c : Dev nD) : ∀ b, b ∉ Finset.univ.image (Pipeline.arrRef spec0) → U2 m c b = U1 m c b :=
  fun b hb => W2_of m c b (fun hm => hb (Finset.mem_image.mpr ⟨2, Finset.mem_univ _, (List.mem_singleton.mp hm).symm⟩))
/-- After the host operations before region 1. -/
abbrev W3 (c : Dev nD) : Valuation τ sig (Elt Ideal) := StableHlo.after hostOps1 (W2 m c)
abbrev U3 : (c : Dev nD) → (b : Ref sig .tc) → Buf (Elt Ideal) ((c : Thread nD τ).loc b) := fun c b => W3 m c b
/-- After region 1: its result array at what the write-backs leave, every other buffer as entered. -/
def W4 (c : Dev nD) : Valuation τ sig (Elt Ideal) := Function.update (W3 m c) main_v20 ((dat1 (U3 m) c).arrAt 2 cfg1.N)
abbrev U4 : (c : Dev nD) → (b : Ref sig .tc) → Buf (Elt Ideal) ((c : Thread nD τ).loc b) := fun c b => W4 m c b
theorem W4_out (c : Dev nD) : W4 m c main_v20 = (dat1 (U3 m) c).arrAt 2 cfg1.N := by
  unfold W4; exact Function.update_self _ _ _
theorem W4_of (c : Dev nD) (r : Ref sig .tc) (h : r ∉ ([main_v20] : List (Ref sig .tc))) : W4 m c r = W3 m c r := by
  unfold W4
  exact Function.update_of_ne (StableHlo.devRef_ne_of_ne (List.ne_of_not_mem_cons h) : (Proc.devRef .tc r : DevRef τ sig) ≠ Proc.devRef .tc main_v20) _ _
theorem W3_of (c : Dev nD) (r : Ref sig .tc) (h : r ∉ hostOps1_W) : W3 m c r = W2 m c r :=
  StableHlo.after_of_writes_sub hostOps1 _ hostOps1_writes h
/-- At region 1's exit each of its arrays holds what the pipeline leaves, and every other buffer what it held at entry. -/
theorem hF1 (c : Dev nD) (w : Fin cfg1.W) : (dat1 (U3 m) c).arrAt w cfg1.N = U4 m c (Pipeline.arrRef spec1 w) := by
  match w with
  | ⟨0, _⟩ => exact ((dat1 (U3 m) c).arrAt_in 0 rfl _).trans ((A_eq1 (U3 m) c 0).trans (W4_of m c _ (by decide)).symm)
  | ⟨1, _⟩ => exact ((dat1 (U3 m) c).arrAt_in 1 rfl _).trans ((A_eq1 (U3 m) c 1).trans (W4_of m c _ (by decide)).symm)
  | ⟨2, _⟩ => exact (W4_out m c).symm
theorem hrest1 (c : Dev nD) : ∀ b, b ∉ Finset.univ.image (Pipeline.arrRef spec1) → U4 m c b = U3 m c b :=
  fun b hb => W4_of m c b (fun hm => hb (Finset.mem_image.mpr ⟨2, Finset.mem_univ _, (List.mem_singleton.mp hm).symm⟩))
/-- After the host operations before region 2. -/
abbrev W5 (c : Dev nD) : Valuation τ sig (Elt Ideal) := StableHlo.after hostOps2 (W4 m c)
abbrev U5 : (c : Dev nD) → (b : Ref sig .tc) → Buf (Elt Ideal) ((c : Thread nD τ).loc b) := fun c b => W5 m c b
/-- After region 2: its result array at what the write-backs leave, every other buffer as entered. -/
def W6 (c : Dev nD) : Valuation τ sig (Elt Ideal) := Function.update (W5 m c) main_v32 ((dat2 (U5 m) c).arrAt 2 cfg2.N)
abbrev U6 : (c : Dev nD) → (b : Ref sig .tc) → Buf (Elt Ideal) ((c : Thread nD τ).loc b) := fun c b => W6 m c b
theorem W6_out (c : Dev nD) : W6 m c main_v32 = (dat2 (U5 m) c).arrAt 2 cfg2.N := by
  unfold W6; exact Function.update_self _ _ _
theorem W6_of (c : Dev nD) (r : Ref sig .tc) (h : r ∉ ([main_v32] : List (Ref sig .tc))) : W6 m c r = W5 m c r := by
  unfold W6
  exact Function.update_of_ne (StableHlo.devRef_ne_of_ne (List.ne_of_not_mem_cons h) : (Proc.devRef .tc r : DevRef τ sig) ≠ Proc.devRef .tc main_v32) _ _
theorem W5_of (c : Dev nD) (r : Ref sig .tc) (h : r ∉ hostOps2_W) : W5 m c r = W4 m c r :=
  StableHlo.after_of_writes_sub hostOps2 _ hostOps2_writes h
/-- At region 2's exit each of its arrays holds what the pipeline leaves, and every other buffer what it held at entry. -/
theorem hF2 (c : Dev nD) (w : Fin cfg2.W) : (dat2 (U5 m) c).arrAt w cfg2.N = U6 m c (Pipeline.arrRef spec2 w) := by
  match w with
  | ⟨0, _⟩ => exact ((dat2 (U5 m) c).arrAt_in 0 rfl _).trans ((A_eq2 (U5 m) c 0).trans (W6_of m c _ (by decide)).symm)
  | ⟨1, _⟩ => exact ((dat2 (U5 m) c).arrAt_in 1 rfl _).trans ((A_eq2 (U5 m) c 1).trans (W6_of m c _ (by decide)).symm)
  | ⟨2, _⟩ => exact (W6_out m c).symm
theorem hrest2 (c : Dev nD) : ∀ b, b ∉ Finset.univ.image (Pipeline.arrRef spec2) → U6 m c b = U5 m c b :=
  fun b hb => W6_of m c b (fun hm => hb (Finset.mem_image.mpr ⟨2, Finset.mem_univ _, (List.mem_singleton.mp hm).symm⟩))
/-- After the host operations before region 3. -/
abbrev W7 (c : Dev nD) : Valuation τ sig (Elt Ideal) := StableHlo.after hostOps3 (W6 m c)
abbrev U7 : (c : Dev nD) → (b : Ref sig .tc) → Buf (Elt Ideal) ((c : Thread nD τ).loc b) := fun c b => W7 m c b
/-- After region 3: its result array at what the write-backs leave, every other buffer as entered. -/
def W8 (c : Dev nD) : Valuation τ sig (Elt Ideal) := Function.update (W7 m c) main_v44 ((dat3 (U7 m) c).arrAt 2 cfg3.N)
abbrev U8 : (c : Dev nD) → (b : Ref sig .tc) → Buf (Elt Ideal) ((c : Thread nD τ).loc b) := fun c b => W8 m c b
theorem W8_out (c : Dev nD) : W8 m c main_v44 = (dat3 (U7 m) c).arrAt 2 cfg3.N := by
  unfold W8; exact Function.update_self _ _ _
theorem W8_of (c : Dev nD) (r : Ref sig .tc) (h : r ∉ ([main_v44] : List (Ref sig .tc))) : W8 m c r = W7 m c r := by
  unfold W8
  exact Function.update_of_ne (StableHlo.devRef_ne_of_ne (List.ne_of_not_mem_cons h) : (Proc.devRef .tc r : DevRef τ sig) ≠ Proc.devRef .tc main_v44) _ _
theorem W7_of (c : Dev nD) (r : Ref sig .tc) (h : r ∉ hostOps3_W) : W7 m c r = W6 m c r :=
  StableHlo.after_of_writes_sub hostOps3 _ hostOps3_writes h
/-- At region 3's exit each of its arrays holds what the pipeline leaves, and every other buffer what it held at entry. -/
theorem hF3 (c : Dev nD) (w : Fin cfg3.W) : (dat3 (U7 m) c).arrAt w cfg3.N = U8 m c (Pipeline.arrRef spec3 w) := by
  match w with
  | ⟨0, _⟩ => exact ((dat3 (U7 m) c).arrAt_in 0 rfl _).trans ((A_eq3 (U7 m) c 0).trans (W8_of m c _ (by decide)).symm)
  | ⟨1, _⟩ => exact ((dat3 (U7 m) c).arrAt_in 1 rfl _).trans ((A_eq3 (U7 m) c 1).trans (W8_of m c _ (by decide)).symm)
  | ⟨2, _⟩ => exact (W8_out m c).symm
theorem hrest3 (c : Dev nD) : ∀ b, b ∉ Finset.univ.image (Pipeline.arrRef spec3) → U8 m c b = U7 m c b :=
  fun b hb => W8_of m c b (fun hm => hb (Finset.mem_image.mpr ⟨2, Finset.mem_univ _, (List.mem_singleton.mp hm).symm⟩))
/-- After the host operations before region 4. -/
abbrev W9 (c : Dev nD) : Valuation τ sig (Elt Ideal) := StableHlo.after hostOps4 (W8 m c)
abbrev U9 : (c : Dev nD) → (b : Ref sig .tc) → Buf (Elt Ideal) ((c : Thread nD τ).loc b) := fun c b => W9 m c b
/-- After region 4: its result array at what the write-backs leave, every other buffer as entered. -/
def W10 (c : Dev nD) : Valuation τ sig (Elt Ideal) := Function.update (W9 m c) main_v57 ((dat4 (U9 m) c).arrAt 2 cfg4.N)
abbrev U10 : (c : Dev nD) → (b : Ref sig .tc) → Buf (Elt Ideal) ((c : Thread nD τ).loc b) := fun c b => W10 m c b
theorem W10_out (c : Dev nD) : W10 m c main_v57 = (dat4 (U9 m) c).arrAt 2 cfg4.N := by
  unfold W10; exact Function.update_self _ _ _
theorem W10_of (c : Dev nD) (r : Ref sig .tc) (h : r ∉ ([main_v57] : List (Ref sig .tc))) : W10 m c r = W9 m c r := by
  unfold W10
  exact Function.update_of_ne (StableHlo.devRef_ne_of_ne (List.ne_of_not_mem_cons h) : (Proc.devRef .tc r : DevRef τ sig) ≠ Proc.devRef .tc main_v57) _ _
theorem W9_of (c : Dev nD) (r : Ref sig .tc) (h : r ∉ hostOps4_W) : W9 m c r = W8 m c r :=
  StableHlo.after_of_writes_sub hostOps4 _ hostOps4_writes h
/-- At region 4's exit each of its arrays holds what the pipeline leaves, and every other buffer what it held at entry. -/
theorem hF4 (c : Dev nD) (w : Fin cfg4.W) : (dat4 (U9 m) c).arrAt w cfg4.N = U10 m c (Pipeline.arrRef spec4 w) := by
  match w with
  | ⟨0, _⟩ => exact ((dat4 (U9 m) c).arrAt_in 0 rfl _).trans ((A_eq4 (U9 m) c 0).trans (W10_of m c _ (by decide)).symm)
  | ⟨1, _⟩ => exact ((dat4 (U9 m) c).arrAt_in 1 rfl _).trans ((A_eq4 (U9 m) c 1).trans (W10_of m c _ (by decide)).symm)
  | ⟨2, _⟩ => exact (W10_out m c).symm
theorem hrest4 (c : Dev nD) : ∀ b, b ∉ Finset.univ.image (Pipeline.arrRef spec4) → U10 m c b = U9 m c b :=
  fun b hb => W10_of m c b (fun hm => hb (Finset.mem_image.mpr ⟨2, Finset.mem_univ _, (List.mem_singleton.mp hm).symm⟩))
/-- After the host operations before region 5. -/
abbrev W11 (c : Dev nD) : Valuation τ sig (Elt Ideal) := StableHlo.after hostOps5 (W10 m c)
abbrev U11 : (c : Dev nD) → (b : Ref sig .tc) → Buf (Elt Ideal) ((c : Thread nD τ).loc b) := fun c b => W11 m c b
/-- After region 5: its result array at what the write-backs leave, every other buffer as entered. -/
def W12 (c : Dev nD) : Valuation τ sig (Elt Ideal) := Function.update (W11 m c) main_v61 ((dat5 (U11 m) c).arrAt 2 cfg5.N)
abbrev U12 : (c : Dev nD) → (b : Ref sig .tc) → Buf (Elt Ideal) ((c : Thread nD τ).loc b) := fun c b => W12 m c b
theorem W12_out (c : Dev nD) : W12 m c main_v61 = (dat5 (U11 m) c).arrAt 2 cfg5.N := by
  unfold W12; exact Function.update_self _ _ _
theorem W12_of (c : Dev nD) (r : Ref sig .tc) (h : r ∉ ([main_v61] : List (Ref sig .tc))) : W12 m c r = W11 m c r := by
  unfold W12
  exact Function.update_of_ne (StableHlo.devRef_ne_of_ne (List.ne_of_not_mem_cons h) : (Proc.devRef .tc r : DevRef τ sig) ≠ Proc.devRef .tc main_v61) _ _
theorem W11_of (c : Dev nD) (r : Ref sig .tc) (h : r ∉ hostOps5_W) : W11 m c r = W10 m c r :=
  StableHlo.after_of_writes_sub hostOps5 _ hostOps5_writes h
/-- At region 5's exit each of its arrays holds what the pipeline leaves, and every other buffer what it held at entry. -/
theorem hF5 (c : Dev nD) (w : Fin cfg5.W) : (dat5 (U11 m) c).arrAt w cfg5.N = U12 m c (Pipeline.arrRef spec5 w) := by
  match w with
  | ⟨0, _⟩ => exact ((dat5 (U11 m) c).arrAt_in 0 rfl _).trans ((A_eq5 (U11 m) c 0).trans (W12_of m c _ (by decide)).symm)
  | ⟨1, _⟩ => exact ((dat5 (U11 m) c).arrAt_in 1 rfl _).trans ((A_eq5 (U11 m) c 1).trans (W12_of m c _ (by decide)).symm)
  | ⟨2, _⟩ => exact (W12_out m c).symm
theorem hrest5 (c : Dev nD) : ∀ b, b ∉ Finset.univ.image (Pipeline.arrRef spec5) → U12 m c b = U11 m c b :=
  fun b hb => W12_of m c b (fun hm => hb (Finset.mem_image.mpr ⟨2, Finset.mem_univ _, (List.mem_singleton.mp hm).symm⟩))
/-- After the host operations before region 6. -/
abbrev W13 (c : Dev nD) : Valuation τ sig (Elt Ideal) := StableHlo.after hostOps6 (W12 m c)
abbrev U13 : (c : Dev nD) → (b : Ref sig .tc) → Buf (Elt Ideal) ((c : Thread nD τ).loc b) := fun c b => W13 m c b
/-- After region 6: its result array at what the write-backs leave, every other buffer as entered. -/
def W14 (c : Dev nD) : Valuation τ sig (Elt Ideal) := Function.update (W13 m c) main_v70 ((dat6 (U13 m) c).arrAt 2 cfg6.N)
abbrev U14 : (c : Dev nD) → (b : Ref sig .tc) → Buf (Elt Ideal) ((c : Thread nD τ).loc b) := fun c b => W14 m c b
theorem W14_out (c : Dev nD) : W14 m c main_v70 = (dat6 (U13 m) c).arrAt 2 cfg6.N := by
  unfold W14; exact Function.update_self _ _ _
theorem W14_of (c : Dev nD) (r : Ref sig .tc) (h : r ∉ ([main_v70] : List (Ref sig .tc))) : W14 m c r = W13 m c r := by
  unfold W14
  exact Function.update_of_ne (StableHlo.devRef_ne_of_ne (List.ne_of_not_mem_cons h) : (Proc.devRef .tc r : DevRef τ sig) ≠ Proc.devRef .tc main_v70) _ _
theorem W13_of (c : Dev nD) (r : Ref sig .tc) (h : r ∉ hostOps6_W) : W13 m c r = W12 m c r :=
  StableHlo.after_of_writes_sub hostOps6 _ hostOps6_writes h
/-- At region 6's exit each of its arrays holds what the pipeline leaves, and every other buffer what it held at entry. -/
theorem hF6 (c : Dev nD) (w : Fin cfg6.W) : (dat6 (U13 m) c).arrAt w cfg6.N = U14 m c (Pipeline.arrRef spec6 w) := by
  match w with
  | ⟨0, _⟩ => exact ((dat6 (U13 m) c).arrAt_in 0 rfl _).trans ((A_eq6 (U13 m) c 0).trans (W14_of m c _ (by decide)).symm)
  | ⟨1, _⟩ => exact ((dat6 (U13 m) c).arrAt_in 1 rfl _).trans ((A_eq6 (U13 m) c 1).trans (W14_of m c _ (by decide)).symm)
  | ⟨2, _⟩ => exact (W14_out m c).symm
theorem hrest6 (c : Dev nD) : ∀ b, b ∉ Finset.univ.image (Pipeline.arrRef spec6) → U14 m c b = U13 m c b :=
  fun b hb => W14_of m c b (fun hm => hb (Finset.mem_image.mpr ⟨2, Finset.mem_univ _, (List.mem_singleton.mp hm).symm⟩))
/-- After the host operations before region 7. -/
abbrev W15 (c : Dev nD) : Valuation τ sig (Elt Ideal) := StableHlo.after hostOps7 (W14 m c)
abbrev U15 : (c : Dev nD) → (b : Ref sig .tc) → Buf (Elt Ideal) ((c : Thread nD τ).loc b) := fun c b => W15 m c b
/-- After region 7: its result array at what the write-backs leave, every other buffer as entered. -/
def W16 (c : Dev nD) : Valuation τ sig (Elt Ideal) := Function.update (W15 m c) main_v74 ((dat7 (U15 m) c).arrAt 2 cfg7.N)
abbrev U16 : (c : Dev nD) → (b : Ref sig .tc) → Buf (Elt Ideal) ((c : Thread nD τ).loc b) := fun c b => W16 m c b
theorem W16_out (c : Dev nD) : W16 m c main_v74 = (dat7 (U15 m) c).arrAt 2 cfg7.N := by
  unfold W16; exact Function.update_self _ _ _
theorem W16_of (c : Dev nD) (r : Ref sig .tc) (h : r ∉ ([main_v74] : List (Ref sig .tc))) : W16 m c r = W15 m c r := by
  unfold W16
  exact Function.update_of_ne (StableHlo.devRef_ne_of_ne (List.ne_of_not_mem_cons h) : (Proc.devRef .tc r : DevRef τ sig) ≠ Proc.devRef .tc main_v74) _ _
theorem W15_of (c : Dev nD) (r : Ref sig .tc) (h : r ∉ hostOps7_W) : W15 m c r = W14 m c r :=
  StableHlo.after_of_writes_sub hostOps7 _ hostOps7_writes h
/-- At region 7's exit each of its arrays holds what the pipeline leaves, and every other buffer what it held at entry. -/
theorem hF7 (c : Dev nD) (w : Fin cfg7.W) : (dat7 (U15 m) c).arrAt w cfg7.N = U16 m c (Pipeline.arrRef spec7 w) := by
  match w with
  | ⟨0, _⟩ => exact ((dat7 (U15 m) c).arrAt_in 0 rfl _).trans ((A_eq7 (U15 m) c 0).trans (W16_of m c _ (by decide)).symm)
  | ⟨1, _⟩ => exact ((dat7 (U15 m) c).arrAt_in 1 rfl _).trans ((A_eq7 (U15 m) c 1).trans (W16_of m c _ (by decide)).symm)
  | ⟨2, _⟩ => exact (W16_out m c).symm
theorem hrest7 (c : Dev nD) : ∀ b, b ∉ Finset.univ.image (Pipeline.arrRef spec7) → U16 m c b = U15 m c b :=
  fun b hb => W16_of m c b (fun hm => hb (Finset.mem_image.mpr ⟨2, Finset.mem_univ _, (List.mem_singleton.mp hm).symm⟩))
/-- After the host operations before region 8. -/
abbrev W17 (c : Dev nD) : Valuation τ sig (Elt Ideal) := StableHlo.after hostOps8 (W16 m c)
abbrev U17 : (c : Dev nD) → (b : Ref sig .tc) → Buf (Elt Ideal) ((c : Thread nD τ).loc b) := fun c b => W17 m c b
/-- After region 8: its result array at what the write-backs leave, every other buffer as entered. -/
def W18 (c : Dev nD) : Valuation τ sig (Elt Ideal) := Function.update (W17 m c) main_v83 ((dat8 (U17 m) c).arrAt 2 cfg8.N)
abbrev U18 : (c : Dev nD) → (b : Ref sig .tc) → Buf (Elt Ideal) ((c : Thread nD τ).loc b) := fun c b => W18 m c b
theorem W18_out (c : Dev nD) : W18 m c main_v83 = (dat8 (U17 m) c).arrAt 2 cfg8.N := by
  unfold W18; exact Function.update_self _ _ _
theorem W18_of (c : Dev nD) (r : Ref sig .tc) (h : r ∉ ([main_v83] : List (Ref sig .tc))) : W18 m c r = W17 m c r := by
  unfold W18
  exact Function.update_of_ne (StableHlo.devRef_ne_of_ne (List.ne_of_not_mem_cons h) : (Proc.devRef .tc r : DevRef τ sig) ≠ Proc.devRef .tc main_v83) _ _
theorem W17_of (c : Dev nD) (r : Ref sig .tc) (h : r ∉ hostOps8_W) : W17 m c r = W16 m c r :=
  StableHlo.after_of_writes_sub hostOps8 _ hostOps8_writes h
/-- At region 8's exit each of its arrays holds what the pipeline leaves, and every other buffer what it held at entry. -/
theorem hF8 (c : Dev nD) (w : Fin cfg8.W) : (dat8 (U17 m) c).arrAt w cfg8.N = U18 m c (Pipeline.arrRef spec8 w) := by
  match w with
  | ⟨0, _⟩ => exact ((dat8 (U17 m) c).arrAt_in 0 rfl _).trans ((A_eq8 (U17 m) c 0).trans (W18_of m c _ (by decide)).symm)
  | ⟨1, _⟩ => exact ((dat8 (U17 m) c).arrAt_in 1 rfl _).trans ((A_eq8 (U17 m) c 1).trans (W18_of m c _ (by decide)).symm)
  | ⟨2, _⟩ => exact (W18_out m c).symm
theorem hrest8 (c : Dev nD) : ∀ b, b ∉ Finset.univ.image (Pipeline.arrRef spec8) → U18 m c b = U17 m c b :=
  fun b hb => W18_of m c b (fun hm => hb (Finset.mem_image.mpr ⟨2, Finset.mem_univ _, (List.mem_singleton.mp hm).symm⟩))
/-- After the host operations before region 9. -/
abbrev W19 (c : Dev nD) : Valuation τ sig (Elt Ideal) := StableHlo.after hostOps9 (W18 m c)
abbrev U19 : (c : Dev nD) → (b : Ref sig .tc) → Buf (Elt Ideal) ((c : Thread nD τ).loc b) := fun c b => W19 m c b
/-- After region 9: its result array at what the write-backs leave, every other buffer as entered. -/
def W20 (c : Dev nD) : Valuation τ sig (Elt Ideal) := Function.update (W19 m c) main_v87 ((dat9 (U19 m) c).arrAt 2 cfg9.N)
abbrev U20 : (c : Dev nD) → (b : Ref sig .tc) → Buf (Elt Ideal) ((c : Thread nD τ).loc b) := fun c b => W20 m c b
theorem W20_out (c : Dev nD) : W20 m c main_v87 = (dat9 (U19 m) c).arrAt 2 cfg9.N := by
  unfold W20; exact Function.update_self _ _ _
theorem W20_of (c : Dev nD) (r : Ref sig .tc) (h : r ∉ ([main_v87] : List (Ref sig .tc))) : W20 m c r = W19 m c r := by
  unfold W20
  exact Function.update_of_ne (StableHlo.devRef_ne_of_ne (List.ne_of_not_mem_cons h) : (Proc.devRef .tc r : DevRef τ sig) ≠ Proc.devRef .tc main_v87) _ _
theorem W19_of (c : Dev nD) (r : Ref sig .tc) (h : r ∉ hostOps9_W) : W19 m c r = W18 m c r :=
  StableHlo.after_of_writes_sub hostOps9 _ hostOps9_writes h
/-- At region 9's exit each of its arrays holds what the pipeline leaves, and every other buffer what it held at entry. -/
theorem hF9 (c : Dev nD) (w : Fin cfg9.W) : (dat9 (U19 m) c).arrAt w cfg9.N = U20 m c (Pipeline.arrRef spec9 w) := by
  match w with
  | ⟨0, _⟩ => exact ((dat9 (U19 m) c).arrAt_in 0 rfl _).trans ((A_eq9 (U19 m) c 0).trans (W20_of m c _ (by decide)).symm)
  | ⟨1, _⟩ => exact ((dat9 (U19 m) c).arrAt_in 1 rfl _).trans ((A_eq9 (U19 m) c 1).trans (W20_of m c _ (by decide)).symm)
  | ⟨2, _⟩ => exact (W20_out m c).symm
theorem hrest9 (c : Dev nD) : ∀ b, b ∉ Finset.univ.image (Pipeline.arrRef spec9) → U20 m c b = U19 m c b :=
  fun b hb => W20_of m c b (fun hm => hb (Finset.mem_image.mpr ⟨2, Finset.mem_univ _, (List.mem_singleton.mp hm).symm⟩))
/-- After the host operations before region 10. -/
abbrev W21 (c : Dev nD) : Valuation τ sig (Elt Ideal) := StableHlo.after hostOps10 (W20 m c)
abbrev U21 : (c : Dev nD) → (b : Ref sig .tc) → Buf (Elt Ideal) ((c : Thread nD τ).loc b) := fun c b => W21 m c b
/-- After region 10: its result array at what the write-backs leave, every other buffer as entered. -/
def W22 (c : Dev nD) : Valuation τ sig (Elt Ideal) := Function.update (W21 m c) main_v89 ((dat10 (U21 m) c).arrAt 2 cfg10.N)
abbrev U22 : (c : Dev nD) → (b : Ref sig .tc) → Buf (Elt Ideal) ((c : Thread nD τ).loc b) := fun c b => W22 m c b
theorem W22_out (c : Dev nD) : W22 m c main_v89 = (dat10 (U21 m) c).arrAt 2 cfg10.N := by
  unfold W22; exact Function.update_self _ _ _
theorem W22_of (c : Dev nD) (r : Ref sig .tc) (h : r ∉ ([main_v89] : List (Ref sig .tc))) : W22 m c r = W21 m c r := by
  unfold W22
  exact Function.update_of_ne (StableHlo.devRef_ne_of_ne (List.ne_of_not_mem_cons h) : (Proc.devRef .tc r : DevRef τ sig) ≠ Proc.devRef .tc main_v89) _ _
theorem W21_of (c : Dev nD) (r : Ref sig .tc) (h : r ∉ hostOps10_W) : W21 m c r = W20 m c r :=
  StableHlo.after_of_writes_sub hostOps10 _ hostOps10_writes h
/-- At region 10's exit each of its arrays holds what the pipeline leaves, and every other buffer what it held at entry. -/
theorem hF10 (c : Dev nD) (w : Fin cfg10.W) : (dat10 (U21 m) c).arrAt w cfg10.N = U22 m c (Pipeline.arrRef spec10 w) := by
  match w with
  | ⟨0, _⟩ => exact ((dat10 (U21 m) c).arrAt_in 0 rfl _).trans ((A_eq10 (U21 m) c 0).trans (W22_of m c _ (by decide)).symm)
  | ⟨1, _⟩ => exact ((dat10 (U21 m) c).arrAt_in 1 rfl _).trans ((A_eq10 (U21 m) c 1).trans (W22_of m c _ (by decide)).symm)
  | ⟨2, _⟩ => exact (W22_out m c).symm
theorem hrest10 (c : Dev nD) : ∀ b, b ∉ Finset.univ.image (Pipeline.arrRef spec10) → U22 m c b = U21 m c b :=
  fun b hb => W22_of m c b (fun hm => hb (Finset.mem_image.mpr ⟨2, Finset.mem_univ _, (List.mem_singleton.mp hm).symm⟩))
/-- After the host operations before region 11. -/
abbrev W23 (c : Dev nD) : Valuation τ sig (Elt Ideal) := StableHlo.after hostOps11 (W22 m c)
abbrev U23 : (c : Dev nD) → (b : Ref sig .tc) → Buf (Elt Ideal) ((c : Thread nD τ).loc b) := fun c b => W23 m c b
/-- After region 11: its result array at what the write-backs leave, every other buffer as entered. -/
def W24 (c : Dev nD) : Valuation τ sig (Elt Ideal) := Function.update (W23 m c) main_v91 ((dat11 (U23 m) c).arrAt 2 cfg11.N)
abbrev U24 : (c : Dev nD) → (b : Ref sig .tc) → Buf (Elt Ideal) ((c : Thread nD τ).loc b) := fun c b => W24 m c b
theorem W24_out (c : Dev nD) : W24 m c main_v91 = (dat11 (U23 m) c).arrAt 2 cfg11.N := by
  unfold W24; exact Function.update_self _ _ _
theorem W24_of (c : Dev nD) (r : Ref sig .tc) (h : r ∉ ([main_v91] : List (Ref sig .tc))) : W24 m c r = W23 m c r := by
  unfold W24
  exact Function.update_of_ne (StableHlo.devRef_ne_of_ne (List.ne_of_not_mem_cons h) : (Proc.devRef .tc r : DevRef τ sig) ≠ Proc.devRef .tc main_v91) _ _
theorem W23_of (c : Dev nD) (r : Ref sig .tc) (h : r ∉ hostOps11_W) : W23 m c r = W22 m c r :=
  StableHlo.after_of_writes_sub hostOps11 _ hostOps11_writes h
/-- At region 11's exit each of its arrays holds what the pipeline leaves, and every other buffer what it held at entry. -/
theorem hF11 (c : Dev nD) (w : Fin cfg11.W) : (dat11 (U23 m) c).arrAt w cfg11.N = U24 m c (Pipeline.arrRef spec11 w) := by
  match w with
  | ⟨0, _⟩ => exact ((dat11 (U23 m) c).arrAt_in 0 rfl _).trans ((A_eq11 (U23 m) c 0).trans (W24_of m c _ (by decide)).symm)
  | ⟨1, _⟩ => exact ((dat11 (U23 m) c).arrAt_in 1 rfl _).trans ((A_eq11 (U23 m) c 1).trans (W24_of m c _ (by decide)).symm)
  | ⟨2, _⟩ => exact (W24_out m c).symm
theorem hrest11 (c : Dev nD) : ∀ b, b ∉ Finset.univ.image (Pipeline.arrRef spec11) → U24 m c b = U23 m c b :=
  fun b hb => W24_of m c b (fun hm => hb (Finset.mem_image.mpr ⟨2, Finset.mem_univ _, (List.mem_singleton.mp hm).symm⟩))

end Fold

/-! ## The proof data family and the thread state -/

section Run
variable (m : (ℓ : Loc nD τ sig) → Buf (Elt Ideal) ℓ) (ρ : Dev nD → PrngReg)

/-- The prefetched tables' admissible contents: no pallas_call has a table. -/
abbrev adm' : (p : Fin 12) → (pcfgs (F := Ideal) p).Adm := fun p => (cfgs p).toPCfg_adm
/-- Every pipeline's proof data, each at its region's entry contents. -/
def pdats : (p : Fin 12) → (c : Dev nD) → Dat τ (Elt Ideal) Unit ℕ (UR sig nD τ) ℕ (Pipeline.pin (pcfgs (F := Ideal)) adm' p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
  | ⟨6, _⟩ => fun c => dat6 (U13 m) c
  | ⟨7, _⟩ => fun c => dat7 (U15 m) c
  | ⟨8, _⟩ => fun c => dat8 (U17 m) c
  | ⟨9, _⟩ => fun c => dat9 (U19 m) c
  | ⟨10, _⟩ => fun c => dat10 (U21 m) c
  | ⟨11, _⟩ => fun c => dat11 (U23 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W24 m c) ∗ ∃ r, prngReg c r)

/-! ## The regions as segments -/

set_option backward.isDefEq.respectTransparency.types false in
/-- Region 0 over the thread state: entered from every unscoped buffer at `W1`, left at `W2`. Its arrays are split out of the
    unscoped buffers and put back at the exit contents; the generator register goes into the invariant and out; nothing owed. -/
def reg0 : Pipeline.RegionSeg (pcfgs (F := Ideal)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (U1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := Ideal)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of the
    unscoped buffers and put back at the exit contents; the generator register goes into the invariant and out; nothing owed. -/
def reg1 : Pipeline.RegionSeg (pcfgs (F := Ideal)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (U3 m) c
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := Ideal)) adm' (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm' (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out of the
    unscoped buffers and put back at the exit contents; the generator register goes into the invariant and out; nothing owed. -/
def reg2 : Pipeline.RegionSeg (pcfgs (F := Ideal)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (U5 m) c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := Ideal)) adm' (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm' (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out of the
    unscoped buffers and put back at the exit contents; the generator register goes into the invariant and out; nothing owed. -/
def reg3 : Pipeline.RegionSeg (pcfgs (F := Ideal)) adm' (pdats m) () defs₀ 𝒱₀ L lv 3 where
  win := launch3.win.to₀
  block_pos := launch3.block_pos
  stage_whole := launch3.stage_whole
  K := PEmpty
  osem k := k.elim
  ho := Pipeline.OwnSemFacts.none _
  hbody c := body_obligation3 (U7 m) c
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := Ideal)) adm' (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := Ideal)) adm' (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split out of the
    unscoped buffers and put back at the exit contents; the generator register goes into the invariant and out; nothing owed. -/
def reg4 : Pipeline.RegionSeg (pcfgs (F := Ideal)) adm' (pdats m) () defs₀ 𝒱₀ L lv 4 where
  win := launch4.win.to₀
  block_pos := launch4.block_pos
  stage_whole := launch4.stage_whole
  K := PEmpty
  osem k := k.elim
  ho := Pipeline.OwnSemFacts.none _
  hbody c := body_obligation4 (U9 m) c
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := Ideal)) adm' (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := Ideal)) adm' (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split out of the
    unscoped buffers and put back at the exit contents; the generator register goes into the invariant and out; nothing owed. -/
def reg5 : Pipeline.RegionSeg (pcfgs (F := Ideal)) adm' (pdats m) () defs₀ 𝒱₀ L lv 5 where
  win := launch5.win.to₀
  block_pos := launch5.block_pos
  stage_whole := launch5.stage_whole
  K := PEmpty
  osem k := k.elim
  ho := Pipeline.OwnSemFacts.none _
  hbody c := body_obligation5 (U11 m) c
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := Ideal)) adm' (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := Ideal)) adm' (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split out of the
    unscoped buffers and put back at the exit contents; the generator register goes into the invariant and out; nothing owed. -/
def reg6 : Pipeline.RegionSeg (pcfgs (F := Ideal)) adm' (pdats m) () defs₀ 𝒱₀ L lv 6 where
  win := launch6.win.to₀
  block_pos := launch6.block_pos
  stage_whole := launch6.stage_whole
  K := PEmpty
  osem k := k.elim
  ho := Pipeline.OwnSemFacts.none _
  hbody c := body_obligation6 (U13 m) c
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (U13 m c)
  hentry c := by
    rw [Pipeline.ownSems0_none]
    have hsplit := Pipeline.arrays_of_unscopedBufs (p := 6) (pcfgs (F := Ideal)) adm' (pdats m) launch6.win launch6.arr_whole c
      ((pdats m 6 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := Ideal)) adm' (Ix := Unit) (Name := ℕ) (U := UR sig nD τ) (Lvl := ℕ)
      launch6.win launch6.arr_whole c (pdats m) ((pdats m 6 c).share_full fun _ => rfl)
      (U13 m c) (U14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its arrays are split out of the
    unscoped buffers and put back at the exit contents; the generator register goes into the invariant and out; nothing owed. -/
def reg7 : Pipeline.RegionSeg (pcfgs (F := Ideal)) adm' (pdats m) () defs₀ 𝒱₀ L lv 7 where
  win := launch7.win.to₀
  block_pos := launch7.block_pos
  stage_whole := launch7.stage_whole
  K := PEmpty
  osem k := k.elim
  ho := Pipeline.OwnSemFacts.none _
  hbody c := body_obligation7 (U15 m) c
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (U15 m c)
  hentry c := by
    rw [Pipeline.ownSems0_none]
    have hsplit := Pipeline.arrays_of_unscopedBufs (p := 7) (pcfgs (F := Ideal)) adm' (pdats m) launch7.win launch7.arr_whole c
      ((pdats m 7 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := Ideal)) adm' (Ix := Unit) (Name := ℕ) (U := UR sig nD τ) (Lvl := ℕ)
      launch7.win launch7.arr_whole c (pdats m) ((pdats m 7 c).share_full fun _ => rfl)
      (U15 m c) (U16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. Its arrays are split out of the
    unscoped buffers and put back at the exit contents; the generator register goes into the invariant and out; nothing owed. -/
def reg8 : Pipeline.RegionSeg (pcfgs (F := Ideal)) adm' (pdats m) () defs₀ 𝒱₀ L lv 8 where
  win := launch8.win.to₀
  block_pos := launch8.block_pos
  stage_whole := launch8.stage_whole
  K := PEmpty
  osem k := k.elim
  ho := Pipeline.OwnSemFacts.none _
  hbody c := body_obligation8 (U17 m) c
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (U17 m c)
  hentry c := by
    rw [Pipeline.ownSems0_none]
    have hsplit := Pipeline.arrays_of_unscopedBufs (p := 8) (pcfgs (F := Ideal)) adm' (pdats m) launch8.win launch8.arr_whole c
      ((pdats m 8 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := Ideal)) adm' (Ix := Unit) (Name := ℕ) (U := UR sig nD τ) (Lvl := ℕ)
      launch8.win launch8.arr_whole c (pdats m) ((pdats m 8 c).share_full fun _ => rfl)
      (U17 m c) (U18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W19`, left at `W20`. Its arrays are split out of the
    unscoped buffers and put back at the exit contents; the generator register goes into the invariant and out; nothing owed. -/
def reg9 : Pipeline.RegionSeg (pcfgs (F := Ideal)) adm' (pdats m) () defs₀ 𝒱₀ L lv 9 where
  win := launch9.win.to₀
  block_pos := launch9.block_pos
  stage_whole := launch9.stage_whole
  K := PEmpty
  osem k := k.elim
  ho := Pipeline.OwnSemFacts.none _
  hbody c := body_obligation9 (U19 m) c
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (U19 m c)
  hentry c := by
    rw [Pipeline.ownSems0_none]
    have hsplit := Pipeline.arrays_of_unscopedBufs (p := 9) (pcfgs (F := Ideal)) adm' (pdats m) launch9.win launch9.arr_whole c
      ((pdats m 9 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := Ideal)) adm' (Ix := Unit) (Name := ℕ) (U := UR sig nD τ) (Lvl := ℕ)
      launch9.win launch9.arr_whole c (pdats m) ((pdats m 9 c).share_full fun _ => rfl)
      (U19 m c) (U20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W21`, left at `W22`. Its arrays are split out of the
    unscoped buffers and put back at the exit contents; the generator register goes into the invariant and out; nothing owed. -/
def reg10 : Pipeline.RegionSeg (pcfgs (F := Ideal)) adm' (pdats m) () defs₀ 𝒱₀ L lv 10 where
  win := launch10.win.to₀
  block_pos := launch10.block_pos
  stage_whole := launch10.stage_whole
  K := PEmpty
  osem k := k.elim
  ho := Pipeline.OwnSemFacts.none _
  hbody c := body_obligation10 (U21 m) c
  hwaits := Pipeline.hwaits_of_owed_zero _ _ _ _ L lv 10 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec10 c (U21 m c)
  hentry c := by
    rw [Pipeline.ownSems0_none]
    have hsplit := Pipeline.arrays_of_unscopedBufs (p := 10) (pcfgs (F := Ideal)) adm' (pdats m) launch10.win launch10.arr_whole c
      ((pdats m 10 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := Ideal)) adm' (Ix := Unit) (Name := ℕ) (U := UR sig nD τ) (Lvl := ℕ)
      launch10.win launch10.arr_whole c (pdats m) ((pdats m 10 c).share_full fun _ => rfl)
      (U21 m c) (U22 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `W23`, left at `W24`. Its arrays are split out of the
    unscoped buffers and put back at the exit contents; the generator register goes into the invariant and out; nothing owed. -/
def reg11 : Pipeline.RegionSeg (pcfgs (F := Ideal)) adm' (pdats m) () defs₀ 𝒱₀ L lv 11 where
  win := launch11.win.to₀
  block_pos := launch11.block_pos
  stage_whole := launch11.stage_whole
  K := PEmpty
  osem k := k.elim
  ho := Pipeline.OwnSemFacts.none _
  hbody c := body_obligation11 (U23 m) c
  hwaits := Pipeline.hwaits_of_owed_zero _ _ _ _ L lv 11 fun _ _ => rfl
  pre c := iprop(StableHlo.held (c : Thread nD τ) (Pipeline.ucRefs τ sig) (W23 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (U23 m c)
  hentry c := by
    rw [Pipeline.ownSems0_none]
    have hsplit := Pipeline.arrays_of_unscopedBufs (p := 11) (pcfgs (F := Ideal)) adm' (pdats m) launch11.win launch11.arr_whole c
      ((pdats m 11 c).share_full fun _ => rfl) (U23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := Ideal)) adm' (Ix := Unit) (Name := ℕ) (U := UR sig nD τ) (Lvl := ℕ)
      launch11.win launch11.arr_whole c (pdats m) ((pdats m 11 c).share_full fun _ => rfl)
      (U23 m c) (U24 m c) ((pdats m 11 c).arrAt · cfg11.N) (hF11 m c) (hrest11 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := Ideal)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m),
    .host (hseg hostOps9 hostOps9_sub hostOps9_fresh (W18 m)),
    .region (reg9 m),
    .host (hseg hostOps10 hostOps10_sub hostOps10_fresh (W20 m)),
    .region (reg10 m),
    .host (hseg hostOps11 hostOps11_sub hostOps11_fresh (W22 m)),
    .region (reg11 m) ]

theorem main_run (c : Dev nD) : main (F := Ideal) c = Pipeline.Seg.run (segs m) := (main_chain c).trans (by chain_rfl)

set_option backward.isDefEq.respectTransparency.types false in
/-- THE RUN: from any memory with zero counters every weakly fair execution of @main terminates, nothing faulting, and every
    final state holds every unscoped buffer at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W24 m c b) :=
  Pipeline.θ_run_regions_kit (pcfgs (F := Ideal)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m c b)
    (hfin := fun c s' => by
      iintro ⟨⟨Hh, -⟩, HSI⟩
      unfold StableHlo.held
      imodintro
      iapply (pointsTo_read_all (Pipeline.ucRefs τ sig) (fun b => (((c : Thread nD τ)).1, b)) (W24 m c) s')
      isplitl [Hh] <;> iassumption)
    (hQ := fun s h c => h c)

end Run

end Cert.KernelIdeal.Hand

end
-- ==== Proof.StageBridge.lean ====
/-
  The idealized kernel's buffers, boundary by boundary, are the reference's stages of the same arguments.  A host stretch of
  the kernel applies the same operations as the reference; a weighted-product region leaves (gathered row) · (edge weight),
  which is the reference's (edge weight repeated along the row) · (gathered row) by commutativity of the product on the
  extended reals — no finiteness is used; a layer-sum region leaves the entrywise sum, which is the reference's sum as it
  stands.  A column reshaped from a vector and the vector repeated along a new unit axis are one array.
-/
import proofs.«177237_j55430847922201_2_alg».proof.Proof.IdealRun
import proofs.«177237_j55430847922201_2_alg».proof.Proof.Gen.ReferenceIdeal.Read
import proofs.«177237_j55430847922201_2_alg».proof.Proof.LibColumnLayout
import Idealize.ShloMosaic.Lib.StableHlo.Run
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Read
open scoped BigOperators

variable (m : (ℓ : Loc nD τ sig) → Buf (Elt Ideal) ℓ) (c : Dev nD)

set_option maxHeartbeats 4000000 in
theorem e1_main_v6 : W1 m c main_v6 = val_main_v7 (F := Ideal) (m ((c : Thread nD τ).loc main_arg3)) (m ((c : Thread nD τ).loc main_arg10)) := by
  show StableHlo.after hostOps0 (W0 m c) (Proc.devRef .tc main_v6) = _
  after_results
  rfl
set_option maxHeartbeats 4000000 in
theorem e1_main_v7 : W1 m c main_v7 = val_main_v0 (F := Ideal) (m ((c : Thread nD τ).loc main_arg5)) := by
  show StableHlo.after hostOps0 (W0 m c) (Proc.devRef .tc main_v7) = _
  after_results
  show shapeCast S1000000x1 (m ((c : Thread nD τ).loc main_arg5)) shapeCasts_S1000000_S1000000x1 = _
  funext i
  rw [val_main_v0_apply]
  obtain ⟨p, u, rfl⟩ : ∃ (p : Fin 1000000) (u : Fin 1), i = ValueIdx.ix2 p u := ⟨i 0, i 1, ValueIdx.eq_ix2 i⟩
  exact (Cert.Lib.ColumnLayout.shapeCast_a_a1_apply _ _ p u).trans (congrArg _ (funext fun a => match a with | ⟨0, _⟩ => rfl))
set_option maxHeartbeats 4000000 in
theorem e2_main_v8 : W2 m c main_v8 = val_main_v9 (F := Ideal) (m ((c : Thread nD τ).loc main_arg3)) (m ((c : Thread nD τ).loc main_arg5)) (m ((c : Thread nD τ).loc main_arg10)) := by
  refine (W2_out m c).trans ((final0 (U1 m) c).trans ?_)
  show G0 (W1 m c main_v6) (W1 m c main_v7) = _
  rw [e1_main_v6 m c, e1_main_v7 m c]
  funext i
  rw [val_main_v9_apply, val_main_v8_apply]
  have hi : idx_main_v8 i = ValueIdx.ix2 (n0 := 1000000) (n1 := 1) (i 0) 0 := funext fun a => match a with | ⟨0, _⟩ => rfl | ⟨1, _⟩ => rfl
  rw [hi]
  unfold G0
  simp only [Ideal.mulf_def]
  exact mul_comm _ _
theorem r2_main_arg9 : W2 m c main_arg9 = (m ((c : Thread nD τ).loc main_arg9)) := ((W2_of m c main_arg9 (by decide)).trans ((W1_of m c main_arg9 (by decide)))).trans rfl
theorem r2_main_v8 : W2 m c main_v8 = val_main_v9 (F := Ideal) (m ((c : Thread nD τ).loc main_arg3)) (m ((c : Thread nD τ).loc main_arg5)) (m ((c : Thread nD τ).loc main_arg10)) := e2_main_v8 m c
theorem r2_main_arg10 : W2 m c main_arg10 = (m ((c : Thread nD τ).loc main_arg10)) := ((W2_of m c main_arg10 (by decide)).trans ((W1_of m c main_arg10 (by decide)))).trans rfl
set_option maxHeartbeats 4000000 in
theorem e3_main_v18 : W3 m c main_v18 = val_main_v20 (F := Ideal) (m ((c : Thread nD τ).loc main_arg3)) (m ((c : Thread nD τ).loc main_arg5)) (m ((c : Thread nD τ).loc main_arg9)) (m ((c : Thread nD τ).loc main_arg10)) := by
  show StableHlo.after hostOps1 (W2 m c) (Proc.devRef .tc main_v18) = _
  after_results
  rw [r2_main_arg9 m c, r2_main_v8 m c, r2_main_arg10 m c]
  rfl
theorem r2_main_arg5 : W2 m c main_arg5 = (m ((c : Thread nD τ).loc main_arg5)) := ((W2_of m c main_arg5 (by decide)).trans ((W1_of m c main_arg5 (by decide)))).trans rfl
set_option maxHeartbeats 4000000 in
theorem e3_main_v19 : W3 m c main_v19 = val_main_v13 (F := Ideal) (m ((c : Thread nD τ).loc main_arg5)) := by
  show StableHlo.after hostOps1 (W2 m c) (Proc.devRef .tc main_v19) = _
  after_results
  rw [r2_main_arg5 m c]
  show shapeCast S1000000x1 (m ((c : Thread nD τ).loc main_arg5)) shapeCasts_S1000000_S1000000x1 = _
  funext i
  rw [val_main_v13_apply]
  obtain ⟨p, u, rfl⟩ : ∃ (p : Fin 1000000) (u : Fin 1), i = ValueIdx.ix2 p u := ⟨i 0, i 1, ValueIdx.eq_ix2 i⟩
  exact (Cert.Lib.ColumnLayout.shapeCast_a_a1_apply _ _ p u).trans (congrArg _ (funext fun a => match a with | ⟨0, _⟩ => rfl))
set_option maxHeartbeats 4000000 in
theorem e4_main_v20 : W4 m c main_v20 = val_main_v22 (F := Ideal) (m ((c : Thread nD τ).loc main_arg3)) (m ((c : Thread nD τ).loc main_arg5)) (m ((c : Thread nD τ).loc main_arg9)) (m ((c : Thread nD τ).loc main_arg10)) := by
  refine (W4_out m c).trans ((final1 (U3 m) c).trans ?_)
  show G1 (W3 m c main_v18) (W3 m c main_v19) = _
  rw [e3_main_v18 m c, e3_main_v19 m c]
  funext i
  rw [val_main_v22_apply, val_main_v21_apply]
  have hi : idx_main_v21 i = ValueIdx.ix2 (n0 := 1000000) (n1 := 1) (i 0) 0 := funext fun a => match a with | ⟨0, _⟩ => rfl | ⟨1, _⟩ => rfl
  rw [hi]
  unfold G1
  simp only [Ideal.mulf_def]
  exact mul_comm _ _
theorem r4_main_arg9 : W4 m c main_arg9 = (m ((c : Thread nD τ).loc main_arg9)) := ((W4_of m c main_arg9 (by decide)).trans ((W3_of m c main_arg9 (by decide)).trans ((W2_of m c main_arg9 (by decide)).trans ((W1_of m c main_arg9 (by decide)))))).trans rfl
theorem r4_main_v20 : W4 m c main_v20 = val_main_v22 (F := Ideal) (m ((c : Thread nD τ).loc main_arg3)) (m ((c : Thread nD τ).loc main_arg5)) (m ((c : Thread nD τ).loc main_arg9)) (m ((c : Thread nD τ).loc main_arg10)) := e4_main_v20 m c
set_option maxHeartbeats 4000000 in
theorem e5_main_v23 : W5 m c main_v23 = val_main_v25 (F := Ideal) (m ((c : Thread nD τ).loc main_arg3)) (m ((c : Thread nD τ).loc main_arg5)) (m ((c : Thread nD τ).loc main_arg9)) (m ((c : Thread nD τ).loc main_arg10)) := by
  show StableHlo.after hostOps2 (W4 m c) (Proc.devRef .tc main_v23) = _
  after_results
  rw [r4_main_arg9 m c, r4_main_v20 m c]
  rfl
theorem r4_main_arg2 : W4 m c main_arg2 = (m ((c : Thread nD τ).loc main_arg2)) := ((W4_of m c main_arg2 (by decide)).trans ((W3_of m c main_arg2 (by decide)).trans ((W2_of m c main_arg2 (by decide)).trans ((W1_of m c main_arg2 (by decide)))))).trans rfl
theorem r4_main_arg12 : W4 m c main_arg12 = (m ((c : Thread nD τ).loc main_arg12)) := ((W4_of m c main_arg12 (by decide)).trans ((W3_of m c main_arg12 (by decide)).trans ((W2_of m c main_arg12 (by decide)).trans ((W1_of m c main_arg12 (by decide)))))).trans rfl
set_option maxHeartbeats 4000000 in
theorem e5_main_v30 : W5 m c main_v30 = val_main_v33 (F := Ideal) (m ((c : Thread nD τ).loc main_arg2)) (m ((c : Thread nD τ).loc main_arg12)) := by
  show StableHlo.after hostOps2 (W4 m c) (Proc.devRef .tc main_v30) = _
  after_results
  rw [r4_main_arg2 m c, r4_main_arg12 m c]
  rfl
theorem r4_main_arg6 : W4 m c main_arg6 = (m ((c : Thread nD τ).loc main_arg6)) := ((W4_of m c main_arg6 (by decide)).trans ((W3_of m c main_arg6 (by decide)).trans ((W2_of m c main_arg6 (by decide)).trans ((W1_of m c main_arg6 (by decide)))))).trans rfl
set_option maxHeartbeats 4000000 in
theorem e5_main_v31 : W5 m c main_v31 = val_main_v26 (F := Ideal) (m ((c : Thread nD τ).loc main_arg6)) := by
  show StableHlo.after hostOps2 (W4 m c) (Proc.devRef .tc main_v31) = _
  after_results
  rw [r4_main_arg6 m c]
  show shapeCast S1500000x1 (m ((c : Thread nD τ).loc main_arg6)) shapeCasts_S1500000_S1500000x1 = _
  funext i
  rw [val_main_v26_apply]
  obtain ⟨p, u, rfl⟩ : ∃ (p : Fin 1500000) (u : Fin 1), i = ValueIdx.ix2 p u := ⟨i 0, i 1, ValueIdx.eq_ix2 i⟩
  exact (Cert.Lib.ColumnLayout.shapeCast_a_a1_apply _ _ p u).trans (congrArg _ (funext fun a => match a with | ⟨0, _⟩ => rfl))
set_option maxHeartbeats 4000000 in
theorem e6_main_v32 : W6 m c main_v32 = val_main_v35 (F := Ideal) (m ((c : Thread nD τ).loc main_arg2)) (m ((c : Thread nD τ).loc main_arg6)) (m ((c : Thread nD τ).loc main_arg12)) := by
  refine (W6_out m c).trans ((final2 (U5 m) c).trans ?_)
  show G2 (W5 m c main_v30) (W5 m c main_v31) = _
  rw [e5_main_v30 m c, e5_main_v31 m c]
  funext i
  rw [val_main_v35_apply, val_main_v34_apply]
  have hi : idx_main_v34 i = ValueIdx.ix2 (n0 := 1500000) (n1 := 1) (i 0) 0 := funext fun a => match a with | ⟨0, _⟩ => rfl | ⟨1, _⟩ => rfl
  rw [hi]
  unfold G2
  simp only [Ideal.mulf_def]
  exact mul_comm _ _
theorem r6_main_arg11 : W6 m c main_arg11 = (m ((c : Thread nD τ).loc main_arg11)) := ((W6_of m c main_arg11 (by decide)).trans ((W5_of m c main_arg11 (by decide)).trans ((W4_of m c main_arg11 (by decide)).trans ((W3_of m c main_arg11 (by decide)).trans ((W2_of m c main_arg11 (by decide)).trans ((W1_of m c main_arg11 (by decide)))))))).trans rfl
theorem r6_main_v32 : W6 m c main_v32 = val_main_v35 (F := Ideal) (m ((c : Thread nD τ).loc main_arg2)) (m ((c : Thread nD τ).loc main_arg6)) (m ((c : Thread nD τ).loc main_arg12)) := e6_main_v32 m c
theorem r6_main_arg12 : W6 m c main_arg12 = (m ((c : Thread nD τ).loc main_arg12)) := ((W6_of m c main_arg12 (by decide)).trans ((W5_of m c main_arg12 (by decide)).trans ((W4_of m c main_arg12 (by decide)).trans ((W3_of m c main_arg12 (by decide)).trans ((W2_of m c main_arg12 (by decide)).trans ((W1_of m c main_arg12 (by decide)))))))).trans rfl
set_option maxHeartbeats 4000000 in
theorem e7_main_v42 : W7 m c main_v42 = val_main_v46 (F := Ideal) (m ((c : Thread nD τ).loc main_arg2)) (m ((c : Thread nD τ).loc main_arg6)) (m ((c : Thread nD τ).loc main_arg11)) (m ((c : Thread nD τ).loc main_arg12)) := by
  show StableHlo.after hostOps3 (W6 m c) (Proc.devRef .tc main_v42) = _
  after_results
  rw [r6_main_arg11 m c, r6_main_v32 m c, r6_main_arg12 m c]
  rfl
theorem r6_main_arg6 : W6 m c main_arg6 = (m ((c : Thread nD τ).loc main_arg6)) := ((W6_of m c main_arg6 (by decide)).trans ((W5_of m c main_arg6 (by decide)).trans ((W4_of m c main_arg6 (by decide)).trans ((W3_of m c main_arg6 (by decide)).trans ((W2_of m c main_arg6 (by decide)).trans ((W1_of m c main_arg6 (by decide)))))))).trans rfl
set_option maxHeartbeats 4000000 in
theorem e7_main_v43 : W7 m c main_v43 = val_main_v39 (F := Ideal) (m ((c : Thread nD τ).loc main_arg6)) := by
  show StableHlo.after hostOps3 (W6 m c) (Proc.devRef .tc main_v43) = _
  after_results
  rw [r6_main_arg6 m c]
  show shapeCast S1500000x1 (m ((c : Thread nD τ).loc main_arg6)) shapeCasts_S1500000_S1500000x1 = _
  funext i
  rw [val_main_v39_apply]
  obtain ⟨p, u, rfl⟩ : ∃ (p : Fin 1500000) (u : Fin 1), i = ValueIdx.ix2 p u := ⟨i 0, i 1, ValueIdx.eq_ix2 i⟩
  exact (Cert.Lib.ColumnLayout.shapeCast_a_a1_apply _ _ p u).trans (congrArg _ (funext fun a => match a with | ⟨0, _⟩ => rfl))
set_option maxHeartbeats 4000000 in
theorem e8_main_v44 : W8 m c main_v44 = val_main_v48 (F := Ideal) (m ((c : Thread nD τ).loc main_arg2)) (m ((c : Thread nD τ).loc main_arg6)) (m ((c : Thread nD τ).loc main_arg11)) (m ((c : Thread nD τ).loc main_arg12)) := by
  refine (W8_out m c).trans ((final3 (U7 m) c).trans ?_)
  show G3 (W7 m c main_v42) (W7 m c main_v43) = _
  rw [e7_main_v42 m c, e7_main_v43 m c]
  funext i
  rw [val_main_v48_apply, val_main_v47_apply]
  have hi : idx_main_v47 i = ValueIdx.ix2 (n0 := 1500000) (n1 := 1) (i 0) 0 := funext fun a => match a with | ⟨0, _⟩ => rfl | ⟨1, _⟩ => rfl
  rw [hi]
  unfold G3
  simp only [Ideal.mulf_def]
  exact mul_comm _ _
theorem r8_main_arg11 : W8 m c main_arg11 = (m ((c : Thread nD τ).loc main_arg11)) := ((W8_of m c main_arg11 (by decide)).trans ((W7_of m c main_arg11 (by decide)).trans ((W6_of m c main_arg11 (by decide)).trans ((W5_of m c main_arg11 (by decide)).trans ((W4_of m c main_arg11 (by decide)).trans ((W3_of m c main_arg11 (by decide)).trans ((W2_of m c main_arg11 (by decide)).trans ((W1_of m c main_arg11 (by decide)))))))))).trans rfl
theorem r8_main_v44 : W8 m c main_v44 = val_main_v48 (F := Ideal) (m ((c : Thread nD τ).loc main_arg2)) (m ((c : Thread nD τ).loc main_arg6)) (m ((c : Thread nD τ).loc main_arg11)) (m ((c : Thread nD τ).loc main_arg12)) := e8_main_v44 m c
set_option maxHeartbeats 4000000 in
theorem e9_main_v47 : W9 m c main_v47 = val_main_v51 (F := Ideal) (m ((c : Thread nD τ).loc main_arg2)) (m ((c : Thread nD τ).loc main_arg6)) (m ((c : Thread nD τ).loc main_arg11)) (m ((c : Thread nD τ).loc main_arg12)) := by
  show StableHlo.after hostOps4 (W8 m c) (Proc.devRef .tc main_v47) = _
  after_results
  rw [r8_main_arg11 m c, r8_main_v44 m c]
  rfl
theorem r8_main_arg0 : W8 m c main_arg0 = (m ((c : Thread nD τ).loc main_arg0)) := ((W8_of m c main_arg0 (by decide)).trans ((W7_of m c main_arg0 (by decide)).trans ((W6_of m c main_arg0 (by decide)).trans ((W5_of m c main_arg0 (by decide)).trans ((W4_of m c main_arg0 (by decide)).trans ((W3_of m c main_arg0 (by decide)).trans ((W2_of m c main_arg0 (by decide)).trans ((W1_of m c main_arg0 (by decide)))))))))).trans rfl
theorem r8_main_arg1 : W8 m c main_arg1 = (m ((c : Thread nD τ).loc main_arg1)) := ((W8_of m c main_arg1 (by decide)).trans ((W7_of m c main_arg1 (by decide)).trans ((W6_of m c main_arg1 (by decide)).trans ((W5_of m c main_arg1 (by decide)).trans ((W4_of m c main_arg1 (by decide)).trans ((W3_of m c main_arg1 (by decide)).trans ((W2_of m c main_arg1 (by decide)).trans ((W1_of m c main_arg1 (by decide)))))))))).trans rfl
set_option maxHeartbeats 4000000 in
theorem e9_main_v48 : W9 m c main_v48 = val_main_v52 (F := Ideal) (m ((c : Thread nD τ).loc main_arg0)) (m ((c : Thread nD τ).loc main_arg1)) := by
  show StableHlo.after hostOps4 (W8 m c) (Proc.devRef .tc main_v48) = _
  after_results
  rw [r8_main_arg0 m c, r8_main_arg1 m c]
  rfl
theorem r8_main_arg8 : W8 m c main_arg8 = (m ((c : Thread nD τ).loc main_arg8)) := ((W8_of m c main_arg8 (by decide)).trans ((W7_of m c main_arg8 (by decide)).trans ((W6_of m c main_arg8 (by decide)).trans ((W5_of m c main_arg8 (by decide)).trans ((W4_of m c main_arg8 (by decide)).trans ((W3_of m c main_arg8 (by decide)).trans ((W2_of m c main_arg8 (by decide)).trans ((W1_of m c main_arg8 (by decide)))))))))).trans rfl
set_option maxHeartbeats 4000000 in
theorem e9_main_v55 : W9 m c main_v55 = val_main_v60 (F := Ideal) (m ((c : Thread nD τ).loc main_arg0)) (m ((c : Thread nD τ).loc main_arg1)) (m ((c : Thread nD τ).loc main_arg8)) := by
  show StableHlo.after hostOps4 (W8 m c) (Proc.devRef .tc main_v55) = _
  after_results
  rw [r8_main_arg0 m c, r8_main_arg1 m c, r8_main_arg8 m c]
  rfl
theorem r8_main_arg4 : W8 m c main_arg4 = (m ((c : Thread nD τ).loc main_arg4)) := ((W8_of m c main_arg4 (by decide)).trans ((W7_of m c main_arg4 (by decide)).trans ((W6_of m c main_arg4 (by decide)).trans ((W5_of m c main_arg4 (by decide)).trans ((W4_of m c main_arg4 (by decide)).trans ((W3_of m c main_arg4 (by decide)).trans ((W2_of m c main_arg4 (by decide)).trans ((W1_of m c main_arg4 (by decide)))))))))).trans rfl
set_option maxHeartbeats 4000000 in
theorem e9_main_v56 : W9 m c main_v56 = val_main_v53 (F := Ideal) (m ((c : Thread nD τ).loc main_arg4)) := by
  show StableHlo.after hostOps4 (W8 m c) (Proc.devRef .tc main_v56) = _
  after_results
  rw [r8_main_arg4 m c]
  show shapeCast S1500000x1 (m ((c : Thread nD τ).loc main_arg4)) shapeCasts_S1500000_S1500000x1 = _
  funext i
  rw [val_main_v53_apply]
  obtain ⟨p, u, rfl⟩ : ∃ (p : Fin 1500000) (u : Fin 1), i = ValueIdx.ix2 p u := ⟨i 0, i 1, ValueIdx.eq_ix2 i⟩
  exact (Cert.Lib.ColumnLayout.shapeCast_a_a1_apply _ _ p u).trans (congrArg _ (funext fun a => match a with | ⟨0, _⟩ => rfl))
set_option maxHeartbeats 4000000 in
theorem e10_main_v57 : W10 m c main_v57 = val_main_v62 (F := Ideal) (m ((c : Thread nD τ).loc main_arg0)) (m ((c : Thread nD τ).loc main_arg1)) (m ((c : Thread nD τ).loc main_arg4)) (m ((c : Thread nD τ).loc main_arg8)) := by
  refine (W10_out m c).trans ((final4 (U9 m) c).trans ?_)
  show G4 (W9 m c main_v55) (W9 m c main_v56) = _
  rw [e9_main_v55 m c, e9_main_v56 m c]
  funext i
  rw [val_main_v62_apply, val_main_v61_apply]
  have hi : idx_main_v61 i = ValueIdx.ix2 (n0 := 1500000) (n1 := 1) (i 0) 0 := funext fun a => match a with | ⟨0, _⟩ => rfl | ⟨1, _⟩ => rfl
  rw [hi]
  unfold G4
  simp only [Ideal.mulf_def]
  exact mul_comm _ _
theorem r10_main_arg7 : W10 m c main_arg7 = (m ((c : Thread nD τ).loc main_arg7)) := ((W10_of m c main_arg7 (by decide)).trans ((W9_of m c main_arg7 (by decide)).trans ((W8_of m c main_arg7 (by decide)).trans ((W7_of m c main_arg7 (by decide)).trans ((W6_of m c main_arg7 (by decide)).trans ((W5_of m c main_arg7 (by decide)).trans ((W4_of m c main_arg7 (by decide)).trans ((W3_of m c main_arg7 (by decide)).trans ((W2_of m c main_arg7 (by decide)).trans ((W1_of m c main_arg7 (by decide)))))))))))).trans rfl
theorem r10_main_v57 : W10 m c main_v57 = val_main_v62 (F := Ideal) (m ((c : Thread nD τ).loc main_arg0)) (m ((c : Thread nD τ).loc main_arg1)) (m ((c : Thread nD τ).loc main_arg4)) (m ((c : Thread nD τ).loc main_arg8)) := e10_main_v57 m c
set_option maxHeartbeats 4000000 in
theorem e11_main_v60 : W11 m c main_v60 = val_main_v65 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := by
  show StableHlo.after hostOps5 (W10 m c) (Proc.devRef .tc main_v60) = _
  after_results
  rw [r10_main_arg7 m c, r10_main_v57 m c]
  rfl
theorem r11_main_v48 : W11 m c main_v48 = val_main_v52 (F := Ideal) (m ((c : Thread nD τ).loc main_arg0)) (m ((c : Thread nD τ).loc main_arg1)) := ((W11_of m c main_v48 (by decide)).trans ((W10_of m c main_v48 (by decide)))).trans (e9_main_v48 m c)
set_option maxHeartbeats 4000000 in
theorem e12_main_v61 : W12 m c main_v61 = val_main_v66 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := by
  refine (W12_out m c).trans ((final5 (U11 m) c).trans ?_)
  show G5 (W11 m c main_v48) (W11 m c main_v60) = _
  rw [r11_main_v48 m c, e11_main_v60 m c]
  rfl
theorem r12_main_v60 : W12 m c main_v60 = val_main_v65 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := ((W12_of m c main_v60 (by decide))).trans (e11_main_v60 m c)
theorem r12_main_arg8 : W12 m c main_arg8 = (m ((c : Thread nD τ).loc main_arg8)) := ((W12_of m c main_arg8 (by decide)).trans ((W11_of m c main_arg8 (by decide)).trans ((W10_of m c main_arg8 (by decide)).trans ((W9_of m c main_arg8 (by decide)).trans ((W8_of m c main_arg8 (by decide)).trans ((W7_of m c main_arg8 (by decide)).trans ((W6_of m c main_arg8 (by decide)).trans ((W5_of m c main_arg8 (by decide)).trans ((W4_of m c main_arg8 (by decide)).trans ((W3_of m c main_arg8 (by decide)).trans ((W2_of m c main_arg8 (by decide)).trans ((W1_of m c main_arg8 (by decide)))))))))))))).trans rfl
set_option maxHeartbeats 4000000 in
theorem e13_main_v68 : W13 m c main_v68 = val_main_v74 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := by
  show StableHlo.after hostOps6 (W12 m c) (Proc.devRef .tc main_v68) = _
  after_results
  rw [r12_main_v60 m c, r12_main_arg8 m c]
  rfl
theorem r12_main_arg4 : W12 m c main_arg4 = (m ((c : Thread nD τ).loc main_arg4)) := ((W12_of m c main_arg4 (by decide)).trans ((W11_of m c main_arg4 (by decide)).trans ((W10_of m c main_arg4 (by decide)).trans ((W9_of m c main_arg4 (by decide)).trans ((W8_of m c main_arg4 (by decide)).trans ((W7_of m c main_arg4 (by decide)).trans ((W6_of m c main_arg4 (by decide)).trans ((W5_of m c main_arg4 (by decide)).trans ((W4_of m c main_arg4 (by decide)).trans ((W3_of m c main_arg4 (by decide)).trans ((W2_of m c main_arg4 (by decide)).trans ((W1_of m c main_arg4 (by decide)))))))))))))).trans rfl
set_option maxHeartbeats 4000000 in
theorem e13_main_v69 : W13 m c main_v69 = val_main_v67 (F := Ideal) (m ((c : Thread nD τ).loc main_arg4)) := by
  show StableHlo.after hostOps6 (W12 m c) (Proc.devRef .tc main_v69) = _
  after_results
  rw [r12_main_arg4 m c]
  show shapeCast S1500000x1 (m ((c : Thread nD τ).loc main_arg4)) shapeCasts_S1500000_S1500000x1 = _
  funext i
  rw [val_main_v67_apply]
  obtain ⟨p, u, rfl⟩ : ∃ (p : Fin 1500000) (u : Fin 1), i = ValueIdx.ix2 p u := ⟨i 0, i 1, ValueIdx.eq_ix2 i⟩
  exact (Cert.Lib.ColumnLayout.shapeCast_a_a1_apply _ _ p u).trans (congrArg _ (funext fun a => match a with | ⟨0, _⟩ => rfl))
set_option maxHeartbeats 4000000 in
theorem e14_main_v70 : W14 m c main_v70 = val_main_v76 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := by
  refine (W14_out m c).trans ((final6 (U13 m) c).trans ?_)
  show G6 (W13 m c main_v68) (W13 m c main_v69) = _
  rw [e13_main_v68 m c, e13_main_v69 m c]
  funext i
  rw [val_main_v76_apply, val_main_v75_apply]
  have hi : idx_main_v75 i = ValueIdx.ix2 (n0 := 1500000) (n1 := 1) (i 0) 0 := funext fun a => match a with | ⟨0, _⟩ => rfl | ⟨1, _⟩ => rfl
  rw [hi]
  unfold G6
  simp only [Ideal.mulf_def]
  exact mul_comm _ _
theorem r14_main_arg7 : W14 m c main_arg7 = (m ((c : Thread nD τ).loc main_arg7)) := ((W14_of m c main_arg7 (by decide)).trans ((W13_of m c main_arg7 (by decide)).trans ((W12_of m c main_arg7 (by decide)).trans ((W11_of m c main_arg7 (by decide)).trans ((W10_of m c main_arg7 (by decide)).trans ((W9_of m c main_arg7 (by decide)).trans ((W8_of m c main_arg7 (by decide)).trans ((W7_of m c main_arg7 (by decide)).trans ((W6_of m c main_arg7 (by decide)).trans ((W5_of m c main_arg7 (by decide)).trans ((W4_of m c main_arg7 (by decide)).trans ((W3_of m c main_arg7 (by decide)).trans ((W2_of m c main_arg7 (by decide)).trans ((W1_of m c main_arg7 (by decide)))))))))))))))).trans rfl
theorem r14_main_v70 : W14 m c main_v70 = val_main_v76 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := e14_main_v70 m c
set_option maxHeartbeats 4000000 in
theorem e15_main_v73 : W15 m c main_v73 = val_main_v79 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := by
  show StableHlo.after hostOps7 (W14 m c) (Proc.devRef .tc main_v73) = _
  after_results
  rw [r14_main_arg7 m c, r14_main_v70 m c]
  rfl
theorem r15_main_v61 : W15 m c main_v61 = val_main_v66 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := ((W15_of m c main_v61 (by decide)).trans ((W14_of m c main_v61 (by decide)).trans ((W13_of m c main_v61 (by decide))))).trans (e12_main_v61 m c)
set_option maxHeartbeats 4000000 in
theorem e16_main_v74 : W16 m c main_v74 = val_main_v80 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := by
  refine (W16_out m c).trans ((final7 (U15 m) c).trans ?_)
  show G7 (W15 m c main_v61) (W15 m c main_v73) = _
  rw [r15_main_v61 m c, e15_main_v73 m c]
  rfl
theorem r16_main_v73 : W16 m c main_v73 = val_main_v79 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := ((W16_of m c main_v73 (by decide))).trans (e15_main_v73 m c)
theorem r16_main_arg8 : W16 m c main_arg8 = (m ((c : Thread nD τ).loc main_arg8)) := ((W16_of m c main_arg8 (by decide)).trans ((W15_of m c main_arg8 (by decide)).trans ((W14_of m c main_arg8 (by decide)).trans ((W13_of m c main_arg8 (by decide)).trans ((W12_of m c main_arg8 (by decide)).trans ((W11_of m c main_arg8 (by decide)).trans ((W10_of m c main_arg8 (by decide)).trans ((W9_of m c main_arg8 (by decide)).trans ((W8_of m c main_arg8 (by decide)).trans ((W7_of m c main_arg8 (by decide)).trans ((W6_of m c main_arg8 (by decide)).trans ((W5_of m c main_arg8 (by decide)).trans ((W4_of m c main_arg8 (by decide)).trans ((W3_of m c main_arg8 (by decide)).trans ((W2_of m c main_arg8 (by decide)).trans ((W1_of m c main_arg8 (by decide)))))))))))))))))).trans rfl
set_option maxHeartbeats 4000000 in
theorem e17_main_v81 : W17 m c main_v81 = val_main_v88 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := by
  show StableHlo.after hostOps8 (W16 m c) (Proc.devRef .tc main_v81) = _
  after_results
  rw [r16_main_v73 m c, r16_main_arg8 m c]
  rfl
theorem r16_main_arg4 : W16 m c main_arg4 = (m ((c : Thread nD τ).loc main_arg4)) := ((W16_of m c main_arg4 (by decide)).trans ((W15_of m c main_arg4 (by decide)).trans ((W14_of m c main_arg4 (by decide)).trans ((W13_of m c main_arg4 (by decide)).trans ((W12_of m c main_arg4 (by decide)).trans ((W11_of m c main_arg4 (by decide)).trans ((W10_of m c main_arg4 (by decide)).trans ((W9_of m c main_arg4 (by decide)).trans ((W8_of m c main_arg4 (by decide)).trans ((W7_of m c main_arg4 (by decide)).trans ((W6_of m c main_arg4 (by decide)).trans ((W5_of m c main_arg4 (by decide)).trans ((W4_of m c main_arg4 (by decide)).trans ((W3_of m c main_arg4 (by decide)).trans ((W2_of m c main_arg4 (by decide)).trans ((W1_of m c main_arg4 (by decide)))))))))))))))))).trans rfl
set_option maxHeartbeats 4000000 in
theorem e17_main_v82 : W17 m c main_v82 = val_main_v81 (F := Ideal) (m ((c : Thread nD τ).loc main_arg4)) := by
  show StableHlo.after hostOps8 (W16 m c) (Proc.devRef .tc main_v82) = _
  after_results
  rw [r16_main_arg4 m c]
  show shapeCast S1500000x1 (m ((c : Thread nD τ).loc main_arg4)) shapeCasts_S1500000_S1500000x1 = _
  funext i
  rw [val_main_v81_apply]
  obtain ⟨p, u, rfl⟩ : ∃ (p : Fin 1500000) (u : Fin 1), i = ValueIdx.ix2 p u := ⟨i 0, i 1, ValueIdx.eq_ix2 i⟩
  exact (Cert.Lib.ColumnLayout.shapeCast_a_a1_apply _ _ p u).trans (congrArg _ (funext fun a => match a with | ⟨0, _⟩ => rfl))
set_option maxHeartbeats 4000000 in
theorem e18_main_v83 : W18 m c main_v83 = val_main_v90 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := by
  refine (W18_out m c).trans ((final8 (U17 m) c).trans ?_)
  show G8 (W17 m c main_v81) (W17 m c main_v82) = _
  rw [e17_main_v81 m c, e17_main_v82 m c]
  funext i
  rw [val_main_v90_apply, val_main_v89_apply]
  have hi : idx_main_v89 i = ValueIdx.ix2 (n0 := 1500000) (n1 := 1) (i 0) 0 := funext fun a => match a with | ⟨0, _⟩ => rfl | ⟨1, _⟩ => rfl
  rw [hi]
  unfold G8
  simp only [Ideal.mulf_def]
  exact mul_comm _ _
theorem r18_main_arg7 : W18 m c main_arg7 = (m ((c : Thread nD τ).loc main_arg7)) := ((W18_of m c main_arg7 (by decide)).trans ((W17_of m c main_arg7 (by decide)).trans ((W16_of m c main_arg7 (by decide)).trans ((W15_of m c main_arg7 (by decide)).trans ((W14_of m c main_arg7 (by decide)).trans ((W13_of m c main_arg7 (by decide)).trans ((W12_of m c main_arg7 (by decide)).trans ((W11_of m c main_arg7 (by decide)).trans ((W10_of m c main_arg7 (by decide)).trans ((W9_of m c main_arg7 (by decide)).trans ((W8_of m c main_arg7 (by decide)).trans ((W7_of m c main_arg7 (by decide)).trans ((W6_of m c main_arg7 (by decide)).trans ((W5_of m c main_arg7 (by decide)).trans ((W4_of m c main_arg7 (by decide)).trans ((W3_of m c main_arg7 (by decide)).trans ((W2_of m c main_arg7 (by decide)).trans ((W1_of m c main_arg7 (by decide)))))))))))))))))))).trans rfl
theorem r18_main_v83 : W18 m c main_v83 = val_main_v90 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := e18_main_v83 m c
set_option maxHeartbeats 4000000 in
theorem e19_main_v86 : W19 m c main_v86 = val_main_v93 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := by
  show StableHlo.after hostOps9 (W18 m c) (Proc.devRef .tc main_v86) = _
  after_results
  rw [r18_main_arg7 m c, r18_main_v83 m c]
  rfl
theorem r19_main_v74 : W19 m c main_v74 = val_main_v80 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := ((W19_of m c main_v74 (by decide)).trans ((W18_of m c main_v74 (by decide)).trans ((W17_of m c main_v74 (by decide))))).trans (e16_main_v74 m c)
set_option maxHeartbeats 4000000 in
theorem e20_main_v87 : W20 m c main_v87 = val_main_v94 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := by
  refine (W20_out m c).trans ((final9 (U19 m) c).trans ?_)
  show G9 (W19 m c main_v74) (W19 m c main_v86) = _
  rw [r19_main_v74 m c, e19_main_v86 m c]
  rfl

end Cert.KernelIdeal.Hand
end
-- ==== Proof.QuarterConst.lean ====
/-
  Two f32 words as reals: the word of 4.0 is 4 and the word of 0.25 is 1/4, so on the extended reals a product with the
  second is the ideal quotient by the first, at every argument, infinite ones included.
-/
import Idealize.ShloMosaic.PureOps.Ideal

noncomputable section

namespace Cert.KernelIdeal.Hand

open Idealize.ShloMosaic

theorem ofBits_four : Ideal.ofBits .f32 0x40800000#32 = ((4 : ℝ) : EReal) := by
  simp [Ideal.ofBits, Ideal.ieee, -EReal.coe_mul]; norm_num
theorem ofBits_quarter : Ideal.ofBits .f32 0x3E800000#32 = ((1 / 4 : ℝ) : EReal) := by
  simp [Ideal.ofBits, Ideal.ieee, -EReal.coe_mul]; norm_num

theorem quarter_eq_div (x : EReal) : x * Ideal.ofBits .f32 0x3E800000#32 = Ideal.div x (Ideal.ofBits .f32 0x40800000#32) := by
  rw [ofBits_four, ofBits_quarter, Ideal.div_coe (by norm_num : (4 : ℝ) ≠ 0)]

end Cert.KernelIdeal.Hand

end
-- ==== Proof.NormBridge.lean ====
/-
  The two normalising regions against the reference, on the extended reals.  The reference divides the layer sum by 4,
  slices it, and adds each propagated row divided by max(sqrt(0 + Σ_k x(p,k)²), floor); the kernel slices first, multiplies
  by the word 0.25 and adds the same quotient.  Slicing commutes with an entrywise operation, a product with 1/4 is the
  ideal quotient by 4 at every extended real, and 0 + s = s: so the two agree entry by entry, with no finiteness used.
-/
import proofs.«177237_j55430847922201_2_alg».proof.Proof.Region10
import proofs.«177237_j55430847922201_2_alg».proof.Proof.Region11
import proofs.«177237_j55430847922201_2_alg».proof.Proof.Gen.ReferenceIdeal.Read
import Idealize.ShloMosaic.Lib.ValueIdx
import Idealize.ShloMosaic.Lib.Pipeline.Value
import Idealize.ShloMosaic.PureOps.Ideal.Laws
import proofs.«177237_j55430847922201_2_alg».proof.Proof.QuarterConst

set_option maxRecDepth 16384

noncomputable section

namespace Cert.KernelIdeal.Hand

open Cert.KernelIdeal Cert.KernelIdeal.Gen
open Idealize.ShloMosaic Idealize.ShloMosaic.TcCoe
open Cert.ReferenceIdeal.Read
open scoped BigOperators

/-- The reference's normalising chain over any array u, given the array w of its squares and the positions J of a row's entries:
    the quotient by the larger of sqrt(0 + Σ_k w(J k)) and the floor is the quotient by max(sqrt(Σ_k u(p,k)²), floor). -/
theorem normed_abs10 (u w : (⟨Cert.ReferenceIdeal.S100000x64, .f32⟩ : BufTy).Contents (Elt Ideal)) (hw : ∀ j, w j = FloatOps.mulf (F := Ideal) (φ := .f32) (u j) (u j))
    (i : Cert.ReferenceIdeal.S100000x64.Idx) (J : Fin 64 → Cert.ReferenceIdeal.S100000x64.Idx) (hJ : ∀ k, J k = ValueIdx.ix2 (n0 := 100000) (n1 := 64) (i 0) k) :
    FloatOps.hostDivf (F := Ideal) (φ := .f32) (u i) (FloatOps.maximumf (F := Ideal) (φ := .f32) (FloatOps.hostUnary (F := Ideal) (φ := .f32) .sqrt (FloatOps.ofBits (F := Ideal) .f32 0x00000000#32 + ∑ k : Fin 64, w (J k)))
        (FloatOps.ofBits (F := Ideal) .f32 0x2B8CBCCC#32))
      = Ideal.div (u i) (max (Ideal.sqrt (∑ k : Fin 64, u (ValueIdx.ix2 (n0 := 100000) (n1 := 64) (i 0) k) * u (ValueIdx.ix2 (n0 := 100000) (n1 := 64) (i 0) k)))
          (Ideal.ofBits .f32 0x2B8CBCCC#32)) := by
  simp only [hJ, hw]
  rw [show (FloatOps.ofBits (F := Ideal) .f32 0x00000000#32) = (0 : EReal) from Ideal.ofBits_zero_f32, zero_add]
  rfl
theorem normed_abs11 (u w : (⟨Cert.ReferenceIdeal.S40000x64, .f32⟩ : BufTy).Contents (Elt Ideal)) (hw : ∀ j, w j = FloatOps.mulf (F := Ideal) (φ := .f32) (u j) (u j))
    (i : Cert.ReferenceIdeal.S40000x64.Idx) (J : Fin 64 → Cert.ReferenceIdeal.S40000x64.Idx) (hJ : ∀ k, J k = ValueIdx.ix2 (n0 := 40000) (n1 := 64) (i 0) k) :
    FloatOps.hostDivf (F := Ideal) (φ := .f32) (u i) (FloatOps.maximumf (F := Ideal) (φ := .f32) (FloatOps.hostUnary (F := Ideal) (φ := .f32) .sqrt (FloatOps.ofBits (F := Ideal) .f32 0x00000000#32 + ∑ k : Fin 64, w (J k)))
        (FloatOps.ofBits (F := Ideal) .f32 0x2B8CBCCC#32))
      = Ideal.div (u i) (max (Ideal.sqrt (∑ k : Fin 64, u (ValueIdx.ix2 (n0 := 40000) (n1 := 64) (i 0) k) * u (ValueIdx.ix2 (n0 := 40000) (n1 := 64) (i 0) k)))
          (Ideal.ofBits .f32 0x2B8CBCCC#32)) := by
  simp only [hJ, hw]
  rw [show (FloatOps.ofBits (F := Ideal) .f32 0x00000000#32) = (0 : EReal) from Ideal.ofBits_zero_f32, zero_add]
  rfl

set_option maxHeartbeats 1000000 in
/-- The reference's quarter of the layer sum at a user row: the sum's entry over the word 4.0. -/
theorem ref_quarter10 (x0 : (⟨S100000x64, .f32⟩ : BufTy).Contents (Elt Ideal)) (x1 : (⟨S40000x64, .f32⟩ : BufTy).Contents (Elt Ideal)) (x4 : (⟨S1500000, .f32⟩ : BufTy).Contents (Elt Ideal)) (x7 x8 : (⟨S1500000, .i32⟩ : BufTy).Contents (Elt Ideal)) (i : S100000x64.Idx) :
    val_main_v97 (F := Ideal) x0 x1 x4 x7 x8 i = Ideal.div (val_main_v94 (F := Ideal) x0 x1 x4 x7 x8 (idx_main_v97 i)) (Ideal.ofBits .f32 0x40800000#32) := by
  rw [val_main_v97_apply, val_main_v96_apply, val_main_v95_apply, val_main_cst_19_apply]
  rfl

set_option maxHeartbeats 1000000 in
/-- The reference's normalised propagated entry at a user row: the entry over the larger of the row's length and the floor. -/
theorem ref_normed10 (x2 : (⟨S100000x64, .f32⟩ : BufTy).Contents (Elt Ideal)) (x6 : (⟨S1500000, .f32⟩ : BufTy).Contents (Elt Ideal)) (x11 x12 : (⟨S1500000, .i32⟩ : BufTy).Contents (Elt Ideal)) (i : S100000x64.Idx) :
    val_main_v109 (F := Ideal) x2 x6 x11 x12 i
      = Ideal.div (val_main_v51 (F := Ideal) x2 x6 x11 x12 i)
          (max (Ideal.sqrt (∑ k : Fin 64, val_main_v51 (F := Ideal) x2 x6 x11 x12 (ValueIdx.ix2 (n0 := 100000) (n1 := 64) (i 0) k) * val_main_v51 (F := Ideal) x2 x6 x11 x12 (ValueIdx.ix2 (n0 := 100000) (n1 := 64) (i 0) k)))
            (Ideal.ofBits .f32 0x2B8CBCCC#32)) := by
  rw [val_main_v109_apply, val_main_v108_apply, val_main_v107_apply, val_main_v105_apply, val_main_call1_v2_apply, val_main_call1_v1_apply, val_main_call1_cst_apply, val_main_v106_apply, val_main_cst_21_apply]
  exact normed_abs10 (val_main_v51 (F := Ideal) x2 x6 x11 x12) (val_main_call1_v0 (F := Ideal) x2 x6 x11 x12)
    (fun j => val_main_call1_v0_apply x2 x6 x11 x12 j) i (fun k => idx_main_call1_v1 (idx_main_call1_v2 (idx_main_v108 i)) k)
    (fun k => funext fun a => match a with | ⟨0, _⟩ => rfl | ⟨1, _⟩ => rfl)

/-- The kernel's slice of the first 100000 rows, read at a row. -/
theorem slice10_apply (A : S140000x64.Idx → EReal) (i : S100000x64.Idx) :
    extractStridedSlice S100000x64 ![0, 0] A slices_S140000x64_S100000x64_0_0 i = A (idx_main_v97 i) :=
  extractStridedSlice_apply ![0, 0] A slices_S140000x64_S100000x64_0_0 i (idx_main_v97 i) (fun a => match a with
    | ⟨0, _⟩ => by show (i 0).val = 0 + (i 0).val; omega
    | ⟨1, _⟩ => by show (i 1).val = 0 + (i 1).val; omega)

set_option maxHeartbeats 1000000 in
/-- The user-side result: the first 100000 rows of the layer sum, a quarter of each entry, plus each propagated row over its
    floored length, is the reference's last stage. -/
theorem bridge10 (x0 : (⟨S100000x64, .f32⟩ : BufTy).Contents (Elt Ideal)) (x1 : (⟨S40000x64, .f32⟩ : BufTy).Contents (Elt Ideal)) (x4 : (⟨S1500000, .f32⟩ : BufTy).Contents (Elt Ideal)) (x7 x8 : (⟨S1500000, .i32⟩ : BufTy).Contents (Elt Ideal)) (x2 : (⟨S100000x64, .f32⟩ : BufTy).Contents (Elt Ideal)) (x6 : (⟨S1500000, .f32⟩ : BufTy).Contents (Elt Ideal)) (x11 x12 : (⟨S1500000, .i32⟩ : BufTy).Contents (Elt Ideal)) :
    G10 (extractStridedSlice S100000x64 ![0, 0] (val_main_v94 (F := Ideal) x0 x1 x4 x7 x8) slices_S140000x64_S100000x64_0_0) (val_main_v51 (F := Ideal) x2 x6 x11 x12)
      = val_main_v110 (F := Ideal) x0 x1 x2 x4 x6 x7 x8 x11 x12 := by
  funext i
  rw [val_main_v110_apply, ref_quarter10, ref_normed10]
  generalize val_main_v94 (F := Ideal) x0 x1 x4 x7 x8 = A
  generalize val_main_v51 (F := Ideal) x2 x6 x11 x12 = u
  unfold G10
  rw [slice10_apply, quarter_eq_div]
  rfl

set_option maxHeartbeats 1000000 in
/-- The reference's quarter of the layer sum at an item row (row 100000 + p of the sum): the sum's entry over the word 4.0. -/
theorem ref_quarter11 (x0 : (⟨S100000x64, .f32⟩ : BufTy).Contents (Elt Ideal)) (x1 : (⟨S40000x64, .f32⟩ : BufTy).Contents (Elt Ideal)) (x4 : (⟨S1500000, .f32⟩ : BufTy).Contents (Elt Ideal)) (x7 x8 : (⟨S1500000, .i32⟩ : BufTy).Contents (Elt Ideal)) (i : S40000x64.Idx) :
    val_main_v98 (F := Ideal) x0 x1 x4 x7 x8 i = Ideal.div (val_main_v94 (F := Ideal) x0 x1 x4 x7 x8 (idx_main_v98 i)) (Ideal.ofBits .f32 0x40800000#32) := by
  rw [val_main_v98_apply, val_main_v96_apply, val_main_v95_apply, val_main_cst_19_apply]
  rfl

set_option maxHeartbeats 1000000 in
/-- The reference's normalised propagated entry at an item row. -/
theorem ref_normed11 (x3 : (⟨S40000x64, .f32⟩ : BufTy).Contents (Elt Ideal)) (x5 : (⟨S1000000, .f32⟩ : BufTy).Contents (Elt Ideal)) (x9 x10 : (⟨S1000000, .i32⟩ : BufTy).Contents (Elt Ideal)) (i : S40000x64.Idx) :
    val_main_v103 (F := Ideal) x3 x5 x9 x10 i
      = Ideal.div (val_main_v25 (F := Ideal) x3 x5 x9 x10 i)
          (max (Ideal.sqrt (∑ k : Fin 64, val_main_v25 (F := Ideal) x3 x5 x9 x10 (ValueIdx.ix2 (n0 := 40000) (n1 := 64) (i 0) k) * val_main_v25 (F := Ideal) x3 x5 x9 x10 (ValueIdx.ix2 (n0 := 40000) (n1 := 64) (i 0) k)))
            (Ideal.ofBits .f32 0x2B8CBCCC#32)) := by
  rw [val_main_v103_apply, val_main_v102_apply, val_main_v101_apply, val_main_v99_apply, val_main_call0_v2_apply, val_main_call0_v1_apply, val_main_call0_cst_apply, val_main_v100_apply, val_main_cst_20_apply]
  exact normed_abs11 (val_main_v25 (F := Ideal) x3 x5 x9 x10) (val_main_call0_v0 (F := Ideal) x3 x5 x9 x10)
    (fun j => val_main_call0_v0_apply x3 x5 x9 x10 j) i (fun k => idx_main_call0_v1 (idx_main_call0_v2 (idx_main_v102 i)) k)
    (fun k => funext fun a => match a with | ⟨0, _⟩ => rfl | ⟨1, _⟩ => rfl)

/-- The kernel's slice of the last 40000 rows, read at a row. -/
theorem slice11_apply (A : S140000x64.Idx → EReal) (i : S40000x64.Idx) :
    extractStridedSlice S40000x64 ![100000, 0] A slices_S140000x64_S40000x64_100000_0 i = A (idx_main_v98 i) :=
  extractStridedSlice_apply ![100000, 0] A slices_S140000x64_S40000x64_100000_0 i (idx_main_v98 i) (fun a => match a with
    | ⟨0, _⟩ => by show 100000 + (i 0).val = 100000 + (i 0).val; omega
    | ⟨1, _⟩ => by show (i 1).val = 0 + (i 1).val; omega)

set_option maxHeartbeats 1000000 in
/-- The item-side result: the last 40000 rows of the layer sum, a quarter of each entry, plus each propagated row over its
    floored length, is the reference's last stage. -/
theorem bridge11 (x0 : (⟨S100000x64, .f32⟩ : BufTy).Contents (Elt Ideal)) (x1 : (⟨S40000x64, .f32⟩ : BufTy).Contents (Elt Ideal)) (x4 : (⟨S1500000, .f32⟩ : BufTy).Contents (Elt Ideal)) (x7 x8 : (⟨S1500000, .i32⟩ : BufTy).Contents (Elt Ideal)) (x3 : (⟨S40000x64, .f32⟩ : BufTy).Contents (Elt Ideal)) (x5 : (⟨S1000000, .f32⟩ : BufTy).Contents (Elt Ideal)) (x9 x10 : (⟨S1000000, .i32⟩ : BufTy).Contents (Elt Ideal)) :
    G11 (extractStridedSlice S40000x64 ![100000, 0] (val_main_v94 (F := Ideal) x0 x1 x4 x7 x8) slices_S140000x64_S40000x64_100000_0) (val_main_v25 (F := Ideal) x3 x5 x9 x10)
      = val_main_v104 (F := Ideal) x0 x1 x3 x4 x5 x7 x8 x9 x10 := by
  funext i
  rw [val_main_v104_apply, ref_quarter11, ref_normed11]
  generalize val_main_v94 (F := Ideal) x0 x1 x4 x7 x8 = A
  generalize val_main_v25 (F := Ideal) x3 x5 x9 x10 = u
  unfold G11
  rw [slice11_apply, quarter_eq_div]
  rfl

end Cert.KernelIdeal.Hand
end
-- ==== Proof.FinalBridge.lean ====
/-
  The four results and the thirteen arguments at the last boundary of the idealized kernel's run: each result is the
  reference's last stage of the kernel's own arguments, and each argument is as launched (no host operation writes one and
  no region's result array is one).
-/
import proofs.«177237_j55430847922201_2_alg».proof.Proof.StageBridge
import proofs.«177237_j55430847922201_2_alg».proof.Proof.NormBridge
import proofs.«177237_j55430847922201_2_alg».proof.Proof.Gen.ReferenceIdeal.Read
import proofs.«177237_j55430847922201_2_alg».proof.Proof.LibColumnLayout
import Idealize.ShloMosaic.Lib.StableHlo.Run
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.Read
open scoped BigOperators

variable (m : (ℓ : Loc nD τ sig) → Buf (Elt Ideal) ℓ) (c : Dev nD)

set_option maxHeartbeats 4000000 in
theorem e21_main_v88 : W21 m c main_v88 = extractStridedSlice S100000x64 ![0, 0] (val_main_v94 (F := Ideal) (m ((c : Thread nD τ).loc main_arg0)) (m ((c : Thread nD τ).loc main_arg1)) (m ((c : Thread nD τ).loc main_arg4)) (m ((c : Thread nD τ).loc main_arg7)) (m ((c : Thread nD τ).loc main_arg8))) slices_S140000x64_S100000x64_0_0 := by
  show StableHlo.after hostOps10 (W20 m c) (Proc.devRef .tc main_v88) = _
  after_results
  rw [e20_main_v87 m c]
theorem r21_main_v47 : W21 m c main_v47 = val_main_v51 (F := Ideal) (m ((c : Thread nD τ).loc main_arg2)) (m ((c : Thread nD τ).loc main_arg6)) (m ((c : Thread nD τ).loc main_arg11)) (m ((c : Thread nD τ).loc main_arg12)) := ((W21_of m c main_v47 (by decide)).trans ((W20_of m c main_v47 (by decide)).trans ((W19_of m c main_v47 (by decide)).trans ((W18_of m c main_v47 (by decide)).trans ((W17_of m c main_v47 (by decide)).trans ((W16_of m c main_v47 (by decide)).trans ((W15_of m c main_v47 (by decide)).trans ((W14_of m c main_v47 (by decide)).trans ((W13_of m c main_v47 (by decide)).trans ((W12_of m c main_v47 (by decide)).trans ((W11_of m c main_v47 (by decide)).trans ((W10_of m c main_v47 (by decide)))))))))))))).trans (e9_main_v47 m c)
set_option maxHeartbeats 4000000 in
theorem e22_main_v89 : W22 m c main_v89 = val_main_v110 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg11)) (m ((c : Thread nD τ).loc main_arg12)) := by
  refine (W22_out m c).trans ((final10 (U21 m) c).trans ?_)
  show G10 (W21 m c main_v88) (W21 m c main_v47) = _
  rw [e21_main_v88 m c, r21_main_v47 m c]
  exact bridge10 _ _ _ _ _ _ _ _ _
theorem r22_main_v87 : W22 m c main_v87 = val_main_v94 (F := Ideal) (m ((c : Thread nD τ).loc main_arg0)) (m ((c : Thread nD τ).loc main_arg1)) (m ((c : Thread nD τ).loc main_arg4)) (m ((c : Thread nD τ).loc main_arg7)) (m ((c : Thread nD τ).loc main_arg8)) := ((W22_of m c main_v87 (by decide)).trans ((W21_of m c main_v87 (by decide)))).trans (e20_main_v87 m c)
set_option maxHeartbeats 4000000 in
theorem e23_main_v90 : W23 m c main_v90 = extractStridedSlice S40000x64 ![100000, 0] (val_main_v94 (F := Ideal) (m ((c : Thread nD τ).loc main_arg0)) (m ((c : Thread nD τ).loc main_arg1)) (m ((c : Thread nD τ).loc main_arg4)) (m ((c : Thread nD τ).loc main_arg7)) (m ((c : Thread nD τ).loc main_arg8))) slices_S140000x64_S40000x64_100000_0 := by
  show StableHlo.after hostOps11 (W22 m c) (Proc.devRef .tc main_v90) = _
  after_results
  rw [r22_main_v87 m c]
theorem r23_main_v23 : W23 m c main_v23 = val_main_v25 (F := Ideal) (m ((c : Thread nD τ).loc main_arg3)) (m ((c : Thread nD τ).loc main_arg5)) (m ((c : Thread nD τ).loc main_arg9)) (m ((c : Thread nD τ).loc main_arg10)) := ((W23_of m c main_v23 (by decide)).trans ((W22_of m c main_v23 (by decide)).trans ((W21_of m c main_v23 (by decide)).trans ((W20_of m c main_v23 (by decide)).trans ((W19_of m c main_v23 (by decide)).trans ((W18_of m c main_v23 (by decide)).trans ((W17_of m c main_v23 (by decide)).trans ((W16_of m c main_v23 (by decide)).trans ((W15_of m c main_v23 (by decide)).trans ((W14_of m c main_v23 (by decide)).trans ((W13_of m c main_v23 (by decide)).trans ((W12_of m c main_v23 (by decide)).trans ((W11_of m c main_v23 (by decide)).trans ((W10_of m c main_v23 (by decide)).trans ((W9_of m c main_v23 (by decide)).trans ((W8_of m c main_v23 (by decide)).trans ((W7_of m c main_v23 (by decide)).trans ((W6_of m c main_v23 (by decide)))))))))))))))))))).trans (e5_main_v23 m c)
set_option maxHeartbeats 4000000 in
theorem e24_main_v91 : W24 m c main_v91 = val_main_v104 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) := by
  refine (W24_out m c).trans ((final11 (U23 m) c).trans ?_)
  show G11 (W23 m c main_v90) (W23 m c main_v23) = _
  rw [e23_main_v90 m c, r23_main_v23 m c]
  exact bridge11 _ _ _ _ _ _ _ _ _
theorem r24_main_v89 : W24 m c main_v89 = val_main_v110 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg11)) (m ((c : Thread nD τ).loc main_arg12)) := ((W24_of m c main_v89 (by decide)).trans ((W23_of m c main_v89 (by decide)))).trans (e22_main_v89 m c)
theorem r24_main_v23 : W24 m c main_v23 = val_main_v25 (F := Ideal) (m ((c : Thread nD τ).loc main_arg3)) (m ((c : Thread nD τ).loc main_arg5)) (m ((c : Thread nD τ).loc main_arg9)) (m ((c : Thread nD τ).loc main_arg10)) := ((W24_of m c main_v23 (by decide)).trans ((W23_of m c main_v23 (by decide)).trans ((W22_of m c main_v23 (by decide)).trans ((W21_of m c main_v23 (by decide)).trans ((W20_of m c main_v23 (by decide)).trans ((W19_of m c main_v23 (by decide)).trans ((W18_of m c main_v23 (by decide)).trans ((W17_of m c main_v23 (by decide)).trans ((W16_of m c main_v23 (by decide)).trans ((W15_of m c main_v23 (by decide)).trans ((W14_of m c main_v23 (by decide)).trans ((W13_of m c main_v23 (by decide)).trans ((W12_of m c main_v23 (by decide)).trans ((W11_of m c main_v23 (by decide)).trans ((W10_of m c main_v23 (by decide)).trans ((W9_of m c main_v23 (by decide)).trans ((W8_of m c main_v23 (by decide)).trans ((W7_of m c main_v23 (by decide)).trans ((W6_of m c main_v23 (by decide))))))))))))))))))))).trans (e5_main_v23 m c)
theorem r24_main_v47 : W24 m c main_v47 = val_main_v51 (F := Ideal) (m ((c : Thread nD τ).loc main_arg2)) (m ((c : Thread nD τ).loc main_arg6)) (m ((c : Thread nD τ).loc main_arg11)) (m ((c : Thread nD τ).loc main_arg12)) := ((W24_of m c main_v47 (by decide)).trans ((W23_of m c main_v47 (by decide)).trans ((W22_of m c main_v47 (by decide)).trans ((W21_of m c main_v47 (by decide)).trans ((W20_of m c main_v47 (by decide)).trans ((W19_of m c main_v47 (by decide)).trans ((W18_of m c main_v47 (by decide)).trans ((W17_of m c main_v47 (by decide)).trans ((W16_of m c main_v47 (by decide)).trans ((W15_of m c main_v47 (by decide)).trans ((W14_of m c main_v47 (by decide)).trans ((W13_of m c main_v47 (by decide)).trans ((W12_of m c main_v47 (by decide)).trans ((W11_of m c main_v47 (by decide)).trans ((W10_of m c main_v47 (by decide))))))))))))))))).trans (e9_main_v47 m c)
theorem r24_main_arg0 : W24 m c main_arg0 = (m ((c : Thread nD τ).loc main_arg0)) := ((W24_of m c main_arg0 (by decide)).trans ((W23_of m c main_arg0 (by decide)).trans ((W22_of m c main_arg0 (by decide)).trans ((W21_of m c main_arg0 (by decide)).trans ((W20_of m c main_arg0 (by decide)).trans ((W19_of m c main_arg0 (by decide)).trans ((W18_of m c main_arg0 (by decide)).trans ((W17_of m c main_arg0 (by decide)).trans ((W16_of m c main_arg0 (by decide)).trans ((W15_of m c main_arg0 (by decide)).trans ((W14_of m c main_arg0 (by decide)).trans ((W13_of m c main_arg0 (by decide)).trans ((W12_of m c main_arg0 (by decide)).trans ((W11_of m c main_arg0 (by decide)).trans ((W10_of m c main_arg0 (by decide)).trans ((W9_of m c main_arg0 (by decide)).trans ((W8_of m c main_arg0 (by decide)).trans ((W7_of m c main_arg0 (by decide)).trans ((W6_of m c main_arg0 (by decide)).trans ((W5_of m c main_arg0 (by decide)).trans ((W4_of m c main_arg0 (by decide)).trans ((W3_of m c main_arg0 (by decide)).trans ((W2_of m c main_arg0 (by decide)).trans ((W1_of m c main_arg0 (by decide)))))))))))))))))))))))))).trans rfl
theorem r24_main_arg1 : W24 m c main_arg1 = (m ((c : Thread nD τ).loc main_arg1)) := ((W24_of m c main_arg1 (by decide)).trans ((W23_of m c main_arg1 (by decide)).trans ((W22_of m c main_arg1 (by decide)).trans ((W21_of m c main_arg1 (by decide)).trans ((W20_of m c main_arg1 (by decide)).trans ((W19_of m c main_arg1 (by decide)).trans ((W18_of m c main_arg1 (by decide)).trans ((W17_of m c main_arg1 (by decide)).trans ((W16_of m c main_arg1 (by decide)).trans ((W15_of m c main_arg1 (by decide)).trans ((W14_of m c main_arg1 (by decide)).trans ((W13_of m c main_arg1 (by decide)).trans ((W12_of m c main_arg1 (by decide)).trans ((W11_of m c main_arg1 (by decide)).trans ((W10_of m c main_arg1 (by decide)).trans ((W9_of m c main_arg1 (by decide)).trans ((W8_of m c main_arg1 (by decide)).trans ((W7_of m c main_arg1 (by decide)).trans ((W6_of m c main_arg1 (by decide)).trans ((W5_of m c main_arg1 (by decide)).trans ((W4_of m c main_arg1 (by decide)).trans ((W3_of m c main_arg1 (by decide)).trans ((W2_of m c main_arg1 (by decide)).trans ((W1_of m c main_arg1 (by decide)))))))))))))))))))))))))).trans rfl
theorem r24_main_arg2 : W24 m c main_arg2 = (m ((c : Thread nD τ).loc main_arg2)) := ((W24_of m c main_arg2 (by decide)).trans ((W23_of m c main_arg2 (by decide)).trans ((W22_of m c main_arg2 (by decide)).trans ((W21_of m c main_arg2 (by decide)).trans ((W20_of m c main_arg2 (by decide)).trans ((W19_of m c main_arg2 (by decide)).trans ((W18_of m c main_arg2 (by decide)).trans ((W17_of m c main_arg2 (by decide)).trans ((W16_of m c main_arg2 (by decide)).trans ((W15_of m c main_arg2 (by decide)).trans ((W14_of m c main_arg2 (by decide)).trans ((W13_of m c main_arg2 (by decide)).trans ((W12_of m c main_arg2 (by decide)).trans ((W11_of m c main_arg2 (by decide)).trans ((W10_of m c main_arg2 (by decide)).trans ((W9_of m c main_arg2 (by decide)).trans ((W8_of m c main_arg2 (by decide)).trans ((W7_of m c main_arg2 (by decide)).trans ((W6_of m c main_arg2 (by decide)).trans ((W5_of m c main_arg2 (by decide)).trans ((W4_of m c main_arg2 (by decide)).trans ((W3_of m c main_arg2 (by decide)).trans ((W2_of m c main_arg2 (by decide)).trans ((W1_of m c main_arg2 (by decide)))))))))))))))))))))))))).trans rfl
theorem r24_main_arg3 : W24 m c main_arg3 = (m ((c : Thread nD τ).loc main_arg3)) := ((W24_of m c main_arg3 (by decide)).trans ((W23_of m c main_arg3 (by decide)).trans ((W22_of m c main_arg3 (by decide)).trans ((W21_of m c main_arg3 (by decide)).trans ((W20_of m c main_arg3 (by decide)).trans ((W19_of m c main_arg3 (by decide)).trans ((W18_of m c main_arg3 (by decide)).trans ((W17_of m c main_arg3 (by decide)).trans ((W16_of m c main_arg3 (by decide)).trans ((W15_of m c main_arg3 (by decide)).trans ((W14_of m c main_arg3 (by decide)).trans ((W13_of m c main_arg3 (by decide)).trans ((W12_of m c main_arg3 (by decide)).trans ((W11_of m c main_arg3 (by decide)).trans ((W10_of m c main_arg3 (by decide)).trans ((W9_of m c main_arg3 (by decide)).trans ((W8_of m c main_arg3 (by decide)).trans ((W7_of m c main_arg3 (by decide)).trans ((W6_of m c main_arg3 (by decide)).trans ((W5_of m c main_arg3 (by decide)).trans ((W4_of m c main_arg3 (by decide)).trans ((W3_of m c main_arg3 (by decide)).trans ((W2_of m c main_arg3 (by decide)).trans ((W1_of m c main_arg3 (by decide)))))))))))))))))))))))))).trans rfl
theorem r24_main_arg4 : W24 m c main_arg4 = (m ((c : Thread nD τ).loc main_arg4)) := ((W24_of m c main_arg4 (by decide)).trans ((W23_of m c main_arg4 (by decide)).trans ((W22_of m c main_arg4 (by decide)).trans ((W21_of m c main_arg4 (by decide)).trans ((W20_of m c main_arg4 (by decide)).trans ((W19_of m c main_arg4 (by decide)).trans ((W18_of m c main_arg4 (by decide)).trans ((W17_of m c main_arg4 (by decide)).trans ((W16_of m c main_arg4 (by decide)).trans ((W15_of m c main_arg4 (by decide)).trans ((W14_of m c main_arg4 (by decide)).trans ((W13_of m c main_arg4 (by decide)).trans ((W12_of m c main_arg4 (by decide)).trans ((W11_of m c main_arg4 (by decide)).trans ((W10_of m c main_arg4 (by decide)).trans ((W9_of m c main_arg4 (by decide)).trans ((W8_of m c main_arg4 (by decide)).trans ((W7_of m c main_arg4 (by decide)).trans ((W6_of m c main_arg4 (by decide)).trans ((W5_of m c main_arg4 (by decide)).trans ((W4_of m c main_arg4 (by decide)).trans ((W3_of m c main_arg4 (by decide)).trans ((W2_of m c main_arg4 (by decide)).trans ((W1_of m c main_arg4 (by decide)))))))))))))))))))))))))).trans rfl
theorem r24_main_arg5 : W24 m c main_arg5 = (m ((c : Thread nD τ).loc main_arg5)) := ((W24_of m c main_arg5 (by decide)).trans ((W23_of m c main_arg5 (by decide)).trans ((W22_of m c main_arg5 (by decide)).trans ((W21_of m c main_arg5 (by decide)).trans ((W20_of m c main_arg5 (by decide)).trans ((W19_of m c main_arg5 (by decide)).trans ((W18_of m c main_arg5 (by decide)).trans ((W17_of m c main_arg5 (by decide)).trans ((W16_of m c main_arg5 (by decide)).trans ((W15_of m c main_arg5 (by decide)).trans ((W14_of m c main_arg5 (by decide)).trans ((W13_of m c main_arg5 (by decide)).trans ((W12_of m c main_arg5 (by decide)).trans ((W11_of m c main_arg5 (by decide)).trans ((W10_of m c main_arg5 (by decide)).trans ((W9_of m c main_arg5 (by decide)).trans ((W8_of m c main_arg5 (by decide)).trans ((W7_of m c main_arg5 (by decide)).trans ((W6_of m c main_arg5 (by decide)).trans ((W5_of m c main_arg5 (by decide)).trans ((W4_of m c main_arg5 (by decide)).trans ((W3_of m c main_arg5 (by decide)).trans ((W2_of m c main_arg5 (by decide)).trans ((W1_of m c main_arg5 (by decide)))))))))))))))))))))))))).trans rfl
theorem r24_main_arg6 : W24 m c main_arg6 = (m ((c : Thread nD τ).loc main_arg6)) := ((W24_of m c main_arg6 (by decide)).trans ((W23_of m c main_arg6 (by decide)).trans ((W22_of m c main_arg6 (by decide)).trans ((W21_of m c main_arg6 (by decide)).trans ((W20_of m c main_arg6 (by decide)).trans ((W19_of m c main_arg6 (by decide)).trans ((W18_of m c main_arg6 (by decide)).trans ((W17_of m c main_arg6 (by decide)).trans ((W16_of m c main_arg6 (by decide)).trans ((W15_of m c main_arg6 (by decide)).trans ((W14_of m c main_arg6 (by decide)).trans ((W13_of m c main_arg6 (by decide)).trans ((W12_of m c main_arg6 (by decide)).trans ((W11_of m c main_arg6 (by decide)).trans ((W10_of m c main_arg6 (by decide)).trans ((W9_of m c main_arg6 (by decide)).trans ((W8_of m c main_arg6 (by decide)).trans ((W7_of m c main_arg6 (by decide)).trans ((W6_of m c main_arg6 (by decide)).trans ((W5_of m c main_arg6 (by decide)).trans ((W4_of m c main_arg6 (by decide)).trans ((W3_of m c main_arg6 (by decide)).trans ((W2_of m c main_arg6 (by decide)).trans ((W1_of m c main_arg6 (by decide)))))))))))))))))))))))))).trans rfl
theorem r24_main_arg7 : W24 m c main_arg7 = (m ((c : Thread nD τ).loc main_arg7)) := ((W24_of m c main_arg7 (by decide)).trans ((W23_of m c main_arg7 (by decide)).trans ((W22_of m c main_arg7 (by decide)).trans ((W21_of m c main_arg7 (by decide)).trans ((W20_of m c main_arg7 (by decide)).trans ((W19_of m c main_arg7 (by decide)).trans ((W18_of m c main_arg7 (by decide)).trans ((W17_of m c main_arg7 (by decide)).trans ((W16_of m c main_arg7 (by decide)).trans ((W15_of m c main_arg7 (by decide)).trans ((W14_of m c main_arg7 (by decide)).trans ((W13_of m c main_arg7 (by decide)).trans ((W12_of m c main_arg7 (by decide)).trans ((W11_of m c main_arg7 (by decide)).trans ((W10_of m c main_arg7 (by decide)).trans ((W9_of m c main_arg7 (by decide)).trans ((W8_of m c main_arg7 (by decide)).trans ((W7_of m c main_arg7 (by decide)).trans ((W6_of m c main_arg7 (by decide)).trans ((W5_of m c main_arg7 (by decide)).trans ((W4_of m c main_arg7 (by decide)).trans ((W3_of m c main_arg7 (by decide)).trans ((W2_of m c main_arg7 (by decide)).trans ((W1_of m c main_arg7 (by decide)))))))))))))))))))))))))).trans rfl
theorem r24_main_arg8 : W24 m c main_arg8 = (m ((c : Thread nD τ).loc main_arg8)) := ((W24_of m c main_arg8 (by decide)).trans ((W23_of m c main_arg8 (by decide)).trans ((W22_of m c main_arg8 (by decide)).trans ((W21_of m c main_arg8 (by decide)).trans ((W20_of m c main_arg8 (by decide)).trans ((W19_of m c main_arg8 (by decide)).trans ((W18_of m c main_arg8 (by decide)).trans ((W17_of m c main_arg8 (by decide)).trans ((W16_of m c main_arg8 (by decide)).trans ((W15_of m c main_arg8 (by decide)).trans ((W14_of m c main_arg8 (by decide)).trans ((W13_of m c main_arg8 (by decide)).trans ((W12_of m c main_arg8 (by decide)).trans ((W11_of m c main_arg8 (by decide)).trans ((W10_of m c main_arg8 (by decide)).trans ((W9_of m c main_arg8 (by decide)).trans ((W8_of m c main_arg8 (by decide)).trans ((W7_of m c main_arg8 (by decide)).trans ((W6_of m c main_arg8 (by decide)).trans ((W5_of m c main_arg8 (by decide)).trans ((W4_of m c main_arg8 (by decide)).trans ((W3_of m c main_arg8 (by decide)).trans ((W2_of m c main_arg8 (by decide)).trans ((W1_of m c main_arg8 (by decide)))))))))))))))))))))))))).trans rfl
theorem r24_main_arg9 : W24 m c main_arg9 = (m ((c : Thread nD τ).loc main_arg9)) := ((W24_of m c main_arg9 (by decide)).trans ((W23_of m c main_arg9 (by decide)).trans ((W22_of m c main_arg9 (by decide)).trans ((W21_of m c main_arg9 (by decide)).trans ((W20_of m c main_arg9 (by decide)).trans ((W19_of m c main_arg9 (by decide)).trans ((W18_of m c main_arg9 (by decide)).trans ((W17_of m c main_arg9 (by decide)).trans ((W16_of m c main_arg9 (by decide)).trans ((W15_of m c main_arg9 (by decide)).trans ((W14_of m c main_arg9 (by decide)).trans ((W13_of m c main_arg9 (by decide)).trans ((W12_of m c main_arg9 (by decide)).trans ((W11_of m c main_arg9 (by decide)).trans ((W10_of m c main_arg9 (by decide)).trans ((W9_of m c main_arg9 (by decide)).trans ((W8_of m c main_arg9 (by decide)).trans ((W7_of m c main_arg9 (by decide)).trans ((W6_of m c main_arg9 (by decide)).trans ((W5_of m c main_arg9 (by decide)).trans ((W4_of m c main_arg9 (by decide)).trans ((W3_of m c main_arg9 (by decide)).trans ((W2_of m c main_arg9 (by decide)).trans ((W1_of m c main_arg9 (by decide)))))))))))))))))))))))))).trans rfl
theorem r24_main_arg10 : W24 m c main_arg10 = (m ((c : Thread nD τ).loc main_arg10)) := ((W24_of m c main_arg10 (by decide)).trans ((W23_of m c main_arg10 (by decide)).trans ((W22_of m c main_arg10 (by decide)).trans ((W21_of m c main_arg10 (by decide)).trans ((W20_of m c main_arg10 (by decide)).trans ((W19_of m c main_arg10 (by decide)).trans ((W18_of m c main_arg10 (by decide)).trans ((W17_of m c main_arg10 (by decide)).trans ((W16_of m c main_arg10 (by decide)).trans ((W15_of m c main_arg10 (by decide)).trans ((W14_of m c main_arg10 (by decide)).trans ((W13_of m c main_arg10 (by decide)).trans ((W12_of m c main_arg10 (by decide)).trans ((W11_of m c main_arg10 (by decide)).trans ((W10_of m c main_arg10 (by decide)).trans ((W9_of m c main_arg10 (by decide)).trans ((W8_of m c main_arg10 (by decide)).trans ((W7_of m c main_arg10 (by decide)).trans ((W6_of m c main_arg10 (by decide)).trans ((W5_of m c main_arg10 (by decide)).trans ((W4_of m c main_arg10 (by decide)).trans ((W3_of m c main_arg10 (by decide)).trans ((W2_of m c main_arg10 (by decide)).trans ((W1_of m c main_arg10 (by decide)))))))))))))))))))))))))).trans rfl
theorem r24_main_arg11 : W24 m c main_arg11 = (m ((c : Thread nD τ).loc main_arg11)) := ((W24_of m c main_arg11 (by decide)).trans ((W23_of m c main_arg11 (by decide)).trans ((W22_of m c main_arg11 (by decide)).trans ((W21_of m c main_arg11 (by decide)).trans ((W20_of m c main_arg11 (by decide)).trans ((W19_of m c main_arg11 (by decide)).trans ((W18_of m c main_arg11 (by decide)).trans ((W17_of m c main_arg11 (by decide)).trans ((W16_of m c main_arg11 (by decide)).trans ((W15_of m c main_arg11 (by decide)).trans ((W14_of m c main_arg11 (by decide)).trans ((W13_of m c main_arg11 (by decide)).trans ((W12_of m c main_arg11 (by decide)).trans ((W11_of m c main_arg11 (by decide)).trans ((W10_of m c main_arg11 (by decide)).trans ((W9_of m c main_arg11 (by decide)).trans ((W8_of m c main_arg11 (by decide)).trans ((W7_of m c main_arg11 (by decide)).trans ((W6_of m c main_arg11 (by decide)).trans ((W5_of m c main_arg11 (by decide)).trans ((W4_of m c main_arg11 (by decide)).trans ((W3_of m c main_arg11 (by decide)).trans ((W2_of m c main_arg11 (by decide)).trans ((W1_of m c main_arg11 (by decide)))))))))))))))))))))))))).trans rfl
theorem r24_main_arg12 : W24 m c main_arg12 = (m ((c : Thread nD τ).loc main_arg12)) := ((W24_of m c main_arg12 (by decide)).trans ((W23_of m c main_arg12 (by decide)).trans ((W22_of m c main_arg12 (by decide)).trans ((W21_of m c main_arg12 (by decide)).trans ((W20_of m c main_arg12 (by decide)).trans ((W19_of m c main_arg12 (by decide)).trans ((W18_of m c main_arg12 (by decide)).trans ((W17_of m c main_arg12 (by decide)).trans ((W16_of m c main_arg12 (by decide)).trans ((W15_of m c main_arg12 (by decide)).trans ((W14_of m c main_arg12 (by decide)).trans ((W13_of m c main_arg12 (by decide)).trans ((W12_of m c main_arg12 (by decide)).trans ((W11_of m c main_arg12 (by decide)).trans ((W10_of m c main_arg12 (by decide)).trans ((W9_of m c main_arg12 (by decide)).trans ((W8_of m c main_arg12 (by decide)).trans ((W7_of m c main_arg12 (by decide)).trans ((W6_of m c main_arg12 (by decide)).trans ((W5_of m c main_arg12 (by decide)).trans ((W4_of m c main_arg12 (by decide)).trans ((W3_of m c main_arg12 (by decide)).trans ((W2_of m c main_arg12 (by decide)).trans ((W1_of m c main_arg12 (by decide)))))))))))))))))))))))))).trans rfl

end Cert.KernelIdeal.Hand
end
-- ==== Proof.Claims.lean ====
/-
  The claims about the two idealized programs.  The idealized kernel's run ends with every unscoped buffer at the last
  boundary's contents, where each argument is as launched: its frame.  The reference's generated run gives its frame by
  dropping the results.  The idealization rewrote nothing, so there is nothing to preserve.  And, from memories that agree
  on the arguments, the two programs end with the same four results: the kernel's are the reference's last stages of the
  kernel's arguments, and the reference's are the same stages of its own, equal, arguments.
-/
import proofs.«177237_j55430847922201_2_alg».proof.Defs
import proofs.«177237_j55430847922201_2_alg».proof.Proof.Gen.Pre_finite_inputs
import proofs.«177237_j55430847922201_2_alg».proof.Proof.Gen.KernelIdeal
import proofs.«177237_j55430847922201_2_alg».proof.Proof.Gen.ReferenceIdeal
import proofs.«177237_j55430847922201_2_alg».proof.Proof.FinalBridge
import proofs.«177237_j55430847922201_2_alg».proof.Proof.Gen.ReferenceIdeal.Run
import proofs.«177237_j55430847922201_2_alg».proof.Proof.Gen.ReferenceIdeal.Read

set_option maxRecDepth 16384

noncomputable section

namespace Cert.Proof.Claims

open Idealize.ShloMosaic Idealize.ShloMosaic.TcCoe Idealize.SL.Sem

theorem frame_pi : Cert.frame_KernelIdeal := fun m ρ _ =>
  (θ_run Cert.KernelIdeal.defs _ _).mono (fun r h c => ⟨
      (h c _ (Cert.KernelIdeal.Hand.mem_uc Cert.KernelIdeal.main_arg0 (by decide))).trans (Cert.KernelIdeal.Hand.r24_main_arg0 m c),
      (h c _ (Cert.KernelIdeal.Hand.mem_uc Cert.KernelIdeal.main_arg1 (by decide))).trans (Cert.KernelIdeal.Hand.r24_main_arg1 m c),
      (h c _ (Cert.KernelIdeal.Hand.mem_uc Cert.KernelIdeal.main_arg2 (by decide))).trans (Cert.KernelIdeal.Hand.r24_main_arg2 m c),
      (h c _ (Cert.KernelIdeal.Hand.mem_uc Cert.KernelIdeal.main_arg3 (by decide))).trans (Cert.KernelIdeal.Hand.r24_main_arg3 m c),
      (h c _ (Cert.KernelIdeal.Hand.mem_uc Cert.KernelIdeal.main_arg4 (by decide))).trans (Cert.KernelIdeal.Hand.r24_main_arg4 m c),
      (h c _ (Cert.KernelIdeal.Hand.mem_uc Cert.KernelIdeal.main_arg5 (by decide))).trans (Cert.KernelIdeal.Hand.r24_main_arg5 m c),
      (h c _ (Cert.KernelIdeal.Hand.mem_uc Cert.KernelIdeal.main_arg6 (by decide))).trans (Cert.KernelIdeal.Hand.r24_main_arg6 m c),
      (h c _ (Cert.KernelIdeal.Hand.mem_uc Cert.KernelIdeal.main_arg7 (by decide))).trans (Cert.KernelIdeal.Hand.r24_main_arg7 m c),
      (h c _ (Cert.KernelIdeal.Hand.mem_uc Cert.KernelIdeal.main_arg8 (by decide))).trans (Cert.KernelIdeal.Hand.r24_main_arg8 m c),
      (h c _ (Cert.KernelIdeal.Hand.mem_uc Cert.KernelIdeal.main_arg9 (by decide))).trans (Cert.KernelIdeal.Hand.r24_main_arg9 m c),
      (h c _ (Cert.KernelIdeal.Hand.mem_uc Cert.KernelIdeal.main_arg10 (by decide))).trans (Cert.KernelIdeal.Hand.r24_main_arg10 m c),
      (h c _ (Cert.KernelIdeal.Hand.mem_uc Cert.KernelIdeal.main_arg11 (by decide))).trans (Cert.KernelIdeal.Hand.r24_main_arg11 m c),
      (h c _ (Cert.KernelIdeal.Hand.mem_uc Cert.KernelIdeal.main_arg12 (by decide))).trans (Cert.KernelIdeal.Hand.r24_main_arg12 m c)⟩)
    (Cert.KernelIdeal.Hand.run_all m ρ)

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

set_option maxHeartbeats 4000000 in
theorem algebraic : Cert.algebraic_KernelIdeal_ReferenceIdeal := by
  intro m ρ m' ρ' _ hagree
  refine ⟨fun c => Cert.KernelIdeal.Hand.W24 m c Cert.KernelIdeal.main_v89, fun c => Cert.KernelIdeal.Hand.W24 m c Cert.KernelIdeal.main_v91, fun c => Cert.KernelIdeal.Hand.W24 m c Cert.KernelIdeal.main_v23, fun c => Cert.KernelIdeal.Hand.W24 m c Cert.KernelIdeal.main_v47, ?_, ?_⟩
  · exact (θ_run Cert.KernelIdeal.defs _ _).mono (fun r h c => ⟨
      h c _ (Cert.KernelIdeal.Hand.mem_uc Cert.KernelIdeal.main_v89 (by decide)), h c _ (Cert.KernelIdeal.Hand.mem_uc Cert.KernelIdeal.main_v91 (by decide)),
      h c _ (Cert.KernelIdeal.Hand.mem_uc Cert.KernelIdeal.main_v23 (by decide)), h c _ (Cert.KernelIdeal.Hand.mem_uc Cert.KernelIdeal.main_v47 (by decide)),
      (h c _ (Cert.KernelIdeal.Hand.mem_uc Cert.KernelIdeal.main_arg0 (by decide))).trans (Cert.KernelIdeal.Hand.r24_main_arg0 m c),
      (h c _ (Cert.KernelIdeal.Hand.mem_uc Cert.KernelIdeal.main_arg1 (by decide))).trans (Cert.KernelIdeal.Hand.r24_main_arg1 m c),
      (h c _ (Cert.KernelIdeal.Hand.mem_uc Cert.KernelIdeal.main_arg2 (by decide))).trans (Cert.KernelIdeal.Hand.r24_main_arg2 m c),
      (h c _ (Cert.KernelIdeal.Hand.mem_uc Cert.KernelIdeal.main_arg3 (by decide))).trans (Cert.KernelIdeal.Hand.r24_main_arg3 m c),
      (h c _ (Cert.KernelIdeal.Hand.mem_uc Cert.KernelIdeal.main_arg4 (by decide))).trans (Cert.KernelIdeal.Hand.r24_main_arg4 m c),
      (h c _ (Cert.KernelIdeal.Hand.mem_uc Cert.KernelIdeal.main_arg5 (by decide))).trans (Cert.KernelIdeal.Hand.r24_main_arg5 m c),
      (h c _ (Cert.KernelIdeal.Hand.mem_uc Cert.KernelIdeal.main_arg6 (by decide))).trans (Cert.KernelIdeal.Hand.r24_main_arg6 m c),
      (h c _ (Cert.KernelIdeal.Hand.mem_uc Cert.KernelIdeal.main_arg7 (by decide))).trans (Cert.KernelIdeal.Hand.r24_main_arg7 m c),
      (h c _ (Cert.KernelIdeal.Hand.mem_uc Cert.KernelIdeal.main_arg8 (by decide))).trans (Cert.KernelIdeal.Hand.r24_main_arg8 m c),
      (h c _ (Cert.KernelIdeal.Hand.mem_uc Cert.KernelIdeal.main_arg9 (by decide))).trans (Cert.KernelIdeal.Hand.r24_main_arg9 m c),
      (h c _ (Cert.KernelIdeal.Hand.mem_uc Cert.KernelIdeal.main_arg10 (by decide))).trans (Cert.KernelIdeal.Hand.r24_main_arg10 m c),
      (h c _ (Cert.KernelIdeal.Hand.mem_uc Cert.KernelIdeal.main_arg11 (by decide))).trans (Cert.KernelIdeal.Hand.r24_main_arg11 m c),
      (h c _ (Cert.KernelIdeal.Hand.mem_uc Cert.KernelIdeal.main_arg12 (by decide))).trans (Cert.KernelIdeal.Hand.r24_main_arg12 m c)⟩)
      (Cert.KernelIdeal.Hand.run_all m ρ)
  · refine (θ_run Cert.ReferenceIdeal.defs _ _).mono (fun r h c => ?_) (Cert.ReferenceIdeal.Value.run (F := Ideal) m' ρ')
    obtain ⟨g0, g1, g2, g3, g4, g5, g6, g7, g8, g9, g10, g11, g12⟩ := hagree c
    obtain ⟨h110, h104, h25, h51, hargs⟩ := h c
    refine ⟨?_, ?_, ?_, ?_, hargs⟩
    · rw [h110, Cert.ReferenceIdeal.Read.val_main_v110_eq, g0, g1, g2, g4, g6, g7, g8, g11, g12]
      exact (Cert.KernelIdeal.Hand.r24_main_v89 m c).symm
    · rw [h104, Cert.ReferenceIdeal.Read.val_main_v104_eq, g0, g1, g3, g4, g5, g7, g8, g9, g10]
      exact (Cert.KernelIdeal.Hand.e24_main_v91 m c).symm
    · rw [h25, Cert.ReferenceIdeal.Read.val_main_v25_eq, g3, g5, g9, g10]
      exact (Cert.KernelIdeal.Hand.r24_main_v23 m c).symm
    · rw [h51, Cert.ReferenceIdeal.Read.val_main_v51_eq, g2, g6, g11, g12]
      exact (Cert.KernelIdeal.Hand.r24_main_v47 m c).symm

end Cert.Proof.Claims

end
-- ==== Proof.lean ====
/-
  The certificate's claim.  The word-level kernel, read at bit patterns, runs to the end with its arguments unchanged (its
  two normalising regions say nothing of what they leave in their result buffers, which no later step reads); the
  idealized kernel and the idealized reference, read on the extended reals, both run to the end with their arguments
  unchanged; the idealization rewrote no operation; and from memories agreeing on the arguments the two idealized
  programs end with equal results: three layers of weighted sparse propagation summed with the input and divided by four,
  two propagated embeddings, and the sums of the former with the row-normalised latter.
-/
import proofs.«177237_j55430847922201_2_alg».proof.Defs
import proofs.«177237_j55430847922201_2_alg».proof.Proof.Gen.Kernel
import proofs.«177237_j55430847922201_2_alg».proof.Proof.Gen.KernelIdeal
import proofs.«177237_j55430847922201_2_alg».proof.Proof.Gen.ReferenceIdeal
import proofs.«177237_j55430847922201_2_alg».proof.Proof.Gen.Pre_finite_inputs
import proofs.«177237_j55430847922201_2_alg».proof.Proof.BitsRun
import proofs.«177237_j55430847922201_2_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m g _ => Cert.Kernel.Hand.frame_args (F := Bits) m g,
  Cert.Proof.Claims.frame_pi, Cert.Proof.Claims.frame_ri, Cert.Proof.Claims.preserves, Cert.Proof.Claims.algebraic⟩

end Cert.Proof

end
